-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128x16 : Shape := ⟨2, ![128, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x32 : Shape := ⟨2, ![64, 32]⟩
abbrev S32x10 : Shape := ⟨2, ![32, 10]⟩
abbrev S10 : Shape := ⟨1, ![10]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32x10 : S_.BroadcastsInDim S32x10 (![] : Fin 0 → Fin S32x10.rank)
  reducesTo_S32x10_S_d0_1 : S32x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg11 : FVec F S10 .f32) (main_v48 : IVec S_ 1) (main_v49 : FVec F S32x10 .f32) (main_v50 : FVec F S32x10 .f32) : IVec S_ 1 :=
  let main_v51 : IVec S32x10 1 := cmpf .olt main_v49 main_v50
  let main_c_19 : IVec S_ 1 := constantI S_ 1 1#1
  let main_v52 : IVec S_ 1 := (fun x v => Host.reduce IntOp.andi x v reducesTo_S32x10_S_d0_1 h_S_) main_v51 main_c_19
  let main_v53 : IVec S_ 1 := andi main_v48 main_v52
  let main_v54 : FVec F S10 .f32 := Host.absf main_arg11
  let main_cst_20 : FVec F S_ .f32 := constant S_ .f32 0x7F800000#32
  let main_v55 : FVec F S10 .f32 := broadcastInDim S10 ![] bcast_S_S10 main_cst_20
  let main_v56 : IVec S10 1 := cmpf .olt main_v54 main_v55
  let main_c_21 : IVec S_ 1 := constantI S_ 1 1#1
  let main_v57 : IVec S_ 1 := (fun x v => Host.reduce IntOp.andi x v reducesTo_S10_S_d0 h_S_) main_v56 main_c_21
  let main_v58 : IVec S_ 1 := andi main_v53 main_v57
  main_v58

def fn_part2 {F : FTy → Type} [FloatOps F] (main_arg7 : FVec F S64 .f32) (main_arg8 : FVec F S64x32 .f32) (main_arg9 : FVec F S32 .f32) (main_arg10 : FVec F S32x10 .f32) (main_arg11 : FVec F S10 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x32 .f32 := Host.absf main_arg8
  let main_cst_14 : FVec F S_ .f32 := constant S_ .f32 0x7F800000#32
  let main_v40 : FVec F S64x32 .f32 := broadcastInDim S64x32 ![] bcast_S_S64x32 main_cst_14
  let main_v41 : IVec S64x32 1 := cmpf .olt main_v39 main_v40
  let main_c_15 : IVec S_ 1 := constantI S_ 1 1#1
  let main_v42 : IVec S_ 1 := (fun x v => Host.reduce IntOp.andi x v reducesTo_S64x32_S_d0_1 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x10 .f32 := Host.absf main_arg10
  let main_cst_18 : FVec F S_ .f32 := constant S_ .f32 0x7F800000#32
  let main_v50 : FVec F S32x10 .f32 := broadcastInDim S32x10 ![] bcast_S_S32x10 main_cst_18
  fn_part3 (F := F) main_arg11 main_v48 main_v49 main_v50

def fn_part1 {F : FTy → Type} [FloatOps F] (main_arg4 : FVec F S16x32 .f32) (main_arg5 : FVec F S32 .f32) (main_arg6 : FVec F S32x64 .f32) (main_arg7 : FVec F S64 .f32) (main_arg8 : FVec F S64x32 .f32) (main_arg9 : FVec F S32 .f32) (main_arg10 : FVec F S32x10 .f32) (main_arg11 : FVec F S10 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x32 .f32 := Host.absf main_arg4
  let main_cst_6 : FVec F S_ .f32 := constant S_ .f32 0x7F800000#32
  let main_v20 : FVec F S16x32 .f32 := broadcastInDim S16x32 ![] bcast_S_S16x32 main_cst_6
  let main_v21 : IVec S16x32 1 := cmpf .olt main_v19 main_v20
  let main_c_7 : IVec S_ 1 := constantI S_ 1 1#1
  let main_v22 : IVec S_ 1 := (fun x v => Host.reduce IntOp.andi x v reducesTo_S16x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x64 .f32 := Host.absf main_arg6
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S8192x128 .f32) (main_arg1 : FVec F S8192x8192 .f32) (main_arg2 : FVec F S128x16 .f32) (main_arg3 : FVec F S16 .f32) (main_arg4 : FVec F S16x32 .f32) (main_arg5 : FVec F S32 .f32) (main_arg6 : FVec F S32x64 .f32) (main_arg7 : FVec F S64 .f32) (main_arg8 : FVec F S64x32 .f32) (main_arg9 : FVec F S32 .f32) (main_arg10 : FVec F S32x10 .f32) (main_arg11 : FVec F S10 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S128x16 .f32 := Host.absf main_arg2
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_arg6 main_arg7 main_arg8 main_arg9 main_arg10 main_arg11 main_v13 main_v16
-- ==== Kernel.lean ====
abbrev S8192x128 : Shape := ⟨2, ![8192, 128]⟩
abbrev S8192x8192 : Shape := ⟨2, ![8192, 8192]⟩
abbrev S128x16 : Shape := ⟨2, ![128, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x32 : Shape := ⟨2, ![64, 32]⟩
abbrev S32x10 : Shape := ⟨2, ![32, 10]⟩
abbrev S10 : Shape := ⟨1, ![10]⟩
abbrev S8192x16 : Shape := ⟨2, ![8192, 16]⟩
abbrev S1x16 : Shape := ⟨2, ![1, 16]⟩
abbrev S1024x2048 : Shape := ⟨2, ![1024, 2048]⟩
abbrev S1024x16 : Shape := ⟨2, ![1024, 16]⟩
abbrev S2048x16 : Shape := ⟨2, ![2048, 16]⟩
abbrev S8192x32 : Shape := ⟨2, ![8192, 32]⟩
abbrev S1x32 : Shape := ⟨2, ![1, 32]⟩
abbrev S1024x32 : Shape := ⟨2, ![1024, 32]⟩
abbrev S2048x32 : Shape := ⟨2, ![2048, 32]⟩
abbrev S8192x64 : Shape := ⟨2, ![8192, 64]⟩
abbrev S1x64 : Shape := ⟨2, ![1, 64]⟩
abbrev S1x10 : Shape := ⟨2, ![1, 10]⟩
abbrev S8192x10 : Shape := ⟨2, ![8192, 10]⟩
abbrev S1024x10 : Shape := ⟨2, ![1024, 10]⟩
abbrev S1024x64 : Shape := ⟨2, ![1024, 64]⟩
abbrev S2048x64 : Shape := ⟨2, ![2048, 64]⟩

abbrev nBuf : Space → Nat
  | .hbm => 33
  | .vmem => 24
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x16, .f32⟩
  | .hbm, ⟨3, _⟩ => ⟨S16, .f32⟩
  | .hbm, ⟨4, _⟩ => ⟨S16x32, .f32⟩
  | .hbm, ⟨5, _⟩ => ⟨S32, .f32⟩
  | .hbm, ⟨6, _⟩ => ⟨S32x64, .f32⟩
  | .hbm, ⟨7, _⟩ => ⟨S64, .f32⟩
  | .hbm, ⟨8, _⟩ => ⟨S64x32, .f32⟩
  | .hbm, ⟨9, _⟩ => ⟨S32, .f32⟩
  | .hbm, ⟨10, _⟩ => ⟨S32x10, .f32⟩
  | .hbm, ⟨11, _⟩ => ⟨S10, .f32⟩
  | .hbm, ⟨12, _⟩ => ⟨S8192x16, .f32⟩
  | .hbm, ⟨13, _⟩ => ⟨S1x16, .f32⟩
  | .hbm, ⟨14, _⟩ => ⟨S8192x16, .f32⟩
  | .hbm, ⟨15, _⟩ => ⟨S8192x16, .f32⟩
  | .hbm, ⟨16, _⟩ => ⟨S8192x16, .bf16⟩
  | .hbm, ⟨17, _⟩ => ⟨S8192x16, .f32⟩
  | .hbm, ⟨18, _⟩ => ⟨S8192x8192, .bf16⟩
  | .hbm, ⟨19, _⟩ => ⟨S8192x32, .f32⟩
  | .hbm, ⟨20, _⟩ => ⟨S1x32, .f32⟩
  | .hbm, ⟨21, _⟩ => ⟨S8192x32, .f32⟩
  | .hbm, ⟨22, _⟩ => ⟨S8192x32, .f32⟩
  | .hbm, ⟨23, _⟩ => ⟨S8192x32, .bf16⟩
  | .hbm, ⟨24, _⟩ => ⟨S8192x32, .f32⟩
  | .hbm, ⟨25, _⟩ => ⟨S8192x64, .f32⟩
  | .hbm, ⟨26, _⟩ => ⟨S1x64, .f32⟩
  | .hbm, ⟨27, _⟩ => ⟨S8192x64, .f32⟩
  | .hbm, ⟨28, _⟩ => ⟨S8192x64, .f32⟩
  | .hbm, ⟨29, _⟩ => ⟨S8192x64, .bf16⟩
  | .hbm, ⟨30, _⟩ => ⟨S1x32, .f32⟩
  | .hbm, ⟨31, _⟩ => ⟨S1x10, .f32⟩
  | .hbm, ⟨32, _⟩ => ⟨S8192x10, .f32⟩
  | .local _ .vmem, ⟨0, _⟩ => ⟨S1024x2048, .f32⟩
  | .local _ .vmem, ⟨1, _⟩ => ⟨S1024x2048, .f32⟩
  | .local _ .vmem, ⟨2, _⟩ => ⟨S8192x16, .bf16⟩
  | .local _ .vmem, ⟨3, _⟩ => ⟨S1024x16, .f32⟩
  | .local _ .vmem, ⟨4, _⟩ => ⟨S1024x16, .f32⟩
  | .local _ .vmem, ⟨5, _⟩ => ⟨S1024x2048, .bf16⟩
  | .local _ .vmem, ⟨6, _⟩ => ⟨S1024x2048, .bf16⟩
  | .local _ .vmem, ⟨7, _⟩ => ⟨S1024x16, .f32⟩
  | .local _ .vmem, ⟨8, _⟩ => ⟨S1024x2048, .bf16⟩
  | .local _ .vmem, ⟨9, _⟩ => ⟨S1024x2048, .bf16⟩
  | .local _ .vmem, ⟨10, _⟩ => ⟨S8192x32, .bf16⟩
  | .local _ .vmem, ⟨11, _⟩ => ⟨S1024x32, .f32⟩
  | .local _ .vmem, ⟨12, _⟩ => ⟨S1024x32, .f32⟩
  | .local _ .vmem, ⟨13, _⟩ => ⟨S1024x32, .f32⟩
  | .local _ .vmem, ⟨14, _⟩ => ⟨S1024x2048, .bf16⟩
  | .local _ .vmem, ⟨15, _⟩ => ⟨S1024x2048, .bf16⟩
  | .local _ .vmem, ⟨16, _⟩ => ⟨S8192x64, .bf16⟩
  | .local _ .vmem, ⟨17, _⟩ => ⟨S64x32, .f32⟩
  | .local _ .vmem, ⟨18, _⟩ => ⟨S1x32, .f32⟩
  | .local _ .vmem, ⟨19, _⟩ => ⟨S32x10, .f32⟩
  | .local _ .vmem, ⟨20, _⟩ => ⟨S1x10, .f32⟩
  | .local _ .vmem, ⟨21, _⟩ => ⟨S1024x10, .f32⟩
  | .local _ .vmem, ⟨22, _⟩ => ⟨S1024x10, .f32⟩
  | .local _ .vmem, ⟨23, _⟩ => ⟨S1024x64, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg6_1 : Ref sig .tc := ⟨.vmem, 22, rfl⟩
abbrev cc2_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem6_1 : DmaSem sig := 20

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c2048_i32 : BitVec 32 := 2048#32
  let v6 : BitVec 32 := Scalar.muli arg1 c2048_i32
  v6
def k0_off1 (i : grid0.Coords) : Fin 2 → Nat :=
  let arg1 : BitVec 32 := BitVec.ofNat 32 (i 1).val
  let c2048_i32 : BitVec 32 := 2048#32
  let v6 : BitVec 32 := Scalar.muli arg1 c2048_i32
  let v7 : BitVec 32 := v6
  let v8 : Index := Scalar.indexCast v7
  let c0_4 : Index := 0#32
  ![v8.toNat, 0]
def k0_cond2 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_9 : BitVec 32 := 0#32
  let v19 : BitVec 1 := Scalar.cmpi .ne v18 c0_i32_9
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 4], ![false, false]⟩

def k1_mult1 (i : grid1.Coords) : BitVec 32 :=
  let arg1 : BitVec 32 := BitVec.ofNat 32 (i 1).val
  let c2048_i32 : BitVec 32 := 2048#32
  let v5 : BitVec 32 := Scalar.muli arg1 c2048_i32
  v5
def k1_off1 (i : grid1.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k1_cond2 (i : grid1.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x32 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![8, 4], ![false, false]⟩

def k2_mult1 (i : grid2.Coords) : BitVec 32 :=
  let arg1 : BitVec 32 := BitVec.ofNat 32 (i 1).val
  let c2048_i32 : BitVec 32 := 2048#32
  let v5 : BitVec 32 := Scalar.muli arg1 c2048_i32
  v5
def k2_off1 (i : grid2.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k2_cond2 (i : grid2.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S8192x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S64x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S32x10 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x10 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S1024x10 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

class Facts₀ : Prop where
  bcast_S16_S1x16_1 : S16.BroadcastsInDim S1x16 (![1] : Fin 1 → Fin S1x16.rank)
  bcast_S1x16_S8192x16_0_1 : S1x16.BroadcastsInDim S8192x16 (![0, 1] : Fin 2 → Fin S8192x16.rank)
  bitsLt_bf16_f32 : FTy.bits .bf16 < FTy.bits .f32
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1024x2048_S1024x2048_0_0 : ∀ a, (![0, 0] : Fin 2 → Nat) a + S1024x2048.size a ≤ S1024x2048.size a
  h_S1024x2048 : 0 < S1024x2048.numel
  packedbf16_S1024x2048_S1024x2048_0_0 : (Rect.unit (s := S1024x2048) ![0, 0] S1024x2048.size inb_S1024x2048_S1024x2048_0_0).PackedRows (EltTy.packing .bf16)
  h_S2048x16 : 0 < S2048x16.numel
  shapeCasts_S2048x16_S2048x16 : S2048x16.ShapeCasts S2048x16
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  shapeCasts_S1024x2048_S1024x2048 : S1024x2048.ShapeCasts S1024x2048
  h_S2048x32 : 0 < S2048x32.numel
  shapeCasts_S2048x32_S2048x32 : S2048x32.ShapeCasts S2048x32
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  shapeCasts_S32_S1x32 : S32.ShapeCasts S1x32
  shapeCasts_S10_S1x10 : S10.ShapeCasts S1x10
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  h_S2048x64 : 0 < S2048x64.numel
  shapeCasts_S2048x64_S2048x64 : S2048x64.ShapeCasts S2048x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1024x32 : S1x32.Broadcasts S1024x32
  inb_S32x10_S32x10_0_0 : ∀ a, (![0, 0] : Fin 2 → Nat) a + S32x10.size a ≤ S32x10.size a
  h_S32x10 : 0 < S32x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S1024x10 : S1x10.Broadcasts S1024x10
  inb_S1024x10_S1024x10_0_0 : ∀ a, (![0, 0] : Fin 2 → Nat) a + S1024x10.size a ≤ S1024x10.size a
  h_S1024x10 : 0 < S1024x10.numel
  dot_S8192x128_S128x16_S8192x16_1_0_0_1_n_n_wf : DotDims.WF S8192x128 S128x16 S8192x16 [1] [0] [0] [1] [] []
  dot_S1024x2048_S2048x16_S1024x16_1_0_0_1_n_n_wf : DotDims.WF S1024x2048 S2048x16 S1024x16 [1] [0] [0] [1] [] []
  dot_S8192x16_S16x32_S8192x32_1_0_0_1_n_n_wf : DotDims.WF S8192x16 S16x32 S8192x32 [1] [0] [0] [1] [] []
  dot_S1024x2048_S2048x32_S1024x32_1_0_0_1_n_n_wf : DotDims.WF S1024x2048 S2048x32 S1024x32 [1] [0] [0] [1] [] []
  dot_S8192x32_S32x64_S8192x64_1_0_0_1_n_n_wf : DotDims.WF S8192x32 S32x64 S8192x64 [1] [0] [0] [1] [] []
  dot_S1024x2048_S2048x64_S1024x64_1_0_0_1_n_n_wf : DotDims.WF S1024x2048 S2048x64 S1024x64 [1] [0] [0] [1] [] []
  dot_S1024x64_S64x32_S1024x32_1_0_0_1_n_n_wf : DotDims.WF S1024x64 S64x32 S1024x32 [1] [0] [0] [1] [] []
  dot_S1024x32_S32x10_S1024x10_1_0_0_1_n_n_wf : DotDims.WF S1024x32 S32x10 S1024x10 [1] [0] [0] [1] [] []
  hrank0 : 0 < grid0.rank
  k0_mult1_dvd : ∀ i : grid0.Coords, 2048 ∣ (k0_mult1 i).toNat
  k0_off1_inb : ∀ i : grid0.Coords, ∀ a, (k0_off1 i) a + S2048x16.size a ≤ S8192x16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x16.size a ≤ S8192x16.size a
  hwx0_1 : ∀ i : grid0.Coords, EltTy.bits .bf16 = 32 ∨ (Rect.block (s := S8192x16) S8192x16.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S8192x16.size a
  hwx0_2 : ∀ i : grid0.Coords, EltTy.bits .f32 = 32 ∨ (Rect.block (s := S8192x16) S1024x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S8192x8192.size a
  hwx0_3 : ∀ i : grid0.Coords, EltTy.bits .bf16 = 32 ∨ (Rect.block (s := S8192x8192) S1024x2048.size (cc0_transform_3 i) (hinb0_3 i)).WholeWords (EltTy.packing .bf16)
  hrank1 : 0 < grid1.rank
  k1_mult1_dvd : ∀ i : grid1.Coords, 2048 ∣ (k1_mult1 i).toNat
  k1_off1_inb : ∀ i : grid1.Coords, ∀ a, (k1_off1 i) a + S2048x32.size a ≤ S8192x32.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .bf16 = 32 ∨ (Rect.block (s := S8192x8192) S1024x2048.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x32.size a ≤ S8192x32.size a
  hwx1_1 : ∀ i : grid1.Coords, EltTy.bits .bf16 = 32 ∨ (Rect.block (s := S8192x32) S8192x32.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x32.size a ≤ S8192x32.size a
  hwx1_2 : ∀ i : grid1.Coords, EltTy.bits .f32 = 32 ∨ (Rect.block (s := S8192x32) S1024x32.size (cc1_transform_2 i) (hinb1_2 i)).WholeWords (EltTy.packing .f32)
  hrank2 : 0 < grid2.rank
  k2_mult1_dvd : ∀ i : grid2.Coords, 2048 ∣ (k2_mult1 i).toNat
  k2_off1_inb : ∀ i : grid2.Coords, ∀ a, (k2_off1 i) a + S2048x64.size a ≤ S8192x64.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S8192x8192.size a
  hwx2_0 : ∀ i : grid2.Coords, EltTy.bits .bf16 = 32 ∨ (Rect.block (s := S8192x8192) S1024x2048.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x64.size a ≤ S8192x64.size a
  hwx2_1 : ∀ i : grid2.Coords, EltTy.bits .bf16 = 32 ∨ (Rect.block (s := S8192x64) S8192x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x32.size a ≤ S64x32.size a
  hwx2_2 : ∀ i : grid2.Coords, EltTy.bits .f32 = 32 ∨ (Rect.block (s := S64x32) S64x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x10.size a ≤ S32x10.size a
  hwx2_4 : ∀ i : grid2.Coords, EltTy.bits .f32 = 32 ∨ (Rect.block (s := S32x10) S32x10.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x10.size a ≤ S1x10.size a
  hwx2_5 : ∀ i : grid2.Coords, EltTy.bits .f32 = 32 ∨ (Rect.block (s := S1x10) S1x10.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1024x10.size a ≤ S8192x10.size a
  hwx2_6 : ∀ i : grid2.Coords, EltTy.bits .f32 = 32 ∨ (Rect.block (s := S8192x10) S1024x10.size (cc2_transform_6 i) (hinb2_6 i)).WholeWords (EltTy.packing .f32)

variable [Facts₀]

def dot_S8192x128_S128x16_S8192x16_1_0_0_1_n_n : DotDims S8192x128 S128x16 S8192x16 where
  lhsContracting := [1]
  rhsContracting := [0]
  lhsNonContracting := [0]
  rhsNonContracting := [1]
  lhsBatch := []
  rhsBatch := []
  wf := dot_S8192x128_S128x16_S8192x16_1_0_0_1_n_n_wf
def dot_S1024x2048_S2048x16_S1024x16_1_0_0_1_n_n : DotDims S1024x2048 S2048x16 S1024x16 where
  lhsContracting := [1]
  rhsContracting := [0]
  lhsNonContracting := [0]
  rhsNonContracting := [1]
  lhsBatch := []
  rhsBatch := []
  wf := dot_S1024x2048_S2048x16_S1024x16_1_0_0_1_n_n_wf
def dot_S8192x16_S16x32_S8192x32_1_0_0_1_n_n : DotDims S8192x16 S16x32 S8192x32 where
  lhsContracting := [1]
  rhsContracting := [0]
  lhsNonContracting := [0]
  rhsNonContracting := [1]
  lhsBatch := []
  rhsBatch := []
  wf := dot_S8192x16_S16x32_S8192x32_1_0_0_1_n_n_wf
def dot_S1024x2048_S2048x32_S1024x32_1_0_0_1_n_n : DotDims S1024x2048 S2048x32 S1024x32 where
  lhsContracting := [1]
  rhsContracting := [0]
  lhsNonContracting := [0]
  rhsNonContracting := [1]
  lhsBatch := []
  rhsBatch := []
  wf := dot_S1024x2048_S2048x32_S1024x32_1_0_0_1_n_n_wf
def dot_S8192x32_S32x64_S8192x64_1_0_0_1_n_n : DotDims S8192x32 S32x64 S8192x64 where
  lhsContracting := [1]
  rhsContracting := [0]
  lhsNonContracting := [0]
  rhsNonContracting := [1]
  lhsBatch := []
  rhsBatch := []
  wf := dot_S8192x32_S32x64_S8192x64_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf
def dot_S1024x64_S64x32_S1024x32_1_0_0_1_n_n : DotDims S1024x64 S64x32 S1024x32 where
  lhsContracting := [1]
  rhsContracting := [0]
  lhsNonContracting := [0]
  rhsNonContracting := [1]
  lhsBatch := []
  rhsBatch := []
  wf := dot_S1024x64_S64x32_S1024x32_1_0_0_1_n_n_wf
def dot_S1024x32_S32x10_S1024x10_1_0_0_1_n_n : DotDims S1024x32 S32x10 S1024x10 where
  lhsContracting := [1]
  rhsContracting := [0]
  lhsNonContracting := [0]
  rhsNonContracting := [1]
  lhsBatch := []
  rhsBatch := []
  wf := dot_S1024x32_S32x10_S1024x10_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S8192x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5_0) S1024x16.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5_1) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun _ => false | ⟨_ + 4, h⟩ => absurd h (Nat.not_lt.2 (Nat.le_add_left _ _))

abbrev win1_0 : Pipeline.Window sig grid1 :=
  Pipeline.Window.ofSpec (Memref.whole main_v5_1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S8192x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1024x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v5_1) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S8192x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S64x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S32x10.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v18) S1x10.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v19) S1024x10.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S128x16 : Shape := ⟨2, ![128, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x32 : Shape := ⟨2, ![64, 32]⟩
abbrev S32x10 : Shape := ⟨2, ![32, 10]⟩
abbrev S10 : Shape := ⟨1, ![10]⟩
abbrev S8192x16 : Shape := ⟨2, ![8192, 16]⟩
abbrev S1x16 : Shape := ⟨2, ![1, 16]⟩
abbrev S_ : Shape := ⟨0, ![]⟩
abbrev S8192x32 : Shape := ⟨2, ![8192, 32]⟩
abbrev S1x32 : Shape := ⟨2, ![1, 32]⟩
abbrev S8192x64 : Shape := ⟨2, ![8192, 64]⟩
abbrev S1x64 : Shape := ⟨2, ![1, 64]⟩
abbrev S8192x10 : Shape := ⟨2, ![8192, 10]⟩
abbrev S1x10 : Shape := ⟨2, ![1, 10]⟩

abbrev nBuf : Space → Nat
  | .hbm => 47
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x16, .f32⟩
  | .hbm, ⟨3, _⟩ => ⟨S16, .f32⟩
  | .hbm, ⟨4, _⟩ => ⟨S16x32, .f32⟩
  | .hbm, ⟨5, _⟩ => ⟨S32, .f32⟩
  | .hbm, ⟨6, _⟩ => ⟨S32x64, .f32⟩
  | .hbm, ⟨7, _⟩ => ⟨S64, .f32⟩
  | .hbm, ⟨8, _⟩ => ⟨S64x32, .f32⟩
  | .hbm, ⟨9, _⟩ => ⟨S32, .f32⟩
  | .hbm, ⟨10, _⟩ => ⟨S32x10, .f32⟩
  | .hbm, ⟨11, _⟩ => ⟨S10, .f32⟩
  | .hbm, ⟨12, _⟩ => ⟨S8192x16, .f32⟩
  | .hbm, ⟨13, _⟩ => ⟨S1x16, .f32⟩
  | .hbm, ⟨14, _⟩ => ⟨S8192x16, .f32⟩
  | .hbm, ⟨15, _⟩ => ⟨S8192x16, .f32⟩
  | .hbm, ⟨16, _⟩ => ⟨S8192x16, .f32⟩
  | .hbm, ⟨17, _⟩ => ⟨S_, .f32⟩
  | .hbm, ⟨18, _⟩ => ⟨S8192x16, .f32⟩
  | .hbm, ⟨19, _⟩ => ⟨S8192x16, .f32⟩
  | .hbm, ⟨20, _⟩ => ⟨S8192x32, .f32⟩
  | .hbm, ⟨21, _⟩ => ⟨S1x32, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S_, .f32⟩
  | .hbm, ⟨26, _⟩ => ⟨S8192x32, .f32⟩
  | .hbm, ⟨27, _⟩ => ⟨S8192x32, .f32⟩
  | .hbm, ⟨28, _⟩ => ⟨S8192x64, .f32⟩
  | .hbm, ⟨29, _⟩ => ⟨S1x64, .f32⟩
  | .hbm, ⟨30, _⟩ => ⟨S8192x64, .f32⟩
  | .hbm, ⟨31, _⟩ => ⟨S8192x64, .f32⟩
  | .hbm, ⟨32, _⟩ => ⟨S8192x64, .f32⟩
  | .hbm, ⟨33, _⟩ => ⟨S_, .f32⟩
  | .hbm, ⟨34, _⟩ => ⟨S8192x64, .f32⟩
  | .hbm, ⟨35, _⟩ => ⟨S8192x64, .f32⟩
  | .hbm, ⟨36, _⟩ => ⟨S8192x32, .f32⟩
  | .hbm, ⟨37, _⟩ => ⟨S1x32, .f32⟩
  | .hbm, ⟨38, _⟩ => ⟨S8192x32, .f32⟩
  | .hbm, ⟨39, _⟩ => ⟨S8192x32, .f32⟩
  | .hbm, ⟨40, _⟩ => ⟨S_, .f32⟩
  | .hbm, ⟨41, _⟩ => ⟨S8192x32, .f32⟩
  | .hbm, ⟨42, _⟩ => ⟨S8192x32, .f32⟩
  | .hbm, ⟨43, _⟩ => ⟨S8192x10, .f32⟩
  | .hbm, ⟨44, _⟩ => ⟨S1x10, .f32⟩
  | .hbm, ⟨45, _⟩ => ⟨S8192x10, .f32⟩
  | .hbm, ⟨46, _⟩ => ⟨S8192x10, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_cst : Ref sig .tc := ⟨.hbm, 17, rfl⟩
abbrev main_call0_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_call1_cst : Ref sig .tc := ⟨.hbm, 25, rfl⟩
abbrev main_call1_v0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_call2_cst : Ref sig .tc := ⟨.hbm, 33, rfl⟩
abbrev main_call2_v0 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_call3_cst : Ref sig .tc := ⟨.hbm, 40, rfl⟩
abbrev main_call3_v0 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S8192x16_0_1 : S1x16.BroadcastsInDim S8192x16 (![0, 1] : Fin 2 → Fin S8192x16.rank)
  bcast_S_S8192x16 : S_.BroadcastsInDim S8192x16 (![] : Fin 0 → Fin S8192x16.rank)
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  bcast_S_S8192x32 : S_.BroadcastsInDim S8192x32 (![] : Fin 0 → Fin S8192x32.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  bcast_S10_S1x10_1 : S10.BroadcastsInDim S1x10 (![1] : Fin 1 → Fin S1x10.rank)
  bcast_S1x10_S8192x10_0_1 : S1x10.BroadcastsInDim S8192x10 (![0, 1] : Fin 2 → Fin S8192x10.rank)
  dot_S8192x128_S128x16_S8192x16_1_0_0_1_n_n_wf : DotDims.WF S8192x128 S128x16 S8192x16 [1] [0] [0] [1] [] []
  dot_S8192x8192_S8192x16_S8192x16_1_0_0_1_n_n_wf : DotDims.WF S8192x8192 S8192x16 S8192x16 [1] [0] [0] [1] [] []
  dot_S8192x16_S16x32_S8192x32_1_0_0_1_n_n_wf : DotDims.WF S8192x16 S16x32 S8192x32 [1] [0] [0] [1] [] []
  dot_S8192x8192_S8192x32_S8192x32_1_0_0_1_n_n_wf : DotDims.WF S8192x8192 S8192x32 S8192x32 [1] [0] [0] [1] [] []
  dot_S8192x32_S32x64_S8192x64_1_0_0_1_n_n_wf : DotDims.WF S8192x32 S32x64 S8192x64 [1] [0] [0] [1] [] []
  dot_S8192x8192_S8192x64_S8192x64_1_0_0_1_n_n_wf : DotDims.WF S8192x8192 S8192x64 S8192x64 [1] [0] [0] [1] [] []
  dot_S8192x64_S64x32_S8192x32_1_0_0_1_n_n_wf : DotDims.WF S8192x64 S64x32 S8192x32 [1] [0] [0] [1] [] []
  dot_S8192x32_S32x10_S8192x10_1_0_0_1_n_n_wf : DotDims.WF S8192x32 S32x10 S8192x10 [1] [0] [0] [1] [] []

variable [Facts₀]

def dot_S8192x128_S128x16_S8192x16_1_0_0_1_n_n : DotDims S8192x128 S128x16 S8192x16 where
  lhsContracting := [1]
  rhsContracting := [0]
  lhsNonContracting := [0]
  rhsNonContracting := [1]
  lhsBatch := []
  rhsBatch := []
  wf := dot_S8192x128_S128x16_S8192x16_1_0_0_1_n_n_wf
def dot_S8192x8192_S8192x16_S8192x16_1_0_0_1_n_n : DotDims S8192x8192 S8192x16 S8192x16 where
  lhsContracting := [1]
  rhsContracting := [0]
  lhsNonContracting := [0]
  rhsNonContracting := [1]
  lhsBatch := []
  rhsBatch := []
  wf := dot_S8192x8192_S8192x16_S8192x16_1_0_0_1_n_n_wf
def dot_S8192x16_S16x32_S8192x32_1_0_0_1_n_n : DotDims S8192x16 S16x32 S8192x32 where
  lhsContracting := [1]
  rhsContracting := [0]
  lhsNonContracting := [0]
  rhsNonContracting := [1]
  lhsBatch := []
  rhsBatch := []
  wf := dot_S8192x16_S16x32_S8192x32_1_0_0_1_n_n_wf
def dot_S8192x8192_S8192x32_S8192x32_1_0_0_1_n_n : DotDims S8192x8192 S8192x32 S8192x32 where
  lhsContracting := [1]
  rhsContracting := [0]
  lhsNonContracting := [0]
  rhsNonContracting := [1]
  lhsBatch := []
  rhsBatch := []
  wf := dot_S8192x8192_S8192x32_S8192x32_1_0_0_1_n_n_wf
def dot_S8192x32_S32x64_S8192x64_1_0_0_1_n_n : DotDims S8192x32 S32x64 S8192x64 where
  lhsContracting := [1]
  rhsContracting := [0]
  lhsNonContracting := [0]
  rhsNonContracting := [1]
  lhsBatch := []
  rhsBatch := []
  wf := dot_S8192x32_S32x64_S8192x64_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S8192x64_S64x32_S8192x32_1_0_0_1_n_n : DotDims S8192x64 S64x32 S8192x32 where
  lhsContracting := [1]
  rhsContracting := [0]
  lhsNonContracting := [0]
  rhsNonContracting := [1]
  lhsBatch := []
  rhsBatch := []
  wf := dot_S8192x64_S64x32_S8192x32_1_0_0_1_n_n_wf
def dot_S8192x32_S32x10_S8192x10_1_0_0_1_n_n : DotDims S8192x32 S32x10 S8192x10 where
  lhsContracting := [1]
  rhsContracting := [0]
  lhsNonContracting := [0]
  rhsNonContracting := [1]
  lhsBatch := []
  rhsBatch := []
  wf := dot_S8192x32_S32x10_S8192x10_1_0_0_1_n_n_wf

class Facts : Prop extends Facts₀ where

variable [Facts]
-- ==== Proof.R0Runs.lean ====
/-
  The first aggregation call, point by point. Its grid is 8 row tiles by 4 column tiles of the adjacency
  matrix, the column tile fastest: point t works on row tile t / 4 and column tile t % 4. At column tile 0 the
  body clears its accumulator; at every point it writes the adjacency tile out again in the narrow format and adds
  the product of the tile with the matching 2048 rows of the features to the accumulator; at column tile 3 it
  stores the accumulator clipped at zero as the row tile's result. So a point falls in one of three cases (first,
  middle, last column tile), and this module runs the body once per case on whole staging buffers: what each run
  leaves in the buffers it stores into is found by the run itself, as a list of stored pieces.
-/
import proofs.«125076_j18348100288854_2_alg».proof.Proof.Gen.KernelIdeal.Launch
import proofs.«125076_j18348100288854_2_alg».proof.Proof.Gen.KernelIdeal.Skeleton
import proofs.«125076_j18348100288854_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency tile's buffer holds the tile at every point, for any proof data over these arrays whose body
    leaves the tile in place. -/
theorem before_in0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The features' buffer holds the whole feature matrix at every point (it is fetched once and never moves). -/
theorem before_in1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

end

/-! ## The two branch conditions, decided over the grid -/

/-- "The column tile is the first one". -/
abbrev cond0 (i : grid0.Coords) : Prop := (Scalar.cmpi .ne (Scalar.extui (Scalar.cmpi .eq (BitVec.ofNat 32 (i 1).val) 0#32)) 0#32) = 1#1
theorem hcond0 : ∀ t : Fin cfg0.N, cond0 (grid0.coords t) ↔ t.val % 4 = 0 :=
  (by decide +kernel : ∀ t : Fin grid0.N, cond0 (grid0.coords t) ↔ t.val % 4 = 0)
/-- "The column tile is the last one". -/
abbrev cond1 (i : grid0.Coords) : Prop := k0_cond2 i = 1#1
theorem hcond1 : ∀ t : Fin cfg0.N, cond1 (grid0.coords t) ↔ t.val % 4 = 3 :=
  (by decide +kernel : ∀ t : Fin grid0.N, cond1 (grid0.coords t) ↔ t.val % 4 = 3)

/-! ## Where the result window is idle: everywhere but at the last column tile -/

theorem live_0 : ∀ t : Fin cfg0.N, cfg0.idle 0 (grid0.coords t) = false := by decide +kernel
theorem live_1 : ∀ t : Fin cfg0.N, cfg0.idle 1 (grid0.coords t) = false := by decide +kernel
theorem live_3 : ∀ t : Fin cfg0.N, cfg0.idle 3 (grid0.coords t) = false := by decide +kernel
theorem idle_2 : ∀ t : Fin cfg0.N, ¬cond1 (grid0.coords t) → cfg0.idle 2 (grid0.coords t) = true := by decide +kernel
theorem noFlush_2 : ∀ t : Fin cfg0.N, ¬cond1 (grid0.coords t) → (cfg0.win 2).flush t = false := by decide +kernel
theorem live_2 : ∀ t : Fin cfg0.N, cond1 (grid0.coords t) → cfg0.idle 2 (grid0.coords t) = false := by decide +kernel

/-! ## The buffers the body is called on -/

abbrev ms0 (t : Fin cfg0.N) : Memref sig .tc .vmem S1024x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x16 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x16 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x2048 .bf16 := win0_3.stage (cfg0.slots t 3)
abbrev hs3 (t : Fin cfg0.N) : (ms3 t).IsWhole := hstage0_3 ((cfg0.slots t 3).cast nbuf0_3)
/-- The accumulator: a buffer of the call's own, kept from point to point. -/
abbrev scM : Memref sig .tc .vmem S1024x16 .f32 := Memref.whole cc0_scratch0
/-- Views through which the contents of the result tile, the narrow adjacency tile and the accumulator are stated. -/
abbrev VO2 : View sig .tc .vmem S1024x16 .f32 := (Memref.whole cc0_stg2_0 : Memref sig .tc .vmem S1024x16 .f32).view
abbrev VO3 : View sig .tc .vmem S1024x2048 .bf16 := (Memref.whole cc0_stg3_0 : Memref sig .tc .vmem S1024x2048 .bf16).view
abbrev VS : View sig .tc .vmem S1024x16 .f32 := scM.view

/-- What the call's own buffers are, beside the windows' staging buffers: the accumulator at some contents, and a
    remainder that takes the accumulator back at any contents. -/
theorem PhiA_split (c : Dev nD) :
    (Pipeline.ΦA spec0 c : sProp 𝕄) ⊢ iprop((∃ d, owns (c : Thread nD τ) scM fullShare d)
      ∗ (iprop(∃ d, owns (c : Thread nD τ) scM fullShare d) -∗ (Pipeline.ΦA spec0 c : sProp 𝕄))) := by
  unfold Pipeline.ΦA; rw [scopedRest0_eq]; simp only [scM, owns_whole]
  iintro ⟨⟨HS, Hrest⟩, Hp⟩
  isplitl [HS]; · iexact HS
  iintro HS'
  isplitl [HS' Hrest]
  · isplitl [HS']; · iexact HS'
    iexact Hrest
  iexact Hp

/-! ## The body, case by case -/

set_option maxHeartbeats 4000000 in
/-- FIRST column tile: the accumulator is cleared, then holds the first product; the narrow adjacency tile is
    written; the result tile is not touched. -/
noncomputable def runA (c : Dev nD) (i : grid0.Coords)
    (arg2 : Memref sig .tc .vmem S1024x2048 .f32) (harg2 : arg2.IsWhole) (arg3 : Memref sig .tc .vmem S8192x16 .bf16) (harg3 : arg3.IsWhole)
    (arg4 : Memref sig .tc .vmem S1024x16 .f32) (harg4 : arg4.IsWhole) (arg5 : Memref sig .tc .vmem S1024x2048 .bf16) (harg5 : arg5.IsWhole)
    (arg6 : Memref sig .tc .vmem S1024x16 .f32) (harg6 : arg6.IsWhole) (hc0 : cond0 i) (hc1 : ¬cond1 i)
    (x0 : Vec F S1024x2048 .f32) (x1 : Vec F S8192x16 .bf16) :
    Σ' (L3 : List (View.Piece (Elt F) S1024x2048 .bf16)), { LS : List (View.Piece (Elt F) S1024x16 .f32) //
      ∀ (xi2 : Vec F S1024x16 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc0__layer0_kernel i arg2 harg2 arg3 harg3 arg4 harg4 arg5 harg5 arg6 harg6) K } := by
  refine ⟨?_, ?_, fun xi2 E K => ?run⟩
  case run =>
    simp only [cc0__layer0_kernel_eq_skeleton]; unfold cc0__layer0_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

set_option maxHeartbeats 4000000 in
/-- A MIDDLE column tile: the accumulator, found at `xs`, gains one more product; the narrow adjacency tile is
    written; the result tile is not touched. -/
noncomputable def runB (c : Dev nD) (i : grid0.Coords)
    (arg2 : Memref sig .tc .vmem S1024x2048 .f32) (harg2 : arg2.IsWhole) (arg3 : Memref sig .tc .vmem S8192x16 .bf16) (harg3 : arg3.IsWhole)
    (arg4 : Memref sig .tc .vmem S1024x16 .f32) (harg4 : arg4.IsWhole) (arg5 : Memref sig .tc .vmem S1024x2048 .bf16) (harg5 : arg5.IsWhole)
    (arg6 : Memref sig .tc .vmem S1024x16 .f32) (harg6 : arg6.IsWhole) (hc0 : ¬cond0 i) (hc1 : ¬cond1 i)
    (x0 : Vec F S1024x2048 .f32) (x1 : Vec F S8192x16 .bf16) (xs : Vec F S1024x16 .f32) :
    Σ' (L3 : List (View.Piece (Elt F) S1024x2048 .bf16)), { LS : List (View.Piece (Elt F) S1024x16 .f32) //
      ∀ (xi2 : Vec F S1024x16 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc0__layer0_kernel i arg2 harg2 arg3 harg3 arg4 harg4 arg5 harg5 arg6 harg6) K } := by
  refine ⟨?_, ?_, fun xi2 E K => ?run⟩
  case run =>
    simp only [cc0__layer0_kernel_eq_skeleton]; unfold cc0__layer0_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

set_option maxHeartbeats 4000000 in
/-- The LAST column tile: the accumulator, found at `xs`, gains the last product, and the result tile is stored:
    the accumulator clipped at zero. -/
noncomputable def runC (c : Dev nD) (i : grid0.Coords)
    (arg2 : Memref sig .tc .vmem S1024x2048 .f32) (harg2 : arg2.IsWhole) (arg3 : Memref sig .tc .vmem S8192x16 .bf16) (harg3 : arg3.IsWhole)
    (arg4 : Memref sig .tc .vmem S1024x16 .f32) (harg4 : arg4.IsWhole) (arg5 : Memref sig .tc .vmem S1024x2048 .bf16) (harg5 : arg5.IsWhole)
    (arg6 : Memref sig .tc .vmem S1024x16 .f32) (harg6 : arg6.IsWhole) (hc0 : ¬cond0 i) (hc1 : cond1 i)
    (x0 : Vec F S1024x2048 .f32) (x1 : Vec F S8192x16 .bf16) (xs : Vec F S1024x16 .f32) :
    Σ' (L2 : List (View.Piece (Elt F) S1024x16 .f32)) (L3 : List (View.Piece (Elt F) S1024x2048 .bf16)), { LS : List (View.Piece (Elt F) S1024x16 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (∃ d, owns (c : Thread nD τ) arg5 fullShare d) ∗ owns (c : Thread nD τ) arg6 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc0__layer0_kernel i arg2 harg2 arg3 harg3 arg4 harg4 arg5 harg5 arg6 harg6) K } := by
  refine ⟨?_, ?_, ?_, fun E K => ?run⟩
  case run =>
    simp only [cc0__layer0_kernel_eq_skeleton]; unfold cc0__layer0_kernel_skel
    unfold owns
    iintro ⟨⟨%f0, %hf0, H0⟩, ⟨%f1, %hf1, H1⟩, ⟨%d2, %f2, -, H2⟩, ⟨%d3, %f3, -, H3⟩, ⟨%fs, %hfs, HS⟩, Hk⟩
    obtain rfl := harg2.eq_unread hf0; obtain rfl := harg3.eq_unread hf1; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS

end Cert.KernelIdeal.Reg0

end
-- ==== Proof.R0Frame.lean ====
/-
  The first aggregation call as a whole: what its accumulator, its result tile and its narrow adjacency tile hold
  after each of the 32 points, by recursion on the point (the accumulator restarts at every first column tile and
  otherwise continues from the point before), the invariant that carries the accumulator from one point to the
  next, and the body's obligation at every point, each point taken in its case.
-/
import proofs.«125076_j18348100288854_2_alg».proof.Proof.R0Runs

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The three runs at a point of the grid -/

/-- The run of the first-column-tile case at point `t`, on the point's buffers and blocks. -/
def atA (c : Dev nD) (t : Fin cfg0.N) (h0 : t.val % 4 = 0) (h1 : ¬t.val % 4 = 3) :=
  runA (F := F) c (grid0.coords t) (ms0 t) (hs0 t) (ms1 t) (hs1 t) (ms2 t) (hs2 t) (ms3 t) (hs3 t) scM (Memref.isWhole_whole _) ((hcond0 t).mpr h0) (fun h => h1 ((hcond1 t).mp h)) (iblk V c 0 t) (iblk V c 1 t)
/-- The run of the middle case at point `t`, the accumulator found at `xs`. -/
def atB (c : Dev nD) (t : Fin cfg0.N) (h0 : ¬t.val % 4 = 0) (h1 : ¬t.val % 4 = 3) (xs : Vec F S1024x16 .f32) :=
  runB (F := F) c (grid0.coords t) (ms0 t) (hs0 t) (ms1 t) (hs1 t) (ms2 t) (hs2 t) (ms3 t) (hs3 t) scM (Memref.isWhole_whole _) (fun h => h0 ((hcond0 t).mp h)) (fun h => h1 ((hcond1 t).mp h)) (iblk V c 0 t) (iblk V c 1 t) xs
/-- The run of the last-column-tile case at point `t`, the accumulator found at `xs`. -/
def atC (c : Dev nD) (t : Fin cfg0.N) (h0 : ¬t.val % 4 = 0) (h1 : t.val % 4 = 3) (xs : Vec F S1024x16 .f32) :=
  runC (F := F) c (grid0.coords t) (ms0 t) (hs0 t) (ms1 t) (hs1 t) (ms2 t) (hs2 t) (ms3 t) (hs3 t) scM (Memref.isWhole_whole _) (fun h => h0 ((hcond0 t).mp h)) ((hcond1 t).mpr h1) (iblk V c 0 t) (iblk V c 1 t) xs

/-- A list of stored pieces read back as contents: of the result tile, the narrow adjacency tile, the accumulator. -/
def rd2 (L : List (View.Piece (Elt F) S1024x16 .f32)) : Vec F S1024x16 .f32 := VO2.read (Elt F) (VO2.writes (Elt F) VO2.junk L)
def rd3 (L : List (View.Piece (Elt F) S1024x2048 .bf16)) : Vec F S1024x2048 .bf16 := VO3.read (Elt F) (VO3.writes (Elt F) VO3.junk L)
def rdS (L : List (View.Piece (Elt F) S1024x16 .f32)) : Vec F S1024x16 .f32 := VS.read (Elt F) (VS.writes (Elt F) VS.junk L)

/-! ## Each run's stores cover the buffers they fill -/

theorem coverA_3 (c : Dev nD) (t : Fin cfg0.N) (h0 : t.val % 4 = 0) (h1 : ¬t.val % 4 = 3) (y : S1024x2048.Idx) :
    ∃ pc ∈ (atA V c t h0 h1).1, y ∈ pc.1.set :=
  View.cover_of_tiledL (atA V c t h0 h1).1 S1024x2048.size (by unfold atA; sl_kernel_rfl) y
theorem coverA_S (c : Dev nD) (t : Fin cfg0.N) (h0 : t.val % 4 = 0) (h1 : ¬t.val % 4 = 3) (y : S1024x16.Idx) :
    ∃ pc ∈ (atA V c t h0 h1).2.1, y ∈ pc.1.set :=
  View.cover_of_tiledL (atA V c t h0 h1).2.1 S1024x16.size (by unfold atA; sl_kernel_rfl) y
theorem coverB_3 (c : Dev nD) (t : Fin cfg0.N) (h0 : ¬t.val % 4 = 0) (h1 : ¬t.val % 4 = 3) (xs : Vec F S1024x16 .f32) (y : S1024x2048.Idx) :
    ∃ pc ∈ (atB V c t h0 h1 xs).1, y ∈ pc.1.set :=
  View.cover_of_tiledL (atB V c t h0 h1 xs).1 S1024x2048.size (by unfold atB; sl_kernel_rfl) y
theorem coverB_S (c : Dev nD) (t : Fin cfg0.N) (h0 : ¬t.val % 4 = 0) (h1 : ¬t.val % 4 = 3) (xs : Vec F S1024x16 .f32) (y : S1024x16.Idx) :
    ∃ pc ∈ (atB V c t h0 h1 xs).2.1, y ∈ pc.1.set :=
  View.cover_of_tiledL (atB V c t h0 h1 xs).2.1 S1024x16.size (by unfold atB; sl_kernel_rfl) y
theorem coverC_2 (c : Dev nD) (t : Fin cfg0.N) (h0 : ¬t.val % 4 = 0) (h1 : t.val % 4 = 3) (xs : Vec F S1024x16 .f32) (y : S1024x16.Idx) :
    ∃ pc ∈ (atC V c t h0 h1 xs).1, y ∈ pc.1.set :=
  View.cover_of_tiledL (atC V c t h0 h1 xs).1 S1024x16.size (by unfold atC; sl_kernel_rfl) y
theorem coverC_3 (c : Dev nD) (t : Fin cfg0.N) (h0 : ¬t.val % 4 = 0) (h1 : t.val % 4 = 3) (xs : Vec F S1024x16 .f32) (y : S1024x2048.Idx) :
    ∃ pc ∈ (atC V c t h0 h1 xs).2.1, y ∈ pc.1.set :=
  View.cover_of_tiledL (atC V c t h0 h1 xs).2.1 S1024x2048.size (by unfold atC; sl_kernel_rfl) y
theorem coverC_S (c : Dev nD) (t : Fin cfg0.N) (h0 : ¬t.val % 4 = 0) (h1 : t.val % 4 = 3) (xs : Vec F S1024x16 .f32) (y : S1024x16.Idx) :
    ∃ pc ∈ (atC V c t h0 h1 xs).2.2.1, y ∈ pc.1.set :=
  View.cover_of_tiledL (atC V c t h0 h1 xs).2.2.1 S1024x16.size (by unfold atC; sl_kernel_rfl) y

/-! ## What the buffers hold after each point -/

/-- After point `n`: the result tile's buffer, the narrow adjacency tile's buffer, the accumulator. The result
    tile's buffer matters only at the last column tile; elsewhere its entry is a placeholder nothing reads. -/
def outsAt (c : Dev nD) : (n : ℕ) → n < cfg0.N → Vec F S1024x16 .f32 × Vec F S1024x2048 .bf16 × Vec F S1024x16 .f32
  | 0, hn => (rd2 [], rd3 (atA V c ⟨0, hn⟩ (Nat.zero_mod 4) (by show ¬(0 % 4 = 3); decide)).1, rdS (atA V c ⟨0, hn⟩ (Nat.zero_mod 4) (by show ¬(0 % 4 = 3); decide)).2.1)
  | n + 1, hn =>
    if h0 : (n + 1) % 4 = 0 then
      if h1 : (n + 1) % 4 = 3 then False.elim (by omega)
      else (rd2 [], rd3 (atA V c ⟨n + 1, hn⟩ h0 h1).1, rdS (atA V c ⟨n + 1, hn⟩ h0 h1).2.1)
    else
      if h1 : (n + 1) % 4 = 3 then
        (rd2 (atC V c ⟨n + 1, hn⟩ h0 h1 (outsAt c n (Nat.lt_of_succ_lt hn)).2.2).1,
         rd3 (atC V c ⟨n + 1, hn⟩ h0 h1 (outsAt c n (Nat.lt_of_succ_lt hn)).2.2).2.1,
         rdS (atC V c ⟨n + 1, hn⟩ h0 h1 (outsAt c n (Nat.lt_of_succ_lt hn)).2.2).2.2.1)
      else
        (rd2 [], rd3 (atB V c ⟨n + 1, hn⟩ h0 h1 (outsAt c n (Nat.lt_of_succ_lt hn)).2.2).1,
         rdS (atB V c ⟨n + 1, hn⟩ h0 h1 (outsAt c n (Nat.lt_of_succ_lt hn)).2.2).2.1)

/-- The accumulator the point before `t` left. -/
abbrev prevS (c : Dev nD) (t : Fin cfg0.N) : Vec F S1024x16 .f32 :=
  (outsAt V c (t.val - 1) (Nat.lt_of_le_of_lt (Nat.sub_le _ _) t.isLt)).2.2

theorem outsAt_A (c : Dev nD) (t : Fin cfg0.N) (h0 : t.val % 4 = 0) (h1 : ¬t.val % 4 = 3) :
    outsAt V c t.val t.isLt = (rd2 [], rd3 (atA V c t h0 h1).1, rdS (atA V c t h0 h1).2.1) := by
  obtain ⟨n, hn⟩ := t
  cases n with
  | zero => exact rfl
  | succ n => exact (dif_pos h0).trans ((dif_neg h1).trans rfl)

theorem outsAt_B (c : Dev nD) (t : Fin cfg0.N) (h0 : ¬t.val % 4 = 0) (h1 : ¬t.val % 4 = 3) :
    outsAt V c t.val t.isLt = (rd2 [], rd3 (atB V c t h0 h1 (prevS V c t)).1, rdS (atB V c t h0 h1 (prevS V c t)).2.1) := by
  obtain ⟨n, hn⟩ := t
  cases n with
  | zero => exact absurd (Nat.zero_mod 4) h0
  | succ n => exact (dif_neg h0).trans ((dif_neg h1).trans rfl)

theorem outsAt_C (c : Dev nD) (t : Fin cfg0.N) (h0 : ¬t.val % 4 = 0) (h1 : t.val % 4 = 3) :
    outsAt V c t.val t.isLt = (rd2 (atC V c t h0 h1 (prevS V c t)).1, rd3 (atC V c t h0 h1 (prevS V c t)).2.1, rdS (atC V c t h0 h1 (prevS V c t)).2.2.1) := by
  obtain ⟨n, hn⟩ := t
  cases n with
  | zero => exact absurd (Nat.zero_mod 4) h0
  | succ n => exact (dif_neg h0).trans ((dif_pos h1).trans rfl)

/-! ## The invariant between points -/

/-- Before the first point: the call's own buffers at anything. Before any later point: the accumulator at what the
    point before left, beside a remainder that takes the accumulator back at any contents. -/
def PhiS (c : Dev nD) : (n : ℕ) → n ≤ cfg0.N → sProp 𝕄
  | 0, _ => (Pipeline.ΦA spec0 c : sProp 𝕄)
  | n + 1, hn => iprop(owns (c : Thread nD τ) scM fullShare (outsAt V c n hn).2.2
      ∗ (iprop(∃ d, owns (c : Thread nD τ) scM fullShare d) -∗ (Pipeline.ΦA spec0 c : sProp 𝕄)))

theorem PhiS_zero (c : Dev nD) (n : ℕ) (h : n ≤ cfg0.N) (hz : n = 0) : PhiS V c n h = (Pipeline.ΦA spec0 c : sProp 𝕄) := by
  subst hz; rfl
theorem PhiS_succ (c : Dev nD) (n : ℕ) (hn : n < cfg0.N) :
    PhiS V c (n + 1) hn = iprop(owns (c : Thread nD τ) scM fullShare (outsAt V c n hn).2.2
      ∗ (iprop(∃ d, owns (c : Thread nD τ) scM fullShare d) -∗ (Pipeline.ΦA spec0 c : sProp 𝕄))) := rfl
theorem PhiS_pos (c : Dev nD) (n : ℕ) (h : n ≤ cfg0.N) (hz : n ≠ 0) :
    PhiS V c n h = iprop(owns (c : Thread nD τ) scM fullShare (outsAt V c (n - 1) (by omega)).2.2
      ∗ (iprop(∃ d, owns (c : Thread nD τ) scM fullShare d) -∗ (Pipeline.ΦA spec0 c : sProp 𝕄))) := by
  cases n with
  | zero => exact absurd rfl hz
  | succ n => rfl

/-! ## The proof data -/

/-- The arrays as the call finds them; after the body at point `t` the two inputs' buffers at their blocks, the result
    tile's and the narrow adjacency tile's at `outsAt`; the invariant `PhiS`; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt V c t.val t.isLt).1
    | ⟨3, _⟩ => (outsAt V c t.val t.isLt).2.1
  Φ t := PhiS V c t.val (Nat.le_of_lt_succ t.isLt)
  q _ := fullShare
  owed _ := 0

theorem A_eq (c : Dev nD) (w : Fin cfg0.W) : (dat V c).A w = V c (Pipeline.arrRef spec0 w) := by dsimp only [dat]
theorem PhiS_castSucc (c : Dev nD) (t : Fin cfg0.N) : (dat V c).Φ t.castSucc = PhiS V c t.val (Nat.le_of_lt t.isLt) := by
  dsimp only [dat]; simp only [Fin.coe_castSucc]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = (outsAt V c t.val t.isLt).1 := by dsimp only [dat]
theorem after_3 (c : Dev nD) (t : Fin cfg0.N) : (dat V c).after 3 t = (outsAt V c t.val t.isLt).2.1 := by dsimp only [dat]
theorem before_0 (c : Dev nD) (t : Fin cfg0.N) (d) : (dat V c).before 0 t d = iblk V c 0 t :=
  before_in0_of V (dat V c) (A_eq V c 0) (after_0 V c) t d
theorem before_1 (c : Dev nD) (t : Fin cfg0.N) (d) : (dat V c).before 1 t d = iblk V c 1 t :=
  before_in1_of V (dat V c) (A_eq V c 1) (after_1 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The two inputs' buffers hold their blocks; the point's position among the column tiles
    says which case it is in; the invariant hands the body the accumulator at what the point before left (at anything
    at the very first point) and takes it back at this point's contents; nothing is owed throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg0.N = 32 from N_0)
  rw [show (dat V c).leavesExact 0 t = owns (c : Thread nD τ) (ms0 t) fullShare ((dat V c).after 0 t) from by
    unfold Dat.leavesExact; rw [live_0 t], after_0]
  rw [show (dat V c).leavesExact 1 t = owns (c : Thread nD τ) (ms1 t) fullShare ((dat V c).after 1 t) from by
    unfold Dat.leavesExact; rw [live_1 t], after_1]
  rw [show (dat V c).leavesExact 3 t = owns (c : Thread nD τ) (ms3 t) fullShare ((dat V c).after 3 t) from by
    unfold Dat.leavesExact; rw [live_3 t], after_3]
  by_cases h0 : t.val % 4 = 0
  · have h1 : ¬t.val % 4 = 3 := by omega
    rw [Dat.leavesExact_idle (dat V c) 2 t (idle_2 t (fun h => h1 ((hcond1 t).mp h))) (noFlush_2 t (fun h => h1 ((hcond1 t).mp h)))]
    rw [outsAt_A V c t h0 h1]
    unfold rd3 rdS; dsimp only
    by_cases hz : t.val = 0
    · rw [PhiS_castSucc V c t, PhiS_zero V c _ _ hz]
      iintro ⟨HΦ, Ho, ⟨%d0, H0⟩, ⟨%d1, H1⟩, ⟨%d2, H2⟩, ⟨%d3, H3⟩⟩
      ihave HΦ' := (PhiA_split (F := F) c) $$ HΦ
      icases HΦ' with ⟨HS, HW⟩
      iapply ((atA V c t h0 h1).2.2 _ Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HW]
      · isplitl [HS]
        · unfold owns; iexists _; isplitr
          swap; · iexact HS
          ipureintro; exact View.read_writes_of_cover _ _ _ _ _ (coverA_S V c t h0 h1)
        iexact HW
      isplitl [Ho]; · iexact Ho
      isplitl [H0]; · iexact H0
      isplitl [H1]; · iexact H1
      isplitl [H2]; · iexists _; iexact H2
      unfold owns; iexists _; isplitr
      swap; · iexact H3
      ipureintro; exact View.read_writes_of_cover _ _ _ _ _ (coverA_3 V c t h0 h1)
    · rw [PhiS_castSucc V c t, PhiS_pos V c _ _ hz]
      iintro ⟨⟨HS, HW⟩, Ho, ⟨%d0, H0⟩, ⟨%d1, H1⟩, ⟨%d2, H2⟩, ⟨%d3, H3⟩⟩
      iapply ((atA V c t h0 h1).2.2 _ Set.univ _)
      isplitl [H0]; · iexact H0
      isplitl [H1]; · iexact H1
      isplitl [H2]; · iexact H2
      isplitl [H3]; · iexists _; iexact H3
      isplitl [HS]; · iexists _; iexact HS
      iintro ⟨H0, H1, H2, ⟨%e3, H3⟩, ⟨%es, HS⟩⟩
      isplitl [HS HW]
      · isplitl [HS]
        · unfold owns; iexists _; isplitr
          swap; · iexact HS
          ipureintro; exact View.read_writes_of_cover _ _ _ _ _ (coverA_S V c t h0 h1)
        iexact HW
      isplitl [Ho]; · iexact Ho
      isplitl [H0]; · iexact H0
      isplitl [H1]; · iexact H1
      isplitl [H2]; · iexists _; iexact H2
      unfold owns; iexists _; isplitr
      swap; · iexact H3
      ipureintro; exact View.read_writes_of_cover _ _ _ _ _ (coverA_3 V c t h0 h1)
  · have hz : t.val ≠ 0 := fun e => h0 (by rw [e])
    by_cases h1 : t.val % 4 = 3
    · rw [show (dat V c).leavesExact 2 t = owns (c : Thread nD τ) (ms2 t) fullShare ((dat V c).after 2 t) from by
        unfold Dat.leavesExact; rw [live_2 t ((hcond1 t).mpr h1)], after_2]
      rw [outsAt_C V c t h0 h1]
      unfold rd2 rd3 rdS; dsimp only
      rw [PhiS_castSucc V c t, PhiS_pos V c _ _ hz]
      iintro ⟨⟨HS, HW⟩, Ho, ⟨%d0, H0⟩, ⟨%d1, H1⟩, ⟨%d2, H2⟩, ⟨%d3, H3⟩⟩
      iapply ((atC V c t h0 h1 _).2.2.2 Set.univ _)
      isplitl [H0]; · iexact H0
      isplitl [H1]; · iexact H1
      isplitl [H2]; · iexists _; iexact H2
      isplitl [H3]; · iexists _; iexact H3
      isplitl [HS]; · iexact HS
      iintro ⟨H0, H1, ⟨%e2, H2⟩, ⟨%e3, H3⟩, ⟨%es, HS⟩⟩
      isplitl [HS HW]
      · isplitl [HS]
        · unfold owns; iexists _; isplitr
          swap; · iexact HS
          ipureintro; exact View.read_writes_of_cover _ _ _ _ _ (coverC_S V c t h0 h1 _)
        iexact HW
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverC_2 V c t h0 h1 _)
      unfold owns; iexists _; isplitr
      swap; · iexact H3
      ipureintro; exact View.read_writes_of_cover _ _ _ _ _ (coverC_3 V c t h0 h1 _)
    · rw [Dat.leavesExact_idle (dat V c) 2 t (idle_2 t (fun h => h1 ((hcond1 t).mp h))) (noFlush_2 t (fun h => h1 ((hcond1 t).mp h)))]
      rw [outsAt_B V c t h0 h1]
      unfold rd3 rdS; dsimp only
      rw [PhiS_castSucc V c t, PhiS_pos V c _ _ hz]
      iintro ⟨⟨HS, HW⟩, Ho, ⟨%d0, H0⟩, ⟨%d1, H1⟩, ⟨%d2, H2⟩, ⟨%d3, H3⟩⟩
      iapply ((atB V c t h0 h1 _).2.2 _ Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HW]
      · isplitl [HS]
        · unfold owns; iexists _; isplitr
          swap; · iexact HS
          ipureintro; exact View.read_writes_of_cover _ _ _ _ _ (coverB_S V c t h0 h1 _)
        iexact HW
      isplitl [Ho]; · iexact Ho
      isplitl [H0]; · iexact H0
      isplitl [H1]; · iexact H1
      isplitl [H2]; · iexists _; iexact H2
      unfold owns; iexists _; isplitr
      swap; · iexact H3
      ipureintro; exact View.read_writes_of_cover _ _ _ _ _ (coverB_3 V c t h0 h1 _)

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the call is the invariant before the first point. -/
theorem hin (c : Dev nD) : (Pipeline.ΦA spec0 c : sProp 𝕄) ⊢ (dat V c).Φ 0 := by
  rw [show (dat V c).Φ 0 = PhiS V c 0 (Nat.zero_le _) from rfl, PhiS_zero V c 0 _ rfl]
  try exact Idealize.SL.BI.Entails.refl _

/-- After the last point the invariant gives the call's own buffers back, the accumulator's contents forgotten. -/
theorem hout (c : Dev nD) : (dat V c).Φ (Fin.last cfg0.N) ⊢ (Pipeline.ΦA spec0 c : sProp 𝕄) := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 32 := N_0; omega)]
  iintro ⟨HS, HW⟩
  iapply HW
  iexists _; iexact HS

end

end Cert.KernelIdeal.Reg0

end
-- ==== Proof.R1Runs.lean ====
/-
  The second aggregation call, point by point. Its grid is 8 row tiles by 4 column tiles of the adjacency matrix, the
  column tile fastest: point t works on row tile t / 4 and column tile t % 4. At column tile 0 the body clears its
  accumulator; at every point it adds the product of the adjacency tile (already in the narrow format) with the matching 2048 rows of the features to the
  accumulator; at column tile 3 it stores the row tile's result, computed from the accumulator. So a point falls in
  one of three cases (first, middle, last column tile), and this module runs the body once per case on whole staging
  buffers: what each run leaves in the buffers it stores into is found by the run itself, as a list of stored pieces.
-/
import proofs.«125076_j18348100288854_2_alg».proof.Proof.Gen.KernelIdeal.Launch
import proofs.«125076_j18348100288854_2_alg».proof.Proof.Gen.KernelIdeal.Skeleton
import proofs.«125076_j18348100288854_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's buffer holds its block at every point, for any proof data over these arrays whose body leaves
    the block in place. -/
theorem before_in0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's buffer holds its block at every point, for any proof data over these arrays whose body leaves
    the block in place. -/
theorem before_in1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

end

/-! ## The two branch conditions, decided over the grid -/

/-- "The column tile is the first one". -/
abbrev cond0 (i : grid1.Coords) : Prop := (Scalar.cmpi .ne (Scalar.extui (Scalar.cmpi .eq (BitVec.ofNat 32 (i 1).val) 0#32)) 0#32) = 1#1
theorem hcond0 : ∀ t : Fin cfg1.N, cond0 (grid1.coords t) ↔ t.val % 4 = 0 :=
  (by decide +kernel : ∀ t : Fin grid1.N, cond0 (grid1.coords t) ↔ t.val % 4 = 0)
/-- "The column tile is the last one". -/
abbrev cond1 (i : grid1.Coords) : Prop := k1_cond2 i = 1#1
theorem hcond1 : ∀ t : Fin cfg1.N, cond1 (grid1.coords t) ↔ t.val % 4 = 3 :=
  (by decide +kernel : ∀ t : Fin grid1.N, cond1 (grid1.coords t) ↔ t.val % 4 = 3)

/-! ## Where the result window is idle: everywhere but at the last column tile -/

theorem live_0 : ∀ t : Fin cfg1.N, cfg1.idle 0 (grid1.coords t) = false := by decide +kernel
theorem live_1 : ∀ t : Fin cfg1.N, cfg1.idle 1 (grid1.coords t) = false := by decide +kernel
theorem idle_o : ∀ t : Fin cfg1.N, ¬cond1 (grid1.coords t) → cfg1.idle 2 (grid1.coords t) = true := by decide +kernel
theorem noFlush_o : ∀ t : Fin cfg1.N, ¬cond1 (grid1.coords t) → (cfg1.win 2).flush t = false := by decide +kernel
theorem live_o : ∀ t : Fin cfg1.N, cond1 (grid1.coords t) → cfg1.idle 2 (grid1.coords t) = false := by decide +kernel

/-! ## The buffers the body is called on -/

abbrev ms0 (t : Fin cfg1.N) : Memref sig .tc .vmem S1024x2048 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S8192x32 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1024x32 .f32 := win1_2.stage (cfg1.slots t 2)
abbrev hs2 (t : Fin cfg1.N) : (ms2 t).IsWhole := hstage1_2 ((cfg1.slots t 2).cast nbuf1_2)
/-- The accumulator: a buffer of the call's own, kept from point to point. -/
abbrev scM : Memref sig .tc .vmem S1024x32 .f32 := Memref.whole cc1_scratch0
/-- Views through which the contents of the result tile and of the accumulator are stated. -/
abbrev VO : View sig .tc .vmem S1024x32 .f32 := (Memref.whole cc1_stg2_0 : Memref sig .tc .vmem S1024x32 .f32).view
abbrev VS : View sig .tc .vmem S1024x32 .f32 := scM.view

/-- What the call's own buffers are, beside the windows' staging buffers: the accumulator at some contents, and a
    remainder that takes the accumulator back at any contents. -/
theorem PhiA_split (c : Dev nD) :
    (Pipeline.ΦA spec1 c : sProp 𝕄) ⊢ iprop((∃ d, owns (c : Thread nD τ) scM fullShare d)
      ∗ (iprop(∃ d, owns (c : Thread nD τ) scM fullShare d) -∗ (Pipeline.ΦA spec1 c : sProp 𝕄))) := by
  unfold Pipeline.ΦA; rw [scopedRest1_eq]; simp only [scM, owns_whole]
  iintro ⟨⟨G0, G1, G2, G3, G4, G5, G6, G7, HS, Hrest⟩, Hp⟩
  isplitl [HS]; · iexact HS
  iintro HS'
  isplitl [HS' G0 G1 G2 G3 G4 G5 G6 G7 Hrest]
  ·
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [HS']; · iexact HS'
    iexact Hrest
  iexact Hp

/-! ## The body, case by case -/

set_option maxHeartbeats 4000000 in
/-- FIRST column tile: the accumulator is cleared, then holds the first product; the result tile is not touched. -/
noncomputable def runA (c : Dev nD) (i : grid1.Coords)
    (arg2 : Memref sig .tc .vmem S1024x2048 .bf16) (harg2 : arg2.IsWhole) (arg3 : Memref sig .tc .vmem S8192x32 .bf16) (harg3 : arg3.IsWhole) (arg4 : Memref sig .tc .vmem S1024x32 .f32) (harg4 : arg4.IsWhole) (arg5 : Memref sig .tc .vmem S1024x32 .f32) (harg5 : arg5.IsWhole) (hc0 : cond0 i) (hc1 : ¬cond1 i)
    (x0 : Vec F S1024x2048 .bf16) (x1 : Vec F S8192x32 .bf16) :
    { LS : List (View.Piece (Elt F) S1024x32 .f32) //
      ∀ (xi : Vec F S1024x32 .f32) (E : Set ℕ) (K : PUnit → sProp 𝕄),
        iprop(owns (c : Thread nD τ) arg2 fullShare x0 ∗ owns (c : Thread nD τ) arg3 fullShare x1 ∗ owns (c : Thread nD τ) arg4 fullShare xi
            ∗ (∃ d, owns (c : Thread nD τ) arg5 fullShare d)
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc1__mid_kernel i arg2 harg2 arg3 harg3 arg4 harg4 arg5 harg5) K } := by
  refine ⟨?_, fun xi E K => ?run⟩
  case run =>
    simp only [cc1__mid_kernel_eq_skeleton]; unfold cc1__mid_kernel_skel
    unfold owns
    iintro ⟨⟨%f0, %hf0, H0⟩, ⟨%f1, %hf1, H1⟩, ⟨%fo, %hfo, HO⟩, ⟨%ds, %fs, -, HS⟩, Hk⟩
    obtain rfl := harg2.eq_unread hf0; obtain rfl := harg3.eq_unread hf1; obtain rfl := harg4.eq_unread hfo
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HO]
    · iexists _; isplitr; · ipureintro; exact harg4.read_unread _
      iexact HO
    iexists _; iexact HS

set_option maxHeartbeats 4000000 in
/-- A MIDDLE column tile: the accumulator, found at `xs`, gains one more product; the result tile is not touched. -/
noncomputable def runB (c : Dev nD) (i : grid1.Coords)
    (arg2 : Memref sig .tc .vmem S1024x2048 .bf16) (harg2 : arg2.IsWhole) (arg3 : Memref sig .tc .vmem S8192x32 .bf16) (harg3 : arg3.IsWhole) (arg4 : Memref sig .tc .vmem S1024x32 .f32) (harg4 : arg4.IsWhole) (arg5 : Memref sig .tc .vmem S1024x32 .f32) (harg5 : arg5.IsWhole) (hc0 : ¬cond0 i) (hc1 : ¬cond1 i)
    (x0 : Vec F S1024x2048 .bf16) (x1 : Vec F S8192x32 .bf16) (xs : Vec F S1024x32 .f32) :
    { LS : List (View.Piece (Elt F) S1024x32 .f32) //
      ∀ (xi : Vec F S1024x32 .f32) (E : Set ℕ) (K : PUnit → sProp 𝕄),
        iprop(owns (c : Thread nD τ) arg2 fullShare x0 ∗ owns (c : Thread nD τ) arg3 fullShare x1 ∗ owns (c : Thread nD τ) arg4 fullShare xi
            ∗ owns (c : Thread nD τ) arg5 fullShare xs
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc1__mid_kernel i arg2 harg2 arg3 harg3 arg4 harg4 arg5 harg5) K } := by
  refine ⟨?_, fun xi E K => ?run⟩
  case run =>
    simp only [cc1__mid_kernel_eq_skeleton]; unfold cc1__mid_kernel_skel
    unfold owns
    iintro ⟨⟨%f0, %hf0, H0⟩, ⟨%f1, %hf1, H1⟩, ⟨%fo, %hfo, HO⟩, ⟨%fs, %hfs, HS⟩, Hk⟩
    obtain rfl := harg2.eq_unread hf0; obtain rfl := harg3.eq_unread hf1; obtain rfl := harg4.eq_unread hfo; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HO]
    · iexists _; isplitr; · ipureintro; exact harg4.read_unread _
      iexact HO
    iexists _; iexact HS

set_option maxHeartbeats 4000000 in
/-- The LAST column tile: the accumulator, found at `xs`, gains the last product, and the result tile is stored,
    computed from the accumulator. -/
noncomputable def runC (c : Dev nD) (i : grid1.Coords)
    (arg2 : Memref sig .tc .vmem S1024x2048 .bf16) (harg2 : arg2.IsWhole) (arg3 : Memref sig .tc .vmem S8192x32 .bf16) (harg3 : arg3.IsWhole) (arg4 : Memref sig .tc .vmem S1024x32 .f32) (harg4 : arg4.IsWhole) (arg5 : Memref sig .tc .vmem S1024x32 .f32) (harg5 : arg5.IsWhole) (hc0 : ¬cond0 i) (hc1 : cond1 i)
    (x0 : Vec F S1024x2048 .bf16) (x1 : Vec F S8192x32 .bf16) (xs : Vec F S1024x32 .f32) :
    Σ' (LO : List (View.Piece (Elt F) S1024x32 .f32)), { LS : List (View.Piece (Elt F) S1024x32 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc1__mid_kernel i arg2 harg2 arg3 harg3 arg4 harg4 arg5 harg5) K } := by
  refine ⟨?_, ?_, fun E K => ?run⟩
  case run =>
    simp only [cc1__mid_kernel_eq_skeleton]; unfold cc1__mid_kernel_skel
    unfold owns
    iintro ⟨⟨%f0, %hf0, H0⟩, ⟨%f1, %hf1, H1⟩, ⟨%dO, %fo, -, HO⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HO]; · iexists _; iexact HO
    iexists _; iexact HS

end Cert.KernelIdeal.Reg1

end
-- ==== Proof.R1Frame.lean ====
/-
  The second aggregation call as a whole: what its accumulator and its result tile hold after each of the 32 points, by
  recursion on the point (the accumulator restarts at every first column tile and otherwise continues from the point
  before), the invariant that carries the accumulator from one point to the next, and the body's obligation at every
  point, each point taken in its case.
-/
import proofs.«125076_j18348100288854_2_alg».proof.Proof.R1Runs

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The three runs at a point of the grid -/

/-- The run of the first-column-tile case at point `t`, on the point's buffers and blocks. -/
def atA (c : Dev nD) (t : Fin cfg1.N) (h0 : t.val % 4 = 0) (h1 : ¬t.val % 4 = 3) :=
  runA (F := F) c (grid1.coords t) (ms0 t) (hs0 t) (ms1 t) (hs1 t) (ms2 t) (hs2 t) scM (Memref.isWhole_whole _) ((hcond0 t).mpr h0) (fun h => h1 ((hcond1 t).mp h)) (iblk V c 0 t) (iblk V c 1 t)
/-- The run of the middle case at point `t`, the accumulator found at `xs`. -/
def atB (c : Dev nD) (t : Fin cfg1.N) (h0 : ¬t.val % 4 = 0) (h1 : ¬t.val % 4 = 3) (xs : Vec F S1024x32 .f32) :=
  runB (F := F) c (grid1.coords t) (ms0 t) (hs0 t) (ms1 t) (hs1 t) (ms2 t) (hs2 t) scM (Memref.isWhole_whole _) (fun h => h0 ((hcond0 t).mp h)) (fun h => h1 ((hcond1 t).mp h)) (iblk V c 0 t) (iblk V c 1 t) xs
/-- The run of the last-column-tile case at point `t`, the accumulator found at `xs`. -/
def atC (c : Dev nD) (t : Fin cfg1.N) (h0 : ¬t.val % 4 = 0) (h1 : t.val % 4 = 3) (xs : Vec F S1024x32 .f32) :=
  runC (F := F) c (grid1.coords t) (ms0 t) (hs0 t) (ms1 t) (hs1 t) (ms2 t) (hs2 t) scM (Memref.isWhole_whole _) (fun h => h0 ((hcond0 t).mp h)) ((hcond1 t).mpr h1) (iblk V c 0 t) (iblk V c 1 t) xs

/-- A list of stored pieces read back as contents: of the result tile, of the accumulator. -/
def rdO (L : List (View.Piece (Elt F) S1024x32 .f32)) : Vec F S1024x32 .f32 := VO.read (Elt F) (VO.writes (Elt F) VO.junk L)
def rdS (L : List (View.Piece (Elt F) S1024x32 .f32)) : Vec F S1024x32 .f32 := VS.read (Elt F) (VS.writes (Elt F) VS.junk L)

/-! ## Each run's stores cover the buffers they fill -/

theorem coverA_S (c : Dev nD) (t : Fin cfg1.N) (h0 : t.val % 4 = 0) (h1 : ¬t.val % 4 = 3) (y : S1024x32.Idx) :
    ∃ pc ∈ (atA V c t h0 h1).1, y ∈ pc.1.set :=
  View.cover_of_tiledL (atA V c t h0 h1).1 S1024x32.size (by unfold atA; sl_kernel_rfl) y
theorem coverB_S (c : Dev nD) (t : Fin cfg1.N) (h0 : ¬t.val % 4 = 0) (h1 : ¬t.val % 4 = 3) (xs : Vec F S1024x32 .f32) (y : S1024x32.Idx) :
    ∃ pc ∈ (atB V c t h0 h1 xs).1, y ∈ pc.1.set :=
  View.cover_of_tiledL (atB V c t h0 h1 xs).1 S1024x32.size (by unfold atB; sl_kernel_rfl) y
theorem coverC_O (c : Dev nD) (t : Fin cfg1.N) (h0 : ¬t.val % 4 = 0) (h1 : t.val % 4 = 3) (xs : Vec F S1024x32 .f32) (y : S1024x32.Idx) :
    ∃ pc ∈ (atC V c t h0 h1 xs).1, y ∈ pc.1.set :=
  View.cover_of_tiledL (atC V c t h0 h1 xs).1 S1024x32.size (by unfold atC; sl_kernel_rfl) y
theorem coverC_S (c : Dev nD) (t : Fin cfg1.N) (h0 : ¬t.val % 4 = 0) (h1 : t.val % 4 = 3) (xs : Vec F S1024x32 .f32) (y : S1024x32.Idx) :
    ∃ pc ∈ (atC V c t h0 h1 xs).2.1, y ∈ pc.1.set :=
  View.cover_of_tiledL (atC V c t h0 h1 xs).2.1 S1024x32.size (by unfold atC; sl_kernel_rfl) y

/-! ## What the buffers hold after each point -/

/-- After point `n`: the result tile's buffer, then the accumulator. The result tile's buffer matters only at the last
    column tile; elsewhere its entry is a placeholder nothing reads. -/
def outsAt (c : Dev nD) : (n : ℕ) → n < cfg1.N → Vec F S1024x32 .f32 × Vec F S1024x32 .f32
  | 0, hn => (rdO [], rdS (atA V c ⟨0, hn⟩ (Nat.zero_mod 4) (by show ¬(0 % 4 = 3); decide)).1)
  | n + 1, hn =>
    if h0 : (n + 1) % 4 = 0 then
      if h1 : (n + 1) % 4 = 3 then False.elim (by omega)
      else (rdO [], rdS (atA V c ⟨n + 1, hn⟩ h0 h1).1)
    else
      if h1 : (n + 1) % 4 = 3 then
        (rdO (atC V c ⟨n + 1, hn⟩ h0 h1 (outsAt c n (Nat.lt_of_succ_lt hn)).2).1,
         rdS (atC V c ⟨n + 1, hn⟩ h0 h1 (outsAt c n (Nat.lt_of_succ_lt hn)).2).2.1)
      else
        (rdO [], rdS (atB V c ⟨n + 1, hn⟩ h0 h1 (outsAt c n (Nat.lt_of_succ_lt hn)).2).1)

/-- The accumulator the point before `t` left. -/
abbrev prevS (c : Dev nD) (t : Fin cfg1.N) : Vec F S1024x32 .f32 :=
  (outsAt V c (t.val - 1) (Nat.lt_of_le_of_lt (Nat.sub_le _ _) t.isLt)).2

theorem outsAt_A (c : Dev nD) (t : Fin cfg1.N) (h0 : t.val % 4 = 0) (h1 : ¬t.val % 4 = 3) :
    outsAt V c t.val t.isLt = (rdO [], rdS (atA V c t h0 h1).1) := by
  obtain ⟨n, hn⟩ := t
  cases n with
  | zero => exact rfl
  | succ n => exact (dif_pos h0).trans ((dif_neg h1).trans rfl)

theorem outsAt_B (c : Dev nD) (t : Fin cfg1.N) (h0 : ¬t.val % 4 = 0) (h1 : ¬t.val % 4 = 3) :
    outsAt V c t.val t.isLt = (rdO [], rdS (atB V c t h0 h1 (prevS V c t)).1) := by
  obtain ⟨n, hn⟩ := t
  cases n with
  | zero => exact absurd (Nat.zero_mod 4) h0
  | succ n => exact (dif_neg h0).trans ((dif_neg h1).trans rfl)

theorem outsAt_C (c : Dev nD) (t : Fin cfg1.N) (h0 : ¬t.val % 4 = 0) (h1 : t.val % 4 = 3) :
    outsAt V c t.val t.isLt = (rdO (atC V c t h0 h1 (prevS V c t)).1, rdS (atC V c t h0 h1 (prevS V c t)).2.1) := by
  obtain ⟨n, hn⟩ := t
  cases n with
  | zero => exact absurd (Nat.zero_mod 4) h0
  | succ n => exact (dif_neg h0).trans ((dif_pos h1).trans rfl)

/-! ## The invariant between points -/

/-- Before the first point: the call's own buffers at anything. Before any later point: the accumulator at what the
    point before left, beside a remainder that takes the accumulator back at any contents. -/
def PhiS (c : Dev nD) : (n : ℕ) → n ≤ cfg1.N → sProp 𝕄
  | 0, _ => (Pipeline.ΦA spec1 c : sProp 𝕄)
  | n + 1, hn => iprop(owns (c : Thread nD τ) scM fullShare (outsAt V c n hn).2
      ∗ (iprop(∃ d, owns (c : Thread nD τ) scM fullShare d) -∗ (Pipeline.ΦA spec1 c : sProp 𝕄)))

theorem PhiS_zero (c : Dev nD) (n : ℕ) (h : n ≤ cfg1.N) (hz : n = 0) : PhiS V c n h = (Pipeline.ΦA spec1 c : sProp 𝕄) := by
  subst hz; rfl
theorem PhiS_succ (c : Dev nD) (n : ℕ) (hn : n < cfg1.N) :
    PhiS V c (n + 1) hn = iprop(owns (c : Thread nD τ) scM fullShare (outsAt V c n hn).2
      ∗ (iprop(∃ d, owns (c : Thread nD τ) scM fullShare d) -∗ (Pipeline.ΦA spec1 c : sProp 𝕄))) := rfl
theorem PhiS_pos (c : Dev nD) (n : ℕ) (h : n ≤ cfg1.N) (hz : n ≠ 0) :
    PhiS V c n h = iprop(owns (c : Thread nD τ) scM fullShare (outsAt V c (n - 1) (by omega)).2
      ∗ (iprop(∃ d, owns (c : Thread nD τ) scM fullShare d) -∗ (Pipeline.ΦA spec1 c : sProp 𝕄))) := by
  cases n with
  | zero => exact absurd rfl hz
  | succ n => rfl

/-! ## The proof data -/

/-- The arrays as the call finds them; after the body at point `t` the inputs' buffers at their blocks and the result
    tile's at `outsAt`; the invariant `PhiS`; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by dsimp only [dat]
theorem PhiS_castSucc (c : Dev nD) (t : Fin cfg1.N) : (dat V c).Φ t.castSucc = PhiS V c t.val (Nat.le_of_lt t.isLt) := by
  dsimp only [dat]; simp only [Fin.coe_castSucc]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_o (c : Dev nD) (t : Fin cfg1.N) : (dat V c).after 2 t = (outsAt V c t.val t.isLt).1 := by dsimp only [dat]
theorem before_0 (c : Dev nD) (t : Fin cfg1.N) (d) : (dat V c).before 0 t d = iblk V c 0 t :=
  before_in0_of V (dat V c) (A_eq V c 0) (after_0 V c) t d
theorem before_1 (c : Dev nD) (t : Fin cfg1.N) (d) : (dat V c).before 1 t d = iblk V c 1 t :=
  before_in1_of V (dat V c) (A_eq V c 1) (after_1 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The inputs' buffers hold their blocks; the point's position among the column tiles says which
    case it is in; the invariant hands the body the accumulator at what the point before left (at anything at the very
    first point) and takes it back at this point's contents; nothing is owed throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg1.N = 32 from N_1)
  rw [show (dat V c).leavesExact 0 t = owns (c : Thread nD τ) (ms0 t) fullShare ((dat V c).after 0 t) from by
    unfold Dat.leavesExact; rw [live_0 t], after_0]
  rw [show (dat V c).leavesExact 1 t = owns (c : Thread nD τ) (ms1 t) fullShare ((dat V c).after 1 t) from by
    unfold Dat.leavesExact; rw [live_1 t], after_1]
  by_cases h0 : t.val % 4 = 0
  · have h1 : ¬t.val % 4 = 3 := by omega
    rw [Dat.leavesExact_idle (dat V c) 2 t (idle_o t (fun h => h1 ((hcond1 t).mp h))) (noFlush_o t (fun h => h1 ((hcond1 t).mp h)))]
    rw [outsAt_A V c t h0 h1]
    unfold rdS; dsimp only
    by_cases hz : t.val = 0
    · rw [PhiS_castSucc V c t, PhiS_zero V c _ _ hz]
      iintro ⟨HΦ, Ho, ⟨%d0, H0⟩, ⟨%d1, H1⟩, ⟨%dO, HO⟩⟩
      ihave HΦ' := (PhiA_split (F := F) c) $$ HΦ
      icases HΦ' with ⟨HS, HW⟩
      iapply ((atA V c t h0 h1).2 _ Set.univ _)
      isplitl [H0]; · iexact H0
      isplitl [H1]; · iexact H1
      isplitl [HO]; · iexact HO
      isplitl [HS]; · iexact HS
      iintro ⟨H0, H1, HO, ⟨%es, HS⟩⟩
      isplitl [HS HW]
      · isplitl [HS]
        · unfold owns; iexists _; isplitr
          swap; · iexact HS
          ipureintro; exact View.read_writes_of_cover _ _ _ _ _ (coverA_S V c t h0 h1)
        iexact HW
      isplitl [Ho]; · iexact Ho
      isplitl [H0]; · iexact H0
      isplitl [H1]; · iexact H1
      iexists _; iexact HO
    · rw [PhiS_castSucc V c t, PhiS_pos V c _ _ hz]
      iintro ⟨⟨HS, HW⟩, Ho, ⟨%d0, H0⟩, ⟨%d1, H1⟩, ⟨%dO, HO⟩⟩
      iapply ((atA V c t h0 h1).2 _ Set.univ _)
      isplitl [H0]; · iexact H0
      isplitl [H1]; · iexact H1
      isplitl [HO]; · iexact HO
      isplitl [HS]; · iexists _; iexact HS
      iintro ⟨H0, H1, HO, ⟨%es, HS⟩⟩
      isplitl [HS HW]
      · isplitl [HS]
        · unfold owns; iexists _; isplitr
          swap; · iexact HS
          ipureintro; exact View.read_writes_of_cover _ _ _ _ _ (coverA_S V c t h0 h1)
        iexact HW
      isplitl [Ho]; · iexact Ho
      isplitl [H0]; · iexact H0
      isplitl [H1]; · iexact H1
      iexists _; iexact HO
  · have hz : t.val ≠ 0 := fun e => h0 (by rw [e])
    by_cases h1 : t.val % 4 = 3
    · rw [show (dat V c).leavesExact 2 t = owns (c : Thread nD τ) (ms2 t) fullShare ((dat V c).after 2 t) from by
        unfold Dat.leavesExact; rw [live_o t ((hcond1 t).mpr h1)], after_o]
      rw [outsAt_C V c t h0 h1]
      unfold rdO rdS; dsimp only
      rw [PhiS_castSucc V c t, PhiS_pos V c _ _ hz]
      iintro ⟨⟨HS, HW⟩, Ho, ⟨%d0, H0⟩, ⟨%d1, H1⟩, ⟨%dO, HO⟩⟩
      iapply ((atC V c t h0 h1 _).2.2 Set.univ _)
      isplitl [H0]; · iexact H0
      isplitl [H1]; · iexact H1
      isplitl [HO]; · iexists _; iexact HO
      isplitl [HS]; · iexact HS
      iintro ⟨H0, H1, ⟨%eO, HO⟩, ⟨%es, HS⟩⟩
      isplitl [HS HW]
      · isplitl [HS]
        · unfold owns; iexists _; isplitr
          swap; · iexact HS
          ipureintro; exact View.read_writes_of_cover _ _ _ _ _ (coverC_S V c t h0 h1 _)
        iexact HW
      isplitl [Ho]; · iexact Ho
      isplitl [H0]; · iexact H0
      isplitl [H1]; · iexact H1
      unfold owns; iexists _; isplitr
      swap; · iexact HO
      ipureintro; exact View.read_writes_of_cover _ _ _ _ _ (coverC_O V c t h0 h1 _)
    · rw [Dat.leavesExact_idle (dat V c) 2 t (idle_o t (fun h => h1 ((hcond1 t).mp h))) (noFlush_o t (fun h => h1 ((hcond1 t).mp h)))]
      rw [outsAt_B V c t h0 h1]
      unfold rdS; dsimp only
      rw [PhiS_castSucc V c t, PhiS_pos V c _ _ hz]
      iintro ⟨⟨HS, HW⟩, Ho, ⟨%d0, H0⟩, ⟨%d1, H1⟩, ⟨%dO, HO⟩⟩
      iapply ((atB V c t h0 h1 _).2 _ Set.univ _)
      isplitl [H0]; · iexact H0
      isplitl [H1]; · iexact H1
      isplitl [HO]; · iexact HO
      isplitl [HS]; · iexact HS
      iintro ⟨H0, H1, HO, ⟨%es, HS⟩⟩
      isplitl [HS HW]
      · isplitl [HS]
        · unfold owns; iexists _; isplitr
          swap; · iexact HS
          ipureintro; exact View.read_writes_of_cover _ _ _ _ _ (coverB_S V c t h0 h1 _)
        iexact HW
      isplitl [Ho]; · iexact Ho
      isplitl [H0]; · iexact H0
      isplitl [H1]; · iexact H1
      iexists _; iexact HO

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the call is the invariant before the first point. -/
theorem hin (c : Dev nD) : (Pipeline.ΦA spec1 c : sProp 𝕄) ⊢ (dat V c).Φ 0 := by
  rw [show (dat V c).Φ 0 = PhiS V c 0 (Nat.zero_le _) from rfl, PhiS_zero V c 0 _ rfl]
  try exact Idealize.SL.BI.Entails.refl _

/-- After the last point the invariant gives the call's own buffers back, the accumulator's contents forgotten. -/
theorem hout (c : Dev nD) : (dat V c).Φ (Fin.last cfg1.N) ⊢ (Pipeline.ΦA spec1 c : sProp 𝕄) := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 32 := N_1; omega)]
  iintro ⟨HS, HW⟩
  iapply HW
  iexists _; iexact HS

end

end Cert.KernelIdeal.Reg1

end
-- ==== Proof.R2Runs.lean ====
/-
  The third aggregation call, which also applies the two-stage head, point by point. Its grid is 8 row tiles by 4 column tiles of the adjacency matrix, the
  column tile fastest: point t works on row tile t / 4 and column tile t % 4. At column tile 0 the body clears its
  accumulator; at every point it adds the product of the adjacency tile with the matching 2048 rows of the features to the
  accumulator; at column tile 3 it stores the row tile's result, computed from the accumulator. So a point falls in
  one of three cases (first, middle, last column tile), and this module runs the body once per case on whole staging
  buffers: what each run leaves in the buffers it stores into is found by the run itself, as a list of stored pieces.
-/
import proofs.«125076_j18348100288854_2_alg».proof.Proof.Gen.KernelIdeal.Launch
import proofs.«125076_j18348100288854_2_alg».proof.Proof.Gen.KernelIdeal.Skeleton
import proofs.«125076_j18348100288854_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the call finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's buffer holds its block at every point, for any proof data over these arrays whose body leaves
    the block in place. -/
theorem before_in0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's buffer holds its block at every point, for any proof data over these arrays whose body leaves
    the block in place. -/
theorem before_in1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's buffer holds its block at every point, for any proof data over these arrays whose body leaves
    the block in place. -/
theorem before_in2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's buffer holds its block at every point, for any proof data over these arrays whose body leaves
    the block in place. -/
theorem before_in3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's buffer holds its block at every point, for any proof data over these arrays whose body leaves
    the block in place. -/
theorem before_in4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's buffer holds its block at every point, for any proof data over these arrays whose body leaves
    the block in place. -/
theorem before_in5_of {c : Dev nD} (dat : Dat τ (Elt F) Unit ℕ (UR sig nD τ) ℕ cfg2 c) (hA : dat.A 5 = V c (Pipeline.arrRef spec2 5))
    (hafter : ∀ t, dat.after 5 t = iblk V c 5 t) (t : Fin cfg2.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

end

/-! ## The two branch conditions, decided over the grid -/

/-- "The column tile is the first one". -/
abbrev cond0 (i : grid2.Coords) : Prop := (Scalar.cmpi .ne (Scalar.extui (Scalar.cmpi .eq (BitVec.ofNat 32 (i 1).val) 0#32)) 0#32) = 1#1
theorem hcond0 : ∀ t : Fin cfg2.N, cond0 (grid2.coords t) ↔ t.val % 4 = 0 :=
  (by decide +kernel : ∀ t : Fin grid2.N, cond0 (grid2.coords t) ↔ t.val % 4 = 0)
/-- "The column tile is the last one". -/
abbrev cond1 (i : grid2.Coords) : Prop := k2_cond2 i = 1#1
theorem hcond1 : ∀ t : Fin cfg2.N, cond1 (grid2.coords t) ↔ t.val % 4 = 3 :=
  (by decide +kernel : ∀ t : Fin grid2.N, cond1 (grid2.coords t) ↔ t.val % 4 = 3)

/-! ## Where the result window is idle: everywhere but at the last column tile -/

theorem live_0 : ∀ t : Fin cfg2.N, cfg2.idle 0 (grid2.coords t) = false := by decide +kernel
theorem live_1 : ∀ t : Fin cfg2.N, cfg2.idle 1 (grid2.coords t) = false := by decide +kernel
theorem live_2 : ∀ t : Fin cfg2.N, cfg2.idle 2 (grid2.coords t) = false := by decide +kernel
theorem live_3 : ∀ t : Fin cfg2.N, cfg2.idle 3 (grid2.coords t) = false := by decide +kernel
theorem live_4 : ∀ t : Fin cfg2.N, cfg2.idle 4 (grid2.coords t) = false := by decide +kernel
theorem live_5 : ∀ t : Fin cfg2.N, cfg2.idle 5 (grid2.coords t) = false := by decide +kernel
theorem idle_o : ∀ t : Fin cfg2.N, ¬cond1 (grid2.coords t) → cfg2.idle 6 (grid2.coords t) = true := by decide +kernel
theorem noFlush_o : ∀ t : Fin cfg2.N, ¬cond1 (grid2.coords t) → (cfg2.win 6).flush t = false := by decide +kernel
theorem live_o : ∀ t : Fin cfg2.N, cond1 (grid2.coords t) → cfg2.idle 6 (grid2.coords t) = false := by decide +kernel

/-! ## The buffers the body is called on -/

abbrev ms0 (t : Fin cfg2.N) : Memref sig .tc .vmem S1024x2048 .bf16 := win2_0.stage (cfg2.slots t 0)
abbrev hs0 (t : Fin cfg2.N) : (ms0 t).IsWhole := hstage2_0 ((cfg2.slots t 0).cast nbuf2_0)
abbrev ms1 (t : Fin cfg2.N) : Memref sig .tc .vmem S8192x64 .bf16 := win2_1.stage (cfg2.slots t 1)
abbrev hs1 (t : Fin cfg2.N) : (ms1 t).IsWhole := hstage2_1 ((cfg2.slots t 1).cast nbuf2_1)
abbrev ms2 (t : Fin cfg2.N) : Memref sig .tc .vmem S64x32 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S1x32 .f32 := win2_3.stage (cfg2.slots t 3)
abbrev hs3 (t : Fin cfg2.N) : (ms3 t).IsWhole := hstage2_3 ((cfg2.slots t 3).cast nbuf2_3)
abbrev ms4 (t : Fin cfg2.N) : Memref sig .tc .vmem S32x10 .f32 := win2_4.stage (cfg2.slots t 4)
abbrev hs4 (t : Fin cfg2.N) : (ms4 t).IsWhole := hstage2_4 ((cfg2.slots t 4).cast nbuf2_4)
abbrev ms5 (t : Fin cfg2.N) : Memref sig .tc .vmem S1x10 .f32 := win2_5.stage (cfg2.slots t 5)
abbrev hs5 (t : Fin cfg2.N) : (ms5 t).IsWhole := hstage2_5 ((cfg2.slots t 5).cast nbuf2_5)
abbrev ms6 (t : Fin cfg2.N) : Memref sig .tc .vmem S1024x10 .f32 := win2_6.stage (cfg2.slots t 6)
abbrev hs6 (t : Fin cfg2.N) : (ms6 t).IsWhole := hstage2_6 ((cfg2.slots t 6).cast nbuf2_6)
/-- The accumulator: a buffer of the call's own, kept from point to point. -/
abbrev scM : Memref sig .tc .vmem S1024x64 .f32 := Memref.whole cc2_scratch0
/-- Views through which the contents of the result tile and of the accumulator are stated. -/
abbrev VO : View sig .tc .vmem S1024x10 .f32 := (Memref.whole cc2_stg6_0 : Memref sig .tc .vmem S1024x10 .f32).view
abbrev VS : View sig .tc .vmem S1024x64 .f32 := scM.view

/-- What the call's own buffers are, beside the windows' staging buffers: the accumulator at some contents, and a
    remainder that takes the accumulator back at any contents. -/
theorem PhiA_split (c : Dev nD) :
    (Pipeline.ΦA spec2 c : sProp 𝕄) ⊢ iprop((∃ d, owns (c : Thread nD τ) scM fullShare d)
      ∗ (iprop(∃ d, owns (c : Thread nD τ) scM fullShare d) -∗ (Pipeline.ΦA spec2 c : sProp 𝕄))) := by
  unfold Pipeline.ΦA; rw [scopedRest2_eq]; simp only [scM, owns_whole]
  iintro ⟨⟨G0, G1, G2, G3, G4, G5, G6, G7, G8, G9, G10, G11, G12, G13, HS⟩, Hp⟩
  isplitl [HS]; · iexact HS
  iintro HS'
  isplitl [HS' G0 G1 G2 G3 G4 G5 G6 G7 G8 G9 G10 G11 G12 G13]
  ·
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    isplitl [G13]; · iexact G13
    iexact HS'
  iexact Hp

/-! ## The body, case by case -/

set_option maxHeartbeats 4000000 in
/-- FIRST column tile: the accumulator is cleared, then holds the first product; the result tile is not touched. -/
noncomputable def runA (c : Dev nD) (i : grid2.Coords)
    (arg2 : Memref sig .tc .vmem S1024x2048 .bf16) (harg2 : arg2.IsWhole) (arg3 : Memref sig .tc .vmem S8192x64 .bf16) (harg3 : arg3.IsWhole) (arg4 : Memref sig .tc .vmem S64x32 .f32) (harg4 : arg4.IsWhole) (arg5 : Memref sig .tc .vmem S1x32 .f32) (harg5 : arg5.IsWhole) (arg6 : Memref sig .tc .vmem S32x10 .f32) (harg6 : arg6.IsWhole) (arg7 : Memref sig .tc .vmem S1x10 .f32) (harg7 : arg7.IsWhole) (arg8 : Memref sig .tc .vmem S1024x10 .f32) (harg8 : arg8.IsWhole) (arg9 : Memref sig .tc .vmem S1024x64 .f32) (harg9 : arg9.IsWhole) (hc0 : cond0 i) (hc1 : ¬cond1 i)
    (x0 : Vec F S1024x2048 .bf16) (x1 : Vec F S8192x64 .bf16) (x2 : Vec F S64x32 .f32) (x3 : Vec F S1x32 .f32) (x4 : Vec F S32x10 .f32) (x5 : Vec F S1x10 .f32) :
    { LS : List (View.Piece (Elt F) S1024x64 .f32) //
      ∀ (xi : Vec F S1024x10 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi
            ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi
                ∗ (∃ f, arg9.view.loc (c : Thread nD τ) ↦[arg9.view.set]{fullShare} arg9.view.writes (Elt F) f LS)) -∗ K ⟨⟩))
          ⊢ wp frame (wpE (defs₀ (F := F)) Variants.none c none) E (cc2__final_kernel i arg2 harg2 arg3 harg3 arg4 harg4 arg5 harg5 arg6 harg6 arg7 harg7 arg8 harg8 arg9 harg9) K } := by
  refine ⟨?_, fun xi E K => ?run⟩
  case run =>
    simp only [cc2__final_kernel_eq_skeleton]; unfold cc2__final_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fo, %hfo, HO⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfo
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HO]
    · iexists _; isplitr; · ipureintro; exact harg8.read_unread _
      iexact HO
    iexists _; iexact HS

set_option maxHeartbeats 4000000 in
/-- A MIDDLE column tile: the accumulator, found at `xs`, gains one more product; the result tile is not touched. -/
noncomputable def runB (c : Dev nD) (i : grid2.Coords)
    (arg2 : Memref sig .tc .vmem S1024x2048 .bf16) (harg2 : arg2.IsWhole) (arg3 : Memref sig .tc .vmem S8192x64 .bf16) (harg3 : arg3.IsWhole) (arg4 : Memref sig .tc .vmem S64x32 .f32) (harg4 : arg4.IsWhole) (arg5 : Memref sig .tc .vmem S1x32 .f32) (harg5 : arg5.IsWhole) (arg6 : Memref sig .tc .vmem S32x10 .f32) (harg6 : arg6.IsWhole) (arg7 : Memref sig .tc .vmem S1x10 .f32) (harg7 : arg7.IsWhole) (arg8 : Memref sig .tc .vmem S1024x10 .f32) (harg8 : arg8.IsWhole) (arg9 : Memref sig .tc .vmem S1024x64 .f32) (harg9 : arg9.IsWhole) (hc0 : ¬cond0 i) (hc1 : ¬cond1 i)
    (x0 : Vec F S1024x2048 .bf16) (x1 : Vec F S8192x64 .bf16) (x2 : Vec F S64x32 .f32) (x3 : Vec F S1x32 .f32) (x4 : Vec F S32x10 .f32) (x5 : Vec F S1x10 .f32) (xs : Vec F S1024x64 .f32) :
    { LS : List (View.Piece (Elt F) S1024x64 .f32) //
      ∀ (xi : Vec F S1024x10 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi
            ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi
                ∗ (∃ f, arg9.view.loc (c : Thread nD τ) ↦[arg9.view.set]{fullShare} arg9.view.writes (Elt F) f LS)) -∗ K ⟨⟩))
          ⊢ wp frame (wpE (defs₀ (F := F)) Variants.none c none) E (cc2__final_kernel i arg2 harg2 arg3 harg3 arg4 harg4 arg5 harg5 arg6 harg6 arg7 harg7 arg8 harg8 arg9 harg9) K } := by
  refine ⟨?_, fun xi E K => ?run⟩
  case run =>
    simp only [cc2__final_kernel_eq_skeleton]; unfold cc2__final_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fo, %hfo, HO⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfo; obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HO]
    · iexists _; isplitr; · ipureintro; exact harg8.read_unread _
      iexact HO
    iexists _; iexact HS

set_option maxHeartbeats 4000000 in
/-- The LAST column tile: the accumulator, found at `xs`, gains the last product, and the result tile is stored,
    computed from the accumulator. -/
noncomputable def runC (c : Dev nD) (i : grid2.Coords)
    (arg2 : Memref sig .tc .vmem S1024x2048 .bf16) (harg2 : arg2.IsWhole) (arg3 : Memref sig .tc .vmem S8192x64 .bf16) (harg3 : arg3.IsWhole) (arg4 : Memref sig .tc .vmem S64x32 .f32) (harg4 : arg4.IsWhole) (arg5 : Memref sig .tc .vmem S1x32 .f32) (harg5 : arg5.IsWhole) (arg6 : Memref sig .tc .vmem S32x10 .f32) (harg6 : arg6.IsWhole) (arg7 : Memref sig .tc .vmem S1x10 .f32) (harg7 : arg7.IsWhole) (arg8 : Memref sig .tc .vmem S1024x10 .f32) (harg8 : arg8.IsWhole) (arg9 : Memref sig .tc .vmem S1024x64 .f32) (harg9 : arg9.IsWhole) (hc0 : ¬cond0 i) (hc1 : cond1 i)
    (x0 : Vec F S1024x2048 .bf16) (x1 : Vec F S8192x64 .bf16) (x2 : Vec F S64x32 .f32) (x3 : Vec F S1x32 .f32) (x4 : Vec F S32x10 .f32) (x5 : Vec F S1x10 .f32) (xs : Vec F S1024x64 .f32) :
    Σ' (LO : List (View.Piece (Elt F) S1024x10 .f32)), { LS : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
            ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f LO)
                ∗ (∃ f, arg9.view.loc (c : Thread nD τ) ↦[arg9.view.set]{fullShare} arg9.view.writes (Elt F) f LS)) -∗ K ⟨⟩))
          ⊢ wp frame (wpE (defs₀ (F := F)) Variants.none c none) E (cc2__final_kernel i arg2 harg2 arg3 harg3 arg4 harg4 arg5 harg5 arg6 harg6 arg7 harg7 arg8 harg8 arg9 harg9) K } := by
  refine ⟨?_, ?_, fun E K => ?run⟩
  case run =>
    simp only [cc2__final_kernel_eq_skeleton]; unfold cc2__final_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fo, -, HO⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HO]; · iexists _; iexact HO
    iexists _; iexact HS

end Cert.KernelIdeal.Reg2

end
-- ==== Proof.R2Frame.lean ====
/-
  The third aggregation call, which also applies the two-stage head as a whole: what its accumulator and its result tile hold after each of the 32 points, by
  recursion on the point (the accumulator restarts at every first column tile and otherwise continues from the point
  before), the invariant that carries the accumulator from one point to the next, and the body's obligation at every
  point, each point taken in its case.
-/
import proofs.«125076_j18348100288854_2_alg».proof.Proof.R2Runs

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The three runs at a point of the grid -/

/-- The run of the first-column-tile case at point `t`, on the point's buffers and blocks. -/
def atA (c : Dev nD) (t : Fin cfg2.N) (h0 : t.val % 4 = 0) (h1 : ¬t.val % 4 = 3) :=
  runA (F := F) c (grid2.coords t) (ms0 t) (hs0 t) (ms1 t) (hs1 t) (ms2 t) (hs2 t) (ms3 t) (hs3 t) (ms4 t) (hs4 t) (ms5 t) (hs5 t) (ms6 t) (hs6 t) scM (Memref.isWhole_whole _) ((hcond0 t).mpr h0) (fun h => h1 ((hcond1 t).mp h)) (iblk V c 0 t) (iblk V c 1 t) (iblk V c 2 t) (iblk V c 3 t) (iblk V c 4 t) (iblk V c 5 t)
/-- The run of the middle case at point `t`, the accumulator found at `xs`. -/
def atB (c : Dev nD) (t : Fin cfg2.N) (h0 : ¬t.val % 4 = 0) (h1 : ¬t.val % 4 = 3) (xs : Vec F S1024x64 .f32) :=
  runB (F := F) c (grid2.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcond0 t).mp h)) (fun h => h1 ((hcond1 t).mp h)) (iblk V c 0 t) (iblk V c 1 t) (iblk V c 2 t) (iblk V c 3 t) (iblk V c 4 t) (iblk V c 5 t) xs
/-- The run of the last-column-tile case at point `t`, the accumulator found at `xs`. -/
def atC (c : Dev nD) (t : Fin cfg2.N) (h0 : ¬t.val % 4 = 0) (h1 : t.val % 4 = 3) (xs : Vec F S1024x64 .f32) :=
  runC (F := F) c (grid2.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcond0 t).mp h)) ((hcond1 t).mpr h1) (iblk V c 0 t) (iblk V c 1 t) (iblk V c 2 t) (iblk V c 3 t) (iblk V c 4 t) (iblk V c 5 t) xs

/-- A list of stored pieces read back as contents: of the result tile, of the accumulator. -/
def rdO (L : List (View.Piece (Elt F) S1024x10 .f32)) : Vec F S1024x10 .f32 := VO.read (Elt F) (VO.writes (Elt F) VO.junk L)
def rdS (L : List (View.Piece (Elt F) S1024x64 .f32)) : Vec F S1024x64 .f32 := VS.read (Elt F) (VS.writes (Elt F) VS.junk L)

/-! ## Each run's stores cover the buffers they fill -/

theorem coverA_S (c : Dev nD) (t : Fin cfg2.N) (h0 : t.val % 4 = 0) (h1 : ¬t.val % 4 = 3) (y : S1024x64.Idx) :
    ∃ pc ∈ (atA V c t h0 h1).1, y ∈ pc.1.set :=
  View.cover_of_tiledL (atA V c t h0 h1).1 S1024x64.size (by unfold atA; sl_kernel_rfl) y
theorem coverB_S (c : Dev nD) (t : Fin cfg2.N) (h0 : ¬t.val % 4 = 0) (h1 : ¬t.val % 4 = 3) (xs : Vec F S1024x64 .f32) (y : S1024x64.Idx) :
    ∃ pc ∈ (atB V c t h0 h1 xs).1, y ∈ pc.1.set :=
  View.cover_of_tiledL (atB V c t h0 h1 xs).1 S1024x64.size (by unfold atB; sl_kernel_rfl) y
theorem coverC_O (c : Dev nD) (t : Fin cfg2.N) (h0 : ¬t.val % 4 = 0) (h1 : t.val % 4 = 3) (xs : Vec F S1024x64 .f32) (y : S1024x10.Idx) :
    ∃ pc ∈ (atC V c t h0 h1 xs).1, y ∈ pc.1.set :=
  View.cover_of_tiledL (atC V c t h0 h1 xs).1 S1024x10.size (by unfold atC; sl_kernel_rfl) y
theorem coverC_S (c : Dev nD) (t : Fin cfg2.N) (h0 : ¬t.val % 4 = 0) (h1 : t.val % 4 = 3) (xs : Vec F S1024x64 .f32) (y : S1024x64.Idx) :
    ∃ pc ∈ (atC V c t h0 h1 xs).2.1, y ∈ pc.1.set :=
  View.cover_of_tiledL (atC V c t h0 h1 xs).2.1 S1024x64.size (by unfold atC; sl_kernel_rfl) y

/-! ## What the buffers hold after each point -/

/-- After point `n`: the result tile's buffer, then the accumulator. The result tile's buffer matters only at the last
    column tile; elsewhere its entry is a placeholder nothing reads. -/
def outsAt (c : Dev nD) : (n : ℕ) → n < cfg2.N → Vec F S1024x10 .f32 × Vec F S1024x64 .f32
  | 0, hn => (rdO [], rdS (atA V c ⟨0, hn⟩ (Nat.zero_mod 4) (by show ¬(0 % 4 = 3); decide)).1)
  | n + 1, hn =>
    if h0 : (n + 1) % 4 = 0 then
      if h1 : (n + 1) % 4 = 3 then False.elim (by omega)
      else (rdO [], rdS (atA V c ⟨n + 1, hn⟩ h0 h1).1)
    else
      if h1 : (n + 1) % 4 = 3 then
        (rdO (atC V c ⟨n + 1, hn⟩ h0 h1 (outsAt c n (Nat.lt_of_succ_lt hn)).2).1,
         rdS (atC V c ⟨n + 1, hn⟩ h0 h1 (outsAt c n (Nat.lt_of_succ_lt hn)).2).2.1)
      else
        (rdO [], rdS (atB V c ⟨n + 1, hn⟩ h0 h1 (outsAt c n (Nat.lt_of_succ_lt hn)).2).1)

/-- The accumulator the point before `t` left. -/
abbrev prevS (c : Dev nD) (t : Fin cfg2.N) : Vec F S1024x64 .f32 :=
  (outsAt V c (t.val - 1) (Nat.lt_of_le_of_lt (Nat.sub_le _ _) t.isLt)).2

theorem outsAt_A (c : Dev nD) (t : Fin cfg2.N) (h0 : t.val % 4 = 0) (h1 : ¬t.val % 4 = 3) :
    outsAt V c t.val t.isLt = (rdO [], rdS (atA V c t h0 h1).1) := by
  obtain ⟨n, hn⟩ := t
  cases n with
  | zero => exact rfl
  | succ n => exact (dif_pos h0).trans ((dif_neg h1).trans rfl)

theorem outsAt_B (c : Dev nD) (t : Fin cfg2.N) (h0 : ¬t.val % 4 = 0) (h1 : ¬t.val % 4 = 3) :
    outsAt V c t.val t.isLt = (rdO [], rdS (atB V c t h0 h1 (prevS V c t)).1) := by
  obtain ⟨n, hn⟩ := t
  cases n with
  | zero => exact absurd (Nat.zero_mod 4) h0
  | succ n => exact (dif_neg h0).trans ((dif_neg h1).trans rfl)

theorem outsAt_C (c : Dev nD) (t : Fin cfg2.N) (h0 : ¬t.val % 4 = 0) (h1 : t.val % 4 = 3) :
    outsAt V c t.val t.isLt = (rdO (atC V c t h0 h1 (prevS V c t)).1, rdS (atC V c t h0 h1 (prevS V c t)).2.1) := by
  obtain ⟨n, hn⟩ := t
  cases n with
  | zero => exact absurd (Nat.zero_mod 4) h0
  | succ n => exact (dif_neg h0).trans ((dif_pos h1).trans rfl)

/-! ## The invariant between points -/

/-- Before the first point: the call's own buffers at anything. Before any later point: the accumulator at what the
    point before left, beside a remainder that takes the accumulator back at any contents. -/
def PhiS (c : Dev nD) : (n : ℕ) → n ≤ cfg2.N → sProp 𝕄
  | 0, _ => (Pipeline.ΦA spec2 c : sProp 𝕄)
  | n + 1, hn => iprop(owns (c : Thread nD τ) scM fullShare (outsAt V c n hn).2
      ∗ (iprop(∃ d, owns (c : Thread nD τ) scM fullShare d) -∗ (Pipeline.ΦA spec2 c : sProp 𝕄)))

theorem PhiS_zero (c : Dev nD) (n : ℕ) (h : n ≤ cfg2.N) (hz : n = 0) : PhiS V c n h = (Pipeline.ΦA spec2 c : sProp 𝕄) := by
  subst hz; rfl
theorem PhiS_succ (c : Dev nD) (n : ℕ) (hn : n < cfg2.N) :
    PhiS V c (n + 1) hn = iprop(owns (c : Thread nD τ) scM fullShare (outsAt V c n hn).2
      ∗ (iprop(∃ d, owns (c : Thread nD τ) scM fullShare d) -∗ (Pipeline.ΦA spec2 c : sProp 𝕄))) := rfl
theorem PhiS_pos (c : Dev nD) (n : ℕ) (h : n ≤ cfg2.N) (hz : n ≠ 0) :
    PhiS V c n h = iprop(owns (c : Thread nD τ) scM fullShare (outsAt V c (n - 1) (by omega)).2
      ∗ (iprop(∃ d, owns (c : Thread nD τ) scM fullShare d) -∗ (Pipeline.ΦA spec2 c : sProp 𝕄))) := by
  cases n with
  | zero => exact absurd rfl hz
  | succ n => rfl

/-! ## The proof data -/

/-- The arrays as the call finds them; after the body at point `t` the inputs' buffers at their blocks and the result
    tile's at `outsAt`; the invariant `PhiS`; nothing owed. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by dsimp only [dat]
theorem PhiS_castSucc (c : Dev nD) (t : Fin cfg2.N) : (dat V c).Φ t.castSucc = PhiS V c t.val (Nat.le_of_lt t.isLt) := by
  dsimp only [dat]; simp only [Fin.coe_castSucc]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = iblk V c 5 t := by dsimp only [dat]
theorem after_o (c : Dev nD) (t : Fin cfg2.N) : (dat V c).after 6 t = (outsAt V c t.val t.isLt).1 := by dsimp only [dat]
theorem before_0 (c : Dev nD) (t : Fin cfg2.N) (d) : (dat V c).before 0 t d = iblk V c 0 t :=
  before_in0_of V (dat V c) (A_eq V c 0) (after_0 V c) t d
theorem before_1 (c : Dev nD) (t : Fin cfg2.N) (d) : (dat V c).before 1 t d = iblk V c 1 t :=
  before_in1_of V (dat V c) (A_eq V c 1) (after_1 V c) t d
theorem before_2 (c : Dev nD) (t : Fin cfg2.N) (d) : (dat V c).before 2 t d = iblk V c 2 t :=
  before_in2_of V (dat V c) (A_eq V c 2) (after_2 V c) t d
theorem before_3 (c : Dev nD) (t : Fin cfg2.N) (d) : (dat V c).before 3 t d = iblk V c 3 t :=
  before_in3_of V (dat V c) (A_eq V c 3) (after_3 V c) t d
theorem before_4 (c : Dev nD) (t : Fin cfg2.N) (d) : (dat V c).before 4 t d = iblk V c 4 t :=
  before_in4_of V (dat V c) (A_eq V c 4) (after_4 V c) t d
theorem before_5 (c : Dev nD) (t : Fin cfg2.N) (d) : (dat V c).before 5 t d = iblk V c 5 t :=
  before_in5_of V (dat V c) (A_eq V c 5) (after_5 V c) t d

/-! ## The body obligation -/

def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

set_option maxHeartbeats 4800000 in
/-- The body at any point. The inputs' buffers hold their blocks; the point's position among the column tiles says which
    case it is in; the invariant hands the body the accumulator at what the point before left (at anything at the very
    first point) and takes it back at this point's contents; nothing is owed throughout. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg2.N = 32 from N_2)
  rw [show (dat V c).leavesExact 0 t = owns (c : Thread nD τ) (ms0 t) fullShare ((dat V c).after 0 t) from by
    unfold Dat.leavesExact; rw [live_0 t], after_0]
  rw [show (dat V c).leavesExact 1 t = owns (c : Thread nD τ) (ms1 t) fullShare ((dat V c).after 1 t) from by
    unfold Dat.leavesExact; rw [live_1 t], after_1]
  rw [show (dat V c).leavesExact 2 t = owns (c : Thread nD τ) (ms2 t) fullShare ((dat V c).after 2 t) from by
    unfold Dat.leavesExact; rw [live_2 t], after_2]
  rw [show (dat V c).leavesExact 3 t = owns (c : Thread nD τ) (ms3 t) fullShare ((dat V c).after 3 t) from by
    unfold Dat.leavesExact; rw [live_3 t], after_3]
  rw [show (dat V c).leavesExact 4 t = owns (c : Thread nD τ) (ms4 t) fullShare ((dat V c).after 4 t) from by
    unfold Dat.leavesExact; rw [live_4 t], after_4]
  rw [show (dat V c).leavesExact 5 t = owns (c : Thread nD τ) (ms5 t) fullShare ((dat V c).after 5 t) from by
    unfold Dat.leavesExact; rw [live_5 t], after_5]
  by_cases h0 : t.val % 4 = 0
  · have h1 : ¬t.val % 4 = 3 := by omega
    rw [Dat.leavesExact_idle (dat V c) 6 t (idle_o t (fun h => h1 ((hcond1 t).mp h))) (noFlush_o t (fun h => h1 ((hcond1 t).mp h)))]
    rw [outsAt_A V c t h0 h1]
    unfold rdS; dsimp only
    by_cases hz : t.val = 0
    · rw [PhiS_castSucc V c t, PhiS_zero V c _ _ hz]
      iintro ⟨HΦ, Ho, ⟨%d0, H0⟩, ⟨%d1, H1⟩, ⟨%d2, H2⟩, ⟨%d3, H3⟩, ⟨%d4, H4⟩, ⟨%d5, H5⟩, ⟨%dO, HO⟩⟩
      ihave HΦ' := (PhiA_split (F := F) c) $$ HΦ
      icases HΦ' with ⟨HS, HW⟩
      iapply ((atA V c t h0 h1).2 _ Set.univ _)
      isplitl [H0]; · iexact H0
      isplitl [H1]; · iexact H1
      isplitl [H2]; · iexact H2
      isplitl [H3]; · iexact H3
      isplitl [H4]; · iexact H4
      isplitl [H5]; · iexact H5
      isplitl [HO]; · iexact HO
      isplitl [HS]; · iexact HS
      iintro ⟨H0, H1, H2, H3, H4, H5, HO, ⟨%es, HS⟩⟩
      isplitl [HS HW]
      · isplitl [HS]
        · unfold owns; iexists _; isplitr
          swap; · iexact HS
          ipureintro; exact View.read_writes_of_cover _ _ _ _ _ (coverA_S V c t h0 h1)
        iexact HW
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact HO
    · rw [PhiS_castSucc V c t, PhiS_pos V c _ _ hz]
      iintro ⟨⟨HS, HW⟩, Ho, ⟨%d0, H0⟩, ⟨%d1, H1⟩, ⟨%d2, H2⟩, ⟨%d3, H3⟩, ⟨%d4, H4⟩, ⟨%d5, H5⟩, ⟨%dO, HO⟩⟩
      iapply ((atA V c t h0 h1).2 _ Set.univ _)
      isplitl [H0]; · iexact H0
      isplitl [H1]; · iexact H1
      isplitl [H2]; · iexact H2
      isplitl [H3]; · iexact H3
      isplitl [H4]; · iexact H4
      isplitl [H5]; · iexact H5
      isplitl [HO]; · iexact HO
      isplitl [HS]; · iexists _; iexact HS
      iintro ⟨H0, H1, H2, H3, H4, H5, HO, ⟨%es, HS⟩⟩
      isplitl [HS HW]
      · isplitl [HS]
        · unfold owns; iexists _; isplitr
          swap; · iexact HS
          ipureintro; exact View.read_writes_of_cover _ _ _ _ _ (coverA_S V c t h0 h1)
        iexact HW
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact HO
  · have hz : t.val ≠ 0 := fun e => h0 (by rw [e])
    by_cases h1 : t.val % 4 = 3
    · rw [show (dat V c).leavesExact 6 t = owns (c : Thread nD τ) (ms6 t) fullShare ((dat V c).after 6 t) from by
        unfold Dat.leavesExact; rw [live_o t ((hcond1 t).mpr h1)], after_o]
      rw [outsAt_C V c t h0 h1]
      unfold rdO rdS; dsimp only
      rw [PhiS_castSucc V c t, PhiS_pos V c _ _ hz]
      iintro ⟨⟨HS, HW⟩, Ho, ⟨%d0, H0⟩, ⟨%d1, H1⟩, ⟨%d2, H2⟩, ⟨%d3, H3⟩, ⟨%d4, H4⟩, ⟨%d5, H5⟩, ⟨%dO, HO⟩⟩
      iapply ((atC V c t h0 h1 _).2.2 Set.univ _)
      isplitl [H0]; · iexact H0
      isplitl [H1]; · iexact H1
      isplitl [H2]; · iexact H2
      isplitl [H3]; · iexact H3
      isplitl [H4]; · iexact H4
      isplitl [H5]; · iexact H5
      isplitl [HO]; · iexists _; iexact HO
      isplitl [HS]; · iexact HS
      iintro ⟨H0, H1, H2, H3, H4, H5, ⟨%eO, HO⟩, ⟨%es, HS⟩⟩
      isplitl [HS HW]
      · isplitl [HS]
        · unfold owns; iexists _; isplitr
          swap; · iexact HS
          ipureintro; exact View.read_writes_of_cover _ _ _ _ _ (coverC_S V c t h0 h1 _)
        iexact HW
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact HO
      ipureintro; exact View.read_writes_of_cover _ _ _ _ _ (coverC_O V c t h0 h1 _)
    · rw [Dat.leavesExact_idle (dat V c) 6 t (idle_o t (fun h => h1 ((hcond1 t).mp h))) (noFlush_o t (fun h => h1 ((hcond1 t).mp h)))]
      rw [outsAt_B V c t h0 h1]
      unfold rdS; dsimp only
      rw [PhiS_castSucc V c t, PhiS_pos V c _ _ hz]
      iintro ⟨⟨HS, HW⟩, Ho, ⟨%d0, H0⟩, ⟨%d1, H1⟩, ⟨%d2, H2⟩, ⟨%d3, H3⟩, ⟨%d4, H4⟩, ⟨%d5, H5⟩, ⟨%dO, HO⟩⟩
      iapply ((atB V c t h0 h1 _).2 _ Set.univ _)
      isplitl [H0]; · iexact H0
      isplitl [H1]; · iexact H1
      isplitl [H2]; · iexact H2
      isplitl [H3]; · iexact H3
      isplitl [H4]; · iexact H4
      isplitl [H5]; · iexact H5
      isplitl [HO]; · iexact HO
      isplitl [HS]; · iexact HS
      iintro ⟨H0, H1, H2, H3, H4, H5, HO, ⟨%es, HS⟩⟩
      isplitl [HS HW]
      · isplitl [HS]
        · unfold owns; iexists _; isplitr
          swap; · iexact HS
          ipureintro; exact View.read_writes_of_cover _ _ _ _ _ (coverB_S V c t h0 h1 _)
        iexact HW
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact HO

/-- The library's body obligation, at every point. -/
theorem body_obligation (c : Dev nD) : BodyObligation (dat (F := F) V c) (defs₀ (F := F)) Variants.none () Set.univ := fun t => by
  rw [bigSep_W2, bigSep_W2]
  exact sound_body V c t

/-- What the launch hands the call is the invariant before the first point. -/
theorem hin (c : Dev nD) : (Pipeline.ΦA spec2 c : sProp 𝕄) ⊢ (dat V c).Φ 0 := by
  rw [show (dat V c).Φ 0 = PhiS V c 0 (Nat.zero_le _) from rfl, PhiS_zero V c 0 _ rfl]
  try exact Idealize.SL.BI.Entails.refl _

/-- After the last point the invariant gives the call's own buffers back, the accumulator's contents forgotten. -/
theorem hout (c : Dev nD) : (dat V c).Φ (Fin.last cfg2.N) ⊢ (Pipeline.ΦA spec2 c : sProp 𝕄) := by
  rw [show (dat V c).Φ (Fin.last cfg2.N) = PhiS V c (Fin.last cfg2.N).val (Nat.le_of_lt_succ (Fin.last cfg2.N).isLt) from rfl,
    PhiS_pos V c _ _ (by rw [Fin.val_last]; have : cfg2.N = 32 := N_2; omega)]
  iintro ⟨HS, HW⟩
  iapply HW
  iexists _; iexact HS

end

end Cert.KernelIdeal.Reg2

end
-- ==== Proof.Whole.lean ====
/-
  The whole program: host operations, the first aggregation call, host operations, the second call, host operations,
  the third call. The buffers' contents at the seven boundaries between these segments are a fold from the launch
  memory: a stretch of host operations applies them; a call leaves its windows' arrays at what its write-backs leave and
  every other buffer as it found it. Each call is one segment record over its own proof data, entered and left with
  every unscoped buffer held at the boundary's contents; the run of the segments is the program, every weakly fair
  execution terminates, and the final memory holds every unscoped buffer at the last boundary's contents. No host
  operation and no call writes an argument, so each argument is read back through the fold to its launch contents.
-/
import proofs.«125076_j18348100288854_2_alg».proof.Proof.R0Frame
import proofs.«125076_j18348100288854_2_alg».proof.Proof.R1Frame
import proofs.«125076_j18348100288854_2_alg».proof.Proof.R2Frame
import proofs.«125076_j18348100288854_2_alg».proof.Proof.Gen.KernelIdeal.Regions

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the host operations before call 0. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After call 0: its windows' arrays at what the write-backs leave, every other buffer as entered. -/
def W2 (c : Dev nD) : Valuation τ sig (Elt F) :=
  Pipeline.withArrays spec0 c (W1 m c) fun w => (Reg0.dat (V1 m) c).arrAt w cfg0.N
theorem W2_arr (c : Dev nD) (w : Fin cfg0.W) :
    W2 m c (Proc.devRef .tc (Pipeline.arrRef spec0 w)) = (Reg0.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Reg0.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the host operations before call 1. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After call 1: its windows' arrays at what the write-backs leave, every other buffer as entered. -/
def W4 (c : Dev nD) : Valuation τ sig (Elt F) :=
  Pipeline.withArrays spec1 c (W3 m c) fun w => (Reg1.dat (V3 m) c).arrAt w cfg1.N
theorem W4_arr (c : Dev nD) (w : Fin cfg1.W) :
    W4 m c (Proc.devRef .tc (Pipeline.arrRef spec1 w)) = (Reg1.dat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (Reg1.dat (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- After the host operations before call 2. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- After call 2: its windows' arrays at what the write-backs leave, every other buffer as entered. -/
def W6 (c : Dev nD) : Valuation τ sig (Elt F) :=
  Pipeline.withArrays spec2 c (W5 m c) fun w => (Reg2.dat (V5 m) c).arrAt w cfg2.N
theorem W6_arr (c : Dev nD) (w : Fin cfg2.W) :
    W6 m c (Proc.devRef .tc (Pipeline.arrRef spec2 w)) = (Reg2.dat (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (Reg2.dat (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-! ## The arguments end as launched -/

theorem W6_main_arg0 (c : Dev nD) : W6 m c (Proc.devRef .tc main_arg0) = m ((c : Thread nD τ).loc main_arg0) :=
  calc W6 m c (Proc.devRef .tc main_arg0)
    _ = W5 m c (Proc.devRef .tc main_arg0) := W6_of_ne m c main_arg0 (by decide)
    _ = W4 m c (Proc.devRef .tc main_arg0) := StableHlo.after_of_writes_sub hostOps2 _ hostOps2_writes (show main_arg0 ∉ hostOps2_W by decide)
    _ = W3 m c (Proc.devRef .tc main_arg0) := W4_of_ne m c main_arg0 (by decide)
    _ = W2 m c (Proc.devRef .tc main_arg0) := StableHlo.after_of_writes_sub hostOps1 _ hostOps1_writes (show main_arg0 ∉ hostOps1_W by decide)
    _ = W1 m c (Proc.devRef .tc main_arg0) := W2_of_ne m c main_arg0 (by decide)
    _ = W0 m c (Proc.devRef .tc main_arg0) := StableHlo.after_of_writes_sub hostOps0 _ hostOps0_writes (show main_arg0 ∉ hostOps0_W by decide)
    _ = m ((c : Thread nD τ).loc main_arg0) := rfl
theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_of_ne m c main_arg1 (by decide)
    _ = W4 m c (Proc.devRef .tc main_arg1) := StableHlo.after_of_writes_sub hostOps2 _ hostOps2_writes (show main_arg1 ∉ hostOps2_W by decide)
    _ = W3 m c (Proc.devRef .tc main_arg1) := W4_of_ne m c main_arg1 (by decide)
    _ = W2 m c (Proc.devRef .tc main_arg1) := StableHlo.after_of_writes_sub hostOps1 _ hostOps1_writes (show main_arg1 ∉ hostOps1_W by decide)
    _ = W1 m c (Proc.devRef .tc main_arg1) := (W2_arr m c 0).trans (((Reg0.dat (V1 m) c).arrAt_in 0 rfl _).trans (Reg0.A_eq (V1 m) c 0))
    _ = W0 m c (Proc.devRef .tc main_arg1) := StableHlo.after_of_writes_sub hostOps0 _ hostOps0_writes (show main_arg1 ∉ hostOps0_W by decide)
    _ = m ((c : Thread nD τ).loc main_arg1) := rfl
theorem W6_main_arg2 (c : Dev nD) : W6 m c (Proc.devRef .tc main_arg2) = m ((c : Thread nD τ).loc main_arg2) :=
  calc W6 m c (Proc.devRef .tc main_arg2)
    _ = W5 m c (Proc.devRef .tc main_arg2) := W6_of_ne m c main_arg2 (by decide)
    _ = W4 m c (Proc.devRef .tc main_arg2) := StableHlo.after_of_writes_sub hostOps2 _ hostOps2_writes (show main_arg2 ∉ hostOps2_W by decide)
    _ = W3 m c (Proc.devRef .tc main_arg2) := W4_of_ne m c main_arg2 (by decide)
    _ = W2 m c (Proc.devRef .tc main_arg2) := StableHlo.after_of_writes_sub hostOps1 _ hostOps1_writes (show main_arg2 ∉ hostOps1_W by decide)
    _ = W1 m c (Proc.devRef .tc main_arg2) := W2_of_ne m c main_arg2 (by decide)
    _ = W0 m c (Proc.devRef .tc main_arg2) := StableHlo.after_of_writes_sub hostOps0 _ hostOps0_writes (show main_arg2 ∉ hostOps0_W by decide)
    _ = m ((c : Thread nD τ).loc main_arg2) := rfl
theorem W6_main_arg3 (c : Dev nD) : W6 m c (Proc.devRef .tc main_arg3) = m ((c : Thread nD τ).loc main_arg3) :=
  calc W6 m c (Proc.devRef .tc main_arg3)
    _ = W5 m c (Proc.devRef .tc main_arg3) := W6_of_ne m c main_arg3 (by decide)
    _ = W4 m c (Proc.devRef .tc main_arg3) := StableHlo.after_of_writes_sub hostOps2 _ hostOps2_writes (show main_arg3 ∉ hostOps2_W by decide)
    _ = W3 m c (Proc.devRef .tc main_arg3) := W4_of_ne m c main_arg3 (by decide)
    _ = W2 m c (Proc.devRef .tc main_arg3) := StableHlo.after_of_writes_sub hostOps1 _ hostOps1_writes (show main_arg3 ∉ hostOps1_W by decide)
    _ = W1 m c (Proc.devRef .tc main_arg3) := W2_of_ne m c main_arg3 (by decide)
    _ = W0 m c (Proc.devRef .tc main_arg3) := StableHlo.after_of_writes_sub hostOps0 _ hostOps0_writes (show main_arg3 ∉ hostOps0_W by decide)
    _ = m ((c : Thread nD τ).loc main_arg3) := rfl
theorem W6_main_arg4 (c : Dev nD) : W6 m c (Proc.devRef .tc main_arg4) = m ((c : Thread nD τ).loc main_arg4) :=
  calc W6 m c (Proc.devRef .tc main_arg4)
    _ = W5 m c (Proc.devRef .tc main_arg4) := W6_of_ne m c main_arg4 (by decide)
    _ = W4 m c (Proc.devRef .tc main_arg4) := StableHlo.after_of_writes_sub hostOps2 _ hostOps2_writes (show main_arg4 ∉ hostOps2_W by decide)
    _ = W3 m c (Proc.devRef .tc main_arg4) := W4_of_ne m c main_arg4 (by decide)
    _ = W2 m c (Proc.devRef .tc main_arg4) := StableHlo.after_of_writes_sub hostOps1 _ hostOps1_writes (show main_arg4 ∉ hostOps1_W by decide)
    _ = W1 m c (Proc.devRef .tc main_arg4) := W2_of_ne m c main_arg4 (by decide)
    _ = W0 m c (Proc.devRef .tc main_arg4) := StableHlo.after_of_writes_sub hostOps0 _ hostOps0_writes (show main_arg4 ∉ hostOps0_W by decide)
    _ = m ((c : Thread nD τ).loc main_arg4) := rfl
theorem W6_main_arg5 (c : Dev nD) : W6 m c (Proc.devRef .tc main_arg5) = m ((c : Thread nD τ).loc main_arg5) :=
  calc W6 m c (Proc.devRef .tc main_arg5)
    _ = W5 m c (Proc.devRef .tc main_arg5) := W6_of_ne m c main_arg5 (by decide)
    _ = W4 m c (Proc.devRef .tc main_arg5) := StableHlo.after_of_writes_sub hostOps2 _ hostOps2_writes (show main_arg5 ∉ hostOps2_W by decide)
    _ = W3 m c (Proc.devRef .tc main_arg5) := W4_of_ne m c main_arg5 (by decide)
    _ = W2 m c (Proc.devRef .tc main_arg5) := StableHlo.after_of_writes_sub hostOps1 _ hostOps1_writes (show main_arg5 ∉ hostOps1_W by decide)
    _ = W1 m c (Proc.devRef .tc main_arg5) := W2_of_ne m c main_arg5 (by decide)
    _ = W0 m c (Proc.devRef .tc main_arg5) := StableHlo.after_of_writes_sub hostOps0 _ hostOps0_writes (show main_arg5 ∉ hostOps0_W by decide)
    _ = m ((c : Thread nD τ).loc main_arg5) := rfl
theorem W6_main_arg6 (c : Dev nD) : W6 m c (Proc.devRef .tc main_arg6) = m ((c : Thread nD τ).loc main_arg6) :=
  calc W6 m c (Proc.devRef .tc main_arg6)
    _ = W5 m c (Proc.devRef .tc main_arg6) := W6_of_ne m c main_arg6 (by decide)
    _ = W4 m c (Proc.devRef .tc main_arg6) := StableHlo.after_of_writes_sub hostOps2 _ hostOps2_writes (show main_arg6 ∉ hostOps2_W by decide)
    _ = W3 m c (Proc.devRef .tc main_arg6) := W4_of_ne m c main_arg6 (by decide)
    _ = W2 m c (Proc.devRef .tc main_arg6) := StableHlo.after_of_writes_sub hostOps1 _ hostOps1_writes (show main_arg6 ∉ hostOps1_W by decide)
    _ = W1 m c (Proc.devRef .tc main_arg6) := W2_of_ne m c main_arg6 (by decide)
    _ = W0 m c (Proc.devRef .tc main_arg6) := StableHlo.after_of_writes_sub hostOps0 _ hostOps0_writes (show main_arg6 ∉ hostOps0_W by decide)
    _ = m ((c : Thread nD τ).loc main_arg6) := rfl
theorem W6_main_arg7 (c : Dev nD) : W6 m c (Proc.devRef .tc main_arg7) = m ((c : Thread nD τ).loc main_arg7) :=
  calc W6 m c (Proc.devRef .tc main_arg7)
    _ = W5 m c (Proc.devRef .tc main_arg7) := W6_of_ne m c main_arg7 (by decide)
    _ = W4 m c (Proc.devRef .tc main_arg7) := StableHlo.after_of_writes_sub hostOps2 _ hostOps2_writes (show main_arg7 ∉ hostOps2_W by decide)
    _ = W3 m c (Proc.devRef .tc main_arg7) := W4_of_ne m c main_arg7 (by decide)
    _ = W2 m c (Proc.devRef .tc main_arg7) := StableHlo.after_of_writes_sub hostOps1 _ hostOps1_writes (show main_arg7 ∉ hostOps1_W by decide)
    _ = W1 m c (Proc.devRef .tc main_arg7) := W2_of_ne m c main_arg7 (by decide)
    _ = W0 m c (Proc.devRef .tc main_arg7) := StableHlo.after_of_writes_sub hostOps0 _ hostOps0_writes (show main_arg7 ∉ hostOps0_W by decide)
    _ = m ((c : Thread nD τ).loc main_arg7) := rfl
theorem W6_main_arg8 (c : Dev nD) : W6 m c (Proc.devRef .tc main_arg8) = m ((c : Thread nD τ).loc main_arg8) :=
  calc W6 m c (Proc.devRef .tc main_arg8)
    _ = W5 m c (Proc.devRef .tc main_arg8) := (W6_arr m c 2).trans (((Reg2.dat (V5 m) c).arrAt_in 2 rfl _).trans (Reg2.A_eq (V5 m) c 2))
    _ = W4 m c (Proc.devRef .tc main_arg8) := StableHlo.after_of_writes_sub hostOps2 _ hostOps2_writes (show main_arg8 ∉ hostOps2_W by decide)
    _ = W3 m c (Proc.devRef .tc main_arg8) := W4_of_ne m c main_arg8 (by decide)
    _ = W2 m c (Proc.devRef .tc main_arg8) := StableHlo.after_of_writes_sub hostOps1 _ hostOps1_writes (show main_arg8 ∉ hostOps1_W by decide)
    _ = W1 m c (Proc.devRef .tc main_arg8) := W2_of_ne m c main_arg8 (by decide)
    _ = W0 m c (Proc.devRef .tc main_arg8) := StableHlo.after_of_writes_sub hostOps0 _ hostOps0_writes (show main_arg8 ∉ hostOps0_W by decide)
    _ = m ((c : Thread nD τ).loc main_arg8) := rfl
theorem W6_main_arg9 (c : Dev nD) : W6 m c (Proc.devRef .tc main_arg9) = m ((c : Thread nD τ).loc main_arg9) :=
  calc W6 m c (Proc.devRef .tc main_arg9)
    _ = W5 m c (Proc.devRef .tc main_arg9) := W6_of_ne m c main_arg9 (by decide)
    _ = W4 m c (Proc.devRef .tc main_arg9) := StableHlo.after_of_writes_sub hostOps2 _ hostOps2_writes (show main_arg9 ∉ hostOps2_W by decide)
    _ = W3 m c (Proc.devRef .tc main_arg9) := W4_of_ne m c main_arg9 (by decide)
    _ = W2 m c (Proc.devRef .tc main_arg9) := StableHlo.after_of_writes_sub hostOps1 _ hostOps1_writes (show main_arg9 ∉ hostOps1_W by decide)
    _ = W1 m c (Proc.devRef .tc main_arg9) := W2_of_ne m c main_arg9 (by decide)
    _ = W0 m c (Proc.devRef .tc main_arg9) := StableHlo.after_of_writes_sub hostOps0 _ hostOps0_writes (show main_arg9 ∉ hostOps0_W by decide)
    _ = m ((c : Thread nD τ).loc main_arg9) := rfl
theorem W6_main_arg10 (c : Dev nD) : W6 m c (Proc.devRef .tc main_arg10) = m ((c : Thread nD τ).loc main_arg10) :=
  calc W6 m c (Proc.devRef .tc main_arg10)
    _ = W5 m c (Proc.devRef .tc main_arg10) := (W6_arr m c 4).trans (((Reg2.dat (V5 m) c).arrAt_in 4 rfl _).trans (Reg2.A_eq (V5 m) c 4))
    _ = W4 m c (Proc.devRef .tc main_arg10) := StableHlo.after_of_writes_sub hostOps2 _ hostOps2_writes (show main_arg10 ∉ hostOps2_W by decide)
    _ = W3 m c (Proc.devRef .tc main_arg10) := W4_of_ne m c main_arg10 (by decide)
    _ = W2 m c (Proc.devRef .tc main_arg10) := StableHlo.after_of_writes_sub hostOps1 _ hostOps1_writes (show main_arg10 ∉ hostOps1_W by decide)
    _ = W1 m c (Proc.devRef .tc main_arg10) := W2_of_ne m c main_arg10 (by decide)
    _ = W0 m c (Proc.devRef .tc main_arg10) := StableHlo.after_of_writes_sub hostOps0 _ hostOps0_writes (show main_arg10 ∉ hostOps0_W by decide)
    _ = m ((c : Thread nD τ).loc main_arg10) := rfl
theorem W6_main_arg11 (c : Dev nD) : W6 m c (Proc.devRef .tc main_arg11) = m ((c : Thread nD τ).loc main_arg11) :=
  calc W6 m c (Proc.devRef .tc main_arg11)
    _ = W5 m c (Proc.devRef .tc main_arg11) := W6_of_ne m c main_arg11 (by decide)
    _ = W4 m c (Proc.devRef .tc main_arg11) := StableHlo.after_of_writes_sub hostOps2 _ hostOps2_writes (show main_arg11 ∉ hostOps2_W by decide)
    _ = W3 m c (Proc.devRef .tc main_arg11) := W4_of_ne m c main_arg11 (by decide)
    _ = W2 m c (Proc.devRef .tc main_arg11) := StableHlo.after_of_writes_sub hostOps1 _ hostOps1_writes (show main_arg11 ∉ hostOps1_W by decide)
    _ = W1 m c (Proc.devRef .tc main_arg11) := W2_of_ne m c main_arg11 (by decide)
    _ = W0 m c (Proc.devRef .tc main_arg11) := StableHlo.after_of_writes_sub hostOps0 _ hostOps0_writes (show main_arg11 ∉ hostOps0_W by decide)
    _ = m ((c : Thread nD τ).loc main_arg11) := rfl

/-! ## The proof data family and the thread state -/

abbrev adm : (p : Fin 3) → (pcfgs (F := F) p).Adm := fun p => (cfgs p).toPCfg_adm
/-- Every call's proof data, each at its call's entry contents. -/
def pdats : (p : Fin 3) → (c : Dev nD) → Dat τ (Elt F) Unit ℕ (UR sig nD τ) ℕ (Pipeline.pin (pcfgs (F := F)) adm p) c
  | ⟨0, _⟩ => fun c => Reg0.dat (V1 m) c
  | ⟨1, _⟩ => fun c => Reg1.dat (V3 m) c
  | ⟨2, _⟩ => fun c => Reg2.dat (V5 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m c) ∗ ∃ r, prngReg c r)

/-! ## The calls as segments -/

set_option backward.isDefEq.respectTransparency.types false in
/-- Call 0 as a segment: entered with every unscoped buffer at `W1`, left with them at `W2`. Its windows' arrays are
    split out of the unscoped buffers and put back at what the write-backs leave; the generator register and the call's
    own buffers go into the invariant and come back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show (Pipeline.ΦA spec0 c : sProp 𝕄) ⊢ (pdats m 0 c).Φ 0 from Reg0.hin (V1 m) c)
    unfold Pipeline.ΦA
    iintro ⟨Hp, -, Hr⟩
    isplitl [Hr]; · iexact Hr
    iexact Hp
  hout c := by
    rw [Pipeline.ownSems0_none]
    refine (show (pdats m 0 c).Φ (Fin.last _) ⊢ (Pipeline.ΦA spec0 c : sProp 𝕄) from Reg0.hout (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: entered with every unscoped buffer at `W3`, left with them at `W4`. Its windows' arrays are
    split out of the unscoped buffers and put back at what the write-backs leave; the generator register and the call's
    own buffers go into the invariant and come back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show (Pipeline.ΦA spec1 c : sProp 𝕄) ⊢ (pdats m 1 c).Φ 0 from Reg1.hin (V3 m) c)
    unfold Pipeline.ΦA
    iintro ⟨Hp, -, Hr⟩
    isplitl [Hr]; · iexact Hr
    iexact Hp
  hout c := by
    rw [Pipeline.ownSems0_none]
    refine (show (pdats m 1 c).Φ (Fin.last _) ⊢ (Pipeline.ΦA spec1 c : sProp 𝕄) from Reg1.hout (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment: entered with every unscoped buffer at `W5`, left with them at `W6`. Its windows' arrays are
    split out of the unscoped buffers and put back at what the write-backs leave; the generator register and the call's
    own buffers go into the invariant and come back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Reg2.body_obligation (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show (Pipeline.ΦA spec2 c : sProp 𝕄) ⊢ (pdats m 2 c).Φ 0 from Reg2.hin (V5 m) c)
    unfold Pipeline.ΦA
    iintro ⟨Hp, -, Hr⟩
    isplitl [Hr]; · iexact Hr
    iexact Hp
  hout c := by
    rw [Pipeline.ownSems0_none]
    refine (show (pdats m 2 c).Φ (Fin.last _) ⊢ (Pipeline.ΦA spec2 c : sProp 𝕄) from Reg2.hout (V5 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]
theorem main_run (c : Dev nD) : main (F := F) c = Pipeline.Seg.run (segs m) := (main_chain c).trans (by chain_rfl)

set_option backward.isDefEq.respectTransparency.types false in
/-- Every weakly fair execution of the program from memory `m` with zero counters terminates, nothing faulting, and the
    final memory holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W6_main_arg0 m c),
    (h c _ (mem_uc main_arg1 (by decide))).trans (W6_main_arg1 m c),
    (h c _ (mem_uc main_arg2 (by decide))).trans (W6_main_arg2 m c),
    (h c _ (mem_uc main_arg3 (by decide))).trans (W6_main_arg3 m c),
    (h c _ (mem_uc main_arg4 (by decide))).trans (W6_main_arg4 m c),
    (h c _ (mem_uc main_arg5 (by decide))).trans (W6_main_arg5 m c),
    (h c _ (mem_uc main_arg6 (by decide))).trans (W6_main_arg6 m c),
    (h c _ (mem_uc main_arg7 (by decide))).trans (W6_main_arg7 m c),
    (h c _ (mem_uc main_arg8 (by decide))).trans (W6_main_arg8 m c),
    (h c _ (mem_uc main_arg9 (by decide))).trans (W6_main_arg9 m c),
    (h c _ (mem_uc main_arg10 (by decide))).trans (W6_main_arg10 m c),
    (h c _ (mem_uc main_arg11 (by decide))).trans (W6_main_arg11 m c)⟩) (run_all m ρ)

end Cert.KernelIdeal.Whole

end
-- ==== Proof.KR0Runs.lean ====
/-
  The first aggregation call, point by point. Its grid is 8 row tiles by 4 column tiles of the adjacency
  matrix, the column tile fastest: point t works on row tile t / 4 and column tile t % 4. At column tile 0 the
  body clears its accumulator; at every point it writes the adjacency tile out again in the narrow format and adds
  the product of the tile with the matching 2048 rows of the features to the accumulator; at column tile 3 it
  stores the accumulator clipped at zero as the row tile's result. So a point falls in one of three cases (first,
  middle, last column tile), and this module runs the body once per case on whole staging buffers: what each run
  leaves in the buffers it stores into is found by the run itself, as a list of stored pieces.
-/
import proofs.«125076_j18348100288854_2_alg».proof.Proof.Gen.Kernel.Launch
import proofs.«125076_j18348100288854_2_alg».proof.Proof.Gen.Kernel.Skeleton
import proofs.«125076_j18348100288854_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency tile's buffer holds the tile at every point, for any proof data over these arrays whose body
    leaves the tile in place. -/
theorem before_in0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The features' buffer holds the whole feature matrix at every point (it is fetched once and never moves). -/
theorem before_in1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

end

/-! ## The two branch conditions, decided over the grid -/

/-- "The column tile is the first one". -/
abbrev cond0 (i : grid0.Coords) : Prop := (Scalar.cmpi .ne (Scalar.extui (Scalar.cmpi .eq (BitVec.ofNat 32 (i 1).val) 0#32)) 0#32) = 1#1
theorem hcond0 : ∀ t : Fin cfg0.N, cond0 (grid0.coords t) ↔ t.val % 4 = 0 :=
  (by decide +kernel : ∀ t : Fin grid0.N, cond0 (grid0.coords t) ↔ t.val % 4 = 0)
/-- "The column tile is the last one". -/
abbrev cond1 (i : grid0.Coords) : Prop := k0_cond2 i = 1#1
theorem hcond1 : ∀ t : Fin cfg0.N, cond1 (grid0.coords t) ↔ t.val % 4 = 3 :=
  (by decide +kernel : ∀ t : Fin grid0.N, cond1 (grid0.coords t) ↔ t.val % 4 = 3)

/-! ## Where the result window is idle: everywhere but at the last column tile -/

theorem live_0 : ∀ t : Fin cfg0.N, cfg0.idle 0 (grid0.coords t) = false := by decide +kernel
theorem live_1 : ∀ t : Fin cfg0.N, cfg0.idle 1 (grid0.coords t) = false := by decide +kernel
theorem live_3 : ∀ t : Fin cfg0.N, cfg0.idle 3 (grid0.coords t) = false := by decide +kernel
theorem idle_2 : ∀ t : Fin cfg0.N, ¬cond1 (grid0.coords t) → cfg0.idle 2 (grid0.coords t) = true := by decide +kernel
theorem noFlush_2 : ∀ t : Fin cfg0.N, ¬cond1 (grid0.coords t) → (cfg0.win 2).flush t = false := by decide +kernel
theorem live_2 : ∀ t : Fin cfg0.N, cond1 (grid0.coords t) → cfg0.idle 2 (grid0.coords t) = false := by decide +kernel

/-! ## The buffers the body is called on -/

abbrev ms0 (t : Fin cfg0.N) : Memref sig .tc .vmem S1024x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x16 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x16 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x2048 .bf16 := win0_3.stage (cfg0.slots t 3)
abbrev hs3 (t : Fin cfg0.N) : (ms3 t).IsWhole := hstage0_3 ((cfg0.slots t 3).cast nbuf0_3)
/-- The accumulator: a buffer of the call's own, kept from point to point. -/
abbrev scM : Memref sig .tc .vmem S1024x16 .f32 := Memref.whole cc0_scratch0
/-- Views through which the contents of the result tile, the narrow adjacency tile and the accumulator are stated. -/
abbrev VO2 : View sig .tc .vmem S1024x16 .f32 := (Memref.whole cc0_stg2_0 : Memref sig .tc .vmem S1024x16 .f32).view
abbrev VO3 : View sig .tc .vmem S1024x2048 .bf16 := (Memref.whole cc0_stg3_0 : Memref sig .tc .vmem S1024x2048 .bf16).view
abbrev VS : View sig .tc .vmem S1024x16 .f32 := scM.view

/-- What the call's own buffers are, beside the windows' staging buffers: the accumulator at some contents, and a
    remainder that takes the accumulator back at any contents. -/
theorem PhiA_split (c : Dev nD) :
    (Pipeline.ΦA spec0 c : sProp 𝕄) ⊢ iprop((∃ d, owns (c : Thread nD τ) scM fullShare d)
      ∗ (iprop(∃ d, owns (c : Thread nD τ) scM fullShare d) -∗ (Pipeline.ΦA spec0 c : sProp 𝕄))) := by
  unfold Pipeline.ΦA; rw [scopedRest0_eq]; simp only [scM, owns_whole]
  iintro ⟨⟨HS, Hrest⟩, Hp⟩
  isplitl [HS]; · iexact HS
  iintro HS'
  isplitl [HS' Hrest]
  · isplitl [HS']; · iexact HS'
    iexact Hrest
  iexact Hp

/-! ## The body, case by case -/

set_option maxHeartbeats 4000000 in
/-- FIRST column tile: the accumulator is cleared, then holds the first product; the narrow adjacency tile is
    written; the result tile is not touched. -/
noncomputable def runA (c : Dev nD) (i : grid0.Coords)
    (arg2 : Memref sig .tc .vmem S1024x2048 .f32) (harg2 : arg2.IsWhole) (arg3 : Memref sig .tc .vmem S8192x16 .bf16) (harg3 : arg3.IsWhole)
    (arg4 : Memref sig .tc .vmem S1024x16 .f32) (harg4 : arg4.IsWhole) (arg5 : Memref sig .tc .vmem S1024x2048 .bf16) (harg5 : arg5.IsWhole)
    (arg6 : Memref sig .tc .vmem S1024x16 .f32) (harg6 : arg6.IsWhole) (hc0 : cond0 i) (hc1 : ¬cond1 i)
    (x0 : Vec F S1024x2048 .f32) (x1 : Vec F S8192x16 .bf16) :
    Σ' (L3 : List (View.Piece (Elt F) S1024x2048 .bf16)), { LS : List (View.Piece (Elt F) S1024x16 .f32) //
      ∀ (xi2 : Vec F S1024x16 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc0__layer0_kernel i arg2 harg2 arg3 harg3 arg4 harg4 arg5 harg5 arg6 harg6) K } := by
  refine ⟨?_, ?_, fun xi2 E K => ?run⟩
  case run =>
    simp only [cc0__layer0_kernel_eq_skeleton]; unfold cc0__layer0_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

set_option maxHeartbeats 4000000 in
/-- A MIDDLE column tile: the accumulator, found at `xs`, gains one more product; the narrow adjacency tile is
    written; the result tile is not touched. -/
noncomputable def runB (c : Dev nD) (i : grid0.Coords)
    (arg2 : Memref sig .tc .vmem S1024x2048 .f32) (harg2 : arg2.IsWhole) (arg3 : Memref sig .tc .vmem S8192x16 .bf16) (harg3 : arg3.IsWhole)
    (arg4 : Memref sig .tc .vmem S1024x16 .f32) (harg4 : arg4.IsWhole) (arg5 : Memref sig .tc .vmem S1024x2048 .bf16) (harg5 : arg5.IsWhole)
    (arg6 : Memref sig .tc .vmem S1024x16 .f32) (harg6 : arg6.IsWhole) (hc0 : ¬cond0 i) (hc1 : ¬cond1 i)
    (x0 : Vec F S1024x2048 .f32) (x1 : Vec F S8192x16 .bf16) (xs : Vec F S1024x16 .f32) :
    Σ' (L3 : List (View.Piece (Elt F) S1024x2048 .bf16)), { LS : List (View.Piece (Elt F) S1024x16 .f32) //
      ∀ (xi2 : Vec F S1024x16 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc0__layer0_kernel i arg2 harg2 arg3 harg3 arg4 harg4 arg5 harg5 arg6 harg6) K } := by
  refine ⟨?_, ?_, fun xi2 E K => ?run⟩
  case run =>
    simp only [cc0__layer0_kernel_eq_skeleton]; unfold cc0__layer0_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

set_option maxHeartbeats 4000000 in
/-- The LAST column tile: the accumulator, found at `xs`, gains the last product, and the result tile is stored:
    the accumulator clipped at zero. -/
noncomputable def runC (c : Dev nD) (i : grid0.Coords)
    (arg2 : Memref sig .tc .vmem S1024x2048 .f32) (harg2 : arg2.IsWhole) (arg3 : Memref sig .tc .vmem S8192x16 .bf16) (harg3 : arg3.IsWhole)
    (arg4 : Memref sig .tc .vmem S1024x16 .f32) (harg4 : arg4.IsWhole) (arg5 : Memref sig .tc .vmem S1024x2048 .bf16) (harg5 : arg5.IsWhole)
    (arg6 : Memref sig .tc .vmem S1024x16 .f32) (harg6 : arg6.IsWhole) (hc0 : ¬cond0 i) (hc1 : cond1 i)
    (x0 : Vec F S1024x2048 .f32) (x1 : Vec F S8192x16 .bf16) (xs : Vec F S1024x16 .f32) :
    Σ' (L2 : List (View.Piece (Elt F) S1024x16 .f32)) (L3 : List (View.Piece (Elt F) S1024x2048 .bf16)), { LS : List (View.Piece (Elt F) S1024x16 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (∃ d, owns (c : Thread nD τ) arg5 fullShare d) ∗ owns (c : Thread nD τ) arg6 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc0__layer0_kernel i arg2 harg2 arg3 harg3 arg4 harg4 arg5 harg5 arg6 harg6) K } := by
  refine ⟨?_, ?_, ?_, fun E K => ?run⟩
  case run =>
    simp only [cc0__layer0_kernel_eq_skeleton]; unfold cc0__layer0_kernel_skel
    unfold owns
    iintro ⟨⟨%f0, %hf0, H0⟩, ⟨%f1, %hf1, H1⟩, ⟨%d2, %f2, -, H2⟩, ⟨%d3, %f3, -, H3⟩, ⟨%fs, %hfs, HS⟩, Hk⟩
    obtain rfl := harg2.eq_unread hf0; obtain rfl := harg3.eq_unread hf1; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS

end Cert.Kernel.Reg0

end
-- ==== Proof.KR0Frame.lean ====
/-
  The first aggregation call as a whole: what its accumulator, its result tile and its narrow adjacency tile hold
  after each of the 32 points, by recursion on the point (the accumulator restarts at every first column tile and
  otherwise continues from the point before), the invariant that carries the accumulator from one point to the
  next, and the body's obligation at every point, each point taken in its case.
-/
import proofs.«125076_j18348100288854_2_alg».proof.Proof.KR0Runs

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The three runs at a point of the grid -/

/-- The run of the first-column-tile case at point `t`, on the point's buffers and blocks. -/
def atA (c : Dev nD) (t : Fin cfg0.N) (h0 : t.val % 4 = 0) (h1 : ¬t.val % 4 = 3) :=
  runA (F := F) c (grid0.coords t) (ms0 t) (hs0 t) (ms1 t) (hs1 t) (ms2 t) (hs2 t) (ms3 t) (hs3 t) scM (Memref.isWhole_whole _) ((hcond0 t).mpr h0) (fun h => h1 ((hcond1 t).mp h)) (iblk V c 0 t) (iblk V c 1 t)
/-- The run of the middle case at point `t`, the accumulator found at `xs`. -/
def atB (c : Dev nD) (t : Fin cfg0.N) (h0 : ¬t.val % 4 = 0) (h1 : ¬t.val % 4 = 3) (xs : Vec F S1024x16 .f32) :=
  runB (F := F) c (grid0.coords t) (ms0 t) (hs0 t) (ms1 t) (hs1 t) (ms2 t) (hs2 t) (ms3 t) (hs3 t) scM (Memref.isWhole_whole _) (fun h => h0 ((hcond0 t).mp h)) (fun h => h1 ((hcond1 t).mp h)) (iblk V c 0 t) (iblk V c 1 t) xs
/-- The run of the last-column-tile case at point `t`, the accumulator found at `xs`. -/
def atC (c : Dev nD) (t : Fin cfg0.N) (h0 : ¬t.val % 4 = 0) (h1 : t.val % 4 = 3) (xs : Vec F S1024x16 .f32) :=
  runC (F := F) c (grid0.coords t) (ms0 t) (hs0 t) (ms1 t) (hs1 t) (ms2 t) (hs2 t) (ms3 t) (hs3 t) scM (Memref.isWhole_whole _) (fun h => h0 ((hcond0 t).mp h)) ((hcond1 t).mpr h1) (iblk V c 0 t) (iblk V c 1 t) xs

/-- A list of stored pieces read back as contents: of the result tile, the narrow adjacency tile, the accumulator. -/
def rd2 (L : List (View.Piece (Elt F) S1024x16 .f32)) : Vec F S1024x16 .f32 := VO2.read (Elt F) (VO2.writes (Elt F) VO2.junk L)
def rd3 (L : List (View.Piece (Elt F) S1024x2048 .bf16)) : Vec F S1024x2048 .bf16 := VO3.read (Elt F) (VO3.writes (Elt F) VO3.junk L)
def rdS (L : List (View.Piece (Elt F) S1024x16 .f32)) : Vec F S1024x16 .f32 := VS.read (Elt F) (VS.writes (Elt F) VS.junk L)

/-! ## Each run's stores cover the buffers they fill -/

theorem coverA_3 (c : Dev nD) (t : Fin cfg0.N) (h0 : t.val % 4 = 0) (h1 : ¬t.val % 4 = 3) (y : S1024x2048.Idx) :
    ∃ pc ∈ (atA V c t h0 h1).1, y ∈ pc.1.set :=
  View.cover_of_tiledL (atA V c t h0 h1).1 S1024x2048.size (by unfold atA; sl_kernel_rfl) y
theorem coverA_S (c : Dev nD) (t : Fin cfg0.N) (h0 : t.val % 4 = 0) (h1 : ¬t.val % 4 = 3) (y : S1024x16.Idx) :
    ∃ pc ∈ (atA V c t h0 h1).2.1, y ∈ pc.1.set :=
  View.cover_of_tiledL (atA V c t h0 h1).2.1 S1024x16.size (by unfold atA; sl_kernel_rfl) y
theorem coverB_3 (c : Dev nD) (t : Fin cfg0.N) (h0 : ¬t.val % 4 = 0) (h1 : ¬t.val % 4 = 3) (xs : Vec F S1024x16 .f32) (y : S1024x2048.Idx) :
    ∃ pc ∈ (atB V c t h0 h1 xs).1, y ∈ pc.1.set :=
  View.cover_of_tiledL (atB V c t h0 h1 xs).1 S1024x2048.size (by unfold atB; sl_kernel_rfl) y
theorem coverB_S (c : Dev nD) (t : Fin cfg0.N) (h0 : ¬t.val % 4 = 0) (h1 : ¬t.val % 4 = 3) (xs : Vec F S1024x16 .f32) (y : S1024x16.Idx) :
    ∃ pc ∈ (atB V c t h0 h1 xs).2.1, y ∈ pc.1.set :=
  View.cover_of_tiledL (atB V c t h0 h1 xs).2.1 S1024x16.size (by unfold atB; sl_kernel_rfl) y
theorem coverC_2 (c : Dev nD) (t : Fin cfg0.N) (h0 : ¬t.val % 4 = 0) (h1 : t.val % 4 = 3) (xs : Vec F S1024x16 .f32) (y : S1024x16.Idx) :
    ∃ pc ∈ (atC V c t h0 h1 xs).1, y ∈ pc.1.set :=
  View.cover_of_tiledL (atC V c t h0 h1 xs).1 S1024x16.size (by unfold atC; sl_kernel_rfl) y
theorem coverC_3 (c : Dev nD) (t : Fin cfg0.N) (h0 : ¬t.val % 4 = 0) (h1 : t.val % 4 = 3) (xs : Vec F S1024x16 .f32) (y : S1024x2048.Idx) :
    ∃ pc ∈ (atC V c t h0 h1 xs).2.1, y ∈ pc.1.set :=
  View.cover_of_tiledL (atC V c t h0 h1 xs).2.1 S1024x2048.size (by unfold atC; sl_kernel_rfl) y
theorem coverC_S (c : Dev nD) (t : Fin cfg0.N) (h0 : ¬t.val % 4 = 0) (h1 : t.val % 4 = 3) (xs : Vec F S1024x16 .f32) (y : S1024x16.Idx) :
    ∃ pc ∈ (atC V c t h0 h1 xs).2.2.1, y ∈ pc.1.set :=
  View.cover_of_tiledL (atC V c t h0 h1 xs).2.2.1 S1024x16.size (by unfold atC; sl_kernel_rfl) y

/-! ## What the buffers hold after each point -/

/-- After point `n`: the result tile's buffer, the narrow adjacency tile's buffer, the accumulator. The result
    tile's buffer matters only at the last column tile; elsewhere its entry is a placeholder nothing reads. -/
def outsAt (c : Dev nD) : (n : ℕ) → n < cfg0.N → Vec F S1024x16 .f32 × Vec F S1024x2048 .bf16 × Vec F S1024x16 .f32
  | 0, hn => (rd2 [], rd3 (atA V c ⟨0, hn⟩ (Nat.zero_mod 4) (by show ¬(0 % 4 = 3); decide)).1, rdS (atA V c ⟨0, hn⟩ (Nat.zero_mod 4) (by show ¬(0 % 4 = 3); decide)).2.1)
  | n + 1, hn =>
    if h0 : (n + 1) % 4 = 0 then
      if h1 : (n + 1) % 4 = 3 then False.elim (by omega)
      else (rd2 [], rd3 (atA V c ⟨n + 1, hn⟩ h0 h1).1, rdS (atA V c ⟨n + 1, hn⟩ h0 h1).2.1)
    else
      if h1 : (n + 1) % 4 = 3 then
        (rd2 (atC V c ⟨n + 1, hn⟩ h0 h1 (outsAt c n (Nat.lt_of_succ_lt hn)).2.2).1,
         rd3 (atC V c ⟨n + 1, hn⟩ h0 h1 (outsAt c n (Nat.lt_of_succ_lt hn)).2.2).2.1,
         rdS (atC V c ⟨n + 1, hn⟩ h0 h1 (outsAt c n (Nat.lt_of_succ_lt hn)).2.2).2.2.1)
      else
        (rd2 [], rd3 (atB V c ⟨n + 1, hn⟩ h0 h1 (outsAt c n (Nat.lt_of_succ_lt hn)).2.2).1,
         rdS (atB V c ⟨n + 1, hn⟩ h0 h1 (outsAt c n (Nat.lt_of_succ_lt hn)).2.2).2.1)

/-- The accumulator the point before `t` left. -/
abbrev prevS (c : Dev nD) (t : Fin cfg0.N) : Vec F S1024x16 .f32 :=
  (outsAt V c (t.val - 1) (Nat.lt_of_le_of_lt (Nat.sub_le _ _) t.isLt)).2.2

theorem outsAt_A (c : Dev nD) (t : Fin cfg0.N) (h0 : t.val % 4 = 0) (h1 : ¬t.val % 4 = 3) :
    outsAt V c t.val t.isLt = (rd2 [], rd3 (atA V c t h0 h1).1, rdS (atA V c t h0 h1).2.1) := by
  obtain ⟨n, hn⟩ := t
  cases n with
  | zero => exact rfl
  | succ n => exact (dif_pos h0).trans ((dif_neg h1).trans rfl)

theorem outsAt_B (c : Dev nD) (t : Fin cfg0.N) (h0 : ¬t.val % 4 = 0) (h1 : ¬t.val % 4 = 3) :
    outsAt V c t.val t.isLt = (rd2 [], rd3 (atB V c t h0 h1 (prevS V c t)).1, rdS (atB V c t h0 h1 (prevS V c t)).2.1) := by
  obtain ⟨n, hn⟩ := t
  cases n with
  | zero => exact absurd (Nat.zero_mod 4) h0
  | succ n => exact (dif_neg h0).trans ((dif_neg h1).trans rfl)

theorem outsAt_C (c : Dev nD) (t : Fin cfg0.N) (h0 : ¬t.val % 4 = 0) (h1 : t.val % 4 = 3) :
    outsAt V c t.val t.isLt = (rd2 (atC V c t h0 h1 (prevS V c t)).1, rd3 (atC V c t h0 h1 (prevS V c t)).2.1, rdS (atC V c t h0 h1 (prevS V c t)).2.2.1) := by
  obtain ⟨n, hn⟩ := t
  cases n with
  | zero => exact absurd (Nat.zero_mod 4) h0
  | succ n => exact (dif_neg h0).trans ((dif_pos h1).trans rfl)

/-! ## The invariant between points -/

/-- Before the first point: the call's own buffers at anything. Before any later point: the accumulator at what the
    point before left, beside a remainder that takes the accumulator back at any contents. -/
def PhiS (c : Dev nD) : (n : ℕ) → n ≤ cfg0.N → sProp 𝕄
  | 0, _ => (Pipeline.ΦA spec0 c : sProp 𝕄)
  | n + 1, hn => iprop(owns (c : Thread nD τ) scM fullShare (outsAt V c n hn).2.2
      ∗ (iprop(∃ d, owns (c : Thread nD τ) scM fullShare d) -∗ (Pipeline.ΦA spec0 c : sProp 𝕄)))

theorem PhiS_zero (c : Dev nD) (n : ℕ) (h : n ≤ cfg0.N) (hz : n = 0) : PhiS V c n h = (Pipeline.ΦA spec0 c : sProp 𝕄) := by
  subst hz; rfl
theorem PhiS_succ (c : Dev nD) (n : ℕ) (hn : n < cfg0.N) :
    PhiS V c (n + 1) hn = iprop(owns (c : Thread nD τ) scM fullShare (outsAt V c n hn).2.2
      ∗ (iprop(∃ d, owns (c : Thread nD τ) scM fullShare d) -∗ (Pipeline.ΦA spec0 c : sProp 𝕄))) := rfl
theorem PhiS_pos (c : Dev nD) (n : ℕ) (h : n ≤ cfg0.N) (hz : n ≠ 0) :
    PhiS V c n h = iprop(owns (c : Thread nD τ) scM fullShare (outsAt V c (n - 1) (by omega)).2.2
      ∗ (iprop(∃ d, owns (c : Thread nD τ) scM fullShare d) -∗ (Pipeline.ΦA spec0 c : sProp 𝕄))) := by
  cases n with
  | zero => exact absurd rfl hz
  | succ n => rfl

/-! ## The proof data -/

/-- The arrays as the call finds them; after the body at point `t` the two inputs' buffers at their blocks, the result
    tile's and the narrow adjacency tile's at `outsAt`; the invariant `PhiS`; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt V c t.val t.isLt).1
    | ⟨3, _⟩ => (outsAt V c t.val t.isLt).2.1
  Φ t := PhiS V c t.val (Nat.le_of_lt_succ t.isLt)
  q _ := fullShare
  owed _ := 0

theorem A_eq (c : Dev nD) (w : Fin cfg0.W) : (dat V c).A w = V c (Pipeline.arrRef spec0 w) := by dsimp only [dat]
theorem PhiS_castSucc (c : Dev nD) (t : Fin cfg0.N) : (dat V c).Φ t.castSucc = PhiS V c t.val (Nat.le_of_lt t.isLt) := by
  dsimp only [dat]; simp only [Fin.coe_castSucc]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = (outsAt V c t.val t.isLt).1 := by dsimp only [dat]
theorem after_3 (c : Dev nD) (t : Fin cfg0.N) : (dat V c).after 3 t = (outsAt V c t.val t.isLt).2.1 := by dsimp only [dat]
theorem before_0 (c : Dev nD) (t : Fin cfg0.N) (d) : (dat V c).before 0 t d = iblk V c 0 t :=
  before_in0_of V (dat V c) (A_eq V c 0) (after_0 V c) t d
theorem before_1 (c : Dev nD) (t : Fin cfg0.N) (d) : (dat V c).before 1 t d = iblk V c 1 t :=
  before_in1_of V (dat V c) (A_eq V c 1) (after_1 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The two inputs' buffers hold their blocks; the point's position among the column tiles
    says which case it is in; the invariant hands the body the accumulator at what the point before left (at anything
    at the very first point) and takes it back at this point's contents; nothing is owed throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg0.N = 32 from N_0)
  rw [show (dat V c).leavesExact 0 t = owns (c : Thread nD τ) (ms0 t) fullShare ((dat V c).after 0 t) from by
    unfold Dat.leavesExact; rw [live_0 t], after_0]
  rw [show (dat V c).leavesExact 1 t = owns (c : Thread nD τ) (ms1 t) fullShare ((dat V c).after 1 t) from by
    unfold Dat.leavesExact; rw [live_1 t], after_1]
  rw [show (dat V c).leavesExact 3 t = owns (c : Thread nD τ) (ms3 t) fullShare ((dat V c).after 3 t) from by
    unfold Dat.leavesExact; rw [live_3 t], after_3]
  by_cases h0 : t.val % 4 = 0
  · have h1 : ¬t.val % 4 = 3 := by omega
    rw [Dat.leavesExact_idle (dat V c) 2 t (idle_2 t (fun h => h1 ((hcond1 t).mp h))) (noFlush_2 t (fun h => h1 ((hcond1 t).mp h)))]
    rw [outsAt_A V c t h0 h1]
    unfold rd3 rdS; dsimp only
    by_cases hz : t.val = 0
    · rw [PhiS_castSucc V c t, PhiS_zero V c _ _ hz]
      iintro ⟨HΦ, Ho, ⟨%d0, H0⟩, ⟨%d1, H1⟩, ⟨%d2, H2⟩, ⟨%d3, H3⟩⟩
      ihave HΦ' := (PhiA_split (F := F) c) $$ HΦ
      icases HΦ' with ⟨HS, HW⟩
      iapply ((atA V c t h0 h1).2.2 _ Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HW]
      · isplitl [HS]
        · unfold owns; iexists _; isplitr
          swap; · iexact HS
          ipureintro; exact View.read_writes_of_cover _ _ _ _ _ (coverA_S V c t h0 h1)
        iexact HW
      isplitl [Ho]; · iexact Ho
      isplitl [H0]; · iexact H0
      isplitl [H1]; · iexact H1
      isplitl [H2]; · iexists _; iexact H2
      unfold owns; iexists _; isplitr
      swap; · iexact H3
      ipureintro; exact View.read_writes_of_cover _ _ _ _ _ (coverA_3 V c t h0 h1)
    · rw [PhiS_castSucc V c t, PhiS_pos V c _ _ hz]
      iintro ⟨⟨HS, HW⟩, Ho, ⟨%d0, H0⟩, ⟨%d1, H1⟩, ⟨%d2, H2⟩, ⟨%d3, H3⟩⟩
      iapply ((atA V c t h0 h1).2.2 _ Set.univ _)
      isplitl [H0]; · iexact H0
      isplitl [H1]; · iexact H1
      isplitl [H2]; · iexact H2
      isplitl [H3]; · iexists _; iexact H3
      isplitl [HS]; · iexists _; iexact HS
      iintro ⟨H0, H1, H2, ⟨%e3, H3⟩, ⟨%es, HS⟩⟩
      isplitl [HS HW]
      · isplitl [HS]
        · unfold owns; iexists _; isplitr
          swap; · iexact HS
          ipureintro; exact View.read_writes_of_cover _ _ _ _ _ (coverA_S V c t h0 h1)
        iexact HW
      isplitl [Ho]; · iexact Ho
      isplitl [H0]; · iexact H0
      isplitl [H1]; · iexact H1
      isplitl [H2]; · iexists _; iexact H2
      unfold owns; iexists _; isplitr
      swap; · iexact H3
      ipureintro; exact View.read_writes_of_cover _ _ _ _ _ (coverA_3 V c t h0 h1)
  · have hz : t.val ≠ 0 := fun e => h0 (by rw [e])
    by_cases h1 : t.val % 4 = 3
    · rw [show (dat V c).leavesExact 2 t = owns (c : Thread nD τ) (ms2 t) fullShare ((dat V c).after 2 t) from by
        unfold Dat.leavesExact; rw [live_2 t ((hcond1 t).mpr h1)], after_2]
      rw [outsAt_C V c t h0 h1]
      unfold rd2 rd3 rdS; dsimp only
      rw [PhiS_castSucc V c t, PhiS_pos V c _ _ hz]
      iintro ⟨⟨HS, HW⟩, Ho, ⟨%d0, H0⟩, ⟨%d1, H1⟩, ⟨%d2, H2⟩, ⟨%d3, H3⟩⟩
      iapply ((atC V c t h0 h1 _).2.2.2 Set.univ _)
      isplitl [H0]; · iexact H0
      isplitl [H1]; · iexact H1
      isplitl [H2]; · iexists _; iexact H2
      isplitl [H3]; · iexists _; iexact H3
      isplitl [HS]; · iexact HS
      iintro ⟨H0, H1, ⟨%e2, H2⟩, ⟨%e3, H3⟩, ⟨%es, HS⟩⟩
      isplitl [HS HW]
      · isplitl [HS]
        · unfold owns; iexists _; isplitr
          swap; · iexact HS
          ipureintro; exact View.read_writes_of_cover _ _ _ _ _ (coverC_S V c t h0 h1 _)
        iexact HW
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverC_2 V c t h0 h1 _)
      unfold owns; iexists _; isplitr
      swap; · iexact H3
      ipureintro; exact View.read_writes_of_cover _ _ _ _ _ (coverC_3 V c t h0 h1 _)
    · rw [Dat.leavesExact_idle (dat V c) 2 t (idle_2 t (fun h => h1 ((hcond1 t).mp h))) (noFlush_2 t (fun h => h1 ((hcond1 t).mp h)))]
      rw [outsAt_B V c t h0 h1]
      unfold rd3 rdS; dsimp only
      rw [PhiS_castSucc V c t, PhiS_pos V c _ _ hz]
      iintro ⟨⟨HS, HW⟩, Ho, ⟨%d0, H0⟩, ⟨%d1, H1⟩, ⟨%d2, H2⟩, ⟨%d3, H3⟩⟩
      iapply ((atB V c t h0 h1 _).2.2 _ Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HW]
      · isplitl [HS]
        · unfold owns; iexists _; isplitr
          swap; · iexact HS
          ipureintro; exact View.read_writes_of_cover _ _ _ _ _ (coverB_S V c t h0 h1 _)
        iexact HW
      isplitl [Ho]; · iexact Ho
      isplitl [H0]; · iexact H0
      isplitl [H1]; · iexact H1
      isplitl [H2]; · iexists _; iexact H2
      unfold owns; iexists _; isplitr
      swap; · iexact H3
      ipureintro; exact View.read_writes_of_cover _ _ _ _ _ (coverB_3 V c t h0 h1 _)

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the call is the invariant before the first point. -/
theorem hin (c : Dev nD) : (Pipeline.ΦA spec0 c : sProp 𝕄) ⊢ (dat V c).Φ 0 := by
  rw [show (dat V c).Φ 0 = PhiS V c 0 (Nat.zero_le _) from rfl, PhiS_zero V c 0 _ rfl]
  try exact Idealize.SL.BI.Entails.refl _

/-- After the last point the invariant gives the call's own buffers back, the accumulator's contents forgotten. -/
theorem hout (c : Dev nD) : (dat V c).Φ (Fin.last cfg0.N) ⊢ (Pipeline.ΦA spec0 c : sProp 𝕄) := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 32 := N_0; omega)]
  iintro ⟨HS, HW⟩
  iapply HW
  iexists _; iexact HS

end

end Cert.Kernel.Reg0

end
-- ==== Proof.KR1Runs.lean ====
/-
  The second aggregation call, point by point. Its grid is 8 row tiles by 4 column tiles of the adjacency matrix, the
  column tile fastest: point t works on row tile t / 4 and column tile t % 4. At column tile 0 the body clears its
  accumulator; at every point it adds the product of the adjacency tile (already in the narrow format) with the matching 2048 rows of the features to the
  accumulator; at column tile 3 it stores the row tile's result, computed from the accumulator. So a point falls in
  one of three cases (first, middle, last column tile), and this module runs the body once per case on whole staging
  buffers: what each run leaves in the buffers it stores into is found by the run itself, as a list of stored pieces.
-/
import proofs.«125076_j18348100288854_2_alg».proof.Proof.Gen.Kernel.Launch
import proofs.«125076_j18348100288854_2_alg».proof.Proof.Gen.Kernel.Skeleton
import proofs.«125076_j18348100288854_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's buffer holds its block at every point, for any proof data over these arrays whose body leaves
    the block in place. -/
theorem before_in0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's buffer holds its block at every point, for any proof data over these arrays whose body leaves
    the block in place. -/
theorem before_in1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

end

/-! ## The two branch conditions, decided over the grid -/

/-- "The column tile is the first one". -/
abbrev cond0 (i : grid1.Coords) : Prop := (Scalar.cmpi .ne (Scalar.extui (Scalar.cmpi .eq (BitVec.ofNat 32 (i 1).val) 0#32)) 0#32) = 1#1
theorem hcond0 : ∀ t : Fin cfg1.N, cond0 (grid1.coords t) ↔ t.val % 4 = 0 :=
  (by decide +kernel : ∀ t : Fin grid1.N, cond0 (grid1.coords t) ↔ t.val % 4 = 0)
/-- "The column tile is the last one". -/
abbrev cond1 (i : grid1.Coords) : Prop := k1_cond2 i = 1#1
theorem hcond1 : ∀ t : Fin cfg1.N, cond1 (grid1.coords t) ↔ t.val % 4 = 3 :=
  (by decide +kernel : ∀ t : Fin grid1.N, cond1 (grid1.coords t) ↔ t.val % 4 = 3)

/-! ## Where the result window is idle: everywhere but at the last column tile -/

theorem live_0 : ∀ t : Fin cfg1.N, cfg1.idle 0 (grid1.coords t) = false := by decide +kernel
theorem live_1 : ∀ t : Fin cfg1.N, cfg1.idle 1 (grid1.coords t) = false := by decide +kernel
theorem idle_o : ∀ t : Fin cfg1.N, ¬cond1 (grid1.coords t) → cfg1.idle 2 (grid1.coords t) = true := by decide +kernel
theorem noFlush_o : ∀ t : Fin cfg1.N, ¬cond1 (grid1.coords t) → (cfg1.win 2).flush t = false := by decide +kernel
theorem live_o : ∀ t : Fin cfg1.N, cond1 (grid1.coords t) → cfg1.idle 2 (grid1.coords t) = false := by decide +kernel

/-! ## The buffers the body is called on -/

abbrev ms0 (t : Fin cfg1.N) : Memref sig .tc .vmem S1024x2048 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S8192x32 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1024x32 .f32 := win1_2.stage (cfg1.slots t 2)
abbrev hs2 (t : Fin cfg1.N) : (ms2 t).IsWhole := hstage1_2 ((cfg1.slots t 2).cast nbuf1_2)
/-- The accumulator: a buffer of the call's own, kept from point to point. -/
abbrev scM : Memref sig .tc .vmem S1024x32 .f32 := Memref.whole cc1_scratch0
/-- Views through which the contents of the result tile and of the accumulator are stated. -/
abbrev VO : View sig .tc .vmem S1024x32 .f32 := (Memref.whole cc1_stg2_0 : Memref sig .tc .vmem S1024x32 .f32).view
abbrev VS : View sig .tc .vmem S1024x32 .f32 := scM.view

/-- What the call's own buffers are, beside the windows' staging buffers: the accumulator at some contents, and a
    remainder that takes the accumulator back at any contents. -/
theorem PhiA_split (c : Dev nD) :
    (Pipeline.ΦA spec1 c : sProp 𝕄) ⊢ iprop((∃ d, owns (c : Thread nD τ) scM fullShare d)
      ∗ (iprop(∃ d, owns (c : Thread nD τ) scM fullShare d) -∗ (Pipeline.ΦA spec1 c : sProp 𝕄))) := by
  unfold Pipeline.ΦA; rw [scopedRest1_eq]; simp only [scM, owns_whole]
  iintro ⟨⟨G0, G1, G2, G3, G4, G5, G6, G7, HS, Hrest⟩, Hp⟩
  isplitl [HS]; · iexact HS
  iintro HS'
  isplitl [HS' G0 G1 G2 G3 G4 G5 G6 G7 Hrest]
  ·
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [HS']; · iexact HS'
    iexact Hrest
  iexact Hp

/-! ## The body, case by case -/

set_option maxHeartbeats 4000000 in
/-- FIRST column tile: the accumulator is cleared, then holds the first product; the result tile is not touched. -/
noncomputable def runA (c : Dev nD) (i : grid1.Coords)
    (arg2 : Memref sig .tc .vmem S1024x2048 .bf16) (harg2 : arg2.IsWhole) (arg3 : Memref sig .tc .vmem S8192x32 .bf16) (harg3 : arg3.IsWhole) (arg4 : Memref sig .tc .vmem S1024x32 .f32) (harg4 : arg4.IsWhole) (arg5 : Memref sig .tc .vmem S1024x32 .f32) (harg5 : arg5.IsWhole) (hc0 : cond0 i) (hc1 : ¬cond1 i)
    (x0 : Vec F S1024x2048 .bf16) (x1 : Vec F S8192x32 .bf16) :
    { LS : List (View.Piece (Elt F) S1024x32 .f32) //
      ∀ (xi : Vec F S1024x32 .f32) (E : Set ℕ) (K : PUnit → sProp 𝕄),
        iprop(owns (c : Thread nD τ) arg2 fullShare x0 ∗ owns (c : Thread nD τ) arg3 fullShare x1 ∗ owns (c : Thread nD τ) arg4 fullShare xi
            ∗ (∃ d, owns (c : Thread nD τ) arg5 fullShare d)
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc1__mid_kernel i arg2 harg2 arg3 harg3 arg4 harg4 arg5 harg5) K } := by
  refine ⟨?_, fun xi E K => ?run⟩
  case run =>
    simp only [cc1__mid_kernel_eq_skeleton]; unfold cc1__mid_kernel_skel
    unfold owns
    iintro ⟨⟨%f0, %hf0, H0⟩, ⟨%f1, %hf1, H1⟩, ⟨%fo, %hfo, HO⟩, ⟨%ds, %fs, -, HS⟩, Hk⟩
    obtain rfl := harg2.eq_unread hf0; obtain rfl := harg3.eq_unread hf1; obtain rfl := harg4.eq_unread hfo
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HO]
    · iexists _; isplitr; · ipureintro; exact harg4.read_unread _
      iexact HO
    iexists _; iexact HS

set_option maxHeartbeats 4000000 in
/-- A MIDDLE column tile: the accumulator, found at `xs`, gains one more product; the result tile is not touched. -/
noncomputable def runB (c : Dev nD) (i : grid1.Coords)
    (arg2 : Memref sig .tc .vmem S1024x2048 .bf16) (harg2 : arg2.IsWhole) (arg3 : Memref sig .tc .vmem S8192x32 .bf16) (harg3 : arg3.IsWhole) (arg4 : Memref sig .tc .vmem S1024x32 .f32) (harg4 : arg4.IsWhole) (arg5 : Memref sig .tc .vmem S1024x32 .f32) (harg5 : arg5.IsWhole) (hc0 : ¬cond0 i) (hc1 : ¬cond1 i)
    (x0 : Vec F S1024x2048 .bf16) (x1 : Vec F S8192x32 .bf16) (xs : Vec F S1024x32 .f32) :
    { LS : List (View.Piece (Elt F) S1024x32 .f32) //
      ∀ (xi : Vec F S1024x32 .f32) (E : Set ℕ) (K : PUnit → sProp 𝕄),
        iprop(owns (c : Thread nD τ) arg2 fullShare x0 ∗ owns (c : Thread nD τ) arg3 fullShare x1 ∗ owns (c : Thread nD τ) arg4 fullShare xi
            ∗ owns (c : Thread nD τ) arg5 fullShare xs
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc1__mid_kernel i arg2 harg2 arg3 harg3 arg4 harg4 arg5 harg5) K } := by
  refine ⟨?_, fun xi E K => ?run⟩
  case run =>
    simp only [cc1__mid_kernel_eq_skeleton]; unfold cc1__mid_kernel_skel
    unfold owns
    iintro ⟨⟨%f0, %hf0, H0⟩, ⟨%f1, %hf1, H1⟩, ⟨%fo, %hfo, HO⟩, ⟨%fs, %hfs, HS⟩, Hk⟩
    obtain rfl := harg2.eq_unread hf0; obtain rfl := harg3.eq_unread hf1; obtain rfl := harg4.eq_unread hfo; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HO]
    · iexists _; isplitr; · ipureintro; exact harg4.read_unread _
      iexact HO
    iexists _; iexact HS

set_option maxHeartbeats 4000000 in
/-- The LAST column tile: the accumulator, found at `xs`, gains the last product, and the result tile is stored,
    computed from the accumulator. -/
noncomputable def runC (c : Dev nD) (i : grid1.Coords)
    (arg2 : Memref sig .tc .vmem S1024x2048 .bf16) (harg2 : arg2.IsWhole) (arg3 : Memref sig .tc .vmem S8192x32 .bf16) (harg3 : arg3.IsWhole) (arg4 : Memref sig .tc .vmem S1024x32 .f32) (harg4 : arg4.IsWhole) (arg5 : Memref sig .tc .vmem S1024x32 .f32) (harg5 : arg5.IsWhole) (hc0 : ¬cond0 i) (hc1 : cond1 i)
    (x0 : Vec F S1024x2048 .bf16) (x1 : Vec F S8192x32 .bf16) (xs : Vec F S1024x32 .f32) :
    Σ' (LO : List (View.Piece (Elt F) S1024x32 .f32)), { LS : List (View.Piece (Elt F) S1024x32 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc1__mid_kernel i arg2 harg2 arg3 harg3 arg4 harg4 arg5 harg5) K } := by
  refine ⟨?_, ?_, fun E K => ?run⟩
  case run =>
    simp only [cc1__mid_kernel_eq_skeleton]; unfold cc1__mid_kernel_skel
    unfold owns
    iintro ⟨⟨%f0, %hf0, H0⟩, ⟨%f1, %hf1, H1⟩, ⟨%dO, %fo, -, HO⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HO]; · iexists _; iexact HO
    iexists _; iexact HS

end Cert.Kernel.Reg1

end
-- ==== Proof.KR1Frame.lean ====
/-
  The second aggregation call as a whole: what its accumulator and its result tile hold after each of the 32 points, by
  recursion on the point (the accumulator restarts at every first column tile and otherwise continues from the point
  before), the invariant that carries the accumulator from one point to the next, and the body's obligation at every
  point, each point taken in its case.
-/
import proofs.«125076_j18348100288854_2_alg».proof.Proof.KR1Runs

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The three runs at a point of the grid -/

/-- The run of the first-column-tile case at point `t`, on the point's buffers and blocks. -/
def atA (c : Dev nD) (t : Fin cfg1.N) (h0 : t.val % 4 = 0) (h1 : ¬t.val % 4 = 3) :=
  runA (F := F) c (grid1.coords t) (ms0 t) (hs0 t) (ms1 t) (hs1 t) (ms2 t) (hs2 t) scM (Memref.isWhole_whole _) ((hcond0 t).mpr h0) (fun h => h1 ((hcond1 t).mp h)) (iblk V c 0 t) (iblk V c 1 t)
/-- The run of the middle case at point `t`, the accumulator found at `xs`. -/
def atB (c : Dev nD) (t : Fin cfg1.N) (h0 : ¬t.val % 4 = 0) (h1 : ¬t.val % 4 = 3) (xs : Vec F S1024x32 .f32) :=
  runB (F := F) c (grid1.coords t) (ms0 t) (hs0 t) (ms1 t) (hs1 t) (ms2 t) (hs2 t) scM (Memref.isWhole_whole _) (fun h => h0 ((hcond0 t).mp h)) (fun h => h1 ((hcond1 t).mp h)) (iblk V c 0 t) (iblk V c 1 t) xs
/-- The run of the last-column-tile case at point `t`, the accumulator found at `xs`. -/
def atC (c : Dev nD) (t : Fin cfg1.N) (h0 : ¬t.val % 4 = 0) (h1 : t.val % 4 = 3) (xs : Vec F S1024x32 .f32) :=
  runC (F := F) c (grid1.coords t) (ms0 t) (hs0 t) (ms1 t) (hs1 t) (ms2 t) (hs2 t) scM (Memref.isWhole_whole _) (fun h => h0 ((hcond0 t).mp h)) ((hcond1 t).mpr h1) (iblk V c 0 t) (iblk V c 1 t) xs

/-- A list of stored pieces read back as contents: of the result tile, of the accumulator. -/
def rdO (L : List (View.Piece (Elt F) S1024x32 .f32)) : Vec F S1024x32 .f32 := VO.read (Elt F) (VO.writes (Elt F) VO.junk L)
def rdS (L : List (View.Piece (Elt F) S1024x32 .f32)) : Vec F S1024x32 .f32 := VS.read (Elt F) (VS.writes (Elt F) VS.junk L)

/-! ## Each run's stores cover the buffers they fill -/

theorem coverA_S (c : Dev nD) (t : Fin cfg1.N) (h0 : t.val % 4 = 0) (h1 : ¬t.val % 4 = 3) (y : S1024x32.Idx) :
    ∃ pc ∈ (atA V c t h0 h1).1, y ∈ pc.1.set :=
  View.cover_of_tiledL (atA V c t h0 h1).1 S1024x32.size (by unfold atA; sl_kernel_rfl) y
theorem coverB_S (c : Dev nD) (t : Fin cfg1.N) (h0 : ¬t.val % 4 = 0) (h1 : ¬t.val % 4 = 3) (xs : Vec F S1024x32 .f32) (y : S1024x32.Idx) :
    ∃ pc ∈ (atB V c t h0 h1 xs).1, y ∈ pc.1.set :=
  View.cover_of_tiledL (atB V c t h0 h1 xs).1 S1024x32.size (by unfold atB; sl_kernel_rfl) y
theorem coverC_O (c : Dev nD) (t : Fin cfg1.N) (h0 : ¬t.val % 4 = 0) (h1 : t.val % 4 = 3) (xs : Vec F S1024x32 .f32) (y : S1024x32.Idx) :
    ∃ pc ∈ (atC V c t h0 h1 xs).1, y ∈ pc.1.set :=
  View.cover_of_tiledL (atC V c t h0 h1 xs).1 S1024x32.size (by unfold atC; sl_kernel_rfl) y
theorem coverC_S (c : Dev nD) (t : Fin cfg1.N) (h0 : ¬t.val % 4 = 0) (h1 : t.val % 4 = 3) (xs : Vec F S1024x32 .f32) (y : S1024x32.Idx) :
    ∃ pc ∈ (atC V c t h0 h1 xs).2.1, y ∈ pc.1.set :=
  View.cover_of_tiledL (atC V c t h0 h1 xs).2.1 S1024x32.size (by unfold atC; sl_kernel_rfl) y

/-! ## What the buffers hold after each point -/

/-- After point `n`: the result tile's buffer, then the accumulator. The result tile's buffer matters only at the last
    column tile; elsewhere its entry is a placeholder nothing reads. -/
def outsAt (c : Dev nD) : (n : ℕ) → n < cfg1.N → Vec F S1024x32 .f32 × Vec F S1024x32 .f32
  | 0, hn => (rdO [], rdS (atA V c ⟨0, hn⟩ (Nat.zero_mod 4) (by show ¬(0 % 4 = 3); decide)).1)
  | n + 1, hn =>
    if h0 : (n + 1) % 4 = 0 then
      if h1 : (n + 1) % 4 = 3 then False.elim (by omega)
      else (rdO [], rdS (atA V c ⟨n + 1, hn⟩ h0 h1).1)
    else
      if h1 : (n + 1) % 4 = 3 then
        (rdO (atC V c ⟨n + 1, hn⟩ h0 h1 (outsAt c n (Nat.lt_of_succ_lt hn)).2).1,
         rdS (atC V c ⟨n + 1, hn⟩ h0 h1 (outsAt c n (Nat.lt_of_succ_lt hn)).2).2.1)
      else
        (rdO [], rdS (atB V c ⟨n + 1, hn⟩ h0 h1 (outsAt c n (Nat.lt_of_succ_lt hn)).2).1)

/-- The accumulator the point before `t` left. -/
abbrev prevS (c : Dev nD) (t : Fin cfg1.N) : Vec F S1024x32 .f32 :=
  (outsAt V c (t.val - 1) (Nat.lt_of_le_of_lt (Nat.sub_le _ _) t.isLt)).2

theorem outsAt_A (c : Dev nD) (t : Fin cfg1.N) (h0 : t.val % 4 = 0) (h1 : ¬t.val % 4 = 3) :
    outsAt V c t.val t.isLt = (rdO [], rdS (atA V c t h0 h1).1) := by
  obtain ⟨n, hn⟩ := t
  cases n with
  | zero => exact rfl
  | succ n => exact (dif_pos h0).trans ((dif_neg h1).trans rfl)

theorem outsAt_B (c : Dev nD) (t : Fin cfg1.N) (h0 : ¬t.val % 4 = 0) (h1 : ¬t.val % 4 = 3) :
    outsAt V c t.val t.isLt = (rdO [], rdS (atB V c t h0 h1 (prevS V c t)).1) := by
  obtain ⟨n, hn⟩ := t
  cases n with
  | zero => exact absurd (Nat.zero_mod 4) h0
  | succ n => exact (dif_neg h0).trans ((dif_neg h1).trans rfl)

theorem outsAt_C (c : Dev nD) (t : Fin cfg1.N) (h0 : ¬t.val % 4 = 0) (h1 : t.val % 4 = 3) :
    outsAt V c t.val t.isLt = (rdO (atC V c t h0 h1 (prevS V c t)).1, rdS (atC V c t h0 h1 (prevS V c t)).2.1) := by
  obtain ⟨n, hn⟩ := t
  cases n with
  | zero => exact absurd (Nat.zero_mod 4) h0
  | succ n => exact (dif_neg h0).trans ((dif_pos h1).trans rfl)

/-! ## The invariant between points -/

/-- Before the first point: the call's own buffers at anything. Before any later point: the accumulator at what the
    point before left, beside a remainder that takes the accumulator back at any contents. -/
def PhiS (c : Dev nD) : (n : ℕ) → n ≤ cfg1.N → sProp 𝕄
  | 0, _ => (Pipeline.ΦA spec1 c : sProp 𝕄)
  | n + 1, hn => iprop(owns (c : Thread nD τ) scM fullShare (outsAt V c n hn).2
      ∗ (iprop(∃ d, owns (c : Thread nD τ) scM fullShare d) -∗ (Pipeline.ΦA spec1 c : sProp 𝕄)))

theorem PhiS_zero (c : Dev nD) (n : ℕ) (h : n ≤ cfg1.N) (hz : n = 0) : PhiS V c n h = (Pipeline.ΦA spec1 c : sProp 𝕄) := by
  subst hz; rfl
theorem PhiS_succ (c : Dev nD) (n : ℕ) (hn : n < cfg1.N) :
    PhiS V c (n + 1) hn = iprop(owns (c : Thread nD τ) scM fullShare (outsAt V c n hn).2
      ∗ (iprop(∃ d, owns (c : Thread nD τ) scM fullShare d) -∗ (Pipeline.ΦA spec1 c : sProp 𝕄))) := rfl
theorem PhiS_pos (c : Dev nD) (n : ℕ) (h : n ≤ cfg1.N) (hz : n ≠ 0) :
    PhiS V c n h = iprop(owns (c : Thread nD τ) scM fullShare (outsAt V c (n - 1) (by omega)).2
      ∗ (iprop(∃ d, owns (c : Thread nD τ) scM fullShare d) -∗ (Pipeline.ΦA spec1 c : sProp 𝕄))) := by
  cases n with
  | zero => exact absurd rfl hz
  | succ n => rfl

/-! ## The proof data -/

/-- The arrays as the call finds them; after the body at point `t` the inputs' buffers at their blocks and the result
    tile's at `outsAt`; the invariant `PhiS`; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by dsimp only [dat]
theorem PhiS_castSucc (c : Dev nD) (t : Fin cfg1.N) : (dat V c).Φ t.castSucc = PhiS V c t.val (Nat.le_of_lt t.isLt) := by
  dsimp only [dat]; simp only [Fin.coe_castSucc]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_o (c : Dev nD) (t : Fin cfg1.N) : (dat V c).after 2 t = (outsAt V c t.val t.isLt).1 := by dsimp only [dat]
theorem before_0 (c : Dev nD) (t : Fin cfg1.N) (d) : (dat V c).before 0 t d = iblk V c 0 t :=
  before_in0_of V (dat V c) (A_eq V c 0) (after_0 V c) t d
theorem before_1 (c : Dev nD) (t : Fin cfg1.N) (d) : (dat V c).before 1 t d = iblk V c 1 t :=
  before_in1_of V (dat V c) (A_eq V c 1) (after_1 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The inputs' buffers hold their blocks; the point's position among the column tiles says which
    case it is in; the invariant hands the body the accumulator at what the point before left (at anything at the very
    first point) and takes it back at this point's contents; nothing is owed throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg1.N = 32 from N_1)
  rw [show (dat V c).leavesExact 0 t = owns (c : Thread nD τ) (ms0 t) fullShare ((dat V c).after 0 t) from by
    unfold Dat.leavesExact; rw [live_0 t], after_0]
  rw [show (dat V c).leavesExact 1 t = owns (c : Thread nD τ) (ms1 t) fullShare ((dat V c).after 1 t) from by
    unfold Dat.leavesExact; rw [live_1 t], after_1]
  by_cases h0 : t.val % 4 = 0
  · have h1 : ¬t.val % 4 = 3 := by omega
    rw [Dat.leavesExact_idle (dat V c) 2 t (idle_o t (fun h => h1 ((hcond1 t).mp h))) (noFlush_o t (fun h => h1 ((hcond1 t).mp h)))]
    rw [outsAt_A V c t h0 h1]
    unfold rdS; dsimp only
    by_cases hz : t.val = 0
    · rw [PhiS_castSucc V c t, PhiS_zero V c _ _ hz]
      iintro ⟨HΦ, Ho, ⟨%d0, H0⟩, ⟨%d1, H1⟩, ⟨%dO, HO⟩⟩
      ihave HΦ' := (PhiA_split (F := F) c) $$ HΦ
      icases HΦ' with ⟨HS, HW⟩
      iapply ((atA V c t h0 h1).2 _ Set.univ _)
      isplitl [H0]; · iexact H0
      isplitl [H1]; · iexact H1
      isplitl [HO]; · iexact HO
      isplitl [HS]; · iexact HS
      iintro ⟨H0, H1, HO, ⟨%es, HS⟩⟩
      isplitl [HS HW]
      · isplitl [HS]
        · unfold owns; iexists _; isplitr
          swap; · iexact HS
          ipureintro; exact View.read_writes_of_cover _ _ _ _ _ (coverA_S V c t h0 h1)
        iexact HW
      isplitl [Ho]; · iexact Ho
      isplitl [H0]; · iexact H0
      isplitl [H1]; · iexact H1
      iexists _; iexact HO
    · rw [PhiS_castSucc V c t, PhiS_pos V c _ _ hz]
      iintro ⟨⟨HS, HW⟩, Ho, ⟨%d0, H0⟩, ⟨%d1, H1⟩, ⟨%dO, HO⟩⟩
      iapply ((atA V c t h0 h1).2 _ Set.univ _)
      isplitl [H0]; · iexact H0
      isplitl [H1]; · iexact H1
      isplitl [HO]; · iexact HO
      isplitl [HS]; · iexists _; iexact HS
      iintro ⟨H0, H1, HO, ⟨%es, HS⟩⟩
      isplitl [HS HW]
      · isplitl [HS]
        · unfold owns; iexists _; isplitr
          swap; · iexact HS
          ipureintro; exact View.read_writes_of_cover _ _ _ _ _ (coverA_S V c t h0 h1)
        iexact HW
      isplitl [Ho]; · iexact Ho
      isplitl [H0]; · iexact H0
      isplitl [H1]; · iexact H1
      iexists _; iexact HO
  · have hz : t.val ≠ 0 := fun e => h0 (by rw [e])
    by_cases h1 : t.val % 4 = 3
    · rw [show (dat V c).leavesExact 2 t = owns (c : Thread nD τ) (ms2 t) fullShare ((dat V c).after 2 t) from by
        unfold Dat.leavesExact; rw [live_o t ((hcond1 t).mpr h1)], after_o]
      rw [outsAt_C V c t h0 h1]
      unfold rdO rdS; dsimp only
      rw [PhiS_castSucc V c t, PhiS_pos V c _ _ hz]
      iintro ⟨⟨HS, HW⟩, Ho, ⟨%d0, H0⟩, ⟨%d1, H1⟩, ⟨%dO, HO⟩⟩
      iapply ((atC V c t h0 h1 _).2.2 Set.univ _)
      isplitl [H0]; · iexact H0
      isplitl [H1]; · iexact H1
      isplitl [HO]; · iexists _; iexact HO
      isplitl [HS]; · iexact HS
      iintro ⟨H0, H1, ⟨%eO, HO⟩, ⟨%es, HS⟩⟩
      isplitl [HS HW]
      · isplitl [HS]
        · unfold owns; iexists _; isplitr
          swap; · iexact HS
          ipureintro; exact View.read_writes_of_cover _ _ _ _ _ (coverC_S V c t h0 h1 _)
        iexact HW
      isplitl [Ho]; · iexact Ho
      isplitl [H0]; · iexact H0
      isplitl [H1]; · iexact H1
      unfold owns; iexists _; isplitr
      swap; · iexact HO
      ipureintro; exact View.read_writes_of_cover _ _ _ _ _ (coverC_O V c t h0 h1 _)
    · rw [Dat.leavesExact_idle (dat V c) 2 t (idle_o t (fun h => h1 ((hcond1 t).mp h))) (noFlush_o t (fun h => h1 ((hcond1 t).mp h)))]
      rw [outsAt_B V c t h0 h1]
      unfold rdS; dsimp only
      rw [PhiS_castSucc V c t, PhiS_pos V c _ _ hz]
      iintro ⟨⟨HS, HW⟩, Ho, ⟨%d0, H0⟩, ⟨%d1, H1⟩, ⟨%dO, HO⟩⟩
      iapply ((atB V c t h0 h1 _).2 _ Set.univ _)
      isplitl [H0]; · iexact H0
      isplitl [H1]; · iexact H1
      isplitl [HO]; · iexact HO
      isplitl [HS]; · iexact HS
      iintro ⟨H0, H1, HO, ⟨%es, HS⟩⟩
      isplitl [HS HW]
      · isplitl [HS]
        · unfold owns; iexists _; isplitr
          swap; · iexact HS
          ipureintro; exact View.read_writes_of_cover _ _ _ _ _ (coverB_S V c t h0 h1 _)
        iexact HW
      isplitl [Ho]; · iexact Ho
      isplitl [H0]; · iexact H0
      isplitl [H1]; · iexact H1
      iexists _; iexact HO

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the call is the invariant before the first point. -/
theorem hin (c : Dev nD) : (Pipeline.ΦA spec1 c : sProp 𝕄) ⊢ (dat V c).Φ 0 := by
  rw [show (dat V c).Φ 0 = PhiS V c 0 (Nat.zero_le _) from rfl, PhiS_zero V c 0 _ rfl]
  try exact Idealize.SL.BI.Entails.refl _

/-- After the last point the invariant gives the call's own buffers back, the accumulator's contents forgotten. -/
theorem hout (c : Dev nD) : (dat V c).Φ (Fin.last cfg1.N) ⊢ (Pipeline.ΦA spec1 c : sProp 𝕄) := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 32 := N_1; omega)]
  iintro ⟨HS, HW⟩
  iapply HW
  iexists _; iexact HS

end

end Cert.Kernel.Reg1

end
-- ==== Proof.KR2Runs.lean ====
/-
  The third aggregation call, which also applies the two-stage head, point by point. Its grid is 8 row tiles by 4 column tiles of the adjacency matrix, the
  column tile fastest: point t works on row tile t / 4 and column tile t % 4. At column tile 0 the body clears its
  accumulator; at every point it adds the product of the adjacency tile with the matching 2048 rows of the features to the
  accumulator; at column tile 3 it stores the row tile's result, computed from the accumulator. So a point falls in
  one of three cases (first, middle, last column tile), and this module runs the body once per case on whole staging
  buffers: what each run leaves in the buffers it stores into is found by the run itself, as a list of stored pieces.
-/
import proofs.«125076_j18348100288854_2_alg».proof.Proof.Gen.Kernel.Launch
import proofs.«125076_j18348100288854_2_alg».proof.Proof.Gen.Kernel.Skeleton
import proofs.«125076_j18348100288854_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the call finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's buffer holds its block at every point, for any proof data over these arrays whose body leaves
    the block in place. -/
theorem before_in0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's buffer holds its block at every point, for any proof data over these arrays whose body leaves
    the block in place. -/
theorem before_in1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's buffer holds its block at every point, for any proof data over these arrays whose body leaves
    the block in place. -/
theorem before_in2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's buffer holds its block at every point, for any proof data over these arrays whose body leaves
    the block in place. -/
theorem before_in3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's buffer holds its block at every point, for any proof data over these arrays whose body leaves
    the block in place. -/
theorem before_in4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's buffer holds its block at every point, for any proof data over these arrays whose body leaves
    the block in place. -/
theorem before_in5_of {c : Dev nD} (dat : Dat τ (Elt F) Unit ℕ (UR sig nD τ) ℕ cfg2 c) (hA : dat.A 5 = V c (Pipeline.arrRef spec2 5))
    (hafter : ∀ t, dat.after 5 t = iblk V c 5 t) (t : Fin cfg2.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

end

/-! ## The two branch conditions, decided over the grid -/

/-- "The column tile is the first one". -/
abbrev cond0 (i : grid2.Coords) : Prop := (Scalar.cmpi .ne (Scalar.extui (Scalar.cmpi .eq (BitVec.ofNat 32 (i 1).val) 0#32)) 0#32) = 1#1
theorem hcond0 : ∀ t : Fin cfg2.N, cond0 (grid2.coords t) ↔ t.val % 4 = 0 :=
  (by decide +kernel : ∀ t : Fin grid2.N, cond0 (grid2.coords t) ↔ t.val % 4 = 0)
/-- "The column tile is the last one". -/
abbrev cond1 (i : grid2.Coords) : Prop := k2_cond2 i = 1#1
theorem hcond1 : ∀ t : Fin cfg2.N, cond1 (grid2.coords t) ↔ t.val % 4 = 3 :=
  (by decide +kernel : ∀ t : Fin grid2.N, cond1 (grid2.coords t) ↔ t.val % 4 = 3)

/-! ## Where the result window is idle: everywhere but at the last column tile -/

theorem live_0 : ∀ t : Fin cfg2.N, cfg2.idle 0 (grid2.coords t) = false := by decide +kernel
theorem live_1 : ∀ t : Fin cfg2.N, cfg2.idle 1 (grid2.coords t) = false := by decide +kernel
theorem live_2 : ∀ t : Fin cfg2.N, cfg2.idle 2 (grid2.coords t) = false := by decide +kernel
theorem live_3 : ∀ t : Fin cfg2.N, cfg2.idle 3 (grid2.coords t) = false := by decide +kernel
theorem live_4 : ∀ t : Fin cfg2.N, cfg2.idle 4 (grid2.coords t) = false := by decide +kernel
theorem live_5 : ∀ t : Fin cfg2.N, cfg2.idle 5 (grid2.coords t) = false := by decide +kernel
theorem idle_o : ∀ t : Fin cfg2.N, ¬cond1 (grid2.coords t) → cfg2.idle 6 (grid2.coords t) = true := by decide +kernel
theorem noFlush_o : ∀ t : Fin cfg2.N, ¬cond1 (grid2.coords t) → (cfg2.win 6).flush t = false := by decide +kernel
theorem live_o : ∀ t : Fin cfg2.N, cond1 (grid2.coords t) → cfg2.idle 6 (grid2.coords t) = false := by decide +kernel

/-! ## The buffers the body is called on -/

abbrev ms0 (t : Fin cfg2.N) : Memref sig .tc .vmem S1024x2048 .bf16 := win2_0.stage (cfg2.slots t 0)
abbrev hs0 (t : Fin cfg2.N) : (ms0 t).IsWhole := hstage2_0 ((cfg2.slots t 0).cast nbuf2_0)
abbrev ms1 (t : Fin cfg2.N) : Memref sig .tc .vmem S8192x64 .bf16 := win2_1.stage (cfg2.slots t 1)
abbrev hs1 (t : Fin cfg2.N) : (ms1 t).IsWhole := hstage2_1 ((cfg2.slots t 1).cast nbuf2_1)
abbrev ms2 (t : Fin cfg2.N) : Memref sig .tc .vmem S64x32 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S1x32 .f32 := win2_3.stage (cfg2.slots t 3)
abbrev hs3 (t : Fin cfg2.N) : (ms3 t).IsWhole := hstage2_3 ((cfg2.slots t 3).cast nbuf2_3)
abbrev ms4 (t : Fin cfg2.N) : Memref sig .tc .vmem S32x10 .f32 := win2_4.stage (cfg2.slots t 4)
abbrev hs4 (t : Fin cfg2.N) : (ms4 t).IsWhole := hstage2_4 ((cfg2.slots t 4).cast nbuf2_4)
abbrev ms5 (t : Fin cfg2.N) : Memref sig .tc .vmem S1x10 .f32 := win2_5.stage (cfg2.slots t 5)
abbrev hs5 (t : Fin cfg2.N) : (ms5 t).IsWhole := hstage2_5 ((cfg2.slots t 5).cast nbuf2_5)
abbrev ms6 (t : Fin cfg2.N) : Memref sig .tc .vmem S1024x10 .f32 := win2_6.stage (cfg2.slots t 6)
abbrev hs6 (t : Fin cfg2.N) : (ms6 t).IsWhole := hstage2_6 ((cfg2.slots t 6).cast nbuf2_6)
/-- The accumulator: a buffer of the call's own, kept from point to point. -/
abbrev scM : Memref sig .tc .vmem S1024x64 .f32 := Memref.whole cc2_scratch0
/-- Views through which the contents of the result tile and of the accumulator are stated. -/
abbrev VO : View sig .tc .vmem S1024x10 .f32 := (Memref.whole cc2_stg6_0 : Memref sig .tc .vmem S1024x10 .f32).view
abbrev VS : View sig .tc .vmem S1024x64 .f32 := scM.view

/-- What the call's own buffers are, beside the windows' staging buffers: the accumulator at some contents, and a
    remainder that takes the accumulator back at any contents. -/
theorem PhiA_split (c : Dev nD) :
    (Pipeline.ΦA spec2 c : sProp 𝕄) ⊢ iprop((∃ d, owns (c : Thread nD τ) scM fullShare d)
      ∗ (iprop(∃ d, owns (c : Thread nD τ) scM fullShare d) -∗ (Pipeline.ΦA spec2 c : sProp 𝕄))) := by
  unfold Pipeline.ΦA; rw [scopedRest2_eq]; simp only [scM, owns_whole]
  iintro ⟨⟨G0, G1, G2, G3, G4, G5, G6, G7, G8, G9, G10, G11, G12, G13, HS⟩, Hp⟩
  isplitl [HS]; · iexact HS
  iintro HS'
  isplitl [HS' G0 G1 G2 G3 G4 G5 G6 G7 G8 G9 G10 G11 G12 G13]
  ·
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    isplitl [G13]; · iexact G13
    iexact HS'
  iexact Hp

/-! ## The body, case by case -/

set_option maxHeartbeats 4000000 in
/-- FIRST column tile: the accumulator is cleared, then holds the first product; the result tile is not touched. -/
noncomputable def runA (c : Dev nD) (i : grid2.Coords)
    (arg2 : Memref sig .tc .vmem S1024x2048 .bf16) (harg2 : arg2.IsWhole) (arg3 : Memref sig .tc .vmem S8192x64 .bf16) (harg3 : arg3.IsWhole) (arg4 : Memref sig .tc .vmem S64x32 .f32) (harg4 : arg4.IsWhole) (arg5 : Memref sig .tc .vmem S1x32 .f32) (harg5 : arg5.IsWhole) (arg6 : Memref sig .tc .vmem S32x10 .f32) (harg6 : arg6.IsWhole) (arg7 : Memref sig .tc .vmem S1x10 .f32) (harg7 : arg7.IsWhole) (arg8 : Memref sig .tc .vmem S1024x10 .f32) (harg8 : arg8.IsWhole) (arg9 : Memref sig .tc .vmem S1024x64 .f32) (harg9 : arg9.IsWhole) (hc0 : cond0 i) (hc1 : ¬cond1 i)
    (x0 : Vec F S1024x2048 .bf16) (x1 : Vec F S8192x64 .bf16) (x2 : Vec F S64x32 .f32) (x3 : Vec F S1x32 .f32) (x4 : Vec F S32x10 .f32) (x5 : Vec F S1x10 .f32) :
    { LS : List (View.Piece (Elt F) S1024x64 .f32) //
      ∀ (xi : Vec F S1024x10 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi
            ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi
                ∗ (∃ f, arg9.view.loc (c : Thread nD τ) ↦[arg9.view.set]{fullShare} arg9.view.writes (Elt F) f LS)) -∗ K ⟨⟩))
          ⊢ wp frame (wpE (defs₀ (F := F)) Variants.none c none) E (cc2__final_kernel i arg2 harg2 arg3 harg3 arg4 harg4 arg5 harg5 arg6 harg6 arg7 harg7 arg8 harg8 arg9 harg9) K } := by
  refine ⟨?_, fun xi E K => ?run⟩
  case run =>
    simp only [cc2__final_kernel_eq_skeleton]; unfold cc2__final_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fo, %hfo, HO⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfo
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HO]
    · iexists _; isplitr; · ipureintro; exact harg8.read_unread _
      iexact HO
    iexists _; iexact HS

set_option maxHeartbeats 4000000 in
/-- A MIDDLE column tile: the accumulator, found at `xs`, gains one more product; the result tile is not touched. -/
noncomputable def runB (c : Dev nD) (i : grid2.Coords)
    (arg2 : Memref sig .tc .vmem S1024x2048 .bf16) (harg2 : arg2.IsWhole) (arg3 : Memref sig .tc .vmem S8192x64 .bf16) (harg3 : arg3.IsWhole) (arg4 : Memref sig .tc .vmem S64x32 .f32) (harg4 : arg4.IsWhole) (arg5 : Memref sig .tc .vmem S1x32 .f32) (harg5 : arg5.IsWhole) (arg6 : Memref sig .tc .vmem S32x10 .f32) (harg6 : arg6.IsWhole) (arg7 : Memref sig .tc .vmem S1x10 .f32) (harg7 : arg7.IsWhole) (arg8 : Memref sig .tc .vmem S1024x10 .f32) (harg8 : arg8.IsWhole) (arg9 : Memref sig .tc .vmem S1024x64 .f32) (harg9 : arg9.IsWhole) (hc0 : ¬cond0 i) (hc1 : ¬cond1 i)
    (x0 : Vec F S1024x2048 .bf16) (x1 : Vec F S8192x64 .bf16) (x2 : Vec F S64x32 .f32) (x3 : Vec F S1x32 .f32) (x4 : Vec F S32x10 .f32) (x5 : Vec F S1x10 .f32) (xs : Vec F S1024x64 .f32) :
    { LS : List (View.Piece (Elt F) S1024x64 .f32) //
      ∀ (xi : Vec F S1024x10 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi
            ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi
                ∗ (∃ f, arg9.view.loc (c : Thread nD τ) ↦[arg9.view.set]{fullShare} arg9.view.writes (Elt F) f LS)) -∗ K ⟨⟩))
          ⊢ wp frame (wpE (defs₀ (F := F)) Variants.none c none) E (cc2__final_kernel i arg2 harg2 arg3 harg3 arg4 harg4 arg5 harg5 arg6 harg6 arg7 harg7 arg8 harg8 arg9 harg9) K } := by
  refine ⟨?_, fun xi E K => ?run⟩
  case run =>
    simp only [cc2__final_kernel_eq_skeleton]; unfold cc2__final_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fo, %hfo, HO⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfo; obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HO]
    · iexists _; isplitr; · ipureintro; exact harg8.read_unread _
      iexact HO
    iexists _; iexact HS

set_option maxHeartbeats 4000000 in
/-- The LAST column tile: the accumulator, found at `xs`, gains the last product, and the result tile is stored,
    computed from the accumulator. -/
noncomputable def runC (c : Dev nD) (i : grid2.Coords)
    (arg2 : Memref sig .tc .vmem S1024x2048 .bf16) (harg2 : arg2.IsWhole) (arg3 : Memref sig .tc .vmem S8192x64 .bf16) (harg3 : arg3.IsWhole) (arg4 : Memref sig .tc .vmem S64x32 .f32) (harg4 : arg4.IsWhole) (arg5 : Memref sig .tc .vmem S1x32 .f32) (harg5 : arg5.IsWhole) (arg6 : Memref sig .tc .vmem S32x10 .f32) (harg6 : arg6.IsWhole) (arg7 : Memref sig .tc .vmem S1x10 .f32) (harg7 : arg7.IsWhole) (arg8 : Memref sig .tc .vmem S1024x10 .f32) (harg8 : arg8.IsWhole) (arg9 : Memref sig .tc .vmem S1024x64 .f32) (harg9 : arg9.IsWhole) (hc0 : ¬cond0 i) (hc1 : cond1 i)
    (x0 : Vec F S1024x2048 .bf16) (x1 : Vec F S8192x64 .bf16) (x2 : Vec F S64x32 .f32) (x3 : Vec F S1x32 .f32) (x4 : Vec F S32x10 .f32) (x5 : Vec F S1x10 .f32) (xs : Vec F S1024x64 .f32) :
    Σ' (LO : List (View.Piece (Elt F) S1024x10 .f32)), { LS : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
            ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f LO)
                ∗ (∃ f, arg9.view.loc (c : Thread nD τ) ↦[arg9.view.set]{fullShare} arg9.view.writes (Elt F) f LS)) -∗ K ⟨⟩))
          ⊢ wp frame (wpE (defs₀ (F := F)) Variants.none c none) E (cc2__final_kernel i arg2 harg2 arg3 harg3 arg4 harg4 arg5 harg5 arg6 harg6 arg7 harg7 arg8 harg8 arg9 harg9) K } := by
  refine ⟨?_, ?_, fun E K => ?run⟩
  case run =>
    simp only [cc2__final_kernel_eq_skeleton]; unfold cc2__final_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fo, -, HO⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HO]; · iexists _; iexact HO
    iexists _; iexact HS

end Cert.Kernel.Reg2

end
-- ==== Proof.KR2Frame.lean ====
/-
  The third aggregation call, which also applies the two-stage head as a whole: what its accumulator and its result tile hold after each of the 32 points, by
  recursion on the point (the accumulator restarts at every first column tile and otherwise continues from the point
  before), the invariant that carries the accumulator from one point to the next, and the body's obligation at every
  point, each point taken in its case.
-/
import proofs.«125076_j18348100288854_2_alg».proof.Proof.KR2Runs

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The three runs at a point of the grid -/

/-- The run of the first-column-tile case at point `t`, on the point's buffers and blocks. -/
def atA (c : Dev nD) (t : Fin cfg2.N) (h0 : t.val % 4 = 0) (h1 : ¬t.val % 4 = 3) :=
  runA (F := F) c (grid2.coords t) (ms0 t) (hs0 t) (ms1 t) (hs1 t) (ms2 t) (hs2 t) (ms3 t) (hs3 t) (ms4 t) (hs4 t) (ms5 t) (hs5 t) (ms6 t) (hs6 t) scM (Memref.isWhole_whole _) ((hcond0 t).mpr h0) (fun h => h1 ((hcond1 t).mp h)) (iblk V c 0 t) (iblk V c 1 t) (iblk V c 2 t) (iblk V c 3 t) (iblk V c 4 t) (iblk V c 5 t)
/-- The run of the middle case at point `t`, the accumulator found at `xs`. -/
def atB (c : Dev nD) (t : Fin cfg2.N) (h0 : ¬t.val % 4 = 0) (h1 : ¬t.val % 4 = 3) (xs : Vec F S1024x64 .f32) :=
  runB (F := F) c (grid2.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcond0 t).mp h)) (fun h => h1 ((hcond1 t).mp h)) (iblk V c 0 t) (iblk V c 1 t) (iblk V c 2 t) (iblk V c 3 t) (iblk V c 4 t) (iblk V c 5 t) xs
/-- The run of the last-column-tile case at point `t`, the accumulator found at `xs`. -/
def atC (c : Dev nD) (t : Fin cfg2.N) (h0 : ¬t.val % 4 = 0) (h1 : t.val % 4 = 3) (xs : Vec F S1024x64 .f32) :=
  runC (F := F) c (grid2.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcond0 t).mp h)) ((hcond1 t).mpr h1) (iblk V c 0 t) (iblk V c 1 t) (iblk V c 2 t) (iblk V c 3 t) (iblk V c 4 t) (iblk V c 5 t) xs

/-- A list of stored pieces read back as contents: of the result tile, of the accumulator. -/
def rdO (L : List (View.Piece (Elt F) S1024x10 .f32)) : Vec F S1024x10 .f32 := VO.read (Elt F) (VO.writes (Elt F) VO.junk L)
def rdS (L : List (View.Piece (Elt F) S1024x64 .f32)) : Vec F S1024x64 .f32 := VS.read (Elt F) (VS.writes (Elt F) VS.junk L)

/-! ## Each run's stores cover the buffers they fill -/

theorem coverA_S (c : Dev nD) (t : Fin cfg2.N) (h0 : t.val % 4 = 0) (h1 : ¬t.val % 4 = 3) (y : S1024x64.Idx) :
    ∃ pc ∈ (atA V c t h0 h1).1, y ∈ pc.1.set :=
  View.cover_of_tiledL (atA V c t h0 h1).1 S1024x64.size (by unfold atA; sl_kernel_rfl) y
theorem coverB_S (c : Dev nD) (t : Fin cfg2.N) (h0 : ¬t.val % 4 = 0) (h1 : ¬t.val % 4 = 3) (xs : Vec F S1024x64 .f32) (y : S1024x64.Idx) :
    ∃ pc ∈ (atB V c t h0 h1 xs).1, y ∈ pc.1.set :=
  View.cover_of_tiledL (atB V c t h0 h1 xs).1 S1024x64.size (by unfold atB; sl_kernel_rfl) y
theorem coverC_O (c : Dev nD) (t : Fin cfg2.N) (h0 : ¬t.val % 4 = 0) (h1 : t.val % 4 = 3) (xs : Vec F S1024x64 .f32) (y : S1024x10.Idx) :
    ∃ pc ∈ (atC V c t h0 h1 xs).1, y ∈ pc.1.set :=
  View.cover_of_tiledL (atC V c t h0 h1 xs).1 S1024x10.size (by unfold atC; sl_kernel_rfl) y
theorem coverC_S (c : Dev nD) (t : Fin cfg2.N) (h0 : ¬t.val % 4 = 0) (h1 : t.val % 4 = 3) (xs : Vec F S1024x64 .f32) (y : S1024x64.Idx) :
    ∃ pc ∈ (atC V c t h0 h1 xs).2.1, y ∈ pc.1.set :=
  View.cover_of_tiledL (atC V c t h0 h1 xs).2.1 S1024x64.size (by unfold atC; sl_kernel_rfl) y

/-! ## What the buffers hold after each point -/

/-- After point `n`: the result tile's buffer, then the accumulator. The result tile's buffer matters only at the last
    column tile; elsewhere its entry is a placeholder nothing reads. -/
def outsAt (c : Dev nD) : (n : ℕ) → n < cfg2.N → Vec F S1024x10 .f32 × Vec F S1024x64 .f32
  | 0, hn => (rdO [], rdS (atA V c ⟨0, hn⟩ (Nat.zero_mod 4) (by show ¬(0 % 4 = 3); decide)).1)
  | n + 1, hn =>
    if h0 : (n + 1) % 4 = 0 then
      if h1 : (n + 1) % 4 = 3 then False.elim (by omega)
      else (rdO [], rdS (atA V c ⟨n + 1, hn⟩ h0 h1).1)
    else
      if h1 : (n + 1) % 4 = 3 then
        (rdO (atC V c ⟨n + 1, hn⟩ h0 h1 (outsAt c n (Nat.lt_of_succ_lt hn)).2).1,
         rdS (atC V c ⟨n + 1, hn⟩ h0 h1 (outsAt c n (Nat.lt_of_succ_lt hn)).2).2.1)
      else
        (rdO [], rdS (atB V c ⟨n + 1, hn⟩ h0 h1 (outsAt c n (Nat.lt_of_succ_lt hn)).2).1)

/-- The accumulator the point before `t` left. -/
abbrev prevS (c : Dev nD) (t : Fin cfg2.N) : Vec F S1024x64 .f32 :=
  (outsAt V c (t.val - 1) (Nat.lt_of_le_of_lt (Nat.sub_le _ _) t.isLt)).2

theorem outsAt_A (c : Dev nD) (t : Fin cfg2.N) (h0 : t.val % 4 = 0) (h1 : ¬t.val % 4 = 3) :
    outsAt V c t.val t.isLt = (rdO [], rdS (atA V c t h0 h1).1) := by
  obtain ⟨n, hn⟩ := t
  cases n with
  | zero => exact rfl
  | succ n => exact (dif_pos h0).trans ((dif_neg h1).trans rfl)

theorem outsAt_B (c : Dev nD) (t : Fin cfg2.N) (h0 : ¬t.val % 4 = 0) (h1 : ¬t.val % 4 = 3) :
    outsAt V c t.val t.isLt = (rdO [], rdS (atB V c t h0 h1 (prevS V c t)).1) := by
  obtain ⟨n, hn⟩ := t
  cases n with
  | zero => exact absurd (Nat.zero_mod 4) h0
  | succ n => exact (dif_neg h0).trans ((dif_neg h1).trans rfl)

theorem outsAt_C (c : Dev nD) (t : Fin cfg2.N) (h0 : ¬t.val % 4 = 0) (h1 : t.val % 4 = 3) :
    outsAt V c t.val t.isLt = (rdO (atC V c t h0 h1 (prevS V c t)).1, rdS (atC V c t h0 h1 (prevS V c t)).2.1) := by
  obtain ⟨n, hn⟩ := t
  cases n with
  | zero => exact absurd (Nat.zero_mod 4) h0
  | succ n => exact (dif_neg h0).trans ((dif_pos h1).trans rfl)

/-! ## The invariant between points -/

/-- Before the first point: the call's own buffers at anything. Before any later point: the accumulator at what the
    point before left, beside a remainder that takes the accumulator back at any contents. -/
def PhiS (c : Dev nD) : (n : ℕ) → n ≤ cfg2.N → sProp 𝕄
  | 0, _ => (Pipeline.ΦA spec2 c : sProp 𝕄)
  | n + 1, hn => iprop(owns (c : Thread nD τ) scM fullShare (outsAt V c n hn).2
      ∗ (iprop(∃ d, owns (c : Thread nD τ) scM fullShare d) -∗ (Pipeline.ΦA spec2 c : sProp 𝕄)))

theorem PhiS_zero (c : Dev nD) (n : ℕ) (h : n ≤ cfg2.N) (hz : n = 0) : PhiS V c n h = (Pipeline.ΦA spec2 c : sProp 𝕄) := by
  subst hz; rfl
theorem PhiS_succ (c : Dev nD) (n : ℕ) (hn : n < cfg2.N) :
    PhiS V c (n + 1) hn = iprop(owns (c : Thread nD τ) scM fullShare (outsAt V c n hn).2
      ∗ (iprop(∃ d, owns (c : Thread nD τ) scM fullShare d) -∗ (Pipeline.ΦA spec2 c : sProp 𝕄))) := rfl
theorem PhiS_pos (c : Dev nD) (n : ℕ) (h : n ≤ cfg2.N) (hz : n ≠ 0) :
    PhiS V c n h = iprop(owns (c : Thread nD τ) scM fullShare (outsAt V c (n - 1) (by omega)).2
      ∗ (iprop(∃ d, owns (c : Thread nD τ) scM fullShare d) -∗ (Pipeline.ΦA spec2 c : sProp 𝕄))) := by
  cases n with
  | zero => exact absurd rfl hz
  | succ n => rfl

/-! ## The proof data -/

/-- The arrays as the call finds them; after the body at point `t` the inputs' buffers at their blocks and the result
    tile's at `outsAt`; the invariant `PhiS`; nothing owed. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by dsimp only [dat]
theorem PhiS_castSucc (c : Dev nD) (t : Fin cfg2.N) : (dat V c).Φ t.castSucc = PhiS V c t.val (Nat.le_of_lt t.isLt) := by
  dsimp only [dat]; simp only [Fin.coe_castSucc]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = iblk V c 5 t := by dsimp only [dat]
theorem after_o (c : Dev nD) (t : Fin cfg2.N) : (dat V c).after 6 t = (outsAt V c t.val t.isLt).1 := by dsimp only [dat]
theorem before_0 (c : Dev nD) (t : Fin cfg2.N) (d) : (dat V c).before 0 t d = iblk V c 0 t :=
  before_in0_of V (dat V c) (A_eq V c 0) (after_0 V c) t d
theorem before_1 (c : Dev nD) (t : Fin cfg2.N) (d) : (dat V c).before 1 t d = iblk V c 1 t :=
  before_in1_of V (dat V c) (A_eq V c 1) (after_1 V c) t d
theorem before_2 (c : Dev nD) (t : Fin cfg2.N) (d) : (dat V c).before 2 t d = iblk V c 2 t :=
  before_in2_of V (dat V c) (A_eq V c 2) (after_2 V c) t d
theorem before_3 (c : Dev nD) (t : Fin cfg2.N) (d) : (dat V c).before 3 t d = iblk V c 3 t :=
  before_in3_of V (dat V c) (A_eq V c 3) (after_3 V c) t d
theorem before_4 (c : Dev nD) (t : Fin cfg2.N) (d) : (dat V c).before 4 t d = iblk V c 4 t :=
  before_in4_of V (dat V c) (A_eq V c 4) (after_4 V c) t d
theorem before_5 (c : Dev nD) (t : Fin cfg2.N) (d) : (dat V c).before 5 t d = iblk V c 5 t :=
  before_in5_of V (dat V c) (A_eq V c 5) (after_5 V c) t d

/-! ## The body obligation -/

def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

set_option maxHeartbeats 4800000 in
/-- The body at any point. The inputs' buffers hold their blocks; the point's position among the column tiles says which
    case it is in; the invariant hands the body the accumulator at what the point before left (at anything at the very
    first point) and takes it back at this point's contents; nothing is owed throughout. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg2.N = 32 from N_2)
  rw [show (dat V c).leavesExact 0 t = owns (c : Thread nD τ) (ms0 t) fullShare ((dat V c).after 0 t) from by
    unfold Dat.leavesExact; rw [live_0 t], after_0]
  rw [show (dat V c).leavesExact 1 t = owns (c : Thread nD τ) (ms1 t) fullShare ((dat V c).after 1 t) from by
    unfold Dat.leavesExact; rw [live_1 t], after_1]
  rw [show (dat V c).leavesExact 2 t = owns (c : Thread nD τ) (ms2 t) fullShare ((dat V c).after 2 t) from by
    unfold Dat.leavesExact; rw [live_2 t], after_2]
  rw [show (dat V c).leavesExact 3 t = owns (c : Thread nD τ) (ms3 t) fullShare ((dat V c).after 3 t) from by
    unfold Dat.leavesExact; rw [live_3 t], after_3]
  rw [show (dat V c).leavesExact 4 t = owns (c : Thread nD τ) (ms4 t) fullShare ((dat V c).after 4 t) from by
    unfold Dat.leavesExact; rw [live_4 t], after_4]
  rw [show (dat V c).leavesExact 5 t = owns (c : Thread nD τ) (ms5 t) fullShare ((dat V c).after 5 t) from by
    unfold Dat.leavesExact; rw [live_5 t], after_5]
  by_cases h0 : t.val % 4 = 0
  · have h1 : ¬t.val % 4 = 3 := by omega
    rw [Dat.leavesExact_idle (dat V c) 6 t (idle_o t (fun h => h1 ((hcond1 t).mp h))) (noFlush_o t (fun h => h1 ((hcond1 t).mp h)))]
    rw [outsAt_A V c t h0 h1]
    unfold rdS; dsimp only
    by_cases hz : t.val = 0
    · rw [PhiS_castSucc V c t, PhiS_zero V c _ _ hz]
      iintro ⟨HΦ, Ho, ⟨%d0, H0⟩, ⟨%d1, H1⟩, ⟨%d2, H2⟩, ⟨%d3, H3⟩, ⟨%d4, H4⟩, ⟨%d5, H5⟩, ⟨%dO, HO⟩⟩
      ihave HΦ' := (PhiA_split (F := F) c) $$ HΦ
      icases HΦ' with ⟨HS, HW⟩
      iapply ((atA V c t h0 h1).2 _ Set.univ _)
      isplitl [H0]; · iexact H0
      isplitl [H1]; · iexact H1
      isplitl [H2]; · iexact H2
      isplitl [H3]; · iexact H3
      isplitl [H4]; · iexact H4
      isplitl [H5]; · iexact H5
      isplitl [HO]; · iexact HO
      isplitl [HS]; · iexact HS
      iintro ⟨H0, H1, H2, H3, H4, H5, HO, ⟨%es, HS⟩⟩
      isplitl [HS HW]
      · isplitl [HS]
        · unfold owns; iexists _; isplitr
          swap; · iexact HS
          ipureintro; exact View.read_writes_of_cover _ _ _ _ _ (coverA_S V c t h0 h1)
        iexact HW
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact HO
    · rw [PhiS_castSucc V c t, PhiS_pos V c _ _ hz]
      iintro ⟨⟨HS, HW⟩, Ho, ⟨%d0, H0⟩, ⟨%d1, H1⟩, ⟨%d2, H2⟩, ⟨%d3, H3⟩, ⟨%d4, H4⟩, ⟨%d5, H5⟩, ⟨%dO, HO⟩⟩
      iapply ((atA V c t h0 h1).2 _ Set.univ _)
      isplitl [H0]; · iexact H0
      isplitl [H1]; · iexact H1
      isplitl [H2]; · iexact H2
      isplitl [H3]; · iexact H3
      isplitl [H4]; · iexact H4
      isplitl [H5]; · iexact H5
      isplitl [HO]; · iexact HO
      isplitl [HS]; · iexists _; iexact HS
      iintro ⟨H0, H1, H2, H3, H4, H5, HO, ⟨%es, HS⟩⟩
      isplitl [HS HW]
      · isplitl [HS]
        · unfold owns; iexists _; isplitr
          swap; · iexact HS
          ipureintro; exact View.read_writes_of_cover _ _ _ _ _ (coverA_S V c t h0 h1)
        iexact HW
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact HO
  · have hz : t.val ≠ 0 := fun e => h0 (by rw [e])
    by_cases h1 : t.val % 4 = 3
    · rw [show (dat V c).leavesExact 6 t = owns (c : Thread nD τ) (ms6 t) fullShare ((dat V c).after 6 t) from by
        unfold Dat.leavesExact; rw [live_o t ((hcond1 t).mpr h1)], after_o]
      rw [outsAt_C V c t h0 h1]
      unfold rdO rdS; dsimp only
      rw [PhiS_castSucc V c t, PhiS_pos V c _ _ hz]
      iintro ⟨⟨HS, HW⟩, Ho, ⟨%d0, H0⟩, ⟨%d1, H1⟩, ⟨%d2, H2⟩, ⟨%d3, H3⟩, ⟨%d4, H4⟩, ⟨%d5, H5⟩, ⟨%dO, HO⟩⟩
      iapply ((atC V c t h0 h1 _).2.2 Set.univ _)
      isplitl [H0]; · iexact H0
      isplitl [H1]; · iexact H1
      isplitl [H2]; · iexact H2
      isplitl [H3]; · iexact H3
      isplitl [H4]; · iexact H4
      isplitl [H5]; · iexact H5
      isplitl [HO]; · iexists _; iexact HO
      isplitl [HS]; · iexact HS
      iintro ⟨H0, H1, H2, H3, H4, H5, ⟨%eO, HO⟩, ⟨%es, HS⟩⟩
      isplitl [HS HW]
      · isplitl [HS]
        · unfold owns; iexists _; isplitr
          swap; · iexact HS
          ipureintro; exact View.read_writes_of_cover _ _ _ _ _ (coverC_S V c t h0 h1 _)
        iexact HW
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact HO
      ipureintro; exact View.read_writes_of_cover _ _ _ _ _ (coverC_O V c t h0 h1 _)
    · rw [Dat.leavesExact_idle (dat V c) 6 t (idle_o t (fun h => h1 ((hcond1 t).mp h))) (noFlush_o t (fun h => h1 ((hcond1 t).mp h)))]
      rw [outsAt_B V c t h0 h1]
      unfold rdS; dsimp only
      rw [PhiS_castSucc V c t, PhiS_pos V c _ _ hz]
      iintro ⟨⟨HS, HW⟩, Ho, ⟨%d0, H0⟩, ⟨%d1, H1⟩, ⟨%d2, H2⟩, ⟨%d3, H3⟩, ⟨%d4, H4⟩, ⟨%d5, H5⟩, ⟨%dO, HO⟩⟩
      iapply ((atB V c t h0 h1 _).2 _ Set.univ _)
      isplitl [H0]; · iexact H0
      isplitl [H1]; · iexact H1
      isplitl [H2]; · iexact H2
      isplitl [H3]; · iexact H3
      isplitl [H4]; · iexact H4
      isplitl [H5]; · iexact H5
      isplitl [HO]; · iexact HO
      isplitl [HS]; · iexact HS
      iintro ⟨H0, H1, H2, H3, H4, H5, HO, ⟨%es, HS⟩⟩
      isplitl [HS HW]
      · isplitl [HS]
        · unfold owns; iexists _; isplitr
          swap; · iexact HS
          ipureintro; exact View.read_writes_of_cover _ _ _ _ _ (coverB_S V c t h0 h1 _)
        iexact HW
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact HO

/-- The library's body obligation, at every point. -/
theorem body_obligation (c : Dev nD) : BodyObligation (dat (F := F) V c) (defs₀ (F := F)) Variants.none () Set.univ := fun t => by
  rw [bigSep_W2, bigSep_W2]
  exact sound_body V c t

/-- What the launch hands the call is the invariant before the first point. -/
theorem hin (c : Dev nD) : (Pipeline.ΦA spec2 c : sProp 𝕄) ⊢ (dat V c).Φ 0 := by
  rw [show (dat V c).Φ 0 = PhiS V c 0 (Nat.zero_le _) from rfl, PhiS_zero V c 0 _ rfl]
  try exact Idealize.SL.BI.Entails.refl _

/-- After the last point the invariant gives the call's own buffers back, the accumulator's contents forgotten. -/
theorem hout (c : Dev nD) : (dat V c).Φ (Fin.last cfg2.N) ⊢ (Pipeline.ΦA spec2 c : sProp 𝕄) := by
  rw [show (dat V c).Φ (Fin.last cfg2.N) = PhiS V c (Fin.last cfg2.N).val (Nat.le_of_lt_succ (Fin.last cfg2.N).isLt) from rfl,
    PhiS_pos V c _ _ (by rw [Fin.val_last]; have : cfg2.N = 32 := N_2; omega)]
  iintro ⟨HS, HW⟩
  iapply HW
  iexists _; iexact HS

end

end Cert.Kernel.Reg2

end
-- ==== Proof.KWhole.lean ====
/-
  The whole program: host operations, the first aggregation call, host operations, the second call, host operations,
  the third call. The buffers' contents at the seven boundaries between these segments are a fold from the launch
  memory: a stretch of host operations applies them; a call leaves its windows' arrays at what its write-backs leave and
  every other buffer as it found it. Each call is one segment record over its own proof data, entered and left with
  every unscoped buffer held at the boundary's contents; the run of the segments is the program, every weakly fair
  execution terminates, and the final memory holds every unscoped buffer at the last boundary's contents. No host
  operation and no call writes an argument, so each argument is read back through the fold to its launch contents.
-/
import proofs.«125076_j18348100288854_2_alg».proof.Proof.KR0Frame
import proofs.«125076_j18348100288854_2_alg».proof.Proof.KR1Frame
import proofs.«125076_j18348100288854_2_alg».proof.Proof.KR2Frame
import proofs.«125076_j18348100288854_2_alg».proof.Proof.Gen.Kernel.Regions

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the host operations before call 0. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After call 0: its windows' arrays at what the write-backs leave, every other buffer as entered. -/
def W2 (c : Dev nD) : Valuation τ sig (Elt F) :=
  Pipeline.withArrays spec0 c (W1 m c) fun w => (Reg0.dat (V1 m) c).arrAt w cfg0.N
theorem W2_arr (c : Dev nD) (w : Fin cfg0.W) :
    W2 m c (Proc.devRef .tc (Pipeline.arrRef spec0 w)) = (Reg0.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Reg0.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the host operations before call 1. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After call 1: its windows' arrays at what the write-backs leave, every other buffer as entered. -/
def W4 (c : Dev nD) : Valuation τ sig (Elt F) :=
  Pipeline.withArrays spec1 c (W3 m c) fun w => (Reg1.dat (V3 m) c).arrAt w cfg1.N
theorem W4_arr (c : Dev nD) (w : Fin cfg1.W) :
    W4 m c (Proc.devRef .tc (Pipeline.arrRef spec1 w)) = (Reg1.dat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (Reg1.dat (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- After the host operations before call 2. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- After call 2: its windows' arrays at what the write-backs leave, every other buffer as entered. -/
def W6 (c : Dev nD) : Valuation τ sig (Elt F) :=
  Pipeline.withArrays spec2 c (W5 m c) fun w => (Reg2.dat (V5 m) c).arrAt w cfg2.N
theorem W6_arr (c : Dev nD) (w : Fin cfg2.W) :
    W6 m c (Proc.devRef .tc (Pipeline.arrRef spec2 w)) = (Reg2.dat (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (Reg2.dat (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-! ## The arguments end as launched -/

theorem W6_main_arg0 (c : Dev nD) : W6 m c (Proc.devRef .tc main_arg0) = m ((c : Thread nD τ).loc main_arg0) :=
  calc W6 m c (Proc.devRef .tc main_arg0)
    _ = W5 m c (Proc.devRef .tc main_arg0) := W6_of_ne m c main_arg0 (by decide)
    _ = W4 m c (Proc.devRef .tc main_arg0) := StableHlo.after_of_writes_sub hostOps2 _ hostOps2_writes (show main_arg0 ∉ hostOps2_W by decide)
    _ = W3 m c (Proc.devRef .tc main_arg0) := W4_of_ne m c main_arg0 (by decide)
    _ = W2 m c (Proc.devRef .tc main_arg0) := StableHlo.after_of_writes_sub hostOps1 _ hostOps1_writes (show main_arg0 ∉ hostOps1_W by decide)
    _ = W1 m c (Proc.devRef .tc main_arg0) := W2_of_ne m c main_arg0 (by decide)
    _ = W0 m c (Proc.devRef .tc main_arg0) := StableHlo.after_of_writes_sub hostOps0 _ hostOps0_writes (show main_arg0 ∉ hostOps0_W by decide)
    _ = m ((c : Thread nD τ).loc main_arg0) := rfl
theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_of_ne m c main_arg1 (by decide)
    _ = W4 m c (Proc.devRef .tc main_arg1) := StableHlo.after_of_writes_sub hostOps2 _ hostOps2_writes (show main_arg1 ∉ hostOps2_W by decide)
    _ = W3 m c (Proc.devRef .tc main_arg1) := W4_of_ne m c main_arg1 (by decide)
    _ = W2 m c (Proc.devRef .tc main_arg1) := StableHlo.after_of_writes_sub hostOps1 _ hostOps1_writes (show main_arg1 ∉ hostOps1_W by decide)
    _ = W1 m c (Proc.devRef .tc main_arg1) := (W2_arr m c 0).trans (((Reg0.dat (V1 m) c).arrAt_in 0 rfl _).trans (Reg0.A_eq (V1 m) c 0))
    _ = W0 m c (Proc.devRef .tc main_arg1) := StableHlo.after_of_writes_sub hostOps0 _ hostOps0_writes (show main_arg1 ∉ hostOps0_W by decide)
    _ = m ((c : Thread nD τ).loc main_arg1) := rfl
theorem W6_main_arg2 (c : Dev nD) : W6 m c (Proc.devRef .tc main_arg2) = m ((c : Thread nD τ).loc main_arg2) :=
  calc W6 m c (Proc.devRef .tc main_arg2)
    _ = W5 m c (Proc.devRef .tc main_arg2) := W6_of_ne m c main_arg2 (by decide)
    _ = W4 m c (Proc.devRef .tc main_arg2) := StableHlo.after_of_writes_sub hostOps2 _ hostOps2_writes (show main_arg2 ∉ hostOps2_W by decide)
    _ = W3 m c (Proc.devRef .tc main_arg2) := W4_of_ne m c main_arg2 (by decide)
    _ = W2 m c (Proc.devRef .tc main_arg2) := StableHlo.after_of_writes_sub hostOps1 _ hostOps1_writes (show main_arg2 ∉ hostOps1_W by decide)
    _ = W1 m c (Proc.devRef .tc main_arg2) := W2_of_ne m c main_arg2 (by decide)
    _ = W0 m c (Proc.devRef .tc main_arg2) := StableHlo.after_of_writes_sub hostOps0 _ hostOps0_writes (show main_arg2 ∉ hostOps0_W by decide)
    _ = m ((c : Thread nD τ).loc main_arg2) := rfl
theorem W6_main_arg3 (c : Dev nD) : W6 m c (Proc.devRef .tc main_arg3) = m ((c : Thread nD τ).loc main_arg3) :=
  calc W6 m c (Proc.devRef .tc main_arg3)
    _ = W5 m c (Proc.devRef .tc main_arg3) := W6_of_ne m c main_arg3 (by decide)
    _ = W4 m c (Proc.devRef .tc main_arg3) := StableHlo.after_of_writes_sub hostOps2 _ hostOps2_writes (show main_arg3 ∉ hostOps2_W by decide)
    _ = W3 m c (Proc.devRef .tc main_arg3) := W4_of_ne m c main_arg3 (by decide)
    _ = W2 m c (Proc.devRef .tc main_arg3) := StableHlo.after_of_writes_sub hostOps1 _ hostOps1_writes (show main_arg3 ∉ hostOps1_W by decide)
    _ = W1 m c (Proc.devRef .tc main_arg3) := W2_of_ne m c main_arg3 (by decide)
    _ = W0 m c (Proc.devRef .tc main_arg3) := StableHlo.after_of_writes_sub hostOps0 _ hostOps0_writes (show main_arg3 ∉ hostOps0_W by decide)
    _ = m ((c : Thread nD τ).loc main_arg3) := rfl
theorem W6_main_arg4 (c : Dev nD) : W6 m c (Proc.devRef .tc main_arg4) = m ((c : Thread nD τ).loc main_arg4) :=
  calc W6 m c (Proc.devRef .tc main_arg4)
    _ = W5 m c (Proc.devRef .tc main_arg4) := W6_of_ne m c main_arg4 (by decide)
    _ = W4 m c (Proc.devRef .tc main_arg4) := StableHlo.after_of_writes_sub hostOps2 _ hostOps2_writes (show main_arg4 ∉ hostOps2_W by decide)
    _ = W3 m c (Proc.devRef .tc main_arg4) := W4_of_ne m c main_arg4 (by decide)
    _ = W2 m c (Proc.devRef .tc main_arg4) := StableHlo.after_of_writes_sub hostOps1 _ hostOps1_writes (show main_arg4 ∉ hostOps1_W by decide)
    _ = W1 m c (Proc.devRef .tc main_arg4) := W2_of_ne m c main_arg4 (by decide)
    _ = W0 m c (Proc.devRef .tc main_arg4) := StableHlo.after_of_writes_sub hostOps0 _ hostOps0_writes (show main_arg4 ∉ hostOps0_W by decide)
    _ = m ((c : Thread nD τ).loc main_arg4) := rfl
theorem W6_main_arg5 (c : Dev nD) : W6 m c (Proc.devRef .tc main_arg5) = m ((c : Thread nD τ).loc main_arg5) :=
  calc W6 m c (Proc.devRef .tc main_arg5)
    _ = W5 m c (Proc.devRef .tc main_arg5) := W6_of_ne m c main_arg5 (by decide)
    _ = W4 m c (Proc.devRef .tc main_arg5) := StableHlo.after_of_writes_sub hostOps2 _ hostOps2_writes (show main_arg5 ∉ hostOps2_W by decide)
    _ = W3 m c (Proc.devRef .tc main_arg5) := W4_of_ne m c main_arg5 (by decide)
    _ = W2 m c (Proc.devRef .tc main_arg5) := StableHlo.after_of_writes_sub hostOps1 _ hostOps1_writes (show main_arg5 ∉ hostOps1_W by decide)
    _ = W1 m c (Proc.devRef .tc main_arg5) := W2_of_ne m c main_arg5 (by decide)
    _ = W0 m c (Proc.devRef .tc main_arg5) := StableHlo.after_of_writes_sub hostOps0 _ hostOps0_writes (show main_arg5 ∉ hostOps0_W by decide)
    _ = m ((c : Thread nD τ).loc main_arg5) := rfl
theorem W6_main_arg6 (c : Dev nD) : W6 m c (Proc.devRef .tc main_arg6) = m ((c : Thread nD τ).loc main_arg6) :=
  calc W6 m c (Proc.devRef .tc main_arg6)
    _ = W5 m c (Proc.devRef .tc main_arg6) := W6_of_ne m c main_arg6 (by decide)
    _ = W4 m c (Proc.devRef .tc main_arg6) := StableHlo.after_of_writes_sub hostOps2 _ hostOps2_writes (show main_arg6 ∉ hostOps2_W by decide)
    _ = W3 m c (Proc.devRef .tc main_arg6) := W4_of_ne m c main_arg6 (by decide)
    _ = W2 m c (Proc.devRef .tc main_arg6) := StableHlo.after_of_writes_sub hostOps1 _ hostOps1_writes (show main_arg6 ∉ hostOps1_W by decide)
    _ = W1 m c (Proc.devRef .tc main_arg6) := W2_of_ne m c main_arg6 (by decide)
    _ = W0 m c (Proc.devRef .tc main_arg6) := StableHlo.after_of_writes_sub hostOps0 _ hostOps0_writes (show main_arg6 ∉ hostOps0_W by decide)
    _ = m ((c : Thread nD τ).loc main_arg6) := rfl
theorem W6_main_arg7 (c : Dev nD) : W6 m c (Proc.devRef .tc main_arg7) = m ((c : Thread nD τ).loc main_arg7) :=
  calc W6 m c (Proc.devRef .tc main_arg7)
    _ = W5 m c (Proc.devRef .tc main_arg7) := W6_of_ne m c main_arg7 (by decide)
    _ = W4 m c (Proc.devRef .tc main_arg7) := StableHlo.after_of_writes_sub hostOps2 _ hostOps2_writes (show main_arg7 ∉ hostOps2_W by decide)
    _ = W3 m c (Proc.devRef .tc main_arg7) := W4_of_ne m c main_arg7 (by decide)
    _ = W2 m c (Proc.devRef .tc main_arg7) := StableHlo.after_of_writes_sub hostOps1 _ hostOps1_writes (show main_arg7 ∉ hostOps1_W by decide)
    _ = W1 m c (Proc.devRef .tc main_arg7) := W2_of_ne m c main_arg7 (by decide)
    _ = W0 m c (Proc.devRef .tc main_arg7) := StableHlo.after_of_writes_sub hostOps0 _ hostOps0_writes (show main_arg7 ∉ hostOps0_W by decide)
    _ = m ((c : Thread nD τ).loc main_arg7) := rfl
theorem W6_main_arg8 (c : Dev nD) : W6 m c (Proc.devRef .tc main_arg8) = m ((c : Thread nD τ).loc main_arg8) :=
  calc W6 m c (Proc.devRef .tc main_arg8)
    _ = W5 m c (Proc.devRef .tc main_arg8) := (W6_arr m c 2).trans (((Reg2.dat (V5 m) c).arrAt_in 2 rfl _).trans (Reg2.A_eq (V5 m) c 2))
    _ = W4 m c (Proc.devRef .tc main_arg8) := StableHlo.after_of_writes_sub hostOps2 _ hostOps2_writes (show main_arg8 ∉ hostOps2_W by decide)
    _ = W3 m c (Proc.devRef .tc main_arg8) := W4_of_ne m c main_arg8 (by decide)
    _ = W2 m c (Proc.devRef .tc main_arg8) := StableHlo.after_of_writes_sub hostOps1 _ hostOps1_writes (show main_arg8 ∉ hostOps1_W by decide)
    _ = W1 m c (Proc.devRef .tc main_arg8) := W2_of_ne m c main_arg8 (by decide)
    _ = W0 m c (Proc.devRef .tc main_arg8) := StableHlo.after_of_writes_sub hostOps0 _ hostOps0_writes (show main_arg8 ∉ hostOps0_W by decide)
    _ = m ((c : Thread nD τ).loc main_arg8) := rfl
theorem W6_main_arg9 (c : Dev nD) : W6 m c (Proc.devRef .tc main_arg9) = m ((c : Thread nD τ).loc main_arg9) :=
  calc W6 m c (Proc.devRef .tc main_arg9)
    _ = W5 m c (Proc.devRef .tc main_arg9) := W6_of_ne m c main_arg9 (by decide)
    _ = W4 m c (Proc.devRef .tc main_arg9) := StableHlo.after_of_writes_sub hostOps2 _ hostOps2_writes (show main_arg9 ∉ hostOps2_W by decide)
    _ = W3 m c (Proc.devRef .tc main_arg9) := W4_of_ne m c main_arg9 (by decide)
    _ = W2 m c (Proc.devRef .tc main_arg9) := StableHlo.after_of_writes_sub hostOps1 _ hostOps1_writes (show main_arg9 ∉ hostOps1_W by decide)
    _ = W1 m c (Proc.devRef .tc main_arg9) := W2_of_ne m c main_arg9 (by decide)
    _ = W0 m c (Proc.devRef .tc main_arg9) := StableHlo.after_of_writes_sub hostOps0 _ hostOps0_writes (show main_arg9 ∉ hostOps0_W by decide)
    _ = m ((c : Thread nD τ).loc main_arg9) := rfl
theorem W6_main_arg10 (c : Dev nD) : W6 m c (Proc.devRef .tc main_arg10) = m ((c : Thread nD τ).loc main_arg10) :=
  calc W6 m c (Proc.devRef .tc main_arg10)
    _ = W5 m c (Proc.devRef .tc main_arg10) := (W6_arr m c 4).trans (((Reg2.dat (V5 m) c).arrAt_in 4 rfl _).trans (Reg2.A_eq (V5 m) c 4))
    _ = W4 m c (Proc.devRef .tc main_arg10) := StableHlo.after_of_writes_sub hostOps2 _ hostOps2_writes (show main_arg10 ∉ hostOps2_W by decide)
    _ = W3 m c (Proc.devRef .tc main_arg10) := W4_of_ne m c main_arg10 (by decide)
    _ = W2 m c (Proc.devRef .tc main_arg10) := StableHlo.after_of_writes_sub hostOps1 _ hostOps1_writes (show main_arg10 ∉ hostOps1_W by decide)
    _ = W1 m c (Proc.devRef .tc main_arg10) := W2_of_ne m c main_arg10 (by decide)
    _ = W0 m c (Proc.devRef .tc main_arg10) := StableHlo.after_of_writes_sub hostOps0 _ hostOps0_writes (show main_arg10 ∉ hostOps0_W by decide)
    _ = m ((c : Thread nD τ).loc main_arg10) := rfl
theorem W6_main_arg11 (c : Dev nD) : W6 m c (Proc.devRef .tc main_arg11) = m ((c : Thread nD τ).loc main_arg11) :=
  calc W6 m c (Proc.devRef .tc main_arg11)
    _ = W5 m c (Proc.devRef .tc main_arg11) := W6_of_ne m c main_arg11 (by decide)
    _ = W4 m c (Proc.devRef .tc main_arg11) := StableHlo.after_of_writes_sub hostOps2 _ hostOps2_writes (show main_arg11 ∉ hostOps2_W by decide)
    _ = W3 m c (Proc.devRef .tc main_arg11) := W4_of_ne m c main_arg11 (by decide)
    _ = W2 m c (Proc.devRef .tc main_arg11) := StableHlo.after_of_writes_sub hostOps1 _ hostOps1_writes (show main_arg11 ∉ hostOps1_W by decide)
    _ = W1 m c (Proc.devRef .tc main_arg11) := W2_of_ne m c main_arg11 (by decide)
    _ = W0 m c (Proc.devRef .tc main_arg11) := StableHlo.after_of_writes_sub hostOps0 _ hostOps0_writes (show main_arg11 ∉ hostOps0_W by decide)
    _ = m ((c : Thread nD τ).loc main_arg11) := rfl

/-! ## The proof data family and the thread state -/

abbrev adm : (p : Fin 3) → (pcfgs (F := F) p).Adm := fun p => (cfgs p).toPCfg_adm
/-- Every call's proof data, each at its call's entry contents. -/
def pdats : (p : Fin 3) → (c : Dev nD) → Dat τ (Elt F) Unit ℕ (UR sig nD τ) ℕ (Pipeline.pin (pcfgs (F := F)) adm p) c
  | ⟨0, _⟩ => fun c => Reg0.dat (V1 m) c
  | ⟨1, _⟩ => fun c => Reg1.dat (V3 m) c
  | ⟨2, _⟩ => fun c => Reg2.dat (V5 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m c) ∗ ∃ r, prngReg c r)

/-! ## The calls as segments -/

set_option backward.isDefEq.respectTransparency.types false in
/-- Call 0 as a segment: entered with every unscoped buffer at `W1`, left with them at `W2`. Its windows' arrays are
    split out of the unscoped buffers and put back at what the write-backs leave; the generator register and the call's
    own buffers go into the invariant and come back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show (Pipeline.ΦA spec0 c : sProp 𝕄) ⊢ (pdats m 0 c).Φ 0 from Reg0.hin (V1 m) c)
    unfold Pipeline.ΦA
    iintro ⟨Hp, -, Hr⟩
    isplitl [Hr]; · iexact Hr
    iexact Hp
  hout c := by
    rw [Pipeline.ownSems0_none]
    refine (show (pdats m 0 c).Φ (Fin.last _) ⊢ (Pipeline.ΦA spec0 c : sProp 𝕄) from Reg0.hout (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: entered with every unscoped buffer at `W3`, left with them at `W4`. Its windows' arrays are
    split out of the unscoped buffers and put back at what the write-backs leave; the generator register and the call's
    own buffers go into the invariant and come back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show (Pipeline.ΦA spec1 c : sProp 𝕄) ⊢ (pdats m 1 c).Φ 0 from Reg1.hin (V3 m) c)
    unfold Pipeline.ΦA
    iintro ⟨Hp, -, Hr⟩
    isplitl [Hr]; · iexact Hr
    iexact Hp
  hout c := by
    rw [Pipeline.ownSems0_none]
    refine (show (pdats m 1 c).Φ (Fin.last _) ⊢ (Pipeline.ΦA spec1 c : sProp 𝕄) from Reg1.hout (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment: entered with every unscoped buffer at `W5`, left with them at `W6`. Its windows' arrays are
    split out of the unscoped buffers and put back at what the write-backs leave; the generator register and the call's
    own buffers go into the invariant and come back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Reg2.body_obligation (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show (Pipeline.ΦA spec2 c : sProp 𝕄) ⊢ (pdats m 2 c).Φ 0 from Reg2.hin (V5 m) c)
    unfold Pipeline.ΦA
    iintro ⟨Hp, -, Hr⟩
    isplitl [Hr]; · iexact Hr
    iexact Hp
  hout c := by
    rw [Pipeline.ownSems0_none]
    refine (show (pdats m 2 c).Φ (Fin.last _) ⊢ (Pipeline.ΦA spec2 c : sProp 𝕄) from Reg2.hout (V5 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]
theorem main_run (c : Dev nD) : main (F := F) c = Pipeline.Seg.run (segs m) := (main_chain c).trans (by chain_rfl)

set_option backward.isDefEq.respectTransparency.types false in
/-- Every weakly fair execution of the program from memory `m` with zero counters terminates, nothing faulting, and the
    final memory holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W6_main_arg0 m c),
    (h c _ (mem_uc main_arg1 (by decide))).trans (W6_main_arg1 m c),
    (h c _ (mem_uc main_arg2 (by decide))).trans (W6_main_arg2 m c),
    (h c _ (mem_uc main_arg3 (by decide))).trans (W6_main_arg3 m c),
    (h c _ (mem_uc main_arg4 (by decide))).trans (W6_main_arg4 m c),
    (h c _ (mem_uc main_arg5 (by decide))).trans (W6_main_arg5 m c),
    (h c _ (mem_uc main_arg6 (by decide))).trans (W6_main_arg6 m c),
    (h c _ (mem_uc main_arg7 (by decide))).trans (W6_main_arg7 m c),
    (h c _ (mem_uc main_arg8 (by decide))).trans (W6_main_arg8 m c),
    (h c _ (mem_uc main_arg9 (by decide))).trans (W6_main_arg9 m c),
    (h c _ (mem_uc main_arg10 (by decide))).trans (W6_main_arg10 m c),
    (h c _ (mem_uc main_arg11 (by decide))).trans (W6_main_arg11 m c)⟩) (run_all m ρ)

end Cert.Kernel.Whole

end
-- ==== Proof.Spec.lean ====
/-
  The graph-convolution network as one function of its twelve argument arrays, entry by entry, over the
  extended reals. A matrix is a function of a row and a column; a layer multiplies by the weights, adds the
  bias along the rows, aggregates over the neighbours (a product with the adjacency matrix) and clips at zero;
  the head is one more clipped affine map followed by an affine map.
-/
import Idealize.ShloMosaic.PureOps.Ideal
import Idealize.ShloMosaic.Lib.ValueIdx

noncomputable section

open scoped BigOperators

namespace Cert.Gcn

open Idealize.ShloMosaic Idealize.ShloMosaic.ValueIdx

/-- A matrix of extended reals: a function of the row and the column. -/
abbrev Mat (a b : ℕ) : Type := Fin a → Fin b → EReal

/-- `X · W + b`: entry `(p, q)` is the sum over the shared axis of `X p j * W j q`, plus the bias `b q`. -/
def lin {n k c : ℕ} (X : Mat n k) (W : Mat k c) (b : Fin c → EReal) : Mat n c :=
  fun p q => (∑ j, X p j * W j q) + b q

/-- Aggregation over the neighbours, `A · H`: entry `(p, q)` is the sum over the nodes `j` of `A p j * H j q`. -/
def agg {n c : ℕ} (A : Mat n n) (H : Mat n c) : Mat n c :=
  fun p q => ∑ j, A p j * H j q

/-- Clipping at zero, entry by entry. -/
def relu {n c : ℕ} (X : Mat n c) : Mat n c := fun p q => max (X p q) 0

/-- One graph-convolution layer: affine map, aggregation, clipping. -/
def layer {n k c : ℕ} (A : Mat n n) (X : Mat n k) (W : Mat k c) (b : Fin c → EReal) : Mat n c :=
  relu (agg A (lin X W b))

/-- The whole network: three layers and the two-stage head. -/
def net (x : Mat 8192 128) (A : Mat 8192 8192) (W0 : Mat 128 16) (b0 : Fin 16 → EReal) (W1 : Mat 16 32) (b1 : Fin 32 → EReal)
    (W2 : Mat 32 64) (b2 : Fin 64 → EReal) (Wo0 : Mat 64 32) (bo0 : Fin 32 → EReal) (Wo1 : Mat 32 10) (bo1 : Fin 10 → EReal) :
    Mat 8192 10 :=
  lin (relu (lin (layer A (layer A (layer A x W0 b0) W1 b1) W2 b2) Wo0 bo0)) Wo1 bo1

/-- A rank-2 array of extended reals read as a matrix. -/
def mat2 {a b : ℕ} (v : (⟨2, ![a, b]⟩ : Shape).Idx → EReal) : Mat a b := fun p q => v (ix2 p q)

/-- A rank-1 array of extended reals read as a vector. -/
def vec1 {a : ℕ} (v : (⟨1, ![a]⟩ : Shape).Idx → EReal) : Fin a → EReal := fun q => v (ix1 q)

/-- A matrix written back as a rank-2 array. -/
def unmat2 {a b : ℕ} (M : Mat a b) : (⟨2, ![a, b]⟩ : Shape).Idx → EReal := fun i => M (i 0) (i 1)

theorem unmat2_ix2 {a b : ℕ} (M : Mat a b) (p : Fin a) (q : Fin b) : unmat2 M (ix2 p q) = M p q := rfl

theorem mat2_unmat2 {a b : ℕ} (M : Mat a b) : mat2 (unmat2 M) = M := rfl

theorem unmat2_mat2 {a b : ℕ} (v : (⟨2, ![a, b]⟩ : Shape).Idx → EReal) : unmat2 (mat2 v) = v := by
  funext i; exact congrArg v (eq_ix2 i).symm

/-- The sum over `4 * n` terms taken as the kernel takes it, four consecutive runs of `n` added one after another
    onto zero, is the whole sum. -/
theorem sum_four_blocks {n : ℕ} (f : Fin (4 * n) → EReal) :
    (((0 + ∑ j : Fin n, f ⟨0 * n + j.val, by have := j.isLt; omega⟩) + ∑ j : Fin n, f ⟨1 * n + j.val, by have := j.isLt; omega⟩)
        + ∑ j : Fin n, f ⟨2 * n + j.val, by have := j.isLt; omega⟩) + ∑ j : Fin n, f ⟨3 * n + j.val, by have := j.isLt; omega⟩
      = ∑ j, f j := by
  -- Extend f by zero to all naturals; each sum over a finite ordinal is then a sum over a range, and a range
  -- of length n + n + n + n splits into its four consecutive runs.
  let g : ℕ → EReal := fun k => if h : k < 4 * n then f ⟨k, h⟩ else 0
  have hg : ∀ (k : ℕ) (h : k < 4 * n), f ⟨k, h⟩ = g k := fun k h => by simp only [g, dif_pos h]
  have hall : ∑ j, f j = ∑ k ∈ Finset.range (4 * n), g k := by
    rw [← Fin.sum_univ_eq_sum_range]
    exact Finset.sum_congr rfl (fun j _ => hg j.val j.isLt)
  have hblk : ∀ (i : ℕ) (hi : ∀ j : Fin n, i * n + j.val < 4 * n),
      ∑ j : Fin n, f ⟨i * n + j.val, hi j⟩ = ∑ k ∈ Finset.range n, g (i * n + k) := by
    intro i hi
    rw [← Fin.sum_univ_eq_sum_range (fun k => g (i * n + k)) n]
    exact Finset.sum_congr rfl (fun j _ => hg _ _)
  rw [hall, hblk 0, hblk 1, hblk 2, hblk 3]
  have h4 : 4 * n = n + n + n + n := by omega
  have h3 : 3 * n = n + n + n := by omega
  have h2 : 2 * n = n + n := by omega
  rw [h4, Finset.sum_range_add, Finset.sum_range_add, Finset.sum_range_add, h3, h2, zero_add, one_mul, zero_mul]
  simp only [zero_add]

end Cert.Gcn

end
-- ==== Proof.RefNet.lean ====
/-
  The reference program's result is the graph-convolution network of the specification.

  The reference computes, stage by stage: the affine map `x · W + b` (a contraction over the shared axis, then the
  bias broadcast along the rows), the aggregation `A · h` (a contraction over the nodes), and the clipping
  `max h 0` (a maximum against the zero constant broadcast to the whole array); three such layers, then the head
  `max (h · Wo0 + bo0) 0` and `h · Wo1 + bo1`. Each stage, read at the entry `(p, q)`, is the corresponding
  formula of the specification at `(p, q)`: a contraction's left operand is read at `(p, k)` and its right operand
  at `(k, q)`, a bias at `q`. The stages are joined one after another, each lemma stating the array written so far
  as a matrix of the specification, so that no step opens more than one stage.
-/
import proofs.«125076_j18348100288854_2_alg».proof.Proof.Gen.ReferenceIdeal.Read
import proofs.«125076_j18348100288854_2_alg».proof.Proof.Spec

noncomputable section

open scoped BigOperators

namespace Cert.Gcn.Ref

open Cert.ReferenceIdeal Cert.ReferenceIdeal.Gen Cert.ReferenceIdeal.Read
open Idealize.ShloMosaic Idealize.ShloMosaic.TcCoe Idealize.SL.Sem Idealize.ShloMosaic.ValueIdx

/-- An f32 array of the given shape over the extended reals: a function from its indices to the extended reals. -/
abbrev Arr (S : Shape) : Type := (⟨S, .f32⟩ : BufTy).Contents (Elt Ideal)

/-! ## Where each stage reads its operands

At the entry `(p, q)` a contraction reads its left operand at `(p, k)` and its right operand at `(k, q)`; a bias,
broadcast first to one row and then along the rows, is read at `q`. -/

theorem lidx_v0 (p : Fin 8192) (q : Fin 16) (k : Fin 128) : lidx_main_v0 (ix2 p q) k = ix2 p k := funext fun a => Fin.ext (by match a with | ⟨0, _⟩ => rfl | ⟨1, _⟩ => rfl)
theorem ridx_v0 (p : Fin 8192) (q : Fin 16) (k : Fin 128) : ridx_main_v0 (ix2 p q) k = ix2 k q := funext fun a => Fin.ext (by match a with | ⟨0, _⟩ => rfl | ⟨1, _⟩ => rfl)
theorem bidx_v2 (p : Fin 8192) (q : Fin 16) : idx_main_v1 (idx_main_v2 (ix2 p q)) = ix1 q := funext fun a => Fin.ext (by match a with | ⟨0, _⟩ => rfl)
theorem lidx_v4 (p : Fin 8192) (q : Fin 16) (k : Fin 8192) : lidx_main_v4 (ix2 p q) k = ix2 p k := funext fun a => Fin.ext (by match a with | ⟨0, _⟩ => rfl | ⟨1, _⟩ => rfl)
theorem ridx_v4 (p : Fin 8192) (q : Fin 16) (k : Fin 8192) : ridx_main_v4 (ix2 p q) k = ix2 k q := funext fun a => Fin.ext (by match a with | ⟨0, _⟩ => rfl | ⟨1, _⟩ => rfl)

theorem lidx_v6 (p : Fin 8192) (q : Fin 32) (k : Fin 16) : lidx_main_v6 (ix2 p q) k = ix2 p k := funext fun a => Fin.ext (by match a with | ⟨0, _⟩ => rfl | ⟨1, _⟩ => rfl)
theorem ridx_v6 (p : Fin 8192) (q : Fin 32) (k : Fin 16) : ridx_main_v6 (ix2 p q) k = ix2 k q := funext fun a => Fin.ext (by match a with | ⟨0, _⟩ => rfl | ⟨1, _⟩ => rfl)
theorem bidx_v8 (p : Fin 8192) (q : Fin 32) : idx_main_v7 (idx_main_v8 (ix2 p q)) = ix1 q := funext fun a => Fin.ext (by match a with | ⟨0, _⟩ => rfl)
theorem lidx_v10 (p : Fin 8192) (q : Fin 32) (k : Fin 8192) : lidx_main_v10 (ix2 p q) k = ix2 p k := funext fun a => Fin.ext (by match a with | ⟨0, _⟩ => rfl | ⟨1, _⟩ => rfl)
theorem ridx_v10 (p : Fin 8192) (q : Fin 32) (k : Fin 8192) : ridx_main_v10 (ix2 p q) k = ix2 k q := funext fun a => Fin.ext (by match a with | ⟨0, _⟩ => rfl | ⟨1, _⟩ => rfl)

theorem lidx_v12 (p : Fin 8192) (q : Fin 64) (k : Fin 32) : lidx_main_v12 (ix2 p q) k = ix2 p k := funext fun a => Fin.ext (by match a with | ⟨0, _⟩ => rfl | ⟨1, _⟩ => rfl)
theorem ridx_v12 (p : Fin 8192) (q : Fin 64) (k : Fin 32) : ridx_main_v12 (ix2 p q) k = ix2 k q := funext fun a => Fin.ext (by match a with | ⟨0, _⟩ => rfl | ⟨1, _⟩ => rfl)
theorem bidx_v14 (p : Fin 8192) (q : Fin 64) : idx_main_v13 (idx_main_v14 (ix2 p q)) = ix1 q := funext fun a => Fin.ext (by match a with | ⟨0, _⟩ => rfl)
theorem lidx_v16 (p : Fin 8192) (q : Fin 64) (k : Fin 8192) : lidx_main_v16 (ix2 p q) k = ix2 p k := funext fun a => Fin.ext (by match a with | ⟨0, _⟩ => rfl | ⟨1, _⟩ => rfl)
theorem ridx_v16 (p : Fin 8192) (q : Fin 64) (k : Fin 8192) : ridx_main_v16 (ix2 p q) k = ix2 k q := funext fun a => Fin.ext (by match a with | ⟨0, _⟩ => rfl | ⟨1, _⟩ => rfl)

theorem lidx_v18 (p : Fin 8192) (q : Fin 32) (k : Fin 64) : lidx_main_v18 (ix2 p q) k = ix2 p k := funext fun a => Fin.ext (by match a with | ⟨0, _⟩ => rfl | ⟨1, _⟩ => rfl)
theorem ridx_v18 (p : Fin 8192) (q : Fin 32) (k : Fin 64) : ridx_main_v18 (ix2 p q) k = ix2 k q := funext fun a => Fin.ext (by match a with | ⟨0, _⟩ => rfl | ⟨1, _⟩ => rfl)
theorem bidx_v20 (p : Fin 8192) (q : Fin 32) : idx_main_v19 (idx_main_v20 (ix2 p q)) = ix1 q := funext fun a => Fin.ext (by match a with | ⟨0, _⟩ => rfl)

theorem lidx_v23 (p : Fin 8192) (q : Fin 10) (k : Fin 32) : lidx_main_v23 (ix2 p q) k = ix2 p k := funext fun a => Fin.ext (by match a with | ⟨0, _⟩ => rfl | ⟨1, _⟩ => rfl)
theorem ridx_v23 (p : Fin 8192) (q : Fin 10) (k : Fin 32) : ridx_main_v23 (ix2 p q) k = ix2 k q := funext fun a => Fin.ext (by match a with | ⟨0, _⟩ => rfl | ⟨1, _⟩ => rfl)
theorem bidx_v25 (p : Fin 8192) (q : Fin 10) : idx_main_v24 (idx_main_v25 (ix2 p q)) = ix1 q := funext fun a => Fin.ext (by match a with | ⟨0, _⟩ => rfl)

variable (x0 : Arr S8192x128) (x1 : Arr S8192x8192) (x2 : Arr S128x16) (x3 : Arr S16) (x4 : Arr S16x32) (x5 : Arr S32)
  (x6 : Arr S32x64) (x7 : Arr S64) (x8 : Arr S64x32) (x9 : Arr S32) (x10 : Arr S32x10) (x11 : Arr S10)

/-! ## The layers' outputs, as matrices of the specification -/

/-- The first layer's output: `max (A · (x · W0 + b0)) 0`. -/
def h1 : Mat 8192 16 := layer (mat2 x1) (mat2 x0) (mat2 x2) (vec1 x3)
/-- The second layer's output: `max (A · (h1 · W1 + b1)) 0`. -/
def h2 : Mat 8192 32 := layer (mat2 x1) (h1 x0 x1 x2 x3) (mat2 x4) (vec1 x5)
/-- The third layer's output: `max (A · (h2 · W2 + b2)) 0`. -/
def h3 : Mat 8192 64 := layer (mat2 x1) (h2 x0 x1 x2 x3 x4 x5) (mat2 x6) (vec1 x7)
/-- The head's hidden stage: `max (h3 · Wo0 + bo0) 0`. -/
def h4 : Mat 8192 32 := relu (lin (h3 x0 x1 x2 x3 x4 x5 x6 x7) (mat2 x8) (vec1 x9))

/-! ## First layer -/

/-- The affine map `x · W0 + b0`. -/
theorem v3_eq : val_main_v3 (F := Ideal) x0 x2 x3 = unmat2 (lin (mat2 x0) (mat2 x2) (vec1 x3)) := by
  funext i
  obtain ⟨p, q, rfl⟩ : ∃ (p : Fin 8192) (q : Fin 16), i = ix2 p q := ⟨i 0, i 1, eq_ix2 i⟩
  rw [val_main_v3_apply, val_main_v0_apply, val_main_v2_apply, val_main_v1_apply]
  simp only [lidx_v0, ridx_v0, bidx_v2]
  rfl

/-- The aggregation `A · (x · W0 + b0)`. -/
theorem v4_eq : val_main_v4 (F := Ideal) x0 x1 x2 x3 = unmat2 (agg (mat2 x1) (lin (mat2 x0) (mat2 x2) (vec1 x3))) := by
  funext i
  obtain ⟨p, q, rfl⟩ : ∃ (p : Fin 8192) (q : Fin 16), i = ix2 p q := ⟨i 0, i 1, eq_ix2 i⟩
  rw [val_main_v4_apply, v3_eq]
  generalize lin (mat2 x0) (mat2 x2) (vec1 x3) = M
  simp only [lidx_v4, ridx_v4]
  rfl

/-- The clipping: the maximum against the zero constant. -/
theorem v5_eq : val_main_v5 (F := Ideal) x0 x1 x2 x3 = unmat2 (h1 x0 x1 x2 x3) := by
  funext i
  obtain ⟨p, q, rfl⟩ : ∃ (p : Fin 8192) (q : Fin 16), i = ix2 p q := ⟨i 0, i 1, eq_ix2 i⟩
  rw [val_main_v5_apply, v4_eq, val_main_call0_v0_apply, val_main_call0_cst_apply, Ideal.maximumf_def, Ideal.ofBits_def,
    Ideal.ofBits_zero_f32]
  rfl

/-! ## Second layer -/

/-- The affine map `h1 · W1 + b1`. -/
theorem v9_eq : val_main_v9 (F := Ideal) x0 x1 x2 x3 x4 x5 = unmat2 (lin (h1 x0 x1 x2 x3) (mat2 x4) (vec1 x5)) := by
  funext i
  obtain ⟨p, q, rfl⟩ : ∃ (p : Fin 8192) (q : Fin 32), i = ix2 p q := ⟨i 0, i 1, eq_ix2 i⟩
  rw [val_main_v9_apply, val_main_v6_apply, v5_eq, val_main_v8_apply, val_main_v7_apply]
  generalize h1 x0 x1 x2 x3 = H
  simp only [lidx_v6, ridx_v6, bidx_v8]
  rfl

/-- The aggregation `A · (h1 · W1 + b1)`. -/
theorem v10_eq : val_main_v10 (F := Ideal) x0 x1 x2 x3 x4 x5
    = unmat2 (agg (mat2 x1) (lin (h1 x0 x1 x2 x3) (mat2 x4) (vec1 x5))) := by
  funext i
  obtain ⟨p, q, rfl⟩ : ∃ (p : Fin 8192) (q : Fin 32), i = ix2 p q := ⟨i 0, i 1, eq_ix2 i⟩
  rw [val_main_v10_apply, v9_eq]
  generalize lin (h1 x0 x1 x2 x3) (mat2 x4) (vec1 x5) = M
  simp only [lidx_v10, ridx_v10]
  rfl

/-- The clipping. -/
theorem v11_eq : val_main_v11 (F := Ideal) x0 x1 x2 x3 x4 x5 = unmat2 (h2 x0 x1 x2 x3 x4 x5) := by
  funext i
  obtain ⟨p, q, rfl⟩ : ∃ (p : Fin 8192) (q : Fin 32), i = ix2 p q := ⟨i 0, i 1, eq_ix2 i⟩
  rw [val_main_v11_apply, v10_eq, val_main_call1_v0_apply, val_main_call1_cst_apply, Ideal.maximumf_def, Ideal.ofBits_def,
    Ideal.ofBits_zero_f32]
  rfl

/-! ## Third layer -/

/-- The affine map `h2 · W2 + b2`. -/
theorem v15_eq : val_main_v15 (F := Ideal) x0 x1 x2 x3 x4 x5 x6 x7
    = unmat2 (lin (h2 x0 x1 x2 x3 x4 x5) (mat2 x6) (vec1 x7)) := by
  funext i
  obtain ⟨p, q, rfl⟩ : ∃ (p : Fin 8192) (q : Fin 64), i = ix2 p q := ⟨i 0, i 1, eq_ix2 i⟩
  rw [val_main_v15_apply, val_main_v12_apply, v11_eq, val_main_v14_apply, val_main_v13_apply]
  generalize h2 x0 x1 x2 x3 x4 x5 = H
  simp only [lidx_v12, ridx_v12, bidx_v14]
  rfl

/-- The aggregation `A · (h2 · W2 + b2)`. -/
theorem v16_eq : val_main_v16 (F := Ideal) x0 x1 x2 x3 x4 x5 x6 x7
    = unmat2 (agg (mat2 x1) (lin (h2 x0 x1 x2 x3 x4 x5) (mat2 x6) (vec1 x7))) := by
  funext i
  obtain ⟨p, q, rfl⟩ : ∃ (p : Fin 8192) (q : Fin 64), i = ix2 p q := ⟨i 0, i 1, eq_ix2 i⟩
  rw [val_main_v16_apply, v15_eq]
  generalize lin (h2 x0 x1 x2 x3 x4 x5) (mat2 x6) (vec1 x7) = M
  simp only [lidx_v16, ridx_v16]
  rfl

/-- The clipping. -/
theorem v17_eq : val_main_v17 (F := Ideal) x0 x1 x2 x3 x4 x5 x6 x7 = unmat2 (h3 x0 x1 x2 x3 x4 x5 x6 x7) := by
  funext i
  obtain ⟨p, q, rfl⟩ : ∃ (p : Fin 8192) (q : Fin 64), i = ix2 p q := ⟨i 0, i 1, eq_ix2 i⟩
  rw [val_main_v17_apply, v16_eq, val_main_call2_v0_apply, val_main_call2_cst_apply, Ideal.maximumf_def, Ideal.ofBits_def,
    Ideal.ofBits_zero_f32]
  rfl

/-! ## The head -/

/-- The affine map `h3 · Wo0 + bo0`. -/
theorem v21_eq : val_main_v21 (F := Ideal) x0 x1 x2 x3 x4 x5 x6 x7 x8 x9
    = unmat2 (lin (h3 x0 x1 x2 x3 x4 x5 x6 x7) (mat2 x8) (vec1 x9)) := by
  funext i
  obtain ⟨p, q, rfl⟩ : ∃ (p : Fin 8192) (q : Fin 32), i = ix2 p q := ⟨i 0, i 1, eq_ix2 i⟩
  rw [val_main_v21_apply, val_main_v18_apply, v17_eq, val_main_v20_apply, val_main_v19_apply]
  generalize h3 x0 x1 x2 x3 x4 x5 x6 x7 = H
  simp only [lidx_v18, ridx_v18, bidx_v20]
  rfl

/-- The clipping of the head's hidden stage. -/
theorem v22_eq : val_main_v22 (F := Ideal) x0 x1 x2 x3 x4 x5 x6 x7 x8 x9 = unmat2 (h4 x0 x1 x2 x3 x4 x5 x6 x7 x8 x9) := by
  funext i
  obtain ⟨p, q, rfl⟩ : ∃ (p : Fin 8192) (q : Fin 32), i = ix2 p q := ⟨i 0, i 1, eq_ix2 i⟩
  rw [val_main_v22_apply, v21_eq, val_main_call3_v0_apply, val_main_call3_cst_apply, Ideal.maximumf_def, Ideal.ofBits_def,
    Ideal.ofBits_zero_f32]
  rfl

/-- The last affine map `h4 · Wo1 + bo1`. -/
theorem v26_eq : val_main_v26 (F := Ideal) x0 x1 x2 x3 x4 x5 x6 x7 x8 x9 x10 x11
    = unmat2 (lin (h4 x0 x1 x2 x3 x4 x5 x6 x7 x8 x9) (mat2 x10) (vec1 x11)) := by
  funext i
  obtain ⟨p, q, rfl⟩ : ∃ (p : Fin 8192) (q : Fin 10), i = ix2 p q := ⟨i 0, i 1, eq_ix2 i⟩
  rw [val_main_v26_apply, val_main_v23_apply, v22_eq, val_main_v25_apply, val_main_v24_apply]
  generalize h4 x0 x1 x2 x3 x4 x5 x6 x7 x8 x9 = H
  simp only [lidx_v23, ridx_v23, bidx_v25]
  rfl

/-! ## The whole reference -/

/-- The stages composed are the network of the specification. -/
theorem net_eq : lin (h4 x0 x1 x2 x3 x4 x5 x6 x7 x8 x9) (mat2 x10) (vec1 x11)
    = net (mat2 x0) (mat2 x1) (mat2 x2) (vec1 x3) (mat2 x4) (vec1 x5) (mat2 x6) (vec1 x7) (mat2 x8) (vec1 x9) (mat2 x10)
        (vec1 x11) := rfl

/-- The reference's last stage, as a function of the twelve argument arrays, is the network of the specification. -/
theorem result_eq : val_main_v26 (F := Ideal) x0 x1 x2 x3 x4 x5 x6 x7 x8 x9 x10 x11
    = unmat2 (net (mat2 x0) (mat2 x1) (mat2 x2) (vec1 x3) (mat2 x4) (vec1 x5) (mat2 x6) (vec1 x7) (mat2 x8) (vec1 x9)
        (mat2 x10) (vec1 x11)) := by
  rw [v26_eq, net_eq]

/-- Every weakly fair execution of the reference ends with its result array at the network of the specification applied to
    the argument arrays as the run found them, and leaves the twelve argument arrays unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
      r.2.mem ((c.tc : Thread Cert.ReferenceIdeal.nD Cert.ReferenceIdeal.τ).loc Cert.ReferenceIdeal.main_v26)
        = Cert.Gcn.unmat2 (Cert.Gcn.net (mat2 (m ((c.tc : Thread Cert.ReferenceIdeal.nD Cert.ReferenceIdeal.τ).loc Cert.ReferenceIdeal.main_arg0))) (mat2 (m ((c.tc : Thread Cert.ReferenceIdeal.nD Cert.ReferenceIdeal.τ).loc Cert.ReferenceIdeal.main_arg1)))
            (mat2 (m ((c.tc : Thread Cert.ReferenceIdeal.nD Cert.ReferenceIdeal.τ).loc Cert.ReferenceIdeal.main_arg2))) (vec1 (m ((c.tc : Thread Cert.ReferenceIdeal.nD Cert.ReferenceIdeal.τ).loc Cert.ReferenceIdeal.main_arg3)))
            (mat2 (m ((c.tc : Thread Cert.ReferenceIdeal.nD Cert.ReferenceIdeal.τ).loc Cert.ReferenceIdeal.main_arg4))) (vec1 (m ((c.tc : Thread Cert.ReferenceIdeal.nD Cert.ReferenceIdeal.τ).loc Cert.ReferenceIdeal.main_arg5)))
            (mat2 (m ((c.tc : Thread Cert.ReferenceIdeal.nD Cert.ReferenceIdeal.τ).loc Cert.ReferenceIdeal.main_arg6))) (vec1 (m ((c.tc : Thread Cert.ReferenceIdeal.nD Cert.ReferenceIdeal.τ).loc Cert.ReferenceIdeal.main_arg7)))
            (mat2 (m ((c.tc : Thread Cert.ReferenceIdeal.nD Cert.ReferenceIdeal.τ).loc Cert.ReferenceIdeal.main_arg8))) (vec1 (m ((c.tc : Thread Cert.ReferenceIdeal.nD Cert.ReferenceIdeal.τ).loc Cert.ReferenceIdeal.main_arg9)))
            (mat2 (m ((c.tc : Thread Cert.ReferenceIdeal.nD Cert.ReferenceIdeal.τ).loc Cert.ReferenceIdeal.main_arg10))) (vec1 (m ((c.tc : Thread Cert.ReferenceIdeal.nD Cert.ReferenceIdeal.τ).loc Cert.ReferenceIdeal.main_arg11))))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)) :=
  (θ_run (Cert.ReferenceIdeal.defs (F := Ideal)) _ _).mono
    (fun _ h c => ⟨by rw [(h c).1, val_main_v26_eq, result_eq], (h c).2⟩)
    (Cert.ReferenceIdeal.Value.run (F := Ideal) m ρ)

end Cert.Gcn.Ref

end
-- ==== Proof.Args.lean ====
/-
  No host operation and no call writes an argument array, so at every boundary between the program's segments each
  argument still holds its launch contents: one equation per boundary and argument, each from the one before it.
-/
import proofs.«125076_j18348100288854_2_alg».proof.Proof.Whole

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem W1_at_main_arg0 (c : Dev nD) : W1 m c (Proc.devRef .tc main_arg0) = m ((c : Thread nD τ).loc main_arg0) :=
  (show W1 m c (Proc.devRef .tc main_arg0) = W0 m c (Proc.devRef .tc main_arg0) from StableHlo.after_of_writes_sub hostOps0 _ hostOps0_writes (show main_arg0 ∉ hostOps0_W by decide)).trans rfl
theorem W1_at_main_arg1 (c : Dev nD) : W1 m c (Proc.devRef .tc main_arg1) = m ((c : Thread nD τ).loc main_arg1) :=
  (show W1 m c (Proc.devRef .tc main_arg1) = W0 m c (Proc.devRef .tc main_arg1) from StableHlo.after_of_writes_sub hostOps0 _ hostOps0_writes (show main_arg1 ∉ hostOps0_W by decide)).trans rfl
theorem W1_at_main_arg2 (c : Dev nD) : W1 m c (Proc.devRef .tc main_arg2) = m ((c : Thread nD τ).loc main_arg2) :=
  (show W1 m c (Proc.devRef .tc main_arg2) = W0 m c (Proc.devRef .tc main_arg2) from StableHlo.after_of_writes_sub hostOps0 _ hostOps0_writes (show main_arg2 ∉ hostOps0_W by decide)).trans rfl
theorem W1_at_main_arg3 (c : Dev nD) : W1 m c (Proc.devRef .tc main_arg3) = m ((c : Thread nD τ).loc main_arg3) :=
  (show W1 m c (Proc.devRef .tc main_arg3) = W0 m c (Proc.devRef .tc main_arg3) from StableHlo.after_of_writes_sub hostOps0 _ hostOps0_writes (show main_arg3 ∉ hostOps0_W by decide)).trans rfl
theorem W1_at_main_arg4 (c : Dev nD) : W1 m c (Proc.devRef .tc main_arg4) = m ((c : Thread nD τ).loc main_arg4) :=
  (show W1 m c (Proc.devRef .tc main_arg4) = W0 m c (Proc.devRef .tc main_arg4) from StableHlo.after_of_writes_sub hostOps0 _ hostOps0_writes (show main_arg4 ∉ hostOps0_W by decide)).trans rfl
theorem W1_at_main_arg5 (c : Dev nD) : W1 m c (Proc.devRef .tc main_arg5) = m ((c : Thread nD τ).loc main_arg5) :=
  (show W1 m c (Proc.devRef .tc main_arg5) = W0 m c (Proc.devRef .tc main_arg5) from StableHlo.after_of_writes_sub hostOps0 _ hostOps0_writes (show main_arg5 ∉ hostOps0_W by decide)).trans rfl
theorem W1_at_main_arg6 (c : Dev nD) : W1 m c (Proc.devRef .tc main_arg6) = m ((c : Thread nD τ).loc main_arg6) :=
  (show W1 m c (Proc.devRef .tc main_arg6) = W0 m c (Proc.devRef .tc main_arg6) from StableHlo.after_of_writes_sub hostOps0 _ hostOps0_writes (show main_arg6 ∉ hostOps0_W by decide)).trans rfl
theorem W1_at_main_arg7 (c : Dev nD) : W1 m c (Proc.devRef .tc main_arg7) = m ((c : Thread nD τ).loc main_arg7) :=
  (show W1 m c (Proc.devRef .tc main_arg7) = W0 m c (Proc.devRef .tc main_arg7) from StableHlo.after_of_writes_sub hostOps0 _ hostOps0_writes (show main_arg7 ∉ hostOps0_W by decide)).trans rfl
theorem W1_at_main_arg8 (c : Dev nD) : W1 m c (Proc.devRef .tc main_arg8) = m ((c : Thread nD τ).loc main_arg8) :=
  (show W1 m c (Proc.devRef .tc main_arg8) = W0 m c (Proc.devRef .tc main_arg8) from StableHlo.after_of_writes_sub hostOps0 _ hostOps0_writes (show main_arg8 ∉ hostOps0_W by decide)).trans rfl
theorem W1_at_main_arg9 (c : Dev nD) : W1 m c (Proc.devRef .tc main_arg9) = m ((c : Thread nD τ).loc main_arg9) :=
  (show W1 m c (Proc.devRef .tc main_arg9) = W0 m c (Proc.devRef .tc main_arg9) from StableHlo.after_of_writes_sub hostOps0 _ hostOps0_writes (show main_arg9 ∉ hostOps0_W by decide)).trans rfl
theorem W1_at_main_arg10 (c : Dev nD) : W1 m c (Proc.devRef .tc main_arg10) = m ((c : Thread nD τ).loc main_arg10) :=
  (show W1 m c (Proc.devRef .tc main_arg10) = W0 m c (Proc.devRef .tc main_arg10) from StableHlo.after_of_writes_sub hostOps0 _ hostOps0_writes (show main_arg10 ∉ hostOps0_W by decide)).trans rfl
theorem W1_at_main_arg11 (c : Dev nD) : W1 m c (Proc.devRef .tc main_arg11) = m ((c : Thread nD τ).loc main_arg11) :=
  (show W1 m c (Proc.devRef .tc main_arg11) = W0 m c (Proc.devRef .tc main_arg11) from StableHlo.after_of_writes_sub hostOps0 _ hostOps0_writes (show main_arg11 ∉ hostOps0_W by decide)).trans rfl

theorem W2_at_main_arg0 (c : Dev nD) : W2 m c (Proc.devRef .tc main_arg0) = m ((c : Thread nD τ).loc main_arg0) :=
  (show W2 m c (Proc.devRef .tc main_arg0) = W1 m c (Proc.devRef .tc main_arg0) from W2_of_ne m c main_arg0 (by decide)).trans (W1_at_main_arg0 m c)
theorem W2_at_main_arg1 (c : Dev nD) : W2 m c (Proc.devRef .tc main_arg1) = m ((c : Thread nD τ).loc main_arg1) :=
  (show W2 m c (Proc.devRef .tc main_arg1) = W1 m c (Proc.devRef .tc main_arg1) from (W2_arr m c 0).trans (((Reg0.dat (V1 m) c).arrAt_in 0 rfl _).trans (Reg0.A_eq (V1 m) c 0))).trans (W1_at_main_arg1 m c)
theorem W2_at_main_arg2 (c : Dev nD) : W2 m c (Proc.devRef .tc main_arg2) = m ((c : Thread nD τ).loc main_arg2) :=
  (show W2 m c (Proc.devRef .tc main_arg2) = W1 m c (Proc.devRef .tc main_arg2) from W2_of_ne m c main_arg2 (by decide)).trans (W1_at_main_arg2 m c)
theorem W2_at_main_arg3 (c : Dev nD) : W2 m c (Proc.devRef .tc main_arg3) = m ((c : Thread nD τ).loc main_arg3) :=
  (show W2 m c (Proc.devRef .tc main_arg3) = W1 m c (Proc.devRef .tc main_arg3) from W2_of_ne m c main_arg3 (by decide)).trans (W1_at_main_arg3 m c)
theorem W2_at_main_arg4 (c : Dev nD) : W2 m c (Proc.devRef .tc main_arg4) = m ((c : Thread nD τ).loc main_arg4) :=
  (show W2 m c (Proc.devRef .tc main_arg4) = W1 m c (Proc.devRef .tc main_arg4) from W2_of_ne m c main_arg4 (by decide)).trans (W1_at_main_arg4 m c)
theorem W2_at_main_arg5 (c : Dev nD) : W2 m c (Proc.devRef .tc main_arg5) = m ((c : Thread nD τ).loc main_arg5) :=
  (show W2 m c (Proc.devRef .tc main_arg5) = W1 m c (Proc.devRef .tc main_arg5) from W2_of_ne m c main_arg5 (by decide)).trans (W1_at_main_arg5 m c)
theorem W2_at_main_arg6 (c : Dev nD) : W2 m c (Proc.devRef .tc main_arg6) = m ((c : Thread nD τ).loc main_arg6) :=
  (show W2 m c (Proc.devRef .tc main_arg6) = W1 m c (Proc.devRef .tc main_arg6) from W2_of_ne m c main_arg6 (by decide)).trans (W1_at_main_arg6 m c)
theorem W2_at_main_arg7 (c : Dev nD) : W2 m c (Proc.devRef .tc main_arg7) = m ((c : Thread nD τ).loc main_arg7) :=
  (show W2 m c (Proc.devRef .tc main_arg7) = W1 m c (Proc.devRef .tc main_arg7) from W2_of_ne m c main_arg7 (by decide)).trans (W1_at_main_arg7 m c)
theorem W2_at_main_arg8 (c : Dev nD) : W2 m c (Proc.devRef .tc main_arg8) = m ((c : Thread nD τ).loc main_arg8) :=
  (show W2 m c (Proc.devRef .tc main_arg8) = W1 m c (Proc.devRef .tc main_arg8) from W2_of_ne m c main_arg8 (by decide)).trans (W1_at_main_arg8 m c)
theorem W2_at_main_arg9 (c : Dev nD) : W2 m c (Proc.devRef .tc main_arg9) = m ((c : Thread nD τ).loc main_arg9) :=
  (show W2 m c (Proc.devRef .tc main_arg9) = W1 m c (Proc.devRef .tc main_arg9) from W2_of_ne m c main_arg9 (by decide)).trans (W1_at_main_arg9 m c)
theorem W2_at_main_arg10 (c : Dev nD) : W2 m c (Proc.devRef .tc main_arg10) = m ((c : Thread nD τ).loc main_arg10) :=
  (show W2 m c (Proc.devRef .tc main_arg10) = W1 m c (Proc.devRef .tc main_arg10) from W2_of_ne m c main_arg10 (by decide)).trans (W1_at_main_arg10 m c)
theorem W2_at_main_arg11 (c : Dev nD) : W2 m c (Proc.devRef .tc main_arg11) = m ((c : Thread nD τ).loc main_arg11) :=
  (show W2 m c (Proc.devRef .tc main_arg11) = W1 m c (Proc.devRef .tc main_arg11) from W2_of_ne m c main_arg11 (by decide)).trans (W1_at_main_arg11 m c)

theorem W3_at_main_arg0 (c : Dev nD) : W3 m c (Proc.devRef .tc main_arg0) = m ((c : Thread nD τ).loc main_arg0) :=
  (show W3 m c (Proc.devRef .tc main_arg0) = W2 m c (Proc.devRef .tc main_arg0) from StableHlo.after_of_writes_sub hostOps1 _ hostOps1_writes (show main_arg0 ∉ hostOps1_W by decide)).trans (W2_at_main_arg0 m c)
theorem W3_at_main_arg1 (c : Dev nD) : W3 m c (Proc.devRef .tc main_arg1) = m ((c : Thread nD τ).loc main_arg1) :=
  (show W3 m c (Proc.devRef .tc main_arg1) = W2 m c (Proc.devRef .tc main_arg1) from StableHlo.after_of_writes_sub hostOps1 _ hostOps1_writes (show main_arg1 ∉ hostOps1_W by decide)).trans (W2_at_main_arg1 m c)
theorem W3_at_main_arg2 (c : Dev nD) : W3 m c (Proc.devRef .tc main_arg2) = m ((c : Thread nD τ).loc main_arg2) :=
  (show W3 m c (Proc.devRef .tc main_arg2) = W2 m c (Proc.devRef .tc main_arg2) from StableHlo.after_of_writes_sub hostOps1 _ hostOps1_writes (show main_arg2 ∉ hostOps1_W by decide)).trans (W2_at_main_arg2 m c)
theorem W3_at_main_arg3 (c : Dev nD) : W3 m c (Proc.devRef .tc main_arg3) = m ((c : Thread nD τ).loc main_arg3) :=
  (show W3 m c (Proc.devRef .tc main_arg3) = W2 m c (Proc.devRef .tc main_arg3) from StableHlo.after_of_writes_sub hostOps1 _ hostOps1_writes (show main_arg3 ∉ hostOps1_W by decide)).trans (W2_at_main_arg3 m c)
theorem W3_at_main_arg4 (c : Dev nD) : W3 m c (Proc.devRef .tc main_arg4) = m ((c : Thread nD τ).loc main_arg4) :=
  (show W3 m c (Proc.devRef .tc main_arg4) = W2 m c (Proc.devRef .tc main_arg4) from StableHlo.after_of_writes_sub hostOps1 _ hostOps1_writes (show main_arg4 ∉ hostOps1_W by decide)).trans (W2_at_main_arg4 m c)
theorem W3_at_main_arg5 (c : Dev nD) : W3 m c (Proc.devRef .tc main_arg5) = m ((c : Thread nD τ).loc main_arg5) :=
  (show W3 m c (Proc.devRef .tc main_arg5) = W2 m c (Proc.devRef .tc main_arg5) from StableHlo.after_of_writes_sub hostOps1 _ hostOps1_writes (show main_arg5 ∉ hostOps1_W by decide)).trans (W2_at_main_arg5 m c)
theorem W3_at_main_arg6 (c : Dev nD) : W3 m c (Proc.devRef .tc main_arg6) = m ((c : Thread nD τ).loc main_arg6) :=
  (show W3 m c (Proc.devRef .tc main_arg6) = W2 m c (Proc.devRef .tc main_arg6) from StableHlo.after_of_writes_sub hostOps1 _ hostOps1_writes (show main_arg6 ∉ hostOps1_W by decide)).trans (W2_at_main_arg6 m c)
theorem W3_at_main_arg7 (c : Dev nD) : W3 m c (Proc.devRef .tc main_arg7) = m ((c : Thread nD τ).loc main_arg7) :=
  (show W3 m c (Proc.devRef .tc main_arg7) = W2 m c (Proc.devRef .tc main_arg7) from StableHlo.after_of_writes_sub hostOps1 _ hostOps1_writes (show main_arg7 ∉ hostOps1_W by decide)).trans (W2_at_main_arg7 m c)
theorem W3_at_main_arg8 (c : Dev nD) : W3 m c (Proc.devRef .tc main_arg8) = m ((c : Thread nD τ).loc main_arg8) :=
  (show W3 m c (Proc.devRef .tc main_arg8) = W2 m c (Proc.devRef .tc main_arg8) from StableHlo.after_of_writes_sub hostOps1 _ hostOps1_writes (show main_arg8 ∉ hostOps1_W by decide)).trans (W2_at_main_arg8 m c)
theorem W3_at_main_arg9 (c : Dev nD) : W3 m c (Proc.devRef .tc main_arg9) = m ((c : Thread nD τ).loc main_arg9) :=
  (show W3 m c (Proc.devRef .tc main_arg9) = W2 m c (Proc.devRef .tc main_arg9) from StableHlo.after_of_writes_sub hostOps1 _ hostOps1_writes (show main_arg9 ∉ hostOps1_W by decide)).trans (W2_at_main_arg9 m c)
theorem W3_at_main_arg10 (c : Dev nD) : W3 m c (Proc.devRef .tc main_arg10) = m ((c : Thread nD τ).loc main_arg10) :=
  (show W3 m c (Proc.devRef .tc main_arg10) = W2 m c (Proc.devRef .tc main_arg10) from StableHlo.after_of_writes_sub hostOps1 _ hostOps1_writes (show main_arg10 ∉ hostOps1_W by decide)).trans (W2_at_main_arg10 m c)
theorem W3_at_main_arg11 (c : Dev nD) : W3 m c (Proc.devRef .tc main_arg11) = m ((c : Thread nD τ).loc main_arg11) :=
  (show W3 m c (Proc.devRef .tc main_arg11) = W2 m c (Proc.devRef .tc main_arg11) from StableHlo.after_of_writes_sub hostOps1 _ hostOps1_writes (show main_arg11 ∉ hostOps1_W by decide)).trans (W2_at_main_arg11 m c)

theorem W4_at_main_arg0 (c : Dev nD) : W4 m c (Proc.devRef .tc main_arg0) = m ((c : Thread nD τ).loc main_arg0) :=
  (show W4 m c (Proc.devRef .tc main_arg0) = W3 m c (Proc.devRef .tc main_arg0) from W4_of_ne m c main_arg0 (by decide)).trans (W3_at_main_arg0 m c)
theorem W4_at_main_arg1 (c : Dev nD) : W4 m c (Proc.devRef .tc main_arg1) = m ((c : Thread nD τ).loc main_arg1) :=
  (show W4 m c (Proc.devRef .tc main_arg1) = W3 m c (Proc.devRef .tc main_arg1) from W4_of_ne m c main_arg1 (by decide)).trans (W3_at_main_arg1 m c)
theorem W4_at_main_arg2 (c : Dev nD) : W4 m c (Proc.devRef .tc main_arg2) = m ((c : Thread nD τ).loc main_arg2) :=
  (show W4 m c (Proc.devRef .tc main_arg2) = W3 m c (Proc.devRef .tc main_arg2) from W4_of_ne m c main_arg2 (by decide)).trans (W3_at_main_arg2 m c)
theorem W4_at_main_arg3 (c : Dev nD) : W4 m c (Proc.devRef .tc main_arg3) = m ((c : Thread nD τ).loc main_arg3) :=
  (show W4 m c (Proc.devRef .tc main_arg3) = W3 m c (Proc.devRef .tc main_arg3) from W4_of_ne m c main_arg3 (by decide)).trans (W3_at_main_arg3 m c)
theorem W4_at_main_arg4 (c : Dev nD) : W4 m c (Proc.devRef .tc main_arg4) = m ((c : Thread nD τ).loc main_arg4) :=
  (show W4 m c (Proc.devRef .tc main_arg4) = W3 m c (Proc.devRef .tc main_arg4) from W4_of_ne m c main_arg4 (by decide)).trans (W3_at_main_arg4 m c)
theorem W4_at_main_arg5 (c : Dev nD) : W4 m c (Proc.devRef .tc main_arg5) = m ((c : Thread nD τ).loc main_arg5) :=
  (show W4 m c (Proc.devRef .tc main_arg5) = W3 m c (Proc.devRef .tc main_arg5) from W4_of_ne m c main_arg5 (by decide)).trans (W3_at_main_arg5 m c)
theorem W4_at_main_arg6 (c : Dev nD) : W4 m c (Proc.devRef .tc main_arg6) = m ((c : Thread nD τ).loc main_arg6) :=
  (show W4 m c (Proc.devRef .tc main_arg6) = W3 m c (Proc.devRef .tc main_arg6) from W4_of_ne m c main_arg6 (by decide)).trans (W3_at_main_arg6 m c)
theorem W4_at_main_arg7 (c : Dev nD) : W4 m c (Proc.devRef .tc main_arg7) = m ((c : Thread nD τ).loc main_arg7) :=
  (show W4 m c (Proc.devRef .tc main_arg7) = W3 m c (Proc.devRef .tc main_arg7) from W4_of_ne m c main_arg7 (by decide)).trans (W3_at_main_arg7 m c)
theorem W4_at_main_arg8 (c : Dev nD) : W4 m c (Proc.devRef .tc main_arg8) = m ((c : Thread nD τ).loc main_arg8) :=
  (show W4 m c (Proc.devRef .tc main_arg8) = W3 m c (Proc.devRef .tc main_arg8) from W4_of_ne m c main_arg8 (by decide)).trans (W3_at_main_arg8 m c)
theorem W4_at_main_arg9 (c : Dev nD) : W4 m c (Proc.devRef .tc main_arg9) = m ((c : Thread nD τ).loc main_arg9) :=
  (show W4 m c (Proc.devRef .tc main_arg9) = W3 m c (Proc.devRef .tc main_arg9) from W4_of_ne m c main_arg9 (by decide)).trans (W3_at_main_arg9 m c)
theorem W4_at_main_arg10 (c : Dev nD) : W4 m c (Proc.devRef .tc main_arg10) = m ((c : Thread nD τ).loc main_arg10) :=
  (show W4 m c (Proc.devRef .tc main_arg10) = W3 m c (Proc.devRef .tc main_arg10) from W4_of_ne m c main_arg10 (by decide)).trans (W3_at_main_arg10 m c)
theorem W4_at_main_arg11 (c : Dev nD) : W4 m c (Proc.devRef .tc main_arg11) = m ((c : Thread nD τ).loc main_arg11) :=
  (show W4 m c (Proc.devRef .tc main_arg11) = W3 m c (Proc.devRef .tc main_arg11) from W4_of_ne m c main_arg11 (by decide)).trans (W3_at_main_arg11 m c)

theorem W5_at_main_arg0 (c : Dev nD) : W5 m c (Proc.devRef .tc main_arg0) = m ((c : Thread nD τ).loc main_arg0) :=
  (show W5 m c (Proc.devRef .tc main_arg0) = W4 m c (Proc.devRef .tc main_arg0) from StableHlo.after_of_writes_sub hostOps2 _ hostOps2_writes (show main_arg0 ∉ hostOps2_W by decide)).trans (W4_at_main_arg0 m c)
theorem W5_at_main_arg1 (c : Dev nD) : W5 m c (Proc.devRef .tc main_arg1) = m ((c : Thread nD τ).loc main_arg1) :=
  (show W5 m c (Proc.devRef .tc main_arg1) = W4 m c (Proc.devRef .tc main_arg1) from StableHlo.after_of_writes_sub hostOps2 _ hostOps2_writes (show main_arg1 ∉ hostOps2_W by decide)).trans (W4_at_main_arg1 m c)
theorem W5_at_main_arg2 (c : Dev nD) : W5 m c (Proc.devRef .tc main_arg2) = m ((c : Thread nD τ).loc main_arg2) :=
  (show W5 m c (Proc.devRef .tc main_arg2) = W4 m c (Proc.devRef .tc main_arg2) from StableHlo.after_of_writes_sub hostOps2 _ hostOps2_writes (show main_arg2 ∉ hostOps2_W by decide)).trans (W4_at_main_arg2 m c)
theorem W5_at_main_arg3 (c : Dev nD) : W5 m c (Proc.devRef .tc main_arg3) = m ((c : Thread nD τ).loc main_arg3) :=
  (show W5 m c (Proc.devRef .tc main_arg3) = W4 m c (Proc.devRef .tc main_arg3) from StableHlo.after_of_writes_sub hostOps2 _ hostOps2_writes (show main_arg3 ∉ hostOps2_W by decide)).trans (W4_at_main_arg3 m c)
theorem W5_at_main_arg4 (c : Dev nD) : W5 m c (Proc.devRef .tc main_arg4) = m ((c : Thread nD τ).loc main_arg4) :=
  (show W5 m c (Proc.devRef .tc main_arg4) = W4 m c (Proc.devRef .tc main_arg4) from StableHlo.after_of_writes_sub hostOps2 _ hostOps2_writes (show main_arg4 ∉ hostOps2_W by decide)).trans (W4_at_main_arg4 m c)
theorem W5_at_main_arg5 (c : Dev nD) : W5 m c (Proc.devRef .tc main_arg5) = m ((c : Thread nD τ).loc main_arg5) :=
  (show W5 m c (Proc.devRef .tc main_arg5) = W4 m c (Proc.devRef .tc main_arg5) from StableHlo.after_of_writes_sub hostOps2 _ hostOps2_writes (show main_arg5 ∉ hostOps2_W by decide)).trans (W4_at_main_arg5 m c)
theorem W5_at_main_arg6 (c : Dev nD) : W5 m c (Proc.devRef .tc main_arg6) = m ((c : Thread nD τ).loc main_arg6) :=
  (show W5 m c (Proc.devRef .tc main_arg6) = W4 m c (Proc.devRef .tc main_arg6) from StableHlo.after_of_writes_sub hostOps2 _ hostOps2_writes (show main_arg6 ∉ hostOps2_W by decide)).trans (W4_at_main_arg6 m c)
theorem W5_at_main_arg7 (c : Dev nD) : W5 m c (Proc.devRef .tc main_arg7) = m ((c : Thread nD τ).loc main_arg7) :=
  (show W5 m c (Proc.devRef .tc main_arg7) = W4 m c (Proc.devRef .tc main_arg7) from StableHlo.after_of_writes_sub hostOps2 _ hostOps2_writes (show main_arg7 ∉ hostOps2_W by decide)).trans (W4_at_main_arg7 m c)
theorem W5_at_main_arg8 (c : Dev nD) : W5 m c (Proc.devRef .tc main_arg8) = m ((c : Thread nD τ).loc main_arg8) :=
  (show W5 m c (Proc.devRef .tc main_arg8) = W4 m c (Proc.devRef .tc main_arg8) from StableHlo.after_of_writes_sub hostOps2 _ hostOps2_writes (show main_arg8 ∉ hostOps2_W by decide)).trans (W4_at_main_arg8 m c)
theorem W5_at_main_arg9 (c : Dev nD) : W5 m c (Proc.devRef .tc main_arg9) = m ((c : Thread nD τ).loc main_arg9) :=
  (show W5 m c (Proc.devRef .tc main_arg9) = W4 m c (Proc.devRef .tc main_arg9) from StableHlo.after_of_writes_sub hostOps2 _ hostOps2_writes (show main_arg9 ∉ hostOps2_W by decide)).trans (W4_at_main_arg9 m c)
theorem W5_at_main_arg10 (c : Dev nD) : W5 m c (Proc.devRef .tc main_arg10) = m ((c : Thread nD τ).loc main_arg10) :=
  (show W5 m c (Proc.devRef .tc main_arg10) = W4 m c (Proc.devRef .tc main_arg10) from StableHlo.after_of_writes_sub hostOps2 _ hostOps2_writes (show main_arg10 ∉ hostOps2_W by decide)).trans (W4_at_main_arg10 m c)
theorem W5_at_main_arg11 (c : Dev nD) : W5 m c (Proc.devRef .tc main_arg11) = m ((c : Thread nD τ).loc main_arg11) :=
  (show W5 m c (Proc.devRef .tc main_arg11) = W4 m c (Proc.devRef .tc main_arg11) from StableHlo.after_of_writes_sub hostOps2 _ hostOps2_writes (show main_arg11 ∉ hostOps2_W by decide)).trans (W4_at_main_arg11 m c)

end Cert.KernelIdeal.Whole

end
-- ==== Proof.PayIdeal.lean ====
/-
  The kernel bodies' arithmetic, read at one entry, over the extended reals.

  Each layer's body fills an accumulator tile with zero, adds to it, for each tile of the adjacency matrix, the
  product of that tile with the matching rows of the layer's affine map (`s + ∑ j, a p j * h j q`: the narrowing of
  an operand to a shorter format is the identity on the extended reals, a cast of a tile to its own shape is the
  identity, and a matrix product into a zero accumulator is the bare sum over the shared axis), and at the end clips
  the accumulator at zero. The last layer's body goes on with the head: clip, multiply by the first head matrix, add
  its bias (one row broadcast along the rows), clip, multiply by the second head matrix, add its bias.
-/
import proofs.«125076_j18348100288854_2_alg».proof.Proof.Gen.KernelIdeal.Skeleton
import proofs.«125076_j18348100288854_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Gcn.Pay

open Cert.KernelIdeal Cert.KernelIdeal.Gen Idealize.ShloMosaic Idealize.ShloMosaic.ValueIdx Cert.Gcn

/-- The zero word of the 32-bit format denotes the extended real zero. -/
theorem zero_word : Scalar.ofBits (F := Ideal) .f32 0x00000000#32 = 0 := Ideal.ofBits_zero_f32

/-! ## The matrix products into a zero accumulator

A product whose dimension numbers contract the left operand's columns with the right operand's rows reads, at the
entry `(p, q)`, the left operand at `(p, j)` and the right operand at `(j, q)`; the contraction's one-axis index set
is re-indexed by its one coordinate. One group of lemmas for each of the five products the bodies hold. -/

/-- The first layer's aggregation product: an adjacency tile against 2048 rows of width 16. -/
theorem lhsA0_0 (i : S1024x16.Idx) (k : dot_S1024x2048_S2048x16_S1024x16_1_0_0_1_n_n.contr.Idx) :
    (dot_S1024x2048_S2048x16_S1024x16_1_0_0_1_n_n.lhsIdx i k 0).val = (i 0).val := by
  unfold DotDims.lhsIdx
  rw [dif_neg (show ¬(0 : Fin S1024x2048.rank) ∈ dot_S1024x2048_S2048x16_S1024x16_1_0_0_1_n_n.lhsBatch by decide),
    dif_pos (show (0 : Fin S1024x2048.rank) ∈ dot_S1024x2048_S2048x16_S1024x16_1_0_0_1_n_n.lhsNonContracting by decide)]
  rfl
theorem rhsA0_1 (i : S1024x16.Idx) (k : dot_S1024x2048_S2048x16_S1024x16_1_0_0_1_n_n.contr.Idx) :
    (dot_S1024x2048_S2048x16_S1024x16_1_0_0_1_n_n.rhsIdx i k 1).val = (i 1).val := by
  unfold DotDims.rhsIdx
  rw [dif_neg (show ¬(1 : Fin S2048x16.rank) ∈ dot_S1024x2048_S2048x16_S1024x16_1_0_0_1_n_n.rhsBatch by decide),
    dif_pos (show (1 : Fin S2048x16.rank) ∈ dot_S1024x2048_S2048x16_S1024x16_1_0_0_1_n_n.rhsNonContracting by decide)]
  rfl
theorem mmA0_apply (l : FVec Ideal S1024x2048 .bf16) (r : FVec Ideal S2048x16 .bf16) (p : Fin 1024) (q : Fin 16) :
    matmul (F := Ideal) dot_S1024x2048_S2048x16_S1024x16_1_0_0_1_n_n none l r (constant S1024x16 .f32 0x00000000#32) (ix2 p q)
      = ∑ j : Fin 2048, l (ix2 p j) * r (ix2 j q) := by
  refine (Ideal.matmul_constant_zero_apply dot_S1024x2048_S2048x16_S1024x16_1_0_0_1_n_n none l r (ix2 p q)).trans ?_
  rw [← Equiv.sum_comp (contrEquiv1 dot_S1024x2048_S2048x16_S1024x16_1_0_0_1_n_n 2048 rfl rfl).symm]
  refine Finset.sum_congr rfl fun k _ => ?_
  have hk := contrEquiv1_symm_val dot_S1024x2048_S2048x16_S1024x16_1_0_0_1_n_n 2048 rfl rfl k
  have el : dot_S1024x2048_S2048x16_S1024x16_1_0_0_1_n_n.lhsIdx (ix2 p q) ((contrEquiv1 dot_S1024x2048_S2048x16_S1024x16_1_0_0_1_n_n 2048 rfl rfl).symm k) = ix2 p k :=
    funext fun a => Fin.ext (by
      match a with
      | ⟨0, _⟩ => exact lhsA0_0 _ _
      | ⟨1, _⟩ => exact (dot_S1024x2048_S2048x16_S1024x16_1_0_0_1_n_n.lhsIdx_val_of_single rfl _ _).trans hk)
  have er : dot_S1024x2048_S2048x16_S1024x16_1_0_0_1_n_n.rhsIdx (ix2 p q) ((contrEquiv1 dot_S1024x2048_S2048x16_S1024x16_1_0_0_1_n_n 2048 rfl rfl).symm k) = ix2 k q :=
    funext fun a => Fin.ext (by
      match a with
      | ⟨0, _⟩ => exact (dot_S1024x2048_S2048x16_S1024x16_1_0_0_1_n_n.rhsIdx_val_of_single rfl _ _).trans hk
      | ⟨1, _⟩ => exact rhsA0_1 _ _)
  rw [el, er]

/-- The second layer's aggregation product: an adjacency tile against 2048 rows of width 32. -/
theorem lhsA1_0 (i : S1024x32.Idx) (k : dot_S1024x2048_S2048x32_S1024x32_1_0_0_1_n_n.contr.Idx) :
    (dot_S1024x2048_S2048x32_S1024x32_1_0_0_1_n_n.lhsIdx i k 0).val = (i 0).val := by
  unfold DotDims.lhsIdx
  rw [dif_neg (show ¬(0 : Fin S1024x2048.rank) ∈ dot_S1024x2048_S2048x32_S1024x32_1_0_0_1_n_n.lhsBatch by decide),
    dif_pos (show (0 : Fin S1024x2048.rank) ∈ dot_S1024x2048_S2048x32_S1024x32_1_0_0_1_n_n.lhsNonContracting by decide)]
  rfl
theorem rhsA1_1 (i : S1024x32.Idx) (k : dot_S1024x2048_S2048x32_S1024x32_1_0_0_1_n_n.contr.Idx) :
    (dot_S1024x2048_S2048x32_S1024x32_1_0_0_1_n_n.rhsIdx i k 1).val = (i 1).val := by
  unfold DotDims.rhsIdx
  rw [dif_neg (show ¬(1 : Fin S2048x32.rank) ∈ dot_S1024x2048_S2048x32_S1024x32_1_0_0_1_n_n.rhsBatch by decide),
    dif_pos (show (1 : Fin S2048x32.rank) ∈ dot_S1024x2048_S2048x32_S1024x32_1_0_0_1_n_n.rhsNonContracting by decide)]
  rfl
theorem mmA1_apply (l : FVec Ideal S1024x2048 .bf16) (r : FVec Ideal S2048x32 .bf16) (p : Fin 1024) (q : Fin 32) :
    matmul (F := Ideal) dot_S1024x2048_S2048x32_S1024x32_1_0_0_1_n_n none l r (constant S1024x32 .f32 0x00000000#32) (ix2 p q)
      = ∑ j : Fin 2048, l (ix2 p j) * r (ix2 j q) := by
  refine (Ideal.matmul_constant_zero_apply dot_S1024x2048_S2048x32_S1024x32_1_0_0_1_n_n none l r (ix2 p q)).trans ?_
  rw [← Equiv.sum_comp (contrEquiv1 dot_S1024x2048_S2048x32_S1024x32_1_0_0_1_n_n 2048 rfl rfl).symm]
  refine Finset.sum_congr rfl fun k _ => ?_
  have hk := contrEquiv1_symm_val dot_S1024x2048_S2048x32_S1024x32_1_0_0_1_n_n 2048 rfl rfl k
  have el : dot_S1024x2048_S2048x32_S1024x32_1_0_0_1_n_n.lhsIdx (ix2 p q) ((contrEquiv1 dot_S1024x2048_S2048x32_S1024x32_1_0_0_1_n_n 2048 rfl rfl).symm k) = ix2 p k :=
    funext fun a => Fin.ext (by
      match a with
      | ⟨0, _⟩ => exact lhsA1_0 _ _
      | ⟨1, _⟩ => exact (dot_S1024x2048_S2048x32_S1024x32_1_0_0_1_n_n.lhsIdx_val_of_single rfl _ _).trans hk)
  have er : dot_S1024x2048_S2048x32_S1024x32_1_0_0_1_n_n.rhsIdx (ix2 p q) ((contrEquiv1 dot_S1024x2048_S2048x32_S1024x32_1_0_0_1_n_n 2048 rfl rfl).symm k) = ix2 k q :=
    funext fun a => Fin.ext (by
      match a with
      | ⟨0, _⟩ => exact (dot_S1024x2048_S2048x32_S1024x32_1_0_0_1_n_n.rhsIdx_val_of_single rfl _ _).trans hk
      | ⟨1, _⟩ => exact rhsA1_1 _ _)
  rw [el, er]

/-- The third layer's aggregation product: an adjacency tile against 2048 rows of width 64. -/
theorem lhsA2_0 (i : S1024x64.Idx) (k : dot_S1024x2048_S2048x64_S1024x64_1_0_0_1_n_n.contr.Idx) :
    (dot_S1024x2048_S2048x64_S1024x64_1_0_0_1_n_n.lhsIdx i k 0).val = (i 0).val := by
  unfold DotDims.lhsIdx
  rw [dif_neg (show ¬(0 : Fin S1024x2048.rank) ∈ dot_S1024x2048_S2048x64_S1024x64_1_0_0_1_n_n.lhsBatch by decide),
    dif_pos (show (0 : Fin S1024x2048.rank) ∈ dot_S1024x2048_S2048x64_S1024x64_1_0_0_1_n_n.lhsNonContracting by decide)]
  rfl
theorem rhsA2_1 (i : S1024x64.Idx) (k : dot_S1024x2048_S2048x64_S1024x64_1_0_0_1_n_n.contr.Idx) :
    (dot_S1024x2048_S2048x64_S1024x64_1_0_0_1_n_n.rhsIdx i k 1).val = (i 1).val := by
  unfold DotDims.rhsIdx
  rw [dif_neg (show ¬(1 : Fin S2048x64.rank) ∈ dot_S1024x2048_S2048x64_S1024x64_1_0_0_1_n_n.rhsBatch by decide),
    dif_pos (show (1 : Fin S2048x64.rank) ∈ dot_S1024x2048_S2048x64_S1024x64_1_0_0_1_n_n.rhsNonContracting by decide)]
  rfl
theorem mmA2_apply (l : FVec Ideal S1024x2048 .bf16) (r : FVec Ideal S2048x64 .bf16) (p : Fin 1024) (q : Fin 64) :
    matmul (F := Ideal) dot_S1024x2048_S2048x64_S1024x64_1_0_0_1_n_n none l r (constant S1024x64 .f32 0x00000000#32) (ix2 p q)
      = ∑ j : Fin 2048, l (ix2 p j) * r (ix2 j q) := by
  refine (Ideal.matmul_constant_zero_apply dot_S1024x2048_S2048x64_S1024x64_1_0_0_1_n_n none l r (ix2 p q)).trans ?_
  rw [← Equiv.sum_comp (contrEquiv1 dot_S1024x2048_S2048x64_S1024x64_1_0_0_1_n_n 2048 rfl rfl).symm]
  refine Finset.sum_congr rfl fun k _ => ?_
  have hk := contrEquiv1_symm_val dot_S1024x2048_S2048x64_S1024x64_1_0_0_1_n_n 2048 rfl rfl k
  have el : dot_S1024x2048_S2048x64_S1024x64_1_0_0_1_n_n.lhsIdx (ix2 p q) ((contrEquiv1 dot_S1024x2048_S2048x64_S1024x64_1_0_0_1_n_n 2048 rfl rfl).symm k) = ix2 p k :=
    funext fun a => Fin.ext (by
      match a with
      | ⟨0, _⟩ => exact lhsA2_0 _ _
      | ⟨1, _⟩ => exact (dot_S1024x2048_S2048x64_S1024x64_1_0_0_1_n_n.lhsIdx_val_of_single rfl _ _).trans hk)
  have er : dot_S1024x2048_S2048x64_S1024x64_1_0_0_1_n_n.rhsIdx (ix2 p q) ((contrEquiv1 dot_S1024x2048_S2048x64_S1024x64_1_0_0_1_n_n 2048 rfl rfl).symm k) = ix2 k q :=
    funext fun a => Fin.ext (by
      match a with
      | ⟨0, _⟩ => exact (dot_S1024x2048_S2048x64_S1024x64_1_0_0_1_n_n.rhsIdx_val_of_single rfl _ _).trans hk
      | ⟨1, _⟩ => exact rhsA2_1 _ _)
  rw [el, er]

/-- The head's first product: 1024 rows of width 64 against the 64 by 32 matrix. -/
theorem lhsH0_0 (i : S1024x32.Idx) (k : dot_S1024x64_S64x32_S1024x32_1_0_0_1_n_n.contr.Idx) :
    (dot_S1024x64_S64x32_S1024x32_1_0_0_1_n_n.lhsIdx i k 0).val = (i 0).val := by
  unfold DotDims.lhsIdx
  rw [dif_neg (show ¬(0 : Fin S1024x64.rank) ∈ dot_S1024x64_S64x32_S1024x32_1_0_0_1_n_n.lhsBatch by decide),
    dif_pos (show (0 : Fin S1024x64.rank) ∈ dot_S1024x64_S64x32_S1024x32_1_0_0_1_n_n.lhsNonContracting by decide)]
  rfl
theorem rhsH0_1 (i : S1024x32.Idx) (k : dot_S1024x64_S64x32_S1024x32_1_0_0_1_n_n.contr.Idx) :
    (dot_S1024x64_S64x32_S1024x32_1_0_0_1_n_n.rhsIdx i k 1).val = (i 1).val := by
  unfold DotDims.rhsIdx
  rw [dif_neg (show ¬(1 : Fin S64x32.rank) ∈ dot_S1024x64_S64x32_S1024x32_1_0_0_1_n_n.rhsBatch by decide),
    dif_pos (show (1 : Fin S64x32.rank) ∈ dot_S1024x64_S64x32_S1024x32_1_0_0_1_n_n.rhsNonContracting by decide)]
  rfl
theorem mmH0_apply (l : FVec Ideal S1024x64 .bf16) (r : FVec Ideal S64x32 .bf16) (p : Fin 1024) (q : Fin 32) :
    matmul (F := Ideal) dot_S1024x64_S64x32_S1024x32_1_0_0_1_n_n none l r (constant S1024x32 .f32 0x00000000#32) (ix2 p q)
      = ∑ j : Fin 64, l (ix2 p j) * r (ix2 j q) := by
  refine (Ideal.matmul_constant_zero_apply dot_S1024x64_S64x32_S1024x32_1_0_0_1_n_n none l r (ix2 p q)).trans ?_
  rw [← Equiv.sum_comp (contrEquiv1 dot_S1024x64_S64x32_S1024x32_1_0_0_1_n_n 64 rfl rfl).symm]
  refine Finset.sum_congr rfl fun k _ => ?_
  have hk := contrEquiv1_symm_val dot_S1024x64_S64x32_S1024x32_1_0_0_1_n_n 64 rfl rfl k
  have el : dot_S1024x64_S64x32_S1024x32_1_0_0_1_n_n.lhsIdx (ix2 p q) ((contrEquiv1 dot_S1024x64_S64x32_S1024x32_1_0_0_1_n_n 64 rfl rfl).symm k) = ix2 p k :=
    funext fun a => Fin.ext (by
      match a with
      | ⟨0, _⟩ => exact lhsH0_0 _ _
      | ⟨1, _⟩ => exact (dot_S1024x64_S64x32_S1024x32_1_0_0_1_n_n.lhsIdx_val_of_single rfl _ _).trans hk)
  have er : dot_S1024x64_S64x32_S1024x32_1_0_0_1_n_n.rhsIdx (ix2 p q) ((contrEquiv1 dot_S1024x64_S64x32_S1024x32_1_0_0_1_n_n 64 rfl rfl).symm k) = ix2 k q :=
    funext fun a => Fin.ext (by
      match a with
      | ⟨0, _⟩ => exact (dot_S1024x64_S64x32_S1024x32_1_0_0_1_n_n.rhsIdx_val_of_single rfl _ _).trans hk
      | ⟨1, _⟩ => exact rhsH0_1 _ _)
  rw [el, er]

/-- The head's second product: 1024 rows of width 32 against the 32 by 10 matrix. -/
theorem lhsH1_0 (i : S1024x10.Idx) (k : dot_S1024x32_S32x10_S1024x10_1_0_0_1_n_n.contr.Idx) :
    (dot_S1024x32_S32x10_S1024x10_1_0_0_1_n_n.lhsIdx i k 0).val = (i 0).val := by
  unfold DotDims.lhsIdx
  rw [dif_neg (show ¬(0 : Fin S1024x32.rank) ∈ dot_S1024x32_S32x10_S1024x10_1_0_0_1_n_n.lhsBatch by decide),
    dif_pos (show (0 : Fin S1024x32.rank) ∈ dot_S1024x32_S32x10_S1024x10_1_0_0_1_n_n.lhsNonContracting by decide)]
  rfl
theorem rhsH1_1 (i : S1024x10.Idx) (k : dot_S1024x32_S32x10_S1024x10_1_0_0_1_n_n.contr.Idx) :
    (dot_S1024x32_S32x10_S1024x10_1_0_0_1_n_n.rhsIdx i k 1).val = (i 1).val := by
  unfold DotDims.rhsIdx
  rw [dif_neg (show ¬(1 : Fin S32x10.rank) ∈ dot_S1024x32_S32x10_S1024x10_1_0_0_1_n_n.rhsBatch by decide),
    dif_pos (show (1 : Fin S32x10.rank) ∈ dot_S1024x32_S32x10_S1024x10_1_0_0_1_n_n.rhsNonContracting by decide)]
  rfl
theorem mmH1_apply (l : FVec Ideal S1024x32 .bf16) (r : FVec Ideal S32x10 .bf16) (p : Fin 1024) (q : Fin 10) :
    matmul (F := Ideal) dot_S1024x32_S32x10_S1024x10_1_0_0_1_n_n none l r (constant S1024x10 .f32 0x00000000#32) (ix2 p q)
      = ∑ j : Fin 32, l (ix2 p j) * r (ix2 j q) := by
  refine (Ideal.matmul_constant_zero_apply dot_S1024x32_S32x10_S1024x10_1_0_0_1_n_n none l r (ix2 p q)).trans ?_
  rw [← Equiv.sum_comp (contrEquiv1 dot_S1024x32_S32x10_S1024x10_1_0_0_1_n_n 32 rfl rfl).symm]
  refine Finset.sum_congr rfl fun k _ => ?_
  have hk := contrEquiv1_symm_val dot_S1024x32_S32x10_S1024x10_1_0_0_1_n_n 32 rfl rfl k
  have el : dot_S1024x32_S32x10_S1024x10_1_0_0_1_n_n.lhsIdx (ix2 p q) ((contrEquiv1 dot_S1024x32_S32x10_S1024x10_1_0_0_1_n_n 32 rfl rfl).symm k) = ix2 p k :=
    funext fun a => Fin.ext (by
      match a with
      | ⟨0, _⟩ => exact lhsH1_0 _ _
      | ⟨1, _⟩ => exact (dot_S1024x32_S32x10_S1024x10_1_0_0_1_n_n.lhsIdx_val_of_single rfl _ _).trans hk)
  have er : dot_S1024x32_S32x10_S1024x10_1_0_0_1_n_n.rhsIdx (ix2 p q) ((contrEquiv1 dot_S1024x32_S32x10_S1024x10_1_0_0_1_n_n 32 rfl rfl).symm k) = ix2 k q :=
    funext fun a => Fin.ext (by
      match a with
      | ⟨0, _⟩ => exact (dot_S1024x32_S32x10_S1024x10_1_0_0_1_n_n.rhsIdx_val_of_single rfl _ _).trans hk
      | ⟨1, _⟩ => exact rhsH1_1 _ _)
  rw [el, er]

/-! ## First layer's body -/

/-- The accumulator's initial fill is zero. -/
theorem z0_apply (p : Fin 1024) (q : Fin 16) : (k0_pay1 (F := Ideal)) (ix2 p q) = 0 := by
  unfold k0_pay1
  rw [shapeCast_self]
  exact Ideal.ofBits_zero_f32

/-- The narrow copy of the adjacency tile is the tile: narrowing is the identity on the extended reals. -/
theorem narrow0_apply (a : Vec Ideal S1024x2048 .f32) (i : S1024x2048.Idx) : k0_pay2 (F := Ideal) a i = a i := rfl

/-- One accumulation step: the accumulator plus the tile's product with the matching rows. -/
theorem acc0_apply (a : Vec Ideal S1024x2048 .f32) (h : Vec Ideal S2048x16 .bf16) (s : Vec Ideal S1024x16 .f32)
    (p : Fin 1024) (q : Fin 16) :
    k0_pay3 (F := Ideal) a h s (ix2 p q) = s (ix2 p q) + ∑ j : Fin 2048, a (ix2 p j) * h (ix2 j q) := by
  unfold k0_pay3
  simp only [shapeCast_self]
  exact congrArg (s (ix2 p q) + ·) (mmA0_apply (k0_pay2 (F := Ideal) a) h p q)

/-- The clipping at zero. -/
theorem clip0_apply (v : Vec Ideal S1024x16 .f32) (p : Fin 1024) (q : Fin 16) :
    k0_pay4 (F := Ideal) v (ix2 p q) = max (v (ix2 p q)) 0 := by
  unfold k0_pay4
  exact congrArg (max (v (ix2 p q))) Ideal.ofBits_zero_f32

/-! ## Second layer's body -/

/-- The accumulator's initial fill is zero. -/
theorem z1_apply (p : Fin 1024) (q : Fin 32) : (k1_pay1 (F := Ideal)) (ix2 p q) = 0 := by
  unfold k1_pay1
  rw [shapeCast_self]
  exact Ideal.ofBits_zero_f32

/-- One accumulation step: the accumulator plus the tile's product with the matching rows. -/
theorem acc1_apply (a : Vec Ideal S1024x2048 .bf16) (h : Vec Ideal S2048x32 .bf16) (s : Vec Ideal S1024x32 .f32)
    (p : Fin 1024) (q : Fin 32) :
    k1_pay2 (F := Ideal) a h s (ix2 p q) = s (ix2 p q) + ∑ j : Fin 2048, a (ix2 p j) * h (ix2 j q) := by
  unfold k1_pay2
  simp only [shapeCast_self]
  exact congrArg (s (ix2 p q) + ·) (mmA1_apply a h p q)

/-- The clipping at zero. -/
theorem clip1_apply (v : Vec Ideal S1024x32 .f32) (p : Fin 1024) (q : Fin 32) :
    k1_pay3 (F := Ideal) v (ix2 p q) = max (v (ix2 p q)) 0 := by
  unfold k1_pay3
  exact congrArg (max (v (ix2 p q))) Ideal.ofBits_zero_f32

/-! ## Third layer's body and the head -/

/-- The accumulator's initial fill is zero. -/
theorem z2_apply (p : Fin 1024) (q : Fin 64) : (k2_pay1 (F := Ideal)) (ix2 p q) = 0 := by
  unfold k2_pay1
  rw [shapeCast_self]
  exact Ideal.ofBits_zero_f32

/-- One accumulation step: the accumulator plus the tile's product with the matching rows. -/
theorem acc2_apply (a : Vec Ideal S1024x2048 .bf16) (h : Vec Ideal S2048x64 .bf16) (s : Vec Ideal S1024x64 .f32)
    (p : Fin 1024) (q : Fin 64) :
    k2_pay2 (F := Ideal) a h s (ix2 p q) = s (ix2 p q) + ∑ j : Fin 2048, a (ix2 p j) * h (ix2 j q) := by
  unfold k2_pay2
  simp only [shapeCast_self]
  exact congrArg (s (ix2 p q) + ·) (mmA2_apply a h p q)

/-- The clipped accumulator through the head: `max (max v 0 · Wo0 + bo0) 0 · Wo1 + bo1`, each bias the one row of
    its array. -/
theorem head_apply (v19 : Vec Ideal S1024x64 .f32) (w0 : Vec Ideal S64x32 .f32) (b0 : Vec Ideal S1x32 .f32)
    (w1 : Vec Ideal S32x10 .f32) (b1 : Vec Ideal S1x10 .f32) (p : Fin 1024) (q : Fin 10) :
    k2_pay3 (F := Ideal) v19 w0 b0 w1 b1 (ix2 p q)
      = lin (relu (lin (relu (mat2 v19)) (mat2 w0) (fun r => b0 (ix2 0 r)))) (mat2 w1) (fun r => b1 (ix2 0 r)) p q := by
  unfold k2_pay3
  simp only [shapeCast_self, addf_apply, mmH1_apply, mmH0_apply, truncf_apply, maximumf_apply, broadcast_apply,
    broadcastTo_1b_ab_apply, zero_word]
  rfl

end Cert.Gcn.Pay

end
-- ==== Proof.R0Value.lean ====
/-
  The first aggregation call's values over the extended reals: what its result array and its narrow copy of the
  adjacency matrix hold when the call ends.

  The grid is 8 row tiles by 4 column tiles of the adjacency matrix A, the column tile fastest: point t works on row
  tile t / 4 and column tile t % 4. At every point the body writes the 1024 by 2048 tile of A out again in the narrow
  format, which over the extended reals is the tile itself; so the narrow array ends as A. The accumulator is cleared
  at column tile 0 and gains, at column tile k, the product of the tile with rows k * 2048 … k * 2048 + 2047 of the
  features H: after column tile k its entry (p, q) is zero plus the first k + 1 of the four runs of 2048 consecutive
  terms of the sum ∑ j, A (r * 1024 + p) j * H j q, added one after another. After column tile 3 that is the whole sum
  (addition of extended reals is associative and zero is neutral: no finiteness is needed), and the point stores it
  clipped at zero as row tile r of the result. The eight last-column-tile points cover the result array, and the 32
  points cover the narrow array, so the result array ends as max (A · H) 0 and the narrow array as A.
-/
import proofs.«125076_j18348100288854_2_alg».proof.Proof.R0Frame
import proofs.«125076_j18348100288854_2_alg».proof.Proof.PayIdeal
import proofs.«125076_j18348100288854_2_alg».proof.Proof.Spec
import Idealize.ShloMosaic.Lib.Pipeline.Value
import Idealize.ShloMosaic.Lib.ValueIdx

set_option maxRecDepth 16384

noncomputable section

open scoped BigOperators

namespace Cert.KernelIdeal.Val0

open Cert.KernelIdeal Cert.KernelIdeal.Gen Cert.KernelIdeal.Reg0 Cert.Gcn Cert.Gcn.Pay
open Idealize.ShloMosaic Idealize.ShloMosaic.TcCoe Idealize.ShloMosaic.Tactic Idealize.ShloMosaic.ValueIdx
open Idealize.ShloMosaic.Pipeline (Dat)

section
variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-! ## What each run's stored pieces read back as

Every buffer the body stores into is stored whole, so the pieces read back as the stored payload; a load that
follows a store of the same buffer reads that payload. -/

/-- The 2048 rows of the features that the body multiplies point t's adjacency tile with. -/
abbrev hrows (c : Dev nD) (t : Fin cfg0.N) : Vec F S2048x16 .bf16 :=
  View.ld (iblk V c 1 t) (Rect.unit (s := S8192x16) (k0_off1 (grid0.coords t)) S2048x16.size (k0_off1_inb (grid0.coords t)))

/-- First column tile: the accumulator is the zero fill plus the first product. -/
theorem accA (c : Dev nD) (t : Fin cfg0.N) (h0 : t.val % 4 = 0) (h1 : ¬t.val % 4 = 3) :
    rdS (atA V c t h0 h1).2.1 = k0_pay3 (iblk V c 0 t) (hrows V c t) k0_pay1 := by
  unfold rdS
  rw [View.read_writes_eq_canon _ _ _ (coverA_S V c t h0 h1)]
  unfold atA runA
  dsimp only
  sl_unfold_words
  rw [View.canon_cons_unit_zero (S := S1024x16) hz]
  simp only [View.readAt_eq_ld, (hs0 t).read_unread, (hs1 t).read_unread, View.ld_unit_zero (S := S1024x2048) hz,
    View.readCov_unit_zero (S := S1024x16) _ hz]
  rfl

/-- First column tile: the narrow tile is the narrowed adjacency tile. -/
theorem narA (c : Dev nD) (t : Fin cfg0.N) (h0 : t.val % 4 = 0) (h1 : ¬t.val % 4 = 3) :
    rd3 (atA V c t h0 h1).1 = k0_pay2 (iblk V c 0 t) := by
  unfold rd3
  rw [View.read_writes_eq_canon _ _ _ (coverA_3 V c t h0 h1)]
  unfold atA runA
  dsimp only
  rw [View.canon_unit_zero (S := S1024x2048) hz]
  simp only [View.readAt_eq_ld, (hs0 t).read_unread, View.ld_unit_zero (S := S1024x2048) hz]

/-- A middle column tile: the accumulator found at xs gains one product. -/
theorem accB (c : Dev nD) (t : Fin cfg0.N) (h0 : ¬t.val % 4 = 0) (h1 : ¬t.val % 4 = 3) (xs : Vec F S1024x16 .f32) :
    rdS (atB V c t h0 h1 xs).2.1 = k0_pay3 (iblk V c 0 t) (hrows V c t) xs := by
  unfold rdS
  rw [View.read_writes_eq_canon _ _ _ (coverB_S V c t h0 h1 xs)]
  unfold atB runB
  dsimp only
  sl_unfold_words
  rw [View.canon_unit_zero (S := S1024x16) hz]
  simp only [View.readAt_eq_ld, (hs0 t).read_unread, (hs1 t).read_unread, (Memref.isWhole_whole cc0_scratch0).read_unread,
    View.ld_unit_zero (S := S1024x2048) hz, View.ld_unit_zero (S := S1024x16) hz]
  rfl

theorem narB (c : Dev nD) (t : Fin cfg0.N) (h0 : ¬t.val % 4 = 0) (h1 : ¬t.val % 4 = 3) (xs : Vec F S1024x16 .f32) :
    rd3 (atB V c t h0 h1 xs).1 = k0_pay2 (iblk V c 0 t) := by
  unfold rd3
  rw [View.read_writes_eq_canon _ _ _ (coverB_3 V c t h0 h1 xs)]
  unfold atB runB
  dsimp only
  rw [View.canon_unit_zero (S := S1024x2048) hz]
  simp only [View.readAt_eq_ld, (hs0 t).read_unread, View.ld_unit_zero (S := S1024x2048) hz]

/-- The last column tile: the accumulator found at xs gains the last product, -/
theorem accC (c : Dev nD) (t : Fin cfg0.N) (h0 : ¬t.val % 4 = 0) (h1 : t.val % 4 = 3) (xs : Vec F S1024x16 .f32) :
    rdS (atC V c t h0 h1 xs).2.2.1 = k0_pay3 (iblk V c 0 t) (hrows V c t) xs := by
  unfold rdS
  rw [View.read_writes_eq_canon _ _ _ (coverC_S V c t h0 h1 xs)]
  unfold atC runC
  dsimp only
  sl_unfold_words
  rw [View.canon_unit_zero (S := S1024x16) hz]
  simp only [View.readAt_eq_ld, (hs0 t).read_unread, (hs1 t).read_unread, (Memref.isWhole_whole cc0_scratch0).read_unread,
    View.ld_unit_zero (S := S1024x2048) hz, View.ld_unit_zero (S := S1024x16) hz]
  rfl

theorem narC (c : Dev nD) (t : Fin cfg0.N) (h0 : ¬t.val % 4 = 0) (h1 : t.val % 4 = 3) (xs : Vec F S1024x16 .f32) :
    rd3 (atC V c t h0 h1 xs).2.1 = k0_pay2 (iblk V c 0 t) := by
  unfold rd3
  rw [View.read_writes_eq_canon _ _ _ (coverC_3 V c t h0 h1 xs)]
  unfold atC runC
  dsimp only
  rw [View.canon_unit_zero (S := S1024x2048) hz]
  simp only [View.readAt_eq_ld, (hs0 t).read_unread, View.ld_unit_zero (S := S1024x2048) hz]

/-- and the result tile is that accumulator clipped. -/
theorem outC (c : Dev nD) (t : Fin cfg0.N) (h0 : ¬t.val % 4 = 0) (h1 : t.val % 4 = 3) (xs : Vec F S1024x16 .f32) :
    rd2 (atC V c t h0 h1 xs).1 = k0_pay4 (k0_pay3 (iblk V c 0 t) (hrows V c t) xs) := by
  unfold rd2
  rw [View.read_writes_eq_canon _ _ _ (coverC_2 V c t h0 h1 xs)]
  unfold atC runC
  dsimp only
  sl_unfold_words
  rw [View.canon_unit_zero (S := S1024x16) hz]
  simp only [View.readAt_eq_ld, (hs0 t).read_unread, (hs1 t).read_unread, (Memref.isWhole_whole cc0_scratch0).read_unread,
    View.ld_unit_zero (S := S1024x2048) hz, View.ld_unit_zero (S := S1024x16) hz, View.readCov_unit_zero (S := S1024x16) _ hz]
  rfl

/-! ## Where a tile's entries sit in the arrays

Point t works on row tile t / 4 and column tile t % 4: entry (p, j) of its adjacency tile is entry
(t / 4 * 1024 + p, t % 4 * 2048 + j) of the adjacency matrix, and row j of the 2048 rows of the features it loads is
row t % 4 * 2048 + j of the features. -/

theorem tN (t : Fin cfg0.N) : t.val < 32 := lt_of_lt_of_eq t.isLt N_0

/-- The row of the matrix that row p of point t's tile is. -/
def row (t : Fin cfg0.N) (p : Fin 1024) : Fin 8192 := ⟨t.val / 4 * 1024 + p.val, by have := tN t; have := p.isLt; omega⟩
/-- The column of the matrix that column j of point t's tile is. -/
def col (t : Fin cfg0.N) (j : Fin 2048) : Fin 8192 := ⟨t.val % 4 * 2048 + j.val, by have := j.isLt; omega⟩

theorem idx0 : ∀ t : Fin cfg0.N, win0_0.index t (0 : Fin 2) = t.val / 4 ∧ win0_0.index t (1 : Fin 2) = t.val % 4 :=
  (by decide +kernel : ∀ t : Fin grid0.N, win0_0.index t (0 : Fin 2) = t.val / 4 ∧ win0_0.index t (1 : Fin 2) = t.val % 4)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = t.val / 4 ∧ win0_2.index t (1 : Fin 2) = 0 :=
  (by decide +kernel : ∀ t : Fin grid0.N, win0_2.index t (0 : Fin 2) = t.val / 4 ∧ win0_2.index t (1 : Fin 2) = 0)
theorem idx3 : ∀ t : Fin cfg0.N, win0_3.index t (0 : Fin 2) = t.val / 4 ∧ win0_3.index t (1 : Fin 2) = t.val % 4 :=
  (by decide +kernel : ∀ t : Fin grid0.N, win0_3.index t (0 : Fin 2) = t.val / 4 ∧ win0_3.index t (1 : Fin 2) = t.val % 4)
theorem off1 : ∀ t : Fin cfg0.N, k0_off1 (grid0.coords t) 0 = t.val % 4 * 2048 ∧ k0_off1 (grid0.coords t) 1 = 0 :=
  (by decide +kernel : ∀ t : Fin grid0.N, k0_off1 (grid0.coords t) 0 = t.val % 4 * 2048 ∧ k0_off1 (grid0.coords t) 1 = 0)

theorem iblk0_apply (c : Dev nD) (t : Fin cfg0.N) (p : Fin 1024) (j : Fin 2048) :
    iblk V c 0 t (ix2 p j) = V c (Pipeline.arrRef spec0 0) (ix2 (row t p) (col t j)) := by
  show V c (Pipeline.arrRef spec0 0) (((cfg0.win 0).blk t).view.emb (ix2 p j)) = _
  refine congrArg _ (funext fun a => Fin.ext ?_)
  match a with
  | ⟨0, _⟩ =>
    show win0_0.index t (0 : Fin 2) * 1024 + 1 * p.val = t.val / 4 * 1024 + p.val
    rw [(idx0 t).1]; omega
  | ⟨1, _⟩ =>
    show win0_0.index t (1 : Fin 2) * 2048 + 1 * j.val = t.val % 4 * 2048 + j.val
    rw [(idx0 t).2]; omega

theorem hrows_apply (c : Dev nD) (t : Fin cfg0.N) (j : Fin 2048) (q : Fin 16) :
    hrows V c t (ix2 j q) = V c (Pipeline.arrRef spec0 1) (ix2 (col t j) q) := by
  show V c (Pipeline.arrRef spec0 1) (((cfg0.win 1).blk t).view.emb
    ((Rect.unit (s := S8192x16) (k0_off1 (grid0.coords t)) S2048x16.size (k0_off1_inb (grid0.coords t))).emb (ix2 j q))) = _
  refine congrArg _ (funext fun a => Fin.ext ?_)
  match a with
  | ⟨0, _⟩ =>
    show win0_1.index t (0 : Fin 2) * 8192 + 1 * (k0_off1 (grid0.coords t) 0 + 1 * j.val) = t.val % 4 * 2048 + j.val
    rw [(idx1 t).1, (off1 t).1]; omega
  | ⟨1, _⟩ =>
    show win0_1.index t (1 : Fin 2) * 16 + 1 * (k0_off1 (grid0.coords t) 1 + 1 * q.val) = q.val
    rw [(idx1 t).2, (off1 t).2]; omega

/-! ## The buffers after a point, case by case -/

/-- The accumulator the point before point n + 1 left is the accumulator after point n. -/
theorem prevS_succ (c : Dev nD) (n : ℕ) (hn : n + 1 < cfg0.N) :
    prevS V c ⟨n + 1, hn⟩ = (outsAt V c n (Nat.lt_of_succ_lt hn)).2.2 := rfl

theorem accAt_A (c : Dev nD) (t : Fin cfg0.N) (h0 : t.val % 4 = 0) (h1 : ¬t.val % 4 = 3) :
    (outsAt V c t.val t.isLt).2.2 = k0_pay3 (iblk V c 0 t) (hrows V c t) k0_pay1 := by
  rw [outsAt_A V c t h0 h1]; dsimp only; exact accA V c t h0 h1
theorem accAt_B (c : Dev nD) (t : Fin cfg0.N) (h0 : ¬t.val % 4 = 0) (h1 : ¬t.val % 4 = 3) :
    (outsAt V c t.val t.isLt).2.2 = k0_pay3 (iblk V c 0 t) (hrows V c t) (prevS V c t) := by
  rw [outsAt_B V c t h0 h1]; dsimp only; exact accB V c t h0 h1 (prevS V c t)
theorem accAt_C (c : Dev nD) (t : Fin cfg0.N) (h0 : ¬t.val % 4 = 0) (h1 : t.val % 4 = 3) :
    (outsAt V c t.val t.isLt).2.2 = k0_pay3 (iblk V c 0 t) (hrows V c t) (prevS V c t) := by
  rw [outsAt_C V c t h0 h1]; dsimp only; exact accC V c t h0 h1 (prevS V c t)
/-- At a last column tile the result tile is the accumulator the point leaves, clipped. -/
theorem resAt_C (c : Dev nD) (t : Fin cfg0.N) (h0 : ¬t.val % 4 = 0) (h1 : t.val % 4 = 3) :
    (outsAt V c t.val t.isLt).1 = k0_pay4 ((outsAt V c t.val t.isLt).2.2) := by
  rw [accAt_C V c t h0 h1, outsAt_C V c t h0 h1]; dsimp only; exact outC V c t h0 h1 (prevS V c t)
/-- At every point the narrow tile is the narrowed adjacency tile. -/
theorem narAt (c : Dev nD) (t : Fin cfg0.N) : (outsAt V c t.val t.isLt).2.1 = k0_pay2 (iblk V c 0 t) := by
  by_cases h0 : t.val % 4 = 0
  · have h1 : ¬t.val % 4 = 3 := by omega
    rw [outsAt_A V c t h0 h1]; dsimp only; exact narA V c t h0 h1
  · by_cases h1 : t.val % 4 = 3
    · rw [outsAt_C V c t h0 h1]; dsimp only; exact narC V c t h0 h1 (prevS V c t)
    · rw [outsAt_B V c t h0 h1]; dsimp only; exact narB V c t h0 h1 (prevS V c t)

end

/-! ## The accumulator, point by point, over the extended reals -/

section
variable (V : (c : Dev nD) → (b : Ref sig .tc) → Buf (Elt Ideal) ((c : Thread nD τ).loc b)) (c : Dev nD)

/-- The adjacency matrix and the features as the call finds them. -/
abbrev Amat : Mat 8192 8192 := mat2 (V c (Pipeline.arrRef spec0 0))
abbrev Hmat : Mat 8192 16 := mat2 (V c (Pipeline.arrRef spec0 1))

/-- The j-th term of the sum that is entry (i, q) of the product A · H (zero past the last term). -/
def term (A : Mat 8192 8192) (H : Mat 8192 16) (i : Fin 8192) (q : Fin 16) (j : ℕ) : EReal :=
  if h : j < 8192 then A i ⟨j, h⟩ * H ⟨j, h⟩ q else 0

/-- The m-th of the four runs of 2048 consecutive terms. -/
def bsum (A : Mat 8192 8192) (H : Mat 8192 16) (i : Fin 8192) (q : Fin 16) (m : ℕ) : EReal :=
  ∑ j : Fin 2048, term A H i q (m * 2048 + j.val)

/-- Zero, then the terms g 0, …, g k added one after another. -/
def chain (g : ℕ → EReal) : ℕ → EReal
  | 0 => 0 + g 0
  | k + 1 => chain g k + g (k + 1)

/-- Four consecutive runs of 2048 terms, added one after another onto zero, are the sum of all 8192 terms: addition
    of extended reals is associative and zero is neutral. -/
theorem four_runs (g : ℕ → EReal) :
    (((0 + ∑ j : Fin 2048, g (0 * 2048 + j.val)) + ∑ j : Fin 2048, g (1 * 2048 + j.val))
        + ∑ j : Fin 2048, g (2 * 2048 + j.val)) + ∑ j : Fin 2048, g (3 * 2048 + j.val)
      = ∑ j : Fin 8192, g j.val := by
  rw [Fin.sum_univ_eq_sum_range (fun k => g (0 * 2048 + k)) 2048, Fin.sum_univ_eq_sum_range (fun k => g (1 * 2048 + k)) 2048,
    Fin.sum_univ_eq_sum_range (fun k => g (2 * 2048 + k)) 2048, Fin.sum_univ_eq_sum_range (fun k => g (3 * 2048 + k)) 2048,
    Fin.sum_univ_eq_sum_range g 8192,
    show (8192 : ℕ) = 2048 + 2048 + 2048 + 2048 from rfl, Finset.sum_range_add, Finset.sum_range_add, Finset.sum_range_add,
    zero_add]
  simp only [zero_mul, one_mul, zero_add, show (2 : ℕ) * 2048 = 2048 + 2048 from rfl,
    show (3 : ℕ) * 2048 = 2048 + 2048 + 2048 from rfl]

/-- The four runs added one after another onto zero are the whole entry of the product. -/
theorem chain3 (A : Mat 8192 8192) (H : Mat 8192 16) (i : Fin 8192) (q : Fin 16) :
    chain (bsum A H i q) 3 = agg A H i q := by
  refine (four_runs (term A H i q)).trans ?_
  refine Finset.sum_congr rfl fun j _ => ?_
  exact dif_pos j.isLt

/-- One accumulation step at an entry: the accumulator plus the point's run of 2048 terms. -/
theorem step_apply (t : Fin cfg0.N) (s : Vec Ideal S1024x16 .f32) (p : Fin 1024) (q : Fin 16) :
    k0_pay3 (F := Ideal) (iblk V c 0 t) (hrows V c t) s (ix2 p q)
      = s (ix2 p q) + bsum (Amat V c) (Hmat V c) (row t p) q (t.val % 4) := by
  refine (acc0_apply (iblk V c 0 t) (hrows V c t) s p q).trans ?_
  refine congrArg (s (ix2 p q) + ·) (Finset.sum_congr rfl fun j _ => ?_)
  rw [iblk0_apply, hrows_apply]
  unfold term
  rw [dif_pos (show t.val % 4 * 2048 + j.val < 8192 from (col t j).isLt)]
  rfl

/-- After point n the accumulator holds, at entry (p, q), zero plus the first n % 4 + 1 runs of the row's sum. -/
theorem acc_eq : ∀ (n : ℕ) (hn : n < cfg0.N) (p : Fin 1024) (q : Fin 16),
    (outsAt V c n hn).2.2 (ix2 p q) = chain (bsum (Amat V c) (Hmat V c) (row ⟨n, hn⟩ p) q) (n % 4)
  | 0, hn, p, q => by
    refine (congrFun (accAt_A V c ⟨0, hn⟩ (Nat.zero_mod 4) (by show ¬(0 % 4 = 3); decide)) (ix2 p q)).trans ?_
    rw [step_apply, z0_apply]
    rfl
  | n + 1, hn, p, q => by
    by_cases h0 : (n + 1) % 4 = 0
    · have h1 : ¬(n + 1) % 4 = 3 := by omega
      refine (congrFun (accAt_A V c ⟨n + 1, hn⟩ h0 h1) (ix2 p q)).trans ?_
      rw [step_apply, z0_apply]
      show 0 + bsum (Amat V c) (Hmat V c) (row ⟨n + 1, hn⟩ p) q ((n + 1) % 4) = chain (bsum (Amat V c) (Hmat V c) (row ⟨n + 1, hn⟩ p) q) ((n + 1) % 4)
      rw [h0]
      rfl
    · have hr : row ⟨n, Nat.lt_of_succ_lt hn⟩ p = row ⟨n + 1, hn⟩ p :=
        Fin.ext (by show n / 4 * 1024 + p.val = (n + 1) / 4 * 1024 + p.val; omega)
      have hm : (n + 1) % 4 = n % 4 + 1 := by omega
      by_cases h1 : (n + 1) % 4 = 3
      · refine (congrFun (accAt_C V c ⟨n + 1, hn⟩ h0 h1) (ix2 p q)).trans ?_
        rw [step_apply, prevS_succ, acc_eq n (Nat.lt_of_succ_lt hn) p q, hr]
        show chain (bsum (Amat V c) (Hmat V c) (row ⟨n + 1, hn⟩ p) q) (n % 4) + bsum (Amat V c) (Hmat V c) (row ⟨n + 1, hn⟩ p) q ((n + 1) % 4)
          = chain (bsum (Amat V c) (Hmat V c) (row ⟨n + 1, hn⟩ p) q) ((n + 1) % 4)
        rw [hm]
        rfl
      · refine (congrFun (accAt_B V c ⟨n + 1, hn⟩ h0 h1) (ix2 p q)).trans ?_
        rw [step_apply, prevS_succ, acc_eq n (Nat.lt_of_succ_lt hn) p q, hr]
        show chain (bsum (Amat V c) (Hmat V c) (row ⟨n + 1, hn⟩ p) q) (n % 4) + bsum (Amat V c) (Hmat V c) (row ⟨n + 1, hn⟩ p) q ((n + 1) % 4)
          = chain (bsum (Amat V c) (Hmat V c) (row ⟨n + 1, hn⟩ p) q) ((n + 1) % 4)
        rw [hm]
        rfl

end

/-! ## From the tiles to the arrays -/

section
variable (V : (c : Dev nD) → (b : Ref sig .tc) → Buf (Elt Ideal) ((c : Thread nD τ).loc b)) (c : Dev nD)

/-- What the result array ends as: the product of the adjacency matrix with the features, clipped at zero. -/
abbrev G2 : Buf (Elt Ideal) ((cfg0.win 2).arr.view.loc (c.tc : Thread nD τ)) :=
  unmat2 (relu (agg (Amat V c) (Hmat V c)))
/-- What the narrow array ends as: the adjacency matrix. -/
abbrev G3 : Buf (Elt Ideal) ((cfg0.win 3).arr.view.loc (c.tc : Thread nD τ)) :=
  fun i => V c (Pipeline.arrRef spec0 0) i

/-- Entry (p, q) of point t's result tile is entry (t / 4 * 1024 + p, q) of the result array. -/
theorem emb2 (t : Fin cfg0.N) (p : Fin 1024) (q : Fin 16) :
    (((cfg0.win 2).blk t).view.emb (ix2 p q) : S8192x16.Idx) = ix2 (row t p) q :=
  funext fun a => Fin.ext (by
    match a with
    | ⟨0, _⟩ =>
      show win0_2.index t (0 : Fin 2) * 1024 + 1 * p.val = t.val / 4 * 1024 + p.val
      rw [(idx2 t).1]; omega
    | ⟨1, _⟩ =>
      show win0_2.index t (1 : Fin 2) * 16 + 1 * q.val = q.val
      rw [(idx2 t).2]; omega)

/-- Entry (p, j) of point t's narrow tile is entry (t / 4 * 1024 + p, t % 4 * 2048 + j) of the narrow array. -/
theorem emb3 (t : Fin cfg0.N) (p : Fin 1024) (j : Fin 2048) :
    (((cfg0.win 3).blk t).view.emb (ix2 p j) : S8192x8192.Idx) = ix2 (row t p) (col t j) :=
  funext fun a => Fin.ext (by
    match a with
    | ⟨0, _⟩ =>
      show win0_3.index t (0 : Fin 2) * 1024 + 1 * p.val = t.val / 4 * 1024 + p.val
      rw [(idx3 t).1]; omega
    | ⟨1, _⟩ =>
      show win0_3.index t (1 : Fin 2) * 2048 + 1 * j.val = t.val % 4 * 2048 + j.val
      rw [(idx3 t).2]; omega)

/-- What a last column tile's point writes back is its tile of the clipped product. -/
theorem flushed2_eq (t : Fin cfg0.N) (hf : (cfg0.win 2).flush t = true) :
    (dat V c).flushed 2 t = ((cfg0.win 2).blk t).view.read (Elt Ideal) (G2 V c) := by
  have h1 : t.val % 4 = 3 := (flush0_2 t).mp hf
  have h0 : ¬t.val % 4 = 0 := by omega
  show (cfg0.win 2).cut (grid0.coords t) ((dat V c).after 2 t) = _
  rw [after_2, resAt_C V c t h0 h1]
  funext y
  obtain ⟨p, q, rfl⟩ : ∃ (p : Fin 1024) (q : Fin 16), y = ix2 p q := ⟨y 0, y 1, eq_ix2 (n0 := 1024) (n1 := 16) y⟩
  show k0_pay4 (F := Ideal) ((outsAt V c t.val t.isLt).2.2) (ix2 p q) = G2 V c (((cfg0.win 2).blk t).view.emb (ix2 p q))
  rw [clip0_apply, acc_eq V c t.val t.isLt p q, h1, chain3, emb2]
  rfl

/-- What every point writes back to the narrow array is its tile of the adjacency matrix. -/
theorem flushed3_eq (t : Fin cfg0.N) (hf : (cfg0.win 3).flush t = true) :
    (dat V c).flushed 3 t = ((cfg0.win 3).blk t).view.read (Elt Ideal) (G3 V c) := by
  show (cfg0.win 3).cut (grid0.coords t) ((dat V c).after 3 t) = _
  rw [after_3, narAt V c t]
  funext y
  obtain ⟨p, j, rfl⟩ : ∃ (p : Fin 1024) (j : Fin 2048), y = ix2 p j := ⟨y 0, y 1, eq_ix2 (n0 := 1024) (n1 := 2048) y⟩
  show k0_pay2 (F := Ideal) (iblk V c 0 t) (ix2 p j) = G3 V c (((cfg0.win 3).blk t).view.emb (ix2 p j))
  rw [narrow0_apply, iblk0_apply, emb3]

/-- An entry of the result array is in point t's tile iff each coordinate is in the tile's range. -/
theorem mem_blk2 (t : Fin cfg0.N) (i : S8192x16.Idx) :
    i ∈ ((cfg0.win 2).blk t).view.set ↔ ∀ a : Fin 2, win0_2.index t a * S1024x16.size a ≤ (i a).val
      ∧ (i a).val < win0_2.index t a * S1024x16.size a + S1024x16.size a := by
  show i ∈ ((View.whole main_v5_0).slice (win0_2.rect t)).set ↔ _
  rw [View.set_slice_whole, Rect.mem_set_unit]
  exact Iff.rfl

theorem mem_blk3 (t : Fin cfg0.N) (i : S8192x8192.Idx) :
    i ∈ ((cfg0.win 3).blk t).view.set ↔ ∀ a : Fin 2, win0_3.index t a * S1024x2048.size a ≤ (i a).val
      ∧ (i a).val < win0_3.index t a * S1024x2048.size a + S1024x2048.size a := by
  show i ∈ ((View.whole main_v5_1).slice (win0_3.rect t)).set ↔ _
  rw [View.set_slice_whole, Rect.mem_set_unit]
  exact Iff.rfl

/-- Row r of the result array is written back by the last column tile's point of row tile r / 1024. -/
theorem cover2 (i : S8192x16.Idx) : ∃ t : Fin cfg0.N, (cfg0.win 2).flush t = true ∧ i ∈ ((cfg0.win 2).blk t).view.set := by
  have hi0 : (i 0).val < 8192 := (i 0).isLt
  have hi1 : (i 1).val < 16 := (i 1).isLt
  have hlt : 4 * ((i 0).val / 1024) + 3 < cfg0.N := by rw [show cfg0.N = 32 from N_0]; omega
  obtain ⟨e0, e1⟩ := idx2 ⟨4 * ((i 0).val / 1024) + 3, hlt⟩
  have e0' : win0_2.index ⟨4 * ((i 0).val / 1024) + 3, hlt⟩ (0 : Fin 2) = (4 * ((i 0).val / 1024) + 3) / 4 := e0
  refine ⟨⟨4 * ((i 0).val / 1024) + 3, hlt⟩, (flush0_2 _).mpr (by show (4 * ((i 0).val / 1024) + 3) % 4 = 3; omega), ?_⟩
  rw [mem_blk2]
  intro a
  match a with
  | ⟨0, _⟩ =>
    show win0_2.index ⟨4 * ((i 0).val / 1024) + 3, hlt⟩ (0 : Fin 2) * 1024 ≤ (i 0).val
      ∧ (i 0).val < win0_2.index ⟨4 * ((i 0).val / 1024) + 3, hlt⟩ (0 : Fin 2) * 1024 + 1024
    rw [e0']; omega
  | ⟨1, _⟩ =>
    show win0_2.index ⟨4 * ((i 0).val / 1024) + 3, hlt⟩ (1 : Fin 2) * 16 ≤ (i 1).val
      ∧ (i 1).val < win0_2.index ⟨4 * ((i 0).val / 1024) + 3, hlt⟩ (1 : Fin 2) * 16 + 16
    rw [e1]; omega

/-- Entry (r, s) of the narrow array is written back by the point of row tile r / 1024 and column tile s / 2048. -/
theorem cover3 (i : S8192x8192.Idx) : ∃ t : Fin cfg0.N, (cfg0.win 3).flush t = true ∧ i ∈ ((cfg0.win 3).blk t).view.set := by
  have hi0 : (i 0).val < 8192 := (i 0).isLt
  have hi1 : (i 1).val < 8192 := (i 1).isLt
  have hlt : 4 * ((i 0).val / 1024) + (i 1).val / 2048 < cfg0.N := by rw [show cfg0.N = 32 from N_0]; omega
  obtain ⟨e0, e1⟩ := idx3 ⟨4 * ((i 0).val / 1024) + (i 1).val / 2048, hlt⟩
  have e0' : win0_3.index ⟨4 * ((i 0).val / 1024) + (i 1).val / 2048, hlt⟩ (0 : Fin 2)
      = (4 * ((i 0).val / 1024) + (i 1).val / 2048) / 4 := e0
  have e1' : win0_3.index ⟨4 * ((i 0).val / 1024) + (i 1).val / 2048, hlt⟩ (1 : Fin 2)
      = (4 * ((i 0).val / 1024) + (i 1).val / 2048) % 4 := e1
  refine ⟨⟨4 * ((i 0).val / 1024) + (i 1).val / 2048, hlt⟩, flush0_3 _, ?_⟩
  rw [mem_blk3]
  intro a
  match a with
  | ⟨0, _⟩ =>
    show win0_3.index ⟨4 * ((i 0).val / 1024) + (i 1).val / 2048, hlt⟩ (0 : Fin 2) * 1024 ≤ (i 0).val
      ∧ (i 0).val < win0_3.index ⟨4 * ((i 0).val / 1024) + (i 1).val / 2048, hlt⟩ (0 : Fin 2) * 1024 + 1024
    rw [e0']; omega
  | ⟨1, _⟩ =>
    show win0_3.index ⟨4 * ((i 0).val / 1024) + (i 1).val / 2048, hlt⟩ (1 : Fin 2) * 2048 ≤ (i 1).val
      ∧ (i 1).val < win0_3.index ⟨4 * ((i 0).val / 1024) + (i 1).val / 2048, hlt⟩ (1 : Fin 2) * 2048 + 2048
    rw [e1']; omega

/-- The result array ends as the product of the adjacency matrix with the features, clipped at zero. -/
theorem final2 : (dat (F := Ideal) V c).arrAt 2 cfg0.N
    = unmat2 (relu (agg (mat2 (V c (Pipeline.arrRef spec0 0))) (mat2 (V c (Pipeline.arrRef spec0 1))))) :=
  (dat V c).arrAt_eq_of_cover 2 (G2 V c) (fun t hf => flushed2_eq V c t hf) (cover2)

/-- The narrow array ends as the adjacency matrix. -/
theorem final3 : ∀ i, (dat (F := Ideal) V c).arrAt 3 cfg0.N i = V c (Pipeline.arrRef spec0 0) i :=
  fun i => congrFun ((dat V c).arrAt_eq_of_cover 3 (G3 V c) (fun t hf => flushed3_eq V c t hf) (cover3)) i

end

end Cert.KernelIdeal.Val0

end
-- ==== Proof.R1Value.lean ====
/-
  The second aggregation call's values over the extended reals: what its result array holds when the call ends.

  The grid is 8 row tiles by 4 column tiles of the adjacency matrix A (here already in the narrow format), the column
  tile fastest: point t works on row tile t / 4 and column tile t % 4. The accumulator is cleared at column tile 0 and
  gains, at column tile k, the product of the 1024 by 2048 tile of A with rows k * 2048 … k * 2048 + 2047 of the
  features H: after column tile k its entry (p, q) is zero plus the first k + 1 of the four runs of 2048 consecutive
  terms of the sum ∑ j, A (r * 1024 + p) j * H j q, added one after another. After column tile 3 that is the whole sum
  (addition of extended reals is associative and zero is neutral: no finiteness is needed), and the point stores it
  clipped at zero as row tile r of the result. The eight last-column-tile points cover the result array, so it ends as
  max (A · H) 0.
-/
import proofs.«125076_j18348100288854_2_alg».proof.Proof.R1Frame
import proofs.«125076_j18348100288854_2_alg».proof.Proof.PayIdeal
import proofs.«125076_j18348100288854_2_alg».proof.Proof.Spec
import proofs.«125076_j18348100288854_2_alg».proof.Proof.R0Value
import Idealize.ShloMosaic.Lib.Pipeline.Value
import Idealize.ShloMosaic.Lib.ValueIdx

set_option maxRecDepth 16384

noncomputable section

open scoped BigOperators

namespace Cert.KernelIdeal.Val1

open Cert.KernelIdeal Cert.KernelIdeal.Gen Cert.KernelIdeal.Reg1 Cert.Gcn Cert.Gcn.Pay
open Idealize.ShloMosaic Idealize.ShloMosaic.TcCoe Idealize.ShloMosaic.Tactic Idealize.ShloMosaic.ValueIdx
open Idealize.ShloMosaic.Pipeline (Dat)

section
variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-! ## What each run's stored pieces read back as

Every buffer the body stores into is stored whole, so the pieces read back as the stored payload; a load that
follows a store of the same buffer reads that payload. -/

/-- The 2048 rows of the features that the body multiplies point t's adjacency tile with. -/
abbrev hrows (c : Dev nD) (t : Fin cfg1.N) : Vec F S2048x32 .bf16 :=
  View.ld (iblk V c 1 t) (Rect.unit (s := S8192x32) (k1_off1 (grid1.coords t)) S2048x32.size (k1_off1_inb (grid1.coords t)))

/-- First column tile: the accumulator is the zero fill plus the first product. -/
theorem accA (c : Dev nD) (t : Fin cfg1.N) (h0 : t.val % 4 = 0) (h1 : ¬t.val % 4 = 3) :
    rdS (atA V c t h0 h1).1 = k1_pay2 (iblk V c 0 t) (hrows V c t) k1_pay1 := by
  unfold rdS
  rw [View.read_writes_eq_canon _ _ _ (coverA_S V c t h0 h1)]
  unfold atA runA
  dsimp only
  sl_unfold_words
  rw [View.canon_cons_unit_zero (S := S1024x32) hz]
  simp only [View.readAt_eq_ld, (hs0 t).read_unread, (hs1 t).read_unread, View.ld_unit_zero (S := S1024x2048) hz,
    View.readCov_unit_zero (S := S1024x32) _ hz]
  rfl

/-- A middle column tile: the accumulator found at xs gains one product. -/
theorem accB (c : Dev nD) (t : Fin cfg1.N) (h0 : ¬t.val % 4 = 0) (h1 : ¬t.val % 4 = 3) (xs : Vec F S1024x32 .f32) :
    rdS (atB V c t h0 h1 xs).1 = k1_pay2 (iblk V c 0 t) (hrows V c t) xs := by
  unfold rdS
  rw [View.read_writes_eq_canon _ _ _ (coverB_S V c t h0 h1 xs)]
  unfold atB runB
  dsimp only
  sl_unfold_words
  rw [View.canon_unit_zero (S := S1024x32) hz]
  simp only [View.readAt_eq_ld, (hs0 t).read_unread, (hs1 t).read_unread, (Memref.isWhole_whole cc1_scratch0).read_unread,
    View.ld_unit_zero (S := S1024x2048) hz, View.ld_unit_zero (S := S1024x32) hz]
  rfl

/-- The last column tile: the accumulator found at xs gains the last product, -/
theorem accC (c : Dev nD) (t : Fin cfg1.N) (h0 : ¬t.val % 4 = 0) (h1 : t.val % 4 = 3) (xs : Vec F S1024x32 .f32) :
    rdS (atC V c t h0 h1 xs).2.1 = k1_pay2 (iblk V c 0 t) (hrows V c t) xs := by
  unfold rdS
  rw [View.read_writes_eq_canon _ _ _ (coverC_S V c t h0 h1 xs)]
  unfold atC runC
  dsimp only
  sl_unfold_words
  rw [View.canon_unit_zero (S := S1024x32) hz]
  simp only [View.readAt_eq_ld, (hs0 t).read_unread, (hs1 t).read_unread, (Memref.isWhole_whole cc1_scratch0).read_unread,
    View.ld_unit_zero (S := S1024x2048) hz, View.ld_unit_zero (S := S1024x32) hz]
  rfl

/-- and the result tile is that accumulator clipped. -/
theorem outC (c : Dev nD) (t : Fin cfg1.N) (h0 : ¬t.val % 4 = 0) (h1 : t.val % 4 = 3) (xs : Vec F S1024x32 .f32) :
    rdO (atC V c t h0 h1 xs).1 = k1_pay3 (k1_pay2 (iblk V c 0 t) (hrows V c t) xs) := by
  unfold rdO
  rw [View.read_writes_eq_canon _ _ _ (coverC_O V c t h0 h1 xs)]
  unfold atC runC
  dsimp only
  sl_unfold_words
  rw [View.canon_unit_zero (S := S1024x32) hz]
  simp only [View.readAt_eq_ld, (hs0 t).read_unread, (hs1 t).read_unread, (Memref.isWhole_whole cc1_scratch0).read_unread,
    View.ld_unit_zero (S := S1024x2048) hz, View.ld_unit_zero (S := S1024x32) hz, View.readCov_unit_zero (S := S1024x32) _ hz]
  rfl

/-! ## Where a tile's entries sit in the arrays

Point t works on row tile t / 4 and column tile t % 4: entry (p, j) of its adjacency tile is entry
(t / 4 * 1024 + p, t % 4 * 2048 + j) of the adjacency matrix, and row j of the 2048 rows of the features it loads is
row t % 4 * 2048 + j of the features. -/

theorem tN (t : Fin cfg1.N) : t.val < 32 := lt_of_lt_of_eq t.isLt N_1

/-- The row of the matrix that row p of point t's tile is. -/
def row (t : Fin cfg1.N) (p : Fin 1024) : Fin 8192 := ⟨t.val / 4 * 1024 + p.val, by have := tN t; have := p.isLt; omega⟩
/-- The column of the matrix that column j of point t's tile is. -/
def col (t : Fin cfg1.N) (j : Fin 2048) : Fin 8192 := ⟨t.val % 4 * 2048 + j.val, by have := j.isLt; omega⟩

theorem idx0 : ∀ t : Fin cfg1.N, win1_0.index t (0 : Fin 2) = t.val / 4 ∧ win1_0.index t (1 : Fin 2) = t.val % 4 :=
  (by decide +kernel : ∀ t : Fin grid1.N, win1_0.index t (0 : Fin 2) = t.val / 4 ∧ win1_0.index t (1 : Fin 2) = t.val % 4)
theorem idx1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)
theorem idx2 : ∀ t : Fin cfg1.N, win1_2.index t (0 : Fin 2) = t.val / 4 ∧ win1_2.index t (1 : Fin 2) = 0 :=
  (by decide +kernel : ∀ t : Fin grid1.N, win1_2.index t (0 : Fin 2) = t.val / 4 ∧ win1_2.index t (1 : Fin 2) = 0)
theorem off1 : ∀ t : Fin cfg1.N, k1_off1 (grid1.coords t) 0 = t.val % 4 * 2048 ∧ k1_off1 (grid1.coords t) 1 = 0 :=
  (by decide +kernel : ∀ t : Fin grid1.N, k1_off1 (grid1.coords t) 0 = t.val % 4 * 2048 ∧ k1_off1 (grid1.coords t) 1 = 0)

theorem iblk0_apply (c : Dev nD) (t : Fin cfg1.N) (p : Fin 1024) (j : Fin 2048) :
    iblk V c 0 t (ix2 p j) = V c (Pipeline.arrRef spec1 0) (ix2 (row t p) (col t j)) := by
  show V c (Pipeline.arrRef spec1 0) (((cfg1.win 0).blk t).view.emb (ix2 p j)) = _
  refine congrArg _ (funext fun a => Fin.ext ?_)
  match a with
  | ⟨0, _⟩ =>
    show win1_0.index t (0 : Fin 2) * 1024 + 1 * p.val = t.val / 4 * 1024 + p.val
    rw [(idx0 t).1]; omega
  | ⟨1, _⟩ =>
    show win1_0.index t (1 : Fin 2) * 2048 + 1 * j.val = t.val % 4 * 2048 + j.val
    rw [(idx0 t).2]; omega

theorem hrows_apply (c : Dev nD) (t : Fin cfg1.N) (j : Fin 2048) (q : Fin 32) :
    hrows V c t (ix2 j q) = V c (Pipeline.arrRef spec1 1) (ix2 (col t j) q) := by
  show V c (Pipeline.arrRef spec1 1) (((cfg1.win 1).blk t).view.emb
    ((Rect.unit (s := S8192x32) (k1_off1 (grid1.coords t)) S2048x32.size (k1_off1_inb (grid1.coords t))).emb (ix2 j q))) = _
  refine congrArg _ (funext fun a => Fin.ext ?_)
  match a with
  | ⟨0, _⟩ =>
    show win1_1.index t (0 : Fin 2) * 8192 + 1 * (k1_off1 (grid1.coords t) 0 + 1 * j.val) = t.val % 4 * 2048 + j.val
    rw [(idx1 t).1, (off1 t).1]; omega
  | ⟨1, _⟩ =>
    show win1_1.index t (1 : Fin 2) * 32 + 1 * (k1_off1 (grid1.coords t) 1 + 1 * q.val) = q.val
    rw [(idx1 t).2, (off1 t).2]; omega

/-! ## The buffers after a point, case by case -/

/-- The accumulator the point before point n + 1 left is the accumulator after point n. -/
theorem prevS_succ (c : Dev nD) (n : ℕ) (hn : n + 1 < cfg1.N) :
    prevS V c ⟨n + 1, hn⟩ = (outsAt V c n (Nat.lt_of_succ_lt hn)).2 := rfl

theorem accAt_A (c : Dev nD) (t : Fin cfg1.N) (h0 : t.val % 4 = 0) (h1 : ¬t.val % 4 = 3) :
    (outsAt V c t.val t.isLt).2 = k1_pay2 (iblk V c 0 t) (hrows V c t) k1_pay1 := by
  rw [outsAt_A V c t h0 h1]; dsimp only; exact accA V c t h0 h1
theorem accAt_B (c : Dev nD) (t : Fin cfg1.N) (h0 : ¬t.val % 4 = 0) (h1 : ¬t.val % 4 = 3) :
    (outsAt V c t.val t.isLt).2 = k1_pay2 (iblk V c 0 t) (hrows V c t) (prevS V c t) := by
  rw [outsAt_B V c t h0 h1]; dsimp only; exact accB V c t h0 h1 (prevS V c t)
theorem accAt_C (c : Dev nD) (t : Fin cfg1.N) (h0 : ¬t.val % 4 = 0) (h1 : t.val % 4 = 3) :
    (outsAt V c t.val t.isLt).2 = k1_pay2 (iblk V c 0 t) (hrows V c t) (prevS V c t) := by
  rw [outsAt_C V c t h0 h1]; dsimp only; exact accC V c t h0 h1 (prevS V c t)
/-- At a last column tile the result tile is the accumulator the point leaves, clipped. -/
theorem resAt_C (c : Dev nD) (t : Fin cfg1.N) (h0 : ¬t.val % 4 = 0) (h1 : t.val % 4 = 3) :
    (outsAt V c t.val t.isLt).1 = k1_pay3 ((outsAt V c t.val t.isLt).2) := by
  rw [accAt_C V c t h0 h1, outsAt_C V c t h0 h1]; dsimp only; exact outC V c t h0 h1 (prevS V c t)

end

/-! ## The accumulator, point by point, over the extended reals -/

section
variable (V : (c : Dev nD) → (b : Ref sig .tc) → Buf (Elt Ideal) ((c : Thread nD τ).loc b)) (c : Dev nD)

/-- The adjacency matrix and the features as the call finds them. -/
abbrev Amat : Mat 8192 8192 := mat2 (V c (Pipeline.arrRef spec1 0))
abbrev Hmat : Mat 8192 32 := mat2 (V c (Pipeline.arrRef spec1 1))

/-- The j-th term of the sum that is entry (i, q) of the product A · H (zero past the last term). -/
def term (A : Mat 8192 8192) (H : Mat 8192 32) (i : Fin 8192) (q : Fin 32) (j : ℕ) : EReal :=
  if h : j < 8192 then A i ⟨j, h⟩ * H ⟨j, h⟩ q else 0

/-- The m-th of the four runs of 2048 consecutive terms. -/
def bsum (A : Mat 8192 8192) (H : Mat 8192 32) (i : Fin 8192) (q : Fin 32) (m : ℕ) : EReal :=
  ∑ j : Fin 2048, term A H i q (m * 2048 + j.val)

/-- The four runs added one after another onto zero are the whole entry of the product: four consecutive runs of
    2048 terms added onto zero are the sum of all 8192 terms. -/
theorem chain3 (A : Mat 8192 8192) (H : Mat 8192 32) (i : Fin 8192) (q : Fin 32) :
    Val0.chain (bsum A H i q) 3 = agg A H i q := by
  refine (Val0.four_runs (term A H i q)).trans ?_
  refine Finset.sum_congr rfl fun j _ => ?_
  exact dif_pos j.isLt

/-- One accumulation step at an entry: the accumulator plus the point's run of 2048 terms. -/
theorem step_apply (t : Fin cfg1.N) (s : Vec Ideal S1024x32 .f32) (p : Fin 1024) (q : Fin 32) :
    k1_pay2 (F := Ideal) (iblk V c 0 t) (hrows V c t) s (ix2 p q)
      = s (ix2 p q) + bsum (Amat V c) (Hmat V c) (row t p) q (t.val % 4) := by
  refine (acc1_apply (iblk V c 0 t) (hrows V c t) s p q).trans ?_
  refine congrArg (s (ix2 p q) + ·) (Finset.sum_congr rfl fun j _ => ?_)
  rw [iblk0_apply, hrows_apply]
  unfold term
  rw [dif_pos (show t.val % 4 * 2048 + j.val < 8192 from (col t j).isLt)]
  rfl

/-- After point n the accumulator holds, at entry (p, q), zero plus the first n % 4 + 1 runs of the row's sum. -/
theorem acc_eq : ∀ (n : ℕ) (hn : n < cfg1.N) (p : Fin 1024) (q : Fin 32),
    (outsAt V c n hn).2 (ix2 p q) = Val0.chain (bsum (Amat V c) (Hmat V c) (row ⟨n, hn⟩ p) q) (n % 4)
  | 0, hn, p, q => by
    refine (congrFun (accAt_A V c ⟨0, hn⟩ (Nat.zero_mod 4) (by show ¬(0 % 4 = 3); decide)) (ix2 p q)).trans ?_
    rw [step_apply, z1_apply]
    rfl
  | n + 1, hn, p, q => by
    by_cases h0 : (n + 1) % 4 = 0
    · have h1 : ¬(n + 1) % 4 = 3 := by omega
      refine (congrFun (accAt_A V c ⟨n + 1, hn⟩ h0 h1) (ix2 p q)).trans ?_
      rw [step_apply, z1_apply]
      show 0 + bsum (Amat V c) (Hmat V c) (row ⟨n + 1, hn⟩ p) q ((n + 1) % 4) = Val0.chain (bsum (Amat V c) (Hmat V c) (row ⟨n + 1, hn⟩ p) q) ((n + 1) % 4)
      rw [h0]
      rfl
    · have hr : row ⟨n, Nat.lt_of_succ_lt hn⟩ p = row ⟨n + 1, hn⟩ p :=
        Fin.ext (by show n / 4 * 1024 + p.val = (n + 1) / 4 * 1024 + p.val; omega)
      have hm : (n + 1) % 4 = n % 4 + 1 := by omega
      by_cases h1 : (n + 1) % 4 = 3
      · refine (congrFun (accAt_C V c ⟨n + 1, hn⟩ h0 h1) (ix2 p q)).trans ?_
        rw [step_apply, prevS_succ, acc_eq n (Nat.lt_of_succ_lt hn) p q, hr]
        show Val0.chain (bsum (Amat V c) (Hmat V c) (row ⟨n + 1, hn⟩ p) q) (n % 4) + bsum (Amat V c) (Hmat V c) (row ⟨n + 1, hn⟩ p) q ((n + 1) % 4)
          = Val0.chain (bsum (Amat V c) (Hmat V c) (row ⟨n + 1, hn⟩ p) q) ((n + 1) % 4)
        rw [hm]
        rfl
      · refine (congrFun (accAt_B V c ⟨n + 1, hn⟩ h0 h1) (ix2 p q)).trans ?_
        rw [step_apply, prevS_succ, acc_eq n (Nat.lt_of_succ_lt hn) p q, hr]
        show Val0.chain (bsum (Amat V c) (Hmat V c) (row ⟨n + 1, hn⟩ p) q) (n % 4) + bsum (Amat V c) (Hmat V c) (row ⟨n + 1, hn⟩ p) q ((n + 1) % 4)
          = Val0.chain (bsum (Amat V c) (Hmat V c) (row ⟨n + 1, hn⟩ p) q) ((n + 1) % 4)
        rw [hm]
        rfl

end

/-! ## From the tiles to the array -/

section
variable (V : (c : Dev nD) → (b : Ref sig .tc) → Buf (Elt Ideal) ((c : Thread nD τ).loc b)) (c : Dev nD)

/-- What the result array ends as: the product of the adjacency matrix with the features, clipped at zero. -/
abbrev Gres : Buf (Elt Ideal) ((cfg1.win 2).arr.view.loc (c.tc : Thread nD τ)) :=
  unmat2 (relu (agg (Amat V c) (Hmat V c)))

/-- Entry (p, q) of point t's result tile is entry (t / 4 * 1024 + p, q) of the result array. -/
theorem emb2 (t : Fin cfg1.N) (p : Fin 1024) (q : Fin 32) :
    (((cfg1.win 2).blk t).view.emb (ix2 p q) : S8192x32.Idx) = ix2 (row t p) q :=
  funext fun a => Fin.ext (by
    match a with
    | ⟨0, _⟩ =>
      show win1_2.index t (0 : Fin 2) * 1024 + 1 * p.val = t.val / 4 * 1024 + p.val
      rw [(idx2 t).1]; omega
    | ⟨1, _⟩ =>
      show win1_2.index t (1 : Fin 2) * 32 + 1 * q.val = q.val
      rw [(idx2 t).2]; omega)

/-- What a last column tile's point writes back is its tile of the clipped product. -/
theorem flushed2_eq (t : Fin cfg1.N) (hf : (cfg1.win 2).flush t = true) :
    (dat V c).flushed 2 t = ((cfg1.win 2).blk t).view.read (Elt Ideal) (Gres V c) := by
  have h1 : t.val % 4 = 3 := (flush1_2 t).mp hf
  have h0 : ¬t.val % 4 = 0 := by omega
  show (cfg1.win 2).cut (grid1.coords t) ((dat V c).after 2 t) = _
  rw [after_o, resAt_C V c t h0 h1]
  funext y
  obtain ⟨p, q, rfl⟩ : ∃ (p : Fin 1024) (q : Fin 32), y = ix2 p q := ⟨y 0, y 1, eq_ix2 (n0 := 1024) (n1 := 32) y⟩
  show k1_pay3 (F := Ideal) ((outsAt V c t.val t.isLt).2) (ix2 p q) = Gres V c (((cfg1.win 2).blk t).view.emb (ix2 p q))
  rw [clip1_apply, acc_eq V c t.val t.isLt p q, h1, chain3, emb2]
  rfl

/-- An entry of the result array is in point t's tile iff each coordinate is in the tile's range. -/
theorem mem_blk2 (t : Fin cfg1.N) (i : S8192x32.Idx) :
    i ∈ ((cfg1.win 2).blk t).view.set ↔ ∀ a : Fin 2, win1_2.index t a * S1024x32.size a ≤ (i a).val
      ∧ (i a).val < win1_2.index t a * S1024x32.size a + S1024x32.size a := by
  show i ∈ ((View.whole main_v11).slice (win1_2.rect t)).set ↔ _
  rw [View.set_slice_whole, Rect.mem_set_unit]
  exact Iff.rfl

/-- Row r of the result array is written back by the last column tile's point of row tile r / 1024. -/
theorem cover2 (i : S8192x32.Idx) : ∃ t : Fin cfg1.N, (cfg1.win 2).flush t = true ∧ i ∈ ((cfg1.win 2).blk t).view.set := by
  have hi0 : (i 0).val < 8192 := (i 0).isLt
  have hi1 : (i 1).val < 32 := (i 1).isLt
  have hlt : 4 * ((i 0).val / 1024) + 3 < cfg1.N := by rw [show cfg1.N = 32 from N_1]; omega
  obtain ⟨e0, e1⟩ := idx2 ⟨4 * ((i 0).val / 1024) + 3, hlt⟩
  have e0' : win1_2.index ⟨4 * ((i 0).val / 1024) + 3, hlt⟩ (0 : Fin 2) = (4 * ((i 0).val / 1024) + 3) / 4 := e0
  refine ⟨⟨4 * ((i 0).val / 1024) + 3, hlt⟩, (flush1_2 _).mpr (by show (4 * ((i 0).val / 1024) + 3) % 4 = 3; omega), ?_⟩
  rw [mem_blk2]
  intro a
  match a with
  | ⟨0, _⟩ =>
    show win1_2.index ⟨4 * ((i 0).val / 1024) + 3, hlt⟩ (0 : Fin 2) * 1024 ≤ (i 0).val
      ∧ (i 0).val < win1_2.index ⟨4 * ((i 0).val / 1024) + 3, hlt⟩ (0 : Fin 2) * 1024 + 1024
    rw [e0']; omega
  | ⟨1, _⟩ =>
    show win1_2.index ⟨4 * ((i 0).val / 1024) + 3, hlt⟩ (1 : Fin 2) * 32 ≤ (i 1).val
      ∧ (i 1).val < win1_2.index ⟨4 * ((i 0).val / 1024) + 3, hlt⟩ (1 : Fin 2) * 32 + 32
    rw [e1]; omega

/-- The result array ends as the product of the adjacency matrix with the features, clipped at zero. -/
theorem final : (dat (F := Ideal) V c).arrAt 2 cfg1.N
    = unmat2 (relu (agg (mat2 (V c (Pipeline.arrRef spec1 0))) (mat2 (V c (Pipeline.arrRef spec1 1))))) :=
  (dat V c).arrAt_eq_of_cover 2 (Gres V c) (fun t hf => flushed2_eq V c t hf) (cover2)

end

end Cert.KernelIdeal.Val1

end
-- ==== Proof.R2Value.lean ====
/-
  The third aggregation call's values over the extended reals: what its result array holds when the call ends.

  The grid is 8 row tiles by 4 column tiles of the adjacency matrix A (here its narrow copy, which over the extended
  reals is A), the column tile fastest: point t works on row tile t / 4 and column tile t % 4. The accumulator is
  cleared at column tile 0 and gains, at column tile k, the product of the 1024 by 2048 tile with rows
  k * 2048 … k * 2048 + 2047 of the features H: after column tile k its entry (p, q) is zero plus the first k + 1 of the
  four runs of 2048 consecutive terms of ∑ j, A (r * 1024 + p) j * H j q, added one after another; after column tile 3
  that is the whole sum (addition of extended reals is associative and zero is neutral: no finiteness is needed).
  The last column tile's point then applies the head to its 1024 rows: clip at zero, multiply by the 64 by 32 matrix,
  add its bias row, clip, multiply by the 32 by 10 matrix, add its bias row. A row of the head's result depends on
  the same row of the accumulator only, so row p of the tile is row r * 1024 + p of the head applied to max (A · H) 0.
  The eight last-column-tile points cover the result array.
-/
import proofs.«125076_j18348100288854_2_alg».proof.Proof.R2Frame
import proofs.«125076_j18348100288854_2_alg».proof.Proof.PayIdeal
import proofs.«125076_j18348100288854_2_alg».proof.Proof.Spec
import proofs.«125076_j18348100288854_2_alg».proof.Proof.R0Value
import Idealize.ShloMosaic.Lib.Pipeline.Value
import Idealize.ShloMosaic.Lib.ValueIdx

set_option maxRecDepth 16384

noncomputable section

open scoped BigOperators

namespace Cert.KernelIdeal.Val2

open Cert.KernelIdeal Cert.KernelIdeal.Gen Cert.KernelIdeal.Reg2 Cert.Gcn Cert.Gcn.Pay
open Cert.KernelIdeal.Val0 (hz chain four_runs)
open Idealize.ShloMosaic Idealize.ShloMosaic.TcCoe Idealize.ShloMosaic.Tactic Idealize.ShloMosaic.ValueIdx
open Idealize.ShloMosaic.Pipeline (Dat)

section
variable {F : FTy → Type} [FloatOps F]
variable (V : (c : Dev nD) → (b : Ref sig .tc) → Buf (Elt F) ((c : Thread nD τ).loc b))

/-! ## What each run's stored pieces read back as

Every buffer the body stores into is stored whole, so the pieces read back as the stored payload; a load that
follows a store of the same buffer reads that payload; the head's matrices and bias rows are loaded whole. -/

/-- The 2048 rows of the features that the body multiplies point t's adjacency tile with. -/
abbrev hrows (c : Dev nD) (t : Fin cfg2.N) : Vec F S2048x64 .bf16 :=
  View.ld (iblk V c 1 t) (Rect.unit (s := S8192x64) (k2_off1 (grid2.coords t)) S2048x64.size (k2_off1_inb (grid2.coords t)))

/-- First column tile: the accumulator is the zero fill plus the first product. -/
theorem accA (c : Dev nD) (t : Fin cfg2.N) (h0 : t.val % 4 = 0) (h1 : ¬t.val % 4 = 3) :
    rdS (atA V c t h0 h1).1 = k2_pay2 (iblk V c 0 t) (hrows V c t) k2_pay1 := by
  unfold rdS
  rw [View.read_writes_eq_canon _ _ _ (coverA_S V c t h0 h1)]
  unfold atA runA
  dsimp only
  sl_unfold_words
  rw [View.canon_cons_unit_zero (S := S1024x64) hz]
  simp only [View.readAt_eq_ld, (hs0 t).read_unread, (hs1 t).read_unread, View.ld_unit_zero (S := S1024x2048) hz,
    View.readCov_unit_zero (S := S1024x64) _ hz]
  rfl

/-- A middle column tile: the accumulator found at xs gains one product. -/
theorem accB (c : Dev nD) (t : Fin cfg2.N) (h0 : ¬t.val % 4 = 0) (h1 : ¬t.val % 4 = 3) (xs : Vec F S1024x64 .f32) :
    rdS (atB V c t h0 h1 xs).1 = k2_pay2 (iblk V c 0 t) (hrows V c t) xs := by
  unfold rdS
  rw [View.read_writes_eq_canon _ _ _ (coverB_S V c t h0 h1 xs)]
  unfold atB runB
  dsimp only
  sl_unfold_words
  rw [View.canon_unit_zero (S := S1024x64) hz]
  simp only [View.readAt_eq_ld, (hs0 t).read_unread, (hs1 t).read_unread, (Memref.isWhole_whole cc2_scratch0).read_unread,
    View.ld_unit_zero (S := S1024x2048) hz, View.ld_unit_zero (S := S1024x64) hz]
  rfl

/-- The last column tile: the accumulator found at xs gains the last product, -/
theorem accC (c : Dev nD) (t : Fin cfg2.N) (h0 : ¬t.val % 4 = 0) (h1 : t.val % 4 = 3) (xs : Vec F S1024x64 .f32) :
    rdS (atC V c t h0 h1 xs).2.1 = k2_pay2 (iblk V c 0 t) (hrows V c t) xs := by
  unfold rdS
  rw [View.read_writes_eq_canon _ _ _ (coverC_S V c t h0 h1 xs)]
  unfold atC runC
  dsimp only
  sl_unfold_words
  rw [View.canon_unit_zero (S := S1024x64) hz]
  simp only [View.readAt_eq_ld, (hs0 t).read_unread, (hs1 t).read_unread, (Memref.isWhole_whole cc2_scratch0).read_unread,
    View.ld_unit_zero (S := S1024x2048) hz, View.ld_unit_zero (S := S1024x64) hz]
  rfl

/-- and the result tile is the head applied to that accumulator. -/
theorem outC (c : Dev nD) (t : Fin cfg2.N) (h0 : ¬t.val % 4 = 0) (h1 : t.val % 4 = 3) (xs : Vec F S1024x64 .f32) :
    rdO (atC V c t h0 h1 xs).1
      = k2_pay3 (k2_pay2 (iblk V c 0 t) (hrows V c t) xs) (iblk V c 2 t) (iblk V c 3 t) (iblk V c 4 t) (iblk V c 5 t) := by
  unfold rdO
  rw [View.read_writes_eq_canon _ _ _ (coverC_O V c t h0 h1 xs)]
  unfold atC runC
  dsimp only
  sl_unfold_words
  rw [View.canon_unit_zero (S := S1024x10) hz]
  simp only [View.readAt_eq_ld, (hs0 t).read_unread, (hs1 t).read_unread, (hs2 t).read_unread, (hs3 t).read_unread,
    (hs4 t).read_unread, (hs5 t).read_unread, (Memref.isWhole_whole cc2_scratch0).read_unread,
    View.ld_unit_zero (S := S1024x2048) hz, View.ld_unit_zero (S := S1024x64) hz, View.ld_unit_zero (S := S64x32) hz,
    View.ld_unit_zero (S := S1x32) hz, View.ld_unit_zero (S := S32x10) hz, View.ld_unit_zero (S := S1x10) hz,
    View.readCov_unit_zero (S := S1024x64) _ hz]
  rfl

/-! ## Where a tile's entries sit in the arrays

Point t works on row tile t / 4 and column tile t % 4: entry (p, j) of its adjacency tile is entry
(t / 4 * 1024 + p, t % 4 * 2048 + j) of the adjacency matrix, and row j of the 2048 rows of the features it loads is
row t % 4 * 2048 + j of the features. The head's matrices and bias rows are single blocks: the arrays themselves. -/

theorem tN (t : Fin cfg2.N) : t.val < 32 := lt_of_lt_of_eq t.isLt N_2

/-- The row of the matrix that row p of point t's tile is. -/
def row (t : Fin cfg2.N) (p : Fin 1024) : Fin 8192 := ⟨t.val / 4 * 1024 + p.val, by have := tN t; have := p.isLt; omega⟩
/-- The column of the matrix that column j of point t's tile is. -/
def col (t : Fin cfg2.N) (j : Fin 2048) : Fin 8192 := ⟨t.val % 4 * 2048 + j.val, by have := j.isLt; omega⟩

theorem idx0 : ∀ t : Fin cfg2.N, win2_0.index t (0 : Fin 2) = t.val / 4 ∧ win2_0.index t (1 : Fin 2) = t.val % 4 :=
  (by decide +kernel : ∀ t : Fin grid2.N, win2_0.index t (0 : Fin 2) = t.val / 4 ∧ win2_0.index t (1 : Fin 2) = t.val % 4)
theorem idx1 : ∀ t : Fin cfg2.N, win2_1.index t (0 : Fin 2) = 0 ∧ win2_1.index t (1 : Fin 2) = 0 :=
  (by decide +kernel : ∀ t : Fin grid2.N, win2_1.index t (0 : Fin 2) = 0 ∧ win2_1.index t (1 : Fin 2) = 0)
theorem idx2 : ∀ t : Fin cfg2.N, win2_2.index t (0 : Fin 2) = 0 ∧ win2_2.index t (1 : Fin 2) = 0 :=
  (by decide +kernel : ∀ t : Fin grid2.N, win2_2.index t (0 : Fin 2) = 0 ∧ win2_2.index t (1 : Fin 2) = 0)
theorem idx3 : ∀ t : Fin cfg2.N, win2_3.index t (0 : Fin 2) = 0 ∧ win2_3.index t (1 : Fin 2) = 0 :=
  (by decide +kernel : ∀ t : Fin grid2.N, win2_3.index t (0 : Fin 2) = 0 ∧ win2_3.index t (1 : Fin 2) = 0)
theorem idx4 : ∀ t : Fin cfg2.N, win2_4.index t (0 : Fin 2) = 0 ∧ win2_4.index t (1 : Fin 2) = 0 :=
  (by decide +kernel : ∀ t : Fin grid2.N, win2_4.index t (0 : Fin 2) = 0 ∧ win2_4.index t (1 : Fin 2) = 0)
theorem idx5 : ∀ t : Fin cfg2.N, win2_5.index t (0 : Fin 2) = 0 ∧ win2_5.index t (1 : Fin 2) = 0 :=
  (by decide +kernel : ∀ t : Fin grid2.N, win2_5.index t (0 : Fin 2) = 0 ∧ win2_5.index t (1 : Fin 2) = 0)
theorem idx6 : ∀ t : Fin cfg2.N, win2_6.index t (0 : Fin 2) = t.val / 4 ∧ win2_6.index t (1 : Fin 2) = 0 :=
  (by decide +kernel : ∀ t : Fin grid2.N, win2_6.index t (0 : Fin 2) = t.val / 4 ∧ win2_6.index t (1 : Fin 2) = 0)
theorem off1 : ∀ t : Fin cfg2.N, k2_off1 (grid2.coords t) 0 = t.val % 4 * 2048 ∧ k2_off1 (grid2.coords t) 1 = 0 :=
  (by decide +kernel : ∀ t : Fin grid2.N, k2_off1 (grid2.coords t) 0 = t.val % 4 * 2048 ∧ k2_off1 (grid2.coords t) 1 = 0)

theorem iblk0_apply (c : Dev nD) (t : Fin cfg2.N) (p : Fin 1024) (j : Fin 2048) :
    iblk V c 0 t (ix2 p j) = V c (Pipeline.arrRef spec2 0) (ix2 (row t p) (col t j)) := by
  show V c (Pipeline.arrRef spec2 0) (((cfg2.win 0).blk t).view.emb (ix2 p j)) = _
  refine congrArg _ (funext fun a => Fin.ext ?_)
  match a with
  | ⟨0, _⟩ =>
    show win2_0.index t (0 : Fin 2) * 1024 + 1 * p.val = t.val / 4 * 1024 + p.val
    rw [(idx0 t).1]; omega
  | ⟨1, _⟩ =>
    show win2_0.index t (1 : Fin 2) * 2048 + 1 * j.val = t.val % 4 * 2048 + j.val
    rw [(idx0 t).2]; omega

theorem hrows_apply (c : Dev nD) (t : Fin cfg2.N) (j : Fin 2048) (q : Fin 64) :
    hrows V c t (ix2 j q) = V c (Pipeline.arrRef spec2 1) (ix2 (col t j) q) := by
  show V c (Pipeline.arrRef spec2 1) (((cfg2.win 1).blk t).view.emb
    ((Rect.unit (s := S8192x64) (k2_off1 (grid2.coords t)) S2048x64.size (k2_off1_inb (grid2.coords t))).emb (ix2 j q))) = _
  refine congrArg _ (funext fun a => Fin.ext ?_)
  match a with
  | ⟨0, _⟩ =>
    show win2_1.index t (0 : Fin 2) * 8192 + 1 * (k2_off1 (grid2.coords t) 0 + 1 * j.val) = t.val % 4 * 2048 + j.val
    rw [(idx1 t).1, (off1 t).1]; omega
  | ⟨1, _⟩ =>
    show win2_1.index t (1 : Fin 2) * 64 + 1 * (k2_off1 (grid2.coords t) 1 + 1 * q.val) = q.val
    rw [(idx1 t).2, (off1 t).2]; omega

/-- The first head matrix's one block is the matrix. -/
theorem iblk2_apply (c : Dev nD) (t : Fin cfg2.N) (a : Fin 64) (b : Fin 32) :
    iblk V c 2 t (ix2 a b) = V c (Pipeline.arrRef spec2 2) (ix2 a b) := by
  show V c (Pipeline.arrRef spec2 2) (((cfg2.win 2).blk t).view.emb (ix2 a b)) = _
  refine congrArg _ (funext fun d => Fin.ext ?_)
  match d with
  | ⟨0, _⟩ => show win2_2.index t (0 : Fin 2) * 64 + 1 * a.val = a.val; rw [(idx2 t).1]; omega
  | ⟨1, _⟩ => show win2_2.index t (1 : Fin 2) * 32 + 1 * b.val = b.val; rw [(idx2 t).2]; omega
/-- The first bias row's one block is the row. -/
theorem iblk3_apply (c : Dev nD) (t : Fin cfg2.N) (a : Fin 1) (b : Fin 32) :
    iblk V c 3 t (ix2 a b) = V c (Pipeline.arrRef spec2 3) (ix2 a b) := by
  show V c (Pipeline.arrRef spec2 3) (((cfg2.win 3).blk t).view.emb (ix2 a b)) = _
  refine congrArg _ (funext fun d => Fin.ext ?_)
  match d with
  | ⟨0, _⟩ => show win2_3.index t (0 : Fin 2) * 1 + 1 * a.val = a.val; rw [(idx3 t).1]; omega
  | ⟨1, _⟩ => show win2_3.index t (1 : Fin 2) * 32 + 1 * b.val = b.val; rw [(idx3 t).2]; omega
/-- The second head matrix's one block is the matrix. -/
theorem iblk4_apply (c : Dev nD) (t : Fin cfg2.N) (a : Fin 32) (b : Fin 10) :
    iblk V c 4 t (ix2 a b) = V c (Pipeline.arrRef spec2 4) (ix2 a b) := by
  show V c (Pipeline.arrRef spec2 4) (((cfg2.win 4).blk t).view.emb (ix2 a b)) = _
  refine congrArg _ (funext fun d => Fin.ext ?_)
  match d with
  | ⟨0, _⟩ => show win2_4.index t (0 : Fin 2) * 32 + 1 * a.val = a.val; rw [(idx4 t).1]; omega
  | ⟨1, _⟩ => show win2_4.index t (1 : Fin 2) * 10 + 1 * b.val = b.val; rw [(idx4 t).2]; omega
/-- The second bias row's one block is the row. -/
theorem iblk5_apply (c : Dev nD) (t : Fin cfg2.N) (a : Fin 1) (b : Fin 10) :
    iblk V c 5 t (ix2 a b) = V c (Pipeline.arrRef spec2 5) (ix2 a b) := by
  show V c (Pipeline.arrRef spec2 5) (((cfg2.win 5).blk t).view.emb (ix2 a b)) = _
  refine congrArg _ (funext fun d => Fin.ext ?_)
  match d with
  | ⟨0, _⟩ => show win2_5.index t (0 : Fin 2) * 1 + 1 * a.val = a.val; rw [(idx5 t).1]; omega
  | ⟨1, _⟩ => show win2_5.index t (1 : Fin 2) * 10 + 1 * b.val = b.val; rw [(idx5 t).2]; omega

/-! ## The buffers after a point, case by case -/

/-- The accumulator the point before point n + 1 left is the accumulator after point n. -/
theorem prevS_succ (c : Dev nD) (n : ℕ) (hn : n + 1 < cfg2.N) :
    prevS V c ⟨n + 1, hn⟩ = (outsAt V c n (Nat.lt_of_succ_lt hn)).2 := rfl

theorem accAt_A (c : Dev nD) (t : Fin cfg2.N) (h0 : t.val % 4 = 0) (h1 : ¬t.val % 4 = 3) :
    (outsAt V c t.val t.isLt).2 = k2_pay2 (iblk V c 0 t) (hrows V c t) k2_pay1 := by
  rw [outsAt_A V c t h0 h1]; dsimp only; exact accA V c t h0 h1
theorem accAt_B (c : Dev nD) (t : Fin cfg2.N) (h0 : ¬t.val % 4 = 0) (h1 : ¬t.val % 4 = 3) :
    (outsAt V c t.val t.isLt).2 = k2_pay2 (iblk V c 0 t) (hrows V c t) (prevS V c t) := by
  rw [outsAt_B V c t h0 h1]; dsimp only; exact accB V c t h0 h1 (prevS V c t)
theorem accAt_C (c : Dev nD) (t : Fin cfg2.N) (h0 : ¬t.val % 4 = 0) (h1 : t.val % 4 = 3) :
    (outsAt V c t.val t.isLt).2 = k2_pay2 (iblk V c 0 t) (hrows V c t) (prevS V c t) := by
  rw [outsAt_C V c t h0 h1]; dsimp only; exact accC V c t h0 h1 (prevS V c t)
/-- At a last column tile the result tile is the head applied to the accumulator the point leaves. -/
theorem resAt_C (c : Dev nD) (t : Fin cfg2.N) (h0 : ¬t.val % 4 = 0) (h1 : t.val % 4 = 3) :
    (outsAt V c t.val t.isLt).1
      = k2_pay3 ((outsAt V c t.val t.isLt).2) (iblk V c 2 t) (iblk V c 3 t) (iblk V c 4 t) (iblk V c 5 t) := by
  rw [accAt_C V c t h0 h1, outsAt_C V c t h0 h1]; dsimp only; exact outC V c t h0 h1 (prevS V c t)

end

/-! ## The accumulator, point by point, over the extended reals -/

section
variable (V : (c : Dev nD) → (b : Ref sig .tc) → Buf (Elt Ideal) ((c : Thread nD τ).loc b)) (c : Dev nD)

/-- The adjacency matrix, the features, and the head's matrices and bias rows as the call finds them. -/
abbrev Amat : Mat 8192 8192 := mat2 (V c (Pipeline.arrRef spec2 0))
abbrev Hmat : Mat 8192 64 := mat2 (V c (Pipeline.arrRef spec2 1))
abbrev W0mat : Mat 64 32 := mat2 (V c (Pipeline.arrRef spec2 2))
abbrev b0vec : Fin 32 → EReal := fun r => V c (Pipeline.arrRef spec2 3) (ix2 0 r)
abbrev W1mat : Mat 32 10 := mat2 (V c (Pipeline.arrRef spec2 4))
abbrev b1vec : Fin 10 → EReal := fun r => V c (Pipeline.arrRef spec2 5) (ix2 0 r)

/-- The j-th term of the sum that is entry (i, q) of the product A · H (zero past the last term). -/
def term (A : Mat 8192 8192) (H : Mat 8192 64) (i : Fin 8192) (q : Fin 64) (j : ℕ) : EReal :=
  if h : j < 8192 then A i ⟨j, h⟩ * H ⟨j, h⟩ q else 0

/-- The m-th of the four runs of 2048 consecutive terms. -/
def bsum (A : Mat 8192 8192) (H : Mat 8192 64) (i : Fin 8192) (q : Fin 64) (m : ℕ) : EReal :=
  ∑ j : Fin 2048, term A H i q (m * 2048 + j.val)

/-- The four runs added one after another onto zero are the whole entry of the product. -/
theorem chain3 (A : Mat 8192 8192) (H : Mat 8192 64) (i : Fin 8192) (q : Fin 64) :
    chain (bsum A H i q) 3 = agg A H i q := by
  refine (four_runs (term A H i q)).trans ?_
  refine Finset.sum_congr rfl fun j _ => ?_
  exact dif_pos j.isLt

/-- One accumulation step at an entry: the accumulator plus the point's run of 2048 terms. -/
theorem step_apply (t : Fin cfg2.N) (s : Vec Ideal S1024x64 .f32) (p : Fin 1024) (q : Fin 64) :
    k2_pay2 (F := Ideal) (iblk V c 0 t) (hrows V c t) s (ix2 p q)
      = s (ix2 p q) + bsum (Amat V c) (Hmat V c) (row t p) q (t.val % 4) := by
  refine (acc2_apply (iblk V c 0 t) (hrows V c t) s p q).trans ?_
  refine congrArg (s (ix2 p q) + ·) (Finset.sum_congr rfl fun j _ => ?_)
  rw [iblk0_apply, hrows_apply]
  unfold term
  rw [dif_pos (show t.val % 4 * 2048 + j.val < 8192 from (col t j).isLt)]
  rfl

/-- After point n the accumulator holds, at entry (p, q), zero plus the first n % 4 + 1 runs of the row's sum. -/
theorem acc_eq : ∀ (n : ℕ) (hn : n < cfg2.N) (p : Fin 1024) (q : Fin 64),
    (outsAt V c n hn).2 (ix2 p q) = chain (bsum (Amat V c) (Hmat V c) (row ⟨n, hn⟩ p) q) (n % 4)
  | 0, hn, p, q => by
    refine (congrFun (accAt_A V c ⟨0, hn⟩ (Nat.zero_mod 4) (by show ¬(0 % 4 = 3); decide)) (ix2 p q)).trans ?_
    rw [step_apply, z2_apply]
    rfl
  | n + 1, hn, p, q => by
    by_cases h0 : (n + 1) % 4 = 0
    · have h1 : ¬(n + 1) % 4 = 3 := by omega
      refine (congrFun (accAt_A V c ⟨n + 1, hn⟩ h0 h1) (ix2 p q)).trans ?_
      rw [step_apply, z2_apply]
      show 0 + bsum (Amat V c) (Hmat V c) (row ⟨n + 1, hn⟩ p) q ((n + 1) % 4) = chain (bsum (Amat V c) (Hmat V c) (row ⟨n + 1, hn⟩ p) q) ((n + 1) % 4)
      rw [h0]
      rfl
    · have hr : row ⟨n, Nat.lt_of_succ_lt hn⟩ p = row ⟨n + 1, hn⟩ p :=
        Fin.ext (by show n / 4 * 1024 + p.val = (n + 1) / 4 * 1024 + p.val; omega)
      have hm : (n + 1) % 4 = n % 4 + 1 := by omega
      by_cases h1 : (n + 1) % 4 = 3
      · refine (congrFun (accAt_C V c ⟨n + 1, hn⟩ h0 h1) (ix2 p q)).trans ?_
        rw [step_apply, prevS_succ, acc_eq n (Nat.lt_of_succ_lt hn) p q, hr]
        show chain (bsum (Amat V c) (Hmat V c) (row ⟨n + 1, hn⟩ p) q) (n % 4) + bsum (Amat V c) (Hmat V c) (row ⟨n + 1, hn⟩ p) q ((n + 1) % 4)
          = chain (bsum (Amat V c) (Hmat V c) (row ⟨n + 1, hn⟩ p) q) ((n + 1) % 4)
        rw [hm]
        rfl
      · refine (congrFun (accAt_B V c ⟨n + 1, hn⟩ h0 h1) (ix2 p q)).trans ?_
        rw [step_apply, prevS_succ, acc_eq n (Nat.lt_of_succ_lt hn) p q, hr]
        show chain (bsum (Amat V c) (Hmat V c) (row ⟨n + 1, hn⟩ p) q) (n % 4) + bsum (Amat V c) (Hmat V c) (row ⟨n + 1, hn⟩ p) q ((n + 1) % 4)
          = chain (bsum (Amat V c) (Hmat V c) (row ⟨n + 1, hn⟩ p) q) ((n + 1) % 4)
        rw [hm]
        rfl

/-! ## The head, row by row -/

/-- The head applied to one row x of 64 entries: clip, multiply by W0, add b0, clip, multiply by W1, add b1. -/
def headRow (x : Fin 64 → EReal) (W0 : Mat 64 32) (b0 : Fin 32 → EReal) (W1 : Mat 32 10) (b1 : Fin 10 → EReal)
    (q : Fin 10) : EReal :=
  (∑ j : Fin 32, max ((∑ i : Fin 64, max (x i) 0 * W0 i j) + b0 j) 0 * W1 j q) + b1 q

/-- A row of the head's result depends on the same row of its operand only. -/
theorem head_row {n : ℕ} (X : Mat n 64) (W0 : Mat 64 32) (b0 : Fin 32 → EReal) (W1 : Mat 32 10) (b1 : Fin 10 → EReal)
    (p : Fin n) (q : Fin 10) : lin (relu (lin (relu X) W0 b0)) W1 b1 p q = headRow (X p) W0 b0 W1 b1 q := rfl

/-! ## From the tiles to the array -/

/-- What the result array ends as: the head applied to the clipped product of the adjacency matrix with the
    features. -/
abbrev G : Buf (Elt Ideal) ((cfg2.win 6).arr.view.loc (c.tc : Thread nD τ)) :=
  unmat2 (lin (relu (lin (relu (agg (Amat V c) (Hmat V c))) (W0mat V c) (b0vec V c))) (W1mat V c) (b1vec V c))

/-- Entry (p, q) of point t's result tile is entry (t / 4 * 1024 + p, q) of the result array. -/
theorem emb6 (t : Fin cfg2.N) (p : Fin 1024) (q : Fin 10) :
    (((cfg2.win 6).blk t).view.emb (ix2 p q) : S8192x10.Idx) = ix2 (row t p) q :=
  funext fun a => Fin.ext (by
    match a with
    | ⟨0, _⟩ =>
      show win2_6.index t (0 : Fin 2) * 1024 + 1 * p.val = t.val / 4 * 1024 + p.val
      rw [(idx6 t).1]; omega
    | ⟨1, _⟩ =>
      show win2_6.index t (1 : Fin 2) * 10 + 1 * q.val = q.val
      rw [(idx6 t).2]; omega)

/-- What a last column tile's point writes back is its tile of the head applied to the clipped product. -/
theorem flushed_eq (t : Fin cfg2.N) (hf : (cfg2.win 6).flush t = true) :
    (dat V c).flushed 6 t = ((cfg2.win 6).blk t).view.read (Elt Ideal) (G V c) := by
  have h1 : t.val % 4 = 3 := (flush2_6 t).mp hf
  have h0 : ¬t.val % 4 = 0 := by omega
  show (cfg2.win 6).cut (grid2.coords t) ((dat V c).after 6 t) = _
  rw [after_o, resAt_C V c t h0 h1]
  funext y
  obtain ⟨p, q, rfl⟩ : ∃ (p : Fin 1024) (q : Fin 10), y = ix2 p q := ⟨y 0, y 1, eq_ix2 (n0 := 1024) (n1 := 10) y⟩
  show k2_pay3 (F := Ideal) ((outsAt V c t.val t.isLt).2) (iblk V c 2 t) (iblk V c 3 t) (iblk V c 4 t) (iblk V c 5 t) (ix2 p q)
    = G V c (((cfg2.win 6).blk t).view.emb (ix2 p q))
  refine (head_apply ((outsAt V c t.val t.isLt).2) (iblk V c 2 t) (iblk V c 3 t) (iblk V c 4 t) (iblk V c 5 t) p q).trans ?_
  rw [emb6, head_row]
  have hX : (mat2 ((outsAt V c t.val t.isLt).2) : Mat 1024 64) p = agg (Amat V c) (Hmat V c) (row t p) :=
    funext fun i => by
      show (outsAt V c t.val t.isLt).2 (ix2 p i) = _
      rw [acc_eq V c t.val t.isLt p i, h1, chain3]
  have e2 : (mat2 (iblk V c 2 t) : Mat 64 32) = W0mat V c := funext fun a => funext fun b => iblk2_apply V c t a b
  have e3 : (fun r : Fin 32 => iblk V c 3 t (ix2 0 r)) = b0vec V c := funext fun r => iblk3_apply V c t 0 r
  have e4 : (mat2 (iblk V c 4 t) : Mat 32 10) = W1mat V c := funext fun a => funext fun b => iblk4_apply V c t a b
  have e5 : (fun r : Fin 10 => iblk V c 5 t (ix2 0 r)) = b1vec V c := funext fun r => iblk5_apply V c t 0 r
  rw [hX, e2, e3, e4, e5]
  rfl

/-- An entry of the result array is in point t's tile iff each coordinate is in the tile's range. -/
theorem mem_blk6 (t : Fin cfg2.N) (i : S8192x10.Idx) :
    i ∈ ((cfg2.win 6).blk t).view.set ↔ ∀ a : Fin 2, win2_6.index t a * S1024x10.size a ≤ (i a).val
      ∧ (i a).val < win2_6.index t a * S1024x10.size a + S1024x10.size a := by
  show i ∈ ((View.whole main_v19).slice (win2_6.rect t)).set ↔ _
  rw [View.set_slice_whole, Rect.mem_set_unit]
  exact Iff.rfl

/-- Row r of the result array is written back by the last column tile's point of row tile r / 1024. -/
theorem cover6 (i : S8192x10.Idx) : ∃ t : Fin cfg2.N, (cfg2.win 6).flush t = true ∧ i ∈ ((cfg2.win 6).blk t).view.set := by
  have hi0 : (i 0).val < 8192 := (i 0).isLt
  have hi1 : (i 1).val < 10 := (i 1).isLt
  have hlt : 4 * ((i 0).val / 1024) + 3 < cfg2.N := by rw [show cfg2.N = 32 from N_2]; omega
  obtain ⟨e0, e1⟩ := idx6 ⟨4 * ((i 0).val / 1024) + 3, hlt⟩
  have e0' : win2_6.index ⟨4 * ((i 0).val / 1024) + 3, hlt⟩ (0 : Fin 2) = (4 * ((i 0).val / 1024) + 3) / 4 := e0
  refine ⟨⟨4 * ((i 0).val / 1024) + 3, hlt⟩, (flush2_6 _).mpr (by show (4 * ((i 0).val / 1024) + 3) % 4 = 3; omega), ?_⟩
  rw [mem_blk6]
  intro a
  match a with
  | ⟨0, _⟩ =>
    show win2_6.index ⟨4 * ((i 0).val / 1024) + 3, hlt⟩ (0 : Fin 2) * 1024 ≤ (i 0).val
      ∧ (i 0).val < win2_6.index ⟨4 * ((i 0).val / 1024) + 3, hlt⟩ (0 : Fin 2) * 1024 + 1024
    rw [e0']; omega
  | ⟨1, _⟩ =>
    show win2_6.index ⟨4 * ((i 0).val / 1024) + 3, hlt⟩ (1 : Fin 2) * 10 ≤ (i 1).val
      ∧ (i 1).val < win2_6.index ⟨4 * ((i 0).val / 1024) + 3, hlt⟩ (1 : Fin 2) * 10 + 10
    rw [e1]; omega

/-- The result array ends as the head applied to the product of the adjacency matrix with the features, clipped at
    zero. -/
theorem final : (Reg2.dat (F := Ideal) V c).arrAt 6 cfg2.N
    = unmat2 (lin (relu (lin (relu (agg (mat2 (V c (Pipeline.arrRef spec2 0))) (mat2 (V c (Pipeline.arrRef spec2 1)))))
        (mat2 (V c (Pipeline.arrRef spec2 2))) (fun r : Fin 32 => V c (Pipeline.arrRef spec2 3) (ix2 0 r))))
        (mat2 (V c (Pipeline.arrRef spec2 4))) (fun r : Fin 10 => V c (Pipeline.arrRef spec2 5) (ix2 0 r))) :=
  (dat V c).arrAt_eq_of_cover 6 (G V c) (fun t hf => flushed_eq V c t hf) (cover6)

end

end Cert.KernelIdeal.Val2

end
-- ==== Proof.HostStages.lean ====
/-
  The three stretches of operations that run between the aggregation calls, read entry by entry over the extended
  reals. Each stretch multiplies an 8192-row array by a weight matrix, adds the bias along the rows and changes the
  format (the identity here): read as matrices, its last result is `X · W + b`. The third stretch also lays two bias
  vectors out as one-row arrays. Whatever a stretch does not write, it leaves as it was.
-/
import proofs.«125076_j18348100288854_2_alg».proof.Proof.Gen.KernelIdeal.Regions
import proofs.«125076_j18348100288854_2_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Host

open Cert.KernelIdeal Cert.KernelIdeal.Gen Cert.Gcn Idealize.ShloMosaic Idealize.ShloMosaic.ValueIdx

/-! ## Stretch 0: `x · w + b` on 8192 rows, 128 → 16 columns -/

/-- The stretch's operations composed: the product of the 8192×128 array with the 128×16 weights, plus the bias laid
    out as one row and repeated down the 8192 rows, then the change of format (the identity on the extended reals). -/
def affine0 (x : FVec Ideal S8192x128 .f32) (w : FVec Ideal S128x16 .f32)
    (b : FVec Ideal S16 .f32) : FVec Ideal S8192x16 .bf16 :=
  truncf .bf16 (addf (Host.dotGeneral (F := Ideal) dot_S8192x128_S128x16_S8192x16_1_0_0_1_n_n none x w)
    (broadcastInDim S8192x16 ![0, 1] bcast_S1x16_S8192x16_0_1 (broadcastInDim S1x16 ![1] bcast_S16_S1x16_1 b))) bitsLt_bf16_f32

/-- The left operand's index at output entry `i` and contraction index `t`: its row is the output's row
    (axis 0 is the left operand's free axis) … -/
theorem lhs0_row (i : S8192x16.Idx) (t : dot_S8192x128_S128x16_S8192x16_1_0_0_1_n_n.contr.Idx) : (dot_S8192x128_S128x16_S8192x16_1_0_0_1_n_n.lhsIdx i t 0).val = (i 0).val := by
  unfold DotDims.lhsIdx
  rw [dif_neg (show ¬(0 : Fin S8192x128.rank) ∈ dot_S8192x128_S128x16_S8192x16_1_0_0_1_n_n.lhsBatch by decide), dif_pos (show (0 : Fin S8192x128.rank) ∈ dot_S8192x128_S128x16_S8192x16_1_0_0_1_n_n.lhsNonContracting by decide)]
  rfl
/-- … and its column is the contraction coordinate (axis 1 is the one contracted axis). -/
theorem lhs0_col (i : S8192x16.Idx) (t : dot_S8192x128_S128x16_S8192x16_1_0_0_1_n_n.contr.Idx) : (dot_S8192x128_S128x16_S8192x16_1_0_0_1_n_n.lhsIdx i t 1).val = (t ⟨0, by decide⟩).val :=
  dot_S8192x128_S128x16_S8192x16_1_0_0_1_n_n.lhsIdx_val_of_single rfl i t
/-- The right operand's index: its row is the contraction coordinate … -/
theorem rhs0_row (i : S8192x16.Idx) (t : dot_S8192x128_S128x16_S8192x16_1_0_0_1_n_n.contr.Idx) : (dot_S8192x128_S128x16_S8192x16_1_0_0_1_n_n.rhsIdx i t 0).val = (t ⟨0, by decide⟩).val :=
  dot_S8192x128_S128x16_S8192x16_1_0_0_1_n_n.rhsIdx_val_of_single rfl i t
/-- … and its column is the output's column (axis 1 is the right operand's free axis). -/
theorem rhs0_col (i : S8192x16.Idx) (t : dot_S8192x128_S128x16_S8192x16_1_0_0_1_n_n.contr.Idx) : (dot_S8192x128_S128x16_S8192x16_1_0_0_1_n_n.rhsIdx i t 1).val = (i 1).val := by
  unfold DotDims.rhsIdx
  rw [dif_neg (show ¬(1 : Fin S128x16.rank) ∈ dot_S8192x128_S128x16_S8192x16_1_0_0_1_n_n.rhsBatch by decide), dif_pos (show (1 : Fin S128x16.rank) ∈ dot_S8192x128_S128x16_S8192x16_1_0_0_1_n_n.rhsNonContracting by decide)]
  rfl

/-- The product at entry `(p, q)`: the sum over the shared axis of `x p j * w j q`. The contraction index has one
    axis of extent 128; re-indexing the sum by that coordinate, the operand indices are `(p, j)` and `(j, q)`. -/
theorem dot0_apply (x : FVec Ideal S8192x128 .f32) (w : FVec Ideal S128x16 .f32)
    (p : Fin 8192) (q : Fin 16) :
    Host.dotGeneral (F := Ideal) dot_S8192x128_S128x16_S8192x16_1_0_0_1_n_n none x w (ix2 p q) = ∑ j : Fin 128, x (ix2 p j) * w (ix2 j q) := by
  simp only [Host.dotGeneral]
  rw [Ideal.dotGeneral_apply, ← Equiv.sum_comp (contrEquiv1 dot_S8192x128_S128x16_S8192x16_1_0_0_1_n_n 128 rfl rfl).symm]
  refine Finset.sum_congr rfl fun j _ => ?_
  have hj := contrEquiv1_symm_val dot_S8192x128_S128x16_S8192x16_1_0_0_1_n_n 128 rfl rfl j
  have el : dot_S8192x128_S128x16_S8192x16_1_0_0_1_n_n.lhsIdx (ix2 p q) ((contrEquiv1 dot_S8192x128_S128x16_S8192x16_1_0_0_1_n_n 128 rfl rfl).symm j) = ix2 p j := funext fun a => Fin.ext (by
    match a with
    | ⟨0, _⟩ => exact lhs0_row _ _
    | ⟨1, _⟩ => exact (lhs0_col _ _).trans hj)
  have er : dot_S8192x128_S128x16_S8192x16_1_0_0_1_n_n.rhsIdx (ix2 p q) ((contrEquiv1 dot_S8192x128_S128x16_S8192x16_1_0_0_1_n_n 128 rfl rfl).symm j) = ix2 j q := funext fun a => Fin.ext (by
    match a with
    | ⟨0, _⟩ => exact (rhs0_row _ _).trans hj
    | ⟨1, _⟩ => exact rhs0_col _ _)
  rw [el, er]

/-- The bias, laid out as a row and repeated down the rows, reads `b q` at every entry of column `q`: the row
    layout reads its operand at the column, and the repetition reads the one row. -/
theorem bias0_apply (b : FVec Ideal S16 .f32) (p : Fin 8192) (q : Fin 16) :
    broadcastInDim S8192x16 ![0, 1] bcast_S1x16_S8192x16_0_1 (broadcastInDim S1x16 ![1] bcast_S16_S1x16_1 b) (ix2 p q) = b (ix1 q) := by
  refine (broadcastInDim_apply _ bcast_S1x16_S8192x16_0_1 _ (ix2 p q) (ix2 (0 : Fin 1) q) (fun a => ?_)).trans
    (broadcastInDim_apply _ bcast_S16_S1x16_1 b (ix2 (0 : Fin 1) q) (ix1 q) (fun a => ?_))
  · match a with
    | ⟨0, _⟩ => show 0 = if (1 : Nat) = 1 then 0 else p.val; rw [if_pos rfl]
    | ⟨1, _⟩ => show q.val = if (16 : Nat) = 1 then 0 else q.val; rw [if_neg (by decide)]
  · match a with
    | ⟨0, _⟩ => show q.val = if (16 : Nat) = 1 then 0 else q.val; rw [if_neg (by decide)]

/-- The stretch's result at entry `(p, q)`: the change of format is the identity, the sum is entry by entry. -/
theorem affine0_apply (x : FVec Ideal S8192x128 .f32) (w : FVec Ideal S128x16 .f32)
    (b : FVec Ideal S16 .f32) (p : Fin 8192) (q : Fin 16) :
    affine0 x w b (ix2 p q) = (∑ j : Fin 128, x (ix2 p j) * w (ix2 j q)) + b (ix1 q) := by
  unfold affine0
  rw [truncf_apply, addf_apply, dot0_apply, bias0_apply]

/-- What stretch 0 leaves in its last result: the composed operations applied to the three arrays it reads. -/
theorem result0 (W : Valuation τ sig (Elt Ideal)) :
    (StableHlo.after (hostOps0 (F := Ideal)) W (Proc.devRef .tc main_v4) : S8192x16.Idx → EReal)
      = affine0 (W (Proc.devRef .tc main_arg0)) (W (Proc.devRef .tc main_arg2)) (W (Proc.devRef .tc main_arg3)) := by
  dsimp only [hostOps0]
  after_results
  rfl

/-- Read as matrices, stretch 0 is `X · W + b`. -/
theorem stage0 (W : Valuation τ sig (Elt Ideal)) :
    mat2 (StableHlo.after (hostOps0 (F := Ideal)) W (Proc.devRef .tc main_v4))
      = lin (mat2 (W (Proc.devRef .tc main_arg0))) (mat2 (W (Proc.devRef .tc main_arg2))) (vec1 (W (Proc.devRef .tc main_arg3))) := by
  funext p q
  show (StableHlo.after (hostOps0 (F := Ideal)) W (Proc.devRef .tc main_v4) : S8192x16.Idx → EReal) (ix2 p q) = _
  rw [result0 W]
  exact affine0_apply _ _ _ p q

/-! ## Stretch 1: `x · w + b` on 8192 rows, 16 → 32 columns -/

/-- The stretch's operations composed: the product of the 8192×16 array with the 16×32 weights, plus the bias laid
    out as one row and repeated down the 8192 rows, then the change of format (the identity on the extended reals). -/
def affine1 (x : FVec Ideal S8192x16 .f32) (w : FVec Ideal S16x32 .f32)
    (b : FVec Ideal S32 .f32) : FVec Ideal S8192x32 .bf16 :=
  truncf .bf16 (addf (Host.dotGeneral (F := Ideal) dot_S8192x16_S16x32_S8192x32_1_0_0_1_n_n none x w)
    (broadcastInDim S8192x32 ![0, 1] bcast_S1x32_S8192x32_0_1 (broadcastInDim S1x32 ![1] bcast_S32_S1x32_1 b))) bitsLt_bf16_f32

/-- The left operand's index at output entry `i` and contraction index `t`: its row is the output's row
    (axis 0 is the left operand's free axis) … -/
theorem lhs1_row (i : S8192x32.Idx) (t : dot_S8192x16_S16x32_S8192x32_1_0_0_1_n_n.contr.Idx) : (dot_S8192x16_S16x32_S8192x32_1_0_0_1_n_n.lhsIdx i t 0).val = (i 0).val := by
  unfold DotDims.lhsIdx
  rw [dif_neg (show ¬(0 : Fin S8192x16.rank) ∈ dot_S8192x16_S16x32_S8192x32_1_0_0_1_n_n.lhsBatch by decide), dif_pos (show (0 : Fin S8192x16.rank) ∈ dot_S8192x16_S16x32_S8192x32_1_0_0_1_n_n.lhsNonContracting by decide)]
  rfl
/-- … and its column is the contraction coordinate (axis 1 is the one contracted axis). -/
theorem lhs1_col (i : S8192x32.Idx) (t : dot_S8192x16_S16x32_S8192x32_1_0_0_1_n_n.contr.Idx) : (dot_S8192x16_S16x32_S8192x32_1_0_0_1_n_n.lhsIdx i t 1).val = (t ⟨0, by decide⟩).val :=
  dot_S8192x16_S16x32_S8192x32_1_0_0_1_n_n.lhsIdx_val_of_single rfl i t
/-- The right operand's index: its row is the contraction coordinate … -/
theorem rhs1_row (i : S8192x32.Idx) (t : dot_S8192x16_S16x32_S8192x32_1_0_0_1_n_n.contr.Idx) : (dot_S8192x16_S16x32_S8192x32_1_0_0_1_n_n.rhsIdx i t 0).val = (t ⟨0, by decide⟩).val :=
  dot_S8192x16_S16x32_S8192x32_1_0_0_1_n_n.rhsIdx_val_of_single rfl i t
/-- … and its column is the output's column (axis 1 is the right operand's free axis). -/
theorem rhs1_col (i : S8192x32.Idx) (t : dot_S8192x16_S16x32_S8192x32_1_0_0_1_n_n.contr.Idx) : (dot_S8192x16_S16x32_S8192x32_1_0_0_1_n_n.rhsIdx i t 1).val = (i 1).val := by
  unfold DotDims.rhsIdx
  rw [dif_neg (show ¬(1 : Fin S16x32.rank) ∈ dot_S8192x16_S16x32_S8192x32_1_0_0_1_n_n.rhsBatch by decide), dif_pos (show (1 : Fin S16x32.rank) ∈ dot_S8192x16_S16x32_S8192x32_1_0_0_1_n_n.rhsNonContracting by decide)]
  rfl

/-- The product at entry `(p, q)`: the sum over the shared axis of `x p j * w j q`. The contraction index has one
    axis of extent 16; re-indexing the sum by that coordinate, the operand indices are `(p, j)` and `(j, q)`. -/
theorem dot1_apply (x : FVec Ideal S8192x16 .f32) (w : FVec Ideal S16x32 .f32)
    (p : Fin 8192) (q : Fin 32) :
    Host.dotGeneral (F := Ideal) dot_S8192x16_S16x32_S8192x32_1_0_0_1_n_n none x w (ix2 p q) = ∑ j : Fin 16, x (ix2 p j) * w (ix2 j q) := by
  simp only [Host.dotGeneral]
  rw [Ideal.dotGeneral_apply, ← Equiv.sum_comp (contrEquiv1 dot_S8192x16_S16x32_S8192x32_1_0_0_1_n_n 16 rfl rfl).symm]
  refine Finset.sum_congr rfl fun j _ => ?_
  have hj := contrEquiv1_symm_val dot_S8192x16_S16x32_S8192x32_1_0_0_1_n_n 16 rfl rfl j
  have el : dot_S8192x16_S16x32_S8192x32_1_0_0_1_n_n.lhsIdx (ix2 p q) ((contrEquiv1 dot_S8192x16_S16x32_S8192x32_1_0_0_1_n_n 16 rfl rfl).symm j) = ix2 p j := funext fun a => Fin.ext (by
    match a with
    | ⟨0, _⟩ => exact lhs1_row _ _
    | ⟨1, _⟩ => exact (lhs1_col _ _).trans hj)
  have er : dot_S8192x16_S16x32_S8192x32_1_0_0_1_n_n.rhsIdx (ix2 p q) ((contrEquiv1 dot_S8192x16_S16x32_S8192x32_1_0_0_1_n_n 16 rfl rfl).symm j) = ix2 j q := funext fun a => Fin.ext (by
    match a with
    | ⟨0, _⟩ => exact (rhs1_row _ _).trans hj
    | ⟨1, _⟩ => exact rhs1_col _ _)
  rw [el, er]

/-- The bias, laid out as a row and repeated down the rows, reads `b q` at every entry of column `q`: the row
    layout reads its operand at the column, and the repetition reads the one row. -/
theorem bias1_apply (b : FVec Ideal S32 .f32) (p : Fin 8192) (q : Fin 32) :
    broadcastInDim S8192x32 ![0, 1] bcast_S1x32_S8192x32_0_1 (broadcastInDim S1x32 ![1] bcast_S32_S1x32_1 b) (ix2 p q) = b (ix1 q) := by
  refine (broadcastInDim_apply _ bcast_S1x32_S8192x32_0_1 _ (ix2 p q) (ix2 (0 : Fin 1) q) (fun a => ?_)).trans
    (broadcastInDim_apply _ bcast_S32_S1x32_1 b (ix2 (0 : Fin 1) q) (ix1 q) (fun a => ?_))
  · match a with
    | ⟨0, _⟩ => show 0 = if (1 : Nat) = 1 then 0 else p.val; rw [if_pos rfl]
    | ⟨1, _⟩ => show q.val = if (32 : Nat) = 1 then 0 else q.val; rw [if_neg (by decide)]
  · match a with
    | ⟨0, _⟩ => show q.val = if (32 : Nat) = 1 then 0 else q.val; rw [if_neg (by decide)]

/-- The stretch's result at entry `(p, q)`: the change of format is the identity, the sum is entry by entry. -/
theorem affine1_apply (x : FVec Ideal S8192x16 .f32) (w : FVec Ideal S16x32 .f32)
    (b : FVec Ideal S32 .f32) (p : Fin 8192) (q : Fin 32) :
    affine1 x w b (ix2 p q) = (∑ j : Fin 16, x (ix2 p j) * w (ix2 j q)) + b (ix1 q) := by
  unfold affine1
  rw [truncf_apply, addf_apply, dot1_apply, bias1_apply]

/-- What stretch 1 leaves in its last result: the composed operations applied to the three arrays it reads. -/
theorem result1 (W : Valuation τ sig (Elt Ideal)) :
    (StableHlo.after (hostOps1 (F := Ideal)) W (Proc.devRef .tc main_v10) : S8192x32.Idx → EReal)
      = affine1 (W (Proc.devRef .tc main_v5_0)) (W (Proc.devRef .tc main_arg4)) (W (Proc.devRef .tc main_arg5)) := by
  dsimp only [hostOps1]
  after_results
  rfl

/-- Read as matrices, stretch 1 is `X · W + b`. -/
theorem stage1 (W : Valuation τ sig (Elt Ideal)) :
    mat2 (StableHlo.after (hostOps1 (F := Ideal)) W (Proc.devRef .tc main_v10))
      = lin (mat2 (W (Proc.devRef .tc main_v5_0))) (mat2 (W (Proc.devRef .tc main_arg4))) (vec1 (W (Proc.devRef .tc main_arg5))) := by
  funext p q
  show (StableHlo.after (hostOps1 (F := Ideal)) W (Proc.devRef .tc main_v10) : S8192x32.Idx → EReal) (ix2 p q) = _
  rw [result1 W]
  exact affine1_apply _ _ _ p q

/-! ## Stretch 2: `x · w + b` on 8192 rows, 32 → 64 columns -/

/-- The stretch's operations composed: the product of the 8192×32 array with the 32×64 weights, plus the bias laid
    out as one row and repeated down the 8192 rows, then the change of format (the identity on the extended reals). -/
def affine2 (x : FVec Ideal S8192x32 .f32) (w : FVec Ideal S32x64 .f32)
    (b : FVec Ideal S64 .f32) : FVec Ideal S8192x64 .bf16 :=
  truncf .bf16 (addf (Host.dotGeneral (F := Ideal) dot_S8192x32_S32x64_S8192x64_1_0_0_1_n_n none x w)
    (broadcastInDim S8192x64 ![0, 1] bcast_S1x64_S8192x64_0_1 (broadcastInDim S1x64 ![1] bcast_S64_S1x64_1 b))) bitsLt_bf16_f32

/-- The left operand's index at output entry `i` and contraction index `t`: its row is the output's row
    (axis 0 is the left operand's free axis) … -/
theorem lhs2_row (i : S8192x64.Idx) (t : dot_S8192x32_S32x64_S8192x64_1_0_0_1_n_n.contr.Idx) : (dot_S8192x32_S32x64_S8192x64_1_0_0_1_n_n.lhsIdx i t 0).val = (i 0).val := by
  unfold DotDims.lhsIdx
  rw [dif_neg (show ¬(0 : Fin S8192x32.rank) ∈ dot_S8192x32_S32x64_S8192x64_1_0_0_1_n_n.lhsBatch by decide), dif_pos (show (0 : Fin S8192x32.rank) ∈ dot_S8192x32_S32x64_S8192x64_1_0_0_1_n_n.lhsNonContracting by decide)]
  rfl
/-- … and its column is the contraction coordinate (axis 1 is the one contracted axis). -/
theorem lhs2_col (i : S8192x64.Idx) (t : dot_S8192x32_S32x64_S8192x64_1_0_0_1_n_n.contr.Idx) : (dot_S8192x32_S32x64_S8192x64_1_0_0_1_n_n.lhsIdx i t 1).val = (t ⟨0, by decide⟩).val :=
  dot_S8192x32_S32x64_S8192x64_1_0_0_1_n_n.lhsIdx_val_of_single rfl i t
/-- The right operand's index: its row is the contraction coordinate … -/
theorem rhs2_row (i : S8192x64.Idx) (t : dot_S8192x32_S32x64_S8192x64_1_0_0_1_n_n.contr.Idx) : (dot_S8192x32_S32x64_S8192x64_1_0_0_1_n_n.rhsIdx i t 0).val = (t ⟨0, by decide⟩).val :=
  dot_S8192x32_S32x64_S8192x64_1_0_0_1_n_n.rhsIdx_val_of_single rfl i t
/-- … and its column is the output's column (axis 1 is the right operand's free axis). -/
theorem rhs2_col (i : S8192x64.Idx) (t : dot_S8192x32_S32x64_S8192x64_1_0_0_1_n_n.contr.Idx) : (dot_S8192x32_S32x64_S8192x64_1_0_0_1_n_n.rhsIdx i t 1).val = (i 1).val := by
  unfold DotDims.rhsIdx
  rw [dif_neg (show ¬(1 : Fin S32x64.rank) ∈ dot_S8192x32_S32x64_S8192x64_1_0_0_1_n_n.rhsBatch by decide), dif_pos (show (1 : Fin S32x64.rank) ∈ dot_S8192x32_S32x64_S8192x64_1_0_0_1_n_n.rhsNonContracting by decide)]
  rfl

/-- The product at entry `(p, q)`: the sum over the shared axis of `x p j * w j q`. The contraction index has one
    axis of extent 32; re-indexing the sum by that coordinate, the operand indices are `(p, j)` and `(j, q)`. -/
theorem dot2_apply (x : FVec Ideal S8192x32 .f32) (w : FVec Ideal S32x64 .f32)
    (p : Fin 8192) (q : Fin 64) :
    Host.dotGeneral (F := Ideal) dot_S8192x32_S32x64_S8192x64_1_0_0_1_n_n none x w (ix2 p q) = ∑ j : Fin 32, x (ix2 p j) * w (ix2 j q) := by
  simp only [Host.dotGeneral]
  rw [Ideal.dotGeneral_apply, ← Equiv.sum_comp (contrEquiv1 dot_S8192x32_S32x64_S8192x64_1_0_0_1_n_n 32 rfl rfl).symm]
  refine Finset.sum_congr rfl fun j _ => ?_
  have hj := contrEquiv1_symm_val dot_S8192x32_S32x64_S8192x64_1_0_0_1_n_n 32 rfl rfl j
  have el : dot_S8192x32_S32x64_S8192x64_1_0_0_1_n_n.lhsIdx (ix2 p q) ((contrEquiv1 dot_S8192x32_S32x64_S8192x64_1_0_0_1_n_n 32 rfl rfl).symm j) = ix2 p j := funext fun a => Fin.ext (by
    match a with
    | ⟨0, _⟩ => exact lhs2_row _ _
    | ⟨1, _⟩ => exact (lhs2_col _ _).trans hj)
  have er : dot_S8192x32_S32x64_S8192x64_1_0_0_1_n_n.rhsIdx (ix2 p q) ((contrEquiv1 dot_S8192x32_S32x64_S8192x64_1_0_0_1_n_n 32 rfl rfl).symm j) = ix2 j q := funext fun a => Fin.ext (by
    match a with
    | ⟨0, _⟩ => exact (rhs2_row _ _).trans hj
    | ⟨1, _⟩ => exact rhs2_col _ _)
  rw [el, er]

/-- The bias, laid out as a row and repeated down the rows, reads `b q` at every entry of column `q`: the row
    layout reads its operand at the column, and the repetition reads the one row. -/
theorem bias2_apply (b : FVec Ideal S64 .f32) (p : Fin 8192) (q : Fin 64) :
    broadcastInDim S8192x64 ![0, 1] bcast_S1x64_S8192x64_0_1 (broadcastInDim S1x64 ![1] bcast_S64_S1x64_1 b) (ix2 p q) = b (ix1 q) := by
  refine (broadcastInDim_apply _ bcast_S1x64_S8192x64_0_1 _ (ix2 p q) (ix2 (0 : Fin 1) q) (fun a => ?_)).trans
    (broadcastInDim_apply _ bcast_S64_S1x64_1 b (ix2 (0 : Fin 1) q) (ix1 q) (fun a => ?_))
  · match a with
    | ⟨0, _⟩ => show 0 = if (1 : Nat) = 1 then 0 else p.val; rw [if_pos rfl]
    | ⟨1, _⟩ => show q.val = if (64 : Nat) = 1 then 0 else q.val; rw [if_neg (by decide)]
  · match a with
    | ⟨0, _⟩ => show q.val = if (64 : Nat) = 1 then 0 else q.val; rw [if_neg (by decide)]

/-- The stretch's result at entry `(p, q)`: the change of format is the identity, the sum is entry by entry. -/
theorem affine2_apply (x : FVec Ideal S8192x32 .f32) (w : FVec Ideal S32x64 .f32)
    (b : FVec Ideal S64 .f32) (p : Fin 8192) (q : Fin 64) :
    affine2 x w b (ix2 p q) = (∑ j : Fin 32, x (ix2 p j) * w (ix2 j q)) + b (ix1 q) := by
  unfold affine2
  rw [truncf_apply, addf_apply, dot2_apply, bias2_apply]

/-- What stretch 2 leaves in its last result: the composed operations applied to the three arrays it reads. -/
theorem result2 (W : Valuation τ sig (Elt Ideal)) :
    (StableHlo.after (hostOps2 (F := Ideal)) W (Proc.devRef .tc main_v16) : S8192x64.Idx → EReal)
      = affine2 (W (Proc.devRef .tc main_v11)) (W (Proc.devRef .tc main_arg6)) (W (Proc.devRef .tc main_arg7)) := by
  dsimp only [hostOps2]
  after_results
  rfl

/-- Read as matrices, stretch 2 is `X · W + b`. -/
theorem stage2 (W : Valuation τ sig (Elt Ideal)) :
    mat2 (StableHlo.after (hostOps2 (F := Ideal)) W (Proc.devRef .tc main_v16))
      = lin (mat2 (W (Proc.devRef .tc main_v11))) (mat2 (W (Proc.devRef .tc main_arg6))) (vec1 (W (Proc.devRef .tc main_arg7))) := by
  funext p q
  show (StableHlo.after (hostOps2 (F := Ideal)) W (Proc.devRef .tc main_v16) : S8192x64.Idx → EReal) (ix2 p q) = _
  rw [result2 W]
  exact affine2_apply _ _ _ p q

/-! ## The two bias vectors laid out as rows -/

/-- The length-32 vector `main_arg9`, laid out by stretch 2 as a 1×32 row, reads at `(0, r)` the vector's entry `r`:
    row-major, entry `(0, r)` of a one-row array is entry `0 * 32 + r` of the vector. -/
theorem row17 (W : Valuation τ sig (Elt Ideal)) (r : Fin 32) :
    StableHlo.after (hostOps2 (F := Ideal)) W (Proc.devRef .tc main_v17) (ix2 (0 : Fin 1) r) = W (Proc.devRef .tc main_arg9) (ix1 r) := by
  have e : (StableHlo.after (hostOps2 (F := Ideal)) W (Proc.devRef .tc main_v17) : S1x32.Idx → EReal)
      = shapeCast S1x32 (W (Proc.devRef .tc main_arg9) : S32.Idx → EReal) shapeCasts_S32_S1x32 := by
    dsimp only [hostOps2]
    after_results
    rfl
  show (StableHlo.after (hostOps2 (F := Ideal)) W (Proc.devRef .tc main_v17) : S1x32.Idx → EReal) (ix2 (0 : Fin 1) r) = _
  rw [e]
  exact shapeCast_a_1a_apply _ shapeCasts_S32_S1x32 (0 : Fin 1) r

/-- The length-10 vector `main_arg11`, laid out by stretch 2 as a 1×10 row, reads at `(0, r)` the vector's entry `r`:
    row-major, entry `(0, r)` of a one-row array is entry `0 * 10 + r` of the vector. -/
theorem row18 (W : Valuation τ sig (Elt Ideal)) (r : Fin 10) :
    StableHlo.after (hostOps2 (F := Ideal)) W (Proc.devRef .tc main_v18) (ix2 (0 : Fin 1) r) = W (Proc.devRef .tc main_arg11) (ix1 r) := by
  have e : (StableHlo.after (hostOps2 (F := Ideal)) W (Proc.devRef .tc main_v18) : S1x10.Idx → EReal)
      = shapeCast S1x10 (W (Proc.devRef .tc main_arg11) : S10.Idx → EReal) shapeCasts_S10_S1x10 := by
    dsimp only [hostOps2]
    after_results
    rfl
  show (StableHlo.after (hostOps2 (F := Ideal)) W (Proc.devRef .tc main_v18) : S1x10.Idx → EReal) (ix2 (0 : Fin 1) r) = _
  rw [e]
  exact shapeCast_a_1a_apply _ shapeCasts_S10_S1x10 (0 : Fin 1) r

/-! ## What a stretch does not write -/

/-- A reference that stretch 0 does not write keeps its contents. -/
theorem keep0 (W : Valuation τ sig (Elt Ideal)) (r : Ref sig .tc) (h : r ∉ hostOps0_W) :
    StableHlo.after (hostOps0 (F := Ideal)) W (Proc.devRef .tc r) = W (Proc.devRef .tc r) :=
  StableHlo.after_of_writes_sub hostOps0 _ hostOps0_writes h

/-- A reference that stretch 1 does not write keeps its contents. -/
theorem keep1 (W : Valuation τ sig (Elt Ideal)) (r : Ref sig .tc) (h : r ∉ hostOps1_W) :
    StableHlo.after (hostOps1 (F := Ideal)) W (Proc.devRef .tc r) = W (Proc.devRef .tc r) :=
  StableHlo.after_of_writes_sub hostOps1 _ hostOps1_writes h

/-- A reference that stretch 2 does not write keeps its contents. -/
theorem keep2 (W : Valuation τ sig (Elt Ideal)) (r : Ref sig .tc) (h : r ∉ hostOps2_W) :
    StableHlo.after (hostOps2 (F := Ideal)) W (Proc.devRef .tc r) = W (Proc.devRef .tc r) :=
  StableHlo.after_of_writes_sub hostOps2 _ hostOps2_writes h

end Cert.KernelIdeal.Host

end
-- ==== Proof.Value.lean ====
/-
  The idealized kernel's result, boundary by boundary. After the first stretch of host operations the features are
  the affine map of the input; the first call leaves the first layer's output (adjacency times features, clipped) and
  a copy of the adjacency matrix; the second stretch and call give the second layer from the first in the same way,
  reading the copy; the third stretch gives the third layer's features and the two bias rows, and the third call
  leaves the head applied to the third layer's output. Chained, the result array is the network of the twelve
  arguments, which is also what the reference computes.
-/
import proofs.«125076_j18348100288854_2_alg».proof.Proof.Args
import proofs.«125076_j18348100288854_2_alg».proof.Proof.R0Value
import proofs.«125076_j18348100288854_2_alg».proof.Proof.R1Value
import proofs.«125076_j18348100288854_2_alg».proof.Proof.R2Value
import proofs.«125076_j18348100288854_2_alg».proof.Proof.HostStages
import proofs.«125076_j18348100288854_2_alg».proof.Proof.Spec

noncomputable section

namespace Cert.KernelIdeal.Value

open Cert.KernelIdeal Cert.KernelIdeal.Gen Cert.KernelIdeal.Whole Cert.Gcn
open Idealize.ShloMosaic Idealize.ShloMosaic.TcCoe Idealize.ShloMosaic.ValueIdx Idealize.SL.Sem

variable (m : (ℓ : Loc nD τ sig) → Buf (Elt Ideal) ℓ) (c : Dev nD)

/-- The first layer's output. -/
abbrev X1 : Mat 8192 16 := layer (mat2 (m ((c : Thread nD τ).loc main_arg1))) (mat2 (m ((c : Thread nD τ).loc main_arg0))) (mat2 (m ((c : Thread nD τ).loc main_arg2))) (vec1 (m ((c : Thread nD τ).loc main_arg3)))
/-- The second layer's output. -/
abbrev X2 : Mat 8192 32 := layer (mat2 (m ((c : Thread nD τ).loc main_arg1))) (X1 m c) (mat2 (m ((c : Thread nD τ).loc main_arg4))) (vec1 (m ((c : Thread nD τ).loc main_arg5)))
/-- The third layer's output. -/
abbrev X3 : Mat 8192 64 := layer (mat2 (m ((c : Thread nD τ).loc main_arg1))) (X2 m c) (mat2 (m ((c : Thread nD τ).loc main_arg6))) (vec1 (m ((c : Thread nD τ).loc main_arg7)))

/-! ## The first layer -/

/-- Entering the first call, the features are the affine map of the input. -/
theorem feat0 : mat2 (W1 m c (Proc.devRef .tc main_v4)) = lin (mat2 (m ((c : Thread nD τ).loc main_arg0))) (mat2 (m ((c : Thread nD τ).loc main_arg2))) (vec1 (m ((c : Thread nD τ).loc main_arg3))) :=
  Cert.KernelIdeal.Host.stage0 (W0 m c)

/-- The first call leaves the first layer's output in its result array. -/
theorem out0 : W2 m c (Proc.devRef .tc main_v5_0) = unmat2 (X1 m c) := by
  refine (W2_arr m c 2).trans ((Cert.KernelIdeal.Val0.final2 (Whole.V1 m) c).trans ?_)
  rw [show mat2 (Whole.V1 m c (Pipeline.arrRef spec0 0)) = mat2 (m ((c : Thread nD τ).loc main_arg1)) from congrArg mat2 (W1_at_main_arg1 m c),
    show mat2 (Whole.V1 m c (Pipeline.arrRef spec0 1)) = lin (mat2 (m ((c : Thread nD τ).loc main_arg0))) (mat2 (m ((c : Thread nD τ).loc main_arg2))) (vec1 (m ((c : Thread nD τ).loc main_arg3))) from feat0 m c]
  rfl

/-- And the adjacency matrix in the copy. -/
theorem adj2 : mat2 (W2 m c (Proc.devRef .tc main_v5_1)) = mat2 (m ((c : Thread nD τ).loc main_arg1)) := by
  funext p q
  exact (congrFun (W2_arr m c 3) (ix2 p q)).trans ((Cert.KernelIdeal.Val0.final3 (Whole.V1 m) c (ix2 p q)).trans (congrFun (W1_at_main_arg1 m c) (ix2 p q)))

/-! ## The second layer -/

theorem feat1 : mat2 (W3 m c (Proc.devRef .tc main_v10)) = lin (X1 m c) (mat2 (m ((c : Thread nD τ).loc main_arg4))) (vec1 (m ((c : Thread nD τ).loc main_arg5))) := by
  refine (Cert.KernelIdeal.Host.stage1 (W2 m c)).trans ?_
  rw [out0 m c, W2_at_main_arg4 m c, W2_at_main_arg5 m c]
  rfl

theorem adj3 : mat2 (W3 m c (Proc.devRef .tc main_v5_1)) = mat2 (m ((c : Thread nD τ).loc main_arg1)) :=
  (congrArg mat2 (Cert.KernelIdeal.Host.keep1 (W2 m c) main_v5_1 (by decide))).trans (adj2 m c)

theorem out1 : W4 m c (Proc.devRef .tc main_v11) = unmat2 (X2 m c) := by
  refine (W4_arr m c 2).trans ((Cert.KernelIdeal.Val1.final (Whole.V3 m) c).trans ?_)
  rw [show mat2 (Whole.V3 m c (Pipeline.arrRef spec1 0)) = mat2 (m ((c : Thread nD τ).loc main_arg1)) from adj3 m c,
    show mat2 (Whole.V3 m c (Pipeline.arrRef spec1 1)) = lin (X1 m c) (mat2 (m ((c : Thread nD τ).loc main_arg4))) (vec1 (m ((c : Thread nD τ).loc main_arg5))) from feat1 m c]
  rfl

theorem adj4 : mat2 (W4 m c (Proc.devRef .tc main_v5_1)) = mat2 (m ((c : Thread nD τ).loc main_arg1)) :=
  (congrArg mat2 ((W4_arr m c 0).trans (((Reg1.dat (Whole.V3 m) c).arrAt_in 0 rfl _).trans (Reg1.A_eq (Whole.V3 m) c 0)))).trans (adj3 m c)

/-! ## The third layer and the head -/

theorem feat2 : mat2 (W5 m c (Proc.devRef .tc main_v16)) = lin (X2 m c) (mat2 (m ((c : Thread nD τ).loc main_arg6))) (vec1 (m ((c : Thread nD τ).loc main_arg7))) := by
  refine (Cert.KernelIdeal.Host.stage2 (W4 m c)).trans ?_
  rw [out1 m c, W4_at_main_arg6 m c, W4_at_main_arg7 m c]
  rfl

theorem adj5 : mat2 (W5 m c (Proc.devRef .tc main_v5_1)) = mat2 (m ((c : Thread nD τ).loc main_arg1)) :=
  (congrArg mat2 (Cert.KernelIdeal.Host.keep2 (W4 m c) main_v5_1 (by decide))).trans (adj4 m c)

theorem brow0 : (fun r : Fin 32 => W5 m c (Proc.devRef .tc main_v17) (ix2 0 r)) = vec1 (m ((c : Thread nD τ).loc main_arg9)) := by
  funext r
  exact (Cert.KernelIdeal.Host.row17 (W4 m c) r).trans (congrFun (W4_at_main_arg9 m c) (ix1 r))

theorem brow1 : (fun r : Fin 10 => W5 m c (Proc.devRef .tc main_v18) (ix2 0 r)) = vec1 (m ((c : Thread nD τ).loc main_arg11)) := by
  funext r
  exact (Cert.KernelIdeal.Host.row18 (W4 m c) r).trans (congrFun (W4_at_main_arg11 m c) (ix1 r))

/-- The third call leaves the network of the arguments in the result array. -/
theorem result : W6 m c (Proc.devRef .tc main_v19) = unmat2 (net (mat2 (m ((c : Thread nD τ).loc main_arg0))) (mat2 (m ((c : Thread nD τ).loc main_arg1))) (mat2 (m ((c : Thread nD τ).loc main_arg2))) (vec1 (m ((c : Thread nD τ).loc main_arg3))) (mat2 (m ((c : Thread nD τ).loc main_arg4))) (vec1 (m ((c : Thread nD τ).loc main_arg5))) (mat2 (m ((c : Thread nD τ).loc main_arg6))) (vec1 (m ((c : Thread nD τ).loc main_arg7))) (mat2 (m ((c : Thread nD τ).loc main_arg8))) (vec1 (m ((c : Thread nD τ).loc main_arg9))) (mat2 (m ((c : Thread nD τ).loc main_arg10))) (vec1 (m ((c : Thread nD τ).loc main_arg11)))) := by
  refine (W6_arr m c 6).trans ((Cert.KernelIdeal.Val2.final (Whole.V5 m) c).trans ?_)
  rw [show mat2 (Whole.V5 m c (Pipeline.arrRef spec2 0)) = mat2 (m ((c : Thread nD τ).loc main_arg1)) from adj5 m c,
    show mat2 (Whole.V5 m c (Pipeline.arrRef spec2 1)) = lin (X2 m c) (mat2 (m ((c : Thread nD τ).loc main_arg6))) (vec1 (m ((c : Thread nD τ).loc main_arg7))) from feat2 m c,
    show mat2 (Whole.V5 m c (Pipeline.arrRef spec2 2)) = mat2 (m ((c : Thread nD τ).loc main_arg8)) from congrArg mat2 (W5_at_main_arg8 m c),
    show (fun r : Fin 32 => Whole.V5 m c (Pipeline.arrRef spec2 3) (ix2 0 r)) = vec1 (m ((c : Thread nD τ).loc main_arg9)) from brow0 m c,
    show mat2 (Whole.V5 m c (Pipeline.arrRef spec2 4)) = mat2 (m ((c : Thread nD τ).loc main_arg10)) from congrArg mat2 (W5_at_main_arg10 m c),
    show (fun r : Fin 10 => Whole.V5 m c (Pipeline.arrRef spec2 5) (ix2 0 r)) = vec1 (m ((c : Thread nD τ).loc main_arg11)) from brow1 m c]
  rfl

/-! ## The run -/

/-- Every weakly fair execution of the idealized kernel ends with the network of its arguments in the result array
    and the arguments as launched. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v19) = unmat2 (net (mat2 (m ((c : Thread nD τ).loc main_arg0))) (mat2 (m ((c : Thread nD τ).loc main_arg1))) (mat2 (m ((c : Thread nD τ).loc main_arg2))) (vec1 (m ((c : Thread nD τ).loc main_arg3))) (mat2 (m ((c : Thread nD τ).loc main_arg4))) (vec1 (m ((c : Thread nD τ).loc main_arg5))) (mat2 (m ((c : Thread nD τ).loc main_arg6))) (vec1 (m ((c : Thread nD τ).loc main_arg7))) (mat2 (m ((c : Thread nD τ).loc main_arg8))) (vec1 (m ((c : Thread nD τ).loc main_arg9))) (mat2 (m ((c : Thread nD τ).loc main_arg10))) (vec1 (m ((c : Thread nD τ).loc main_arg11))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_v19 (by decide))).trans (result m c),
    (h c _ (mem_uc main_arg0 (by decide))).trans (W6_main_arg0 m c),
    (h c _ (mem_uc main_arg1 (by decide))).trans (W6_main_arg1 m c),
    (h c _ (mem_uc main_arg2 (by decide))).trans (W6_main_arg2 m c),
    (h c _ (mem_uc main_arg3 (by decide))).trans (W6_main_arg3 m c),
    (h c _ (mem_uc main_arg4 (by decide))).trans (W6_main_arg4 m c),
    (h c _ (mem_uc main_arg5 (by decide))).trans (W6_main_arg5 m c),
    (h c _ (mem_uc main_arg6 (by decide))).trans (W6_main_arg6 m c),
    (h c _ (mem_uc main_arg7 (by decide))).trans (W6_main_arg7 m c),
    (h c _ (mem_uc main_arg8 (by decide))).trans (W6_main_arg8 m c),
    (h c _ (mem_uc main_arg9 (by decide))).trans (W6_main_arg9 m c),
    (h c _ (mem_uc main_arg10 (by decide))).trans (W6_main_arg10 m c),
    (h c _ (mem_uc main_arg11 (by decide))).trans (W6_main_arg11 m c)⟩) (run_all m ρ)

end Cert.KernelIdeal.Value

end
-- ==== Proof.lean ====
/-
  A three-layer graph-convolution network with a two-stage head: the tiled kernel against the plain reference.
  Each of the kernel's three aggregation calls walks the adjacency matrix in 8 x 4 tiles, accumulating along the four
  column tiles; the reference multiplies whole matrices. Over the extended reals the narrow number format is the
  identity, a sum may be taken in any grouping, and so both programs compute the same function of the twelve argument
  arrays, entry by entry (`Cert.Gcn.net`). The frames of the two kernel programs come from one run of the whole
  program, segment by segment; the reference's frame from its run; nothing was rewritten by the idealization, so that
  conjunct is trivial.
-/
import proofs.«125076_j18348100288854_2_alg».proof.Defs
import proofs.«125076_j18348100288854_2_alg».proof.Proof.Gen.Kernel
import proofs.«125076_j18348100288854_2_alg».proof.Proof.Gen.KernelIdeal
import proofs.«125076_j18348100288854_2_alg».proof.Proof.Gen.ReferenceIdeal
import proofs.«125076_j18348100288854_2_alg».proof.Proof.Gen.Pre_finite_inputs
import proofs.«125076_j18348100288854_2_alg».proof.Proof.Whole
import proofs.«125076_j18348100288854_2_alg».proof.Proof.KWhole
import proofs.«125076_j18348100288854_2_alg».proof.Proof.RefNet
import proofs.«125076_j18348100288854_2_alg».proof.Proof.Value

noncomputable section

namespace Cert.Proof

open Idealize.ShloMosaic Idealize.SL.Sem Cert.Gcn

/-- The word-level kernel runs to the end and leaves its arguments as launched. -/
theorem frame_k : Cert.frame_Kernel := fun m ρ _ => Cert.Kernel.Whole.frame m ρ
/-- So does the idealized kernel. -/
theorem frame_ki : Cert.frame_KernelIdeal := fun m ρ _ => Cert.KernelIdeal.Whole.frame m ρ
/-- So does the idealized reference: its run, the result dropped. -/
theorem frame_ri : Cert.frame_ReferenceIdeal := fun m ρ _ =>
  (θ_run Cert.ReferenceIdeal.defs _ _).mono (fun _ h c => (h c).2) (Cert.Gcn.Ref.run m ρ)
/-- The idealization rewrote nothing. -/
theorem preserves : Cert.preserves_Kernel_KernelIdeal := trivial

/-- From memories agreeing on the arguments both idealized programs end with the network of those arguments. -/
theorem algebraic : Cert.algebraic_KernelIdeal_ReferenceIdeal := by
  intro m ρ m' ρ' _ hagree
  refine ⟨_, Cert.KernelIdeal.Value.run m ρ, ?_⟩
  refine (θ_run Cert.ReferenceIdeal.defs _ _).mono (fun _ h c => ⟨(h c).1.trans ?_, (h c).2⟩) (Cert.Gcn.Ref.run m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2.1,
    (hagree c).2.2.2.2.2.2.2.2.2.2.1, (hagree c).2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
